-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x1 : Shape := ⟨2, ![12288, 1]⟩
abbrev S12288 : Shape := ⟨1, ![12288]⟩
abbrev S2x12288 : Shape := ⟨2, ![2, 12288]⟩
abbrev S2x500000 : Shape := ⟨2, ![2, 500000]⟩
abbrev S50000x256 : Shape := ⟨2, ![50000, 256]⟩
abbrev S256x256 : Shape := ⟨2, ![256, 256]⟩
abbrev S768x256 : Shape := ⟨2, ![768, 256]⟩
abbrev S768 : Shape := ⟨1, ![768]⟩
abbrev S256 : Shape := ⟨1, ![256]⟩
abbrev S1x256 : Shape := ⟨2, ![1, 256]⟩
abbrev S1 : Shape := ⟨1, ![1]⟩
abbrev S256x512 : Shape := ⟨2, ![256, 512]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S256x512 : S_.BroadcastsInDim S256x512 (![] : Fin 0 → Fin S256x512.rank)
  reducesTo_S256x512_S_d0_1 : S256x512.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S1 .f32) (main_arg16 : FVec F S256x512 .f32) (main_arg17 : FVec F S256 .f32) (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  let main_v54 : FVec F S1 .f32 := Host.absf main_arg15
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S256x512 .f32 := Host.absf main_arg16
  let main_cst_22 : FVec F S_ .f32 := constant S_ .f32 0x7F800000#32
  let main_v60 : FVec F S256x512 .f32 := broadcastInDim S256x512 ![] bcast_S_S256x512 main_cst_22
  let main_v61 : IVec S256x512 1 := cmpf .olt main_v59 main_v60
  let main_c_23 : IVec S_ 1 := constantI S_ 1 1#1
  let main_v62 : IVec S_ 1 := (fun x v => Host.reduce IntOp.andi x v reducesTo_S256x512_S_d0_1 h_S_) main_v61 main_c_23
  let main_v63 : IVec S_ 1 := andi main_v58 main_v62
  let main_v64 : FVec F S256 .f32 := Host.absf main_arg17
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg11 : FVec F S256 .f32) (main_arg12 : FVec F S256x256 .f32) (main_arg13 : FVec F S256 .f32) (main_arg14 : FVec F S1x256 .f32) (main_arg15 : FVec F S1 .f32) (main_arg16 : FVec F S256x512 .f32) (main_arg17 : FVec F S256 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg12
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1x256 .f32 := Host.absf main_arg14
  let main_cst_18 : FVec F S_ .f32 := constant S_ .f32 0x7F800000#32
  let main_v50 : FVec F S1x256 .f32 := broadcastInDim S1x256 ![] bcast_S_S1x256 main_cst_18
  fn_part3 (F := F) main_arg15 main_arg16 main_arg17 main_v48 main_v49 main_v50

def fn_part1 {F : FTy → Type} [FloatOps F] (main_arg8 : FVec F S768 .f32) (main_arg9 : FVec F S768 .f32) (main_arg10 : FVec F S256x256 .f32) (main_arg11 : FVec F S256 .f32) (main_arg12 : FVec F S256x256 .f32) (main_arg13 : FVec F S256 .f32) (main_arg14 : FVec F S1x256 .f32) (main_arg15 : FVec F S1 .f32) (main_arg16 : FVec F S256x512 .f32) (main_arg17 : FVec F S256 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg8
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg9
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S256x256 .f32 := Host.absf main_arg10
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : IVec S12288x1 32) (main_arg1 : IVec S12288 32) (main_arg2 : IVec S2x12288 32) (main_arg3 : IVec S2x500000 32) (main_arg4 : FVec F S50000x256 .f32) (main_arg5 : FVec F S256x256 .f32) (main_arg6 : FVec F S768x256 .f32) (main_arg7 : FVec F S768x256 .f32) (main_arg8 : FVec F S768 .f32) (main_arg9 : FVec F S768 .f32) (main_arg10 : FVec F S256x256 .f32) (main_arg11 : FVec F S256 .f32) (main_arg12 : FVec F S256x256 .f32) (main_arg13 : FVec F S256 .f32) (main_arg14 : FVec F S1x256 .f32) (main_arg15 : FVec F S1 .f32) (main_arg16 : FVec F S256x512 .f32) (main_arg17 : FVec F S256 .f32) : IVec S_ 1 :=
  let main_v0 : FVec F S50000x256 .f32 := Host.absf main_arg4
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg5
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S768x256 .f32 := Host.absf main_arg6
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S768x256 .f32 := Host.absf main_arg7
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg8 main_arg9 main_arg10 main_arg11 main_arg12 main_arg13 main_arg14 main_arg15 main_arg16 main_arg17 main_v13 main_v16
-- ==== Kernel.lean ====
abbrev S12288x1 : Shape := ⟨2, ![12288, 1]⟩
abbrev S12288 : Shape := ⟨1, ![12288]⟩
abbrev S2x12288 : Shape := ⟨2, ![2, 12288]⟩
abbrev S2x500000 : Shape := ⟨2, ![2, 500000]⟩
abbrev S50000x256 : Shape := ⟨2, ![50000, 256]⟩
abbrev S256x256 : Shape := ⟨2, ![256, 256]⟩
abbrev S768x256 : Shape := ⟨2, ![768, 256]⟩
abbrev S768 : Shape := ⟨1, ![768]⟩
abbrev S256 : Shape := ⟨1, ![256]⟩
abbrev S1x256 : Shape := ⟨2, ![1, 256]⟩
abbrev S1 : Shape := ⟨1, ![1]⟩
abbrev S256x512 : Shape := ⟨2, ![256, 512]⟩
abbrev S2000x256 : Shape := ⟨2, ![2000, 256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S256x768 : Shape := ⟨2, ![256, 768]⟩
abbrev S1x768 : Shape := ⟨2, ![1, 768]⟩
abbrev S2000x768 : Shape := ⟨2, ![2000, 768]⟩
abbrev S12288x256 : Shape := ⟨2, ![12288, 256]⟩
abbrev S1024 : Shape := ⟨1, ![1024]⟩
abbrev S1024x1 : Shape := ⟨2, ![1024, 1]⟩
abbrev S1024x256 : Shape := ⟨2, ![1024, 256]⟩
abbrev S1x1 : Shape := ⟨2, ![1, 1]⟩
abbrev S2048x256 : Shape := ⟨2, ![2048, 256]⟩
abbrev S2048 : Shape := ⟨1, ![2048]⟩
abbrev S2048x1 : Shape := ⟨2, ![2048, 1]⟩
abbrev S1024x512 : Shape := ⟨2, ![1024, 512]⟩
abbrev S512x256 : Shape := ⟨2, ![512, 256]⟩
abbrev S1024x50000 : Shape := ⟨2, ![1024, 50000]⟩
abbrev S1024x2048 : Shape := ⟨2, ![1024, 2048]⟩

abbrev nBuf : Space → Nat
  | .hbm => 104
  | .vmem => 32
  | .smem => 0
  | _ => 0

abbrev bufTy : (tb : Table) → Fin (tcTables nBuf tb) → BufTy
  | .hbm, ⟨0, _⟩ => ⟨S12288x1, .i32⟩
  | .hbm, ⟨1, _⟩ => ⟨S12288, .i32⟩
  | .hbm, ⟨2, _⟩ => ⟨S2x12288, .i32⟩
  | .hbm, ⟨3, _⟩ => ⟨S2x500000, .i32⟩
  | .hbm, ⟨4, _⟩ => ⟨S50000x256, .f32⟩
  | .hbm, ⟨5, _⟩ => ⟨S256x256, .f32⟩
  | .hbm, ⟨6, _⟩ => ⟨S768x256, .f32⟩
  | .hbm, ⟨7, _⟩ => ⟨S768x256, .f32⟩
  | .hbm, ⟨8, _⟩ => ⟨S768, .f32⟩
  | .hbm, ⟨9, _⟩ => ⟨S768, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S1x256, .f32⟩
  | .hbm, ⟨15, _⟩ => ⟨S1, .f32⟩
  | .hbm, ⟨16, _⟩ => ⟨S256x512, .f32⟩
  | .hbm, ⟨17, _⟩ => ⟨S256, .f32⟩
  | .hbm, ⟨18, _⟩ => ⟨S50000x256, .f32⟩
  | .hbm, ⟨19, _⟩ => ⟨S1x500000, .i32⟩
  | .hbm, ⟨20, _⟩ => ⟨S500000, .i32⟩
  | .hbm, ⟨21, _⟩ => ⟨S1x500000, .i32⟩
  | .hbm, ⟨22, _⟩ => ⟨S500000, .i32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x256, .f32⟩
  | .hbm, ⟨32, _⟩ => ⟨S_, .f32⟩
  | .hbm, ⟨33, _⟩ => ⟨S50000x256, .f32⟩
  | .hbm, ⟨34, _⟩ => ⟨S500000x1, .i32⟩
  | .hbm, ⟨35, _⟩ => ⟨S50000x256, .f32⟩
  | .hbm, ⟨36, _⟩ => ⟨S256x768, .f32⟩
  | .hbm, ⟨37, _⟩ => ⟨S256x768, .f32⟩
  | .hbm, ⟨38, _⟩ => ⟨S1x768, .f32⟩
  | .hbm, ⟨39, _⟩ => ⟨S1x768, .f32⟩
  | .hbm, ⟨40, _⟩ => ⟨S50000x256, .f32⟩
  | .hbm, ⟨41, _⟩ => ⟨S12288, .i32⟩
  | .hbm, ⟨42, _⟩ => ⟨S_, .i32⟩
  | .hbm, ⟨43, _⟩ => ⟨S12288, .i32⟩
  | .hbm, ⟨44, _⟩ => ⟨S12288, .i32⟩
  | .hbm, ⟨45, _⟩ => ⟨S_, .i32⟩
  | .hbm, ⟨46, _⟩ => ⟨S12288, .i32⟩
  | .hbm, ⟨47, _⟩ => ⟨S12288, .i1⟩
  | .hbm, ⟨48, _⟩ => ⟨S_, .i32⟩
  | .hbm, ⟨49, _⟩ => ⟨S12288, .i32⟩
  | .hbm, ⟨50, _⟩ => ⟨S12288, .i32⟩
  | .hbm, ⟨51, _⟩ => ⟨S12288, .i32⟩
  | .hbm, ⟨52, _⟩ => ⟨S12288x1, .i32⟩
  | .hbm, ⟨53, _⟩ => ⟨S12288x256, .f32⟩
  | .hbm, ⟨54, _⟩ => ⟨S_, .f32⟩
  | .hbm, ⟨55, _⟩ => ⟨S12288x256, .f32⟩
  | .hbm, ⟨56, _⟩ => ⟨S12288x256, .f32⟩
  | .hbm, ⟨57, _⟩ => ⟨S_, .i32⟩
  | .hbm, ⟨58, _⟩ => ⟨S12288, .i32⟩
  | .hbm, ⟨59, _⟩ => ⟨S_, .i32⟩
  | .hbm, ⟨60, _⟩ => ⟨S1024, .i32⟩
  | .hbm, ⟨61, _⟩ => ⟨S12288x1, .i32⟩
  | .hbm, ⟨62, _⟩ => ⟨S1024, .i32⟩
  | .hbm, ⟨63, _⟩ => ⟨S_, .i32⟩
  | .hbm, ⟨64, _⟩ => ⟨S_, .i32⟩
  | .hbm, ⟨65, _⟩ => ⟨S1024, .i32⟩
  | .hbm, ⟨66, _⟩ => ⟨S_, .i32⟩
  | .hbm, ⟨67, _⟩ => ⟨S1024, .i32⟩
  | .hbm, ⟨68, _⟩ => ⟨S1024, .i32⟩
  | .hbm, ⟨69, _⟩ => ⟨S_, .i32⟩
  | .hbm, ⟨70, _⟩ => ⟨S1024, .i32⟩
  | .hbm, ⟨71, _⟩ => ⟨S1024, .i1⟩
  | .hbm, ⟨72, _⟩ => ⟨S_, .i32⟩
  | .hbm, ⟨73, _⟩ => ⟨S1024, .i32⟩
  | .hbm, ⟨74, _⟩ => ⟨S1024, .i32⟩
  | .hbm, ⟨75, _⟩ => ⟨S1024, .i32⟩
  | .hbm, ⟨76, _⟩ => ⟨S1024x1, .i32⟩
  | .hbm, ⟨77, _⟩ => ⟨S1024x256, .f32⟩
  | .hbm, ⟨78, _⟩ => ⟨S_, .i32⟩
  | .hbm, ⟨79, _⟩ => ⟨S12288, .i32⟩
  | .hbm, ⟨80, _⟩ => ⟨S12288, .i1⟩
  | .hbm, ⟨81, _⟩ => ⟨S_, .i32⟩
  | .hbm, ⟨82, _⟩ => ⟨S12288, .i32⟩
  | .hbm, ⟨83, _⟩ => ⟨S12288, .i32⟩
  | .hbm, ⟨84, _⟩ => ⟨S12288, .i32⟩
  | .hbm, ⟨85, _⟩ => ⟨S12288x1, .i32⟩
  | .hbm, ⟨86, _⟩ => ⟨S12288x256, .f32⟩
  | .hbm, ⟨87, _⟩ => ⟨S256x256, .f32⟩
  | .hbm, ⟨88, _⟩ => ⟨S256x256, .f32⟩
  | .hbm, ⟨89, _⟩ => ⟨S1x256, .f32⟩
  | .hbm, ⟨90, _⟩ => ⟨S1x256, .f32⟩
  | .hbm, ⟨91, _⟩ => ⟨S1x1, .f32⟩
  | .hbm, ⟨92, _⟩ => ⟨S12288x256, .f32⟩
  | .hbm, ⟨93, _⟩ => ⟨S_, .f32⟩
  | .hbm, ⟨94, _⟩ => ⟨S1024x256, .f32⟩
  | .hbm, ⟨95, _⟩ => ⟨S12288x1, .i32⟩
  | .hbm, ⟨96, _⟩ => ⟨S1024x256, .f32⟩
  | .hbm, ⟨97, _⟩ => ⟨S1024x512, .f32⟩
  | .hbm, ⟨98, _⟩ => ⟨S512x256, .f32⟩
  | .hbm, ⟨99, _⟩ => ⟨S1024x256, .f32⟩
  | .hbm, ⟨100, _⟩ => ⟨S1x256, .f32⟩
  | .hbm, ⟨101, _⟩ => ⟨S1024x256, .f32⟩
  | .hbm, ⟨102, _⟩ => ⟨S1024x256, .f32⟩
  | .hbm, ⟨103, _⟩ => ⟨S1024x50000, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S256x768, .f32⟩
  | .local _ .vmem, ⟨10, _⟩ => ⟨S256x768, .f32⟩
  | .local _ .vmem, ⟨11, _⟩ => ⟨S1x768, .f32⟩
  | .local _ .vmem, ⟨12, _⟩ => ⟨S1x768, .f32⟩
  | .local _ .vmem, ⟨13, _⟩ => ⟨S2000x256, .f32⟩
  | .local _ .vmem, ⟨14, _⟩ => ⟨S2000x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S256x256, .f32⟩
  | .local _ .vmem, ⟨20, _⟩ => ⟨S1x256, .f32⟩
  | .local _ .vmem, ⟨21, _⟩ => ⟨S256x256, .f32⟩
  | .local _ .vmem, ⟨22, _⟩ => ⟨S1x256, .f32⟩
  | .local _ .vmem, ⟨23, _⟩ => ⟨S1x256, .f32⟩
  | .local _ .vmem, ⟨24, _⟩ => ⟨S1x1, .f32⟩
  | .local _ .vmem, ⟨25, _⟩ => ⟨S2048x256, .f32⟩
  | .local _ .vmem, ⟨26, _⟩ => ⟨S2048x256, .f32⟩
  | .local _ .vmem, ⟨27, _⟩ => ⟨S1024x256, .f32⟩
  | .local _ .vmem, ⟨28, _⟩ => ⟨S2048x256, .f32⟩
  | .local _ .vmem, ⟨29, _⟩ => ⟨S2048x256, .f32⟩
  | .local _ .vmem, ⟨30, _⟩ => ⟨S1024x2048, .f32⟩
  | .local _ .vmem, ⟨31, _⟩ => ⟨S1024x2048, .f32⟩
  | _, _ => ⟨S12288x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_1 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_c_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call0_cst : Ref sig .tc := ⟨.hbm, 54, rfl⟩
abbrev main_call0_v0 : Ref sig .tc := ⟨.hbm, 55, rfl⟩
abbrev main_v30 : Ref sig .tc := ⟨.hbm, 56, rfl⟩
abbrev main_c_4 : Ref sig .tc := ⟨.hbm, 57, rfl⟩
abbrev main_v31 : Ref sig .tc := ⟨.hbm, 58, rfl⟩
abbrev main_c_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call1_call0_c : Ref sig .tc := ⟨.hbm, 63, rfl⟩
abbrev main_call1_call0_v0 : Ref sig .tc := ⟨.hbm, 64, rfl⟩
abbrev main_v35 : Ref sig .tc := ⟨.hbm, 65, rfl⟩
abbrev main_c_6 : Ref sig .tc := ⟨.hbm, 66, rfl⟩
abbrev main_v36 : Ref sig .tc := ⟨.hbm, 67, rfl⟩
abbrev main_v37 : Ref sig .tc := ⟨.hbm, 68, rfl⟩
abbrev main_c_7 : Ref sig .tc := ⟨.hbm, 69, rfl⟩
abbrev main_v38 : Ref sig .tc := ⟨.hbm, 70, rfl⟩
abbrev main_v39 : Ref sig .tc := ⟨.hbm, 71, rfl⟩
abbrev main_c_8 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_9 : Ref sig .tc := ⟨.hbm, 78, rfl⟩
abbrev main_v45 : Ref sig .tc := ⟨.hbm, 79, rfl⟩
abbrev main_v46 : Ref sig .tc := ⟨.hbm, 80, rfl⟩
abbrev main_c_10 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg8_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem8_1 : DmaSem sig := 26
abbrev cc3_sem0_0 : DmaSem sig := 27
abbrev cc3_sem1_0 : DmaSem sig := 28
abbrev cc3_sem1_1 : DmaSem sig := 29
abbrev cc3_sem2_0 : DmaSem sig := 30
abbrev cc3_sem2_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![6], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2048x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1024x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x256 : S_.BroadcastsInDim S50000x256 (![] : Fin 0 → Fin S50000x256.rank)
  transposes_S768x256_S256x768_1_0 : S768x256.Transposes [1, 0] S256x768
  shapeCasts_S768_S1x768 : S768.ShapeCasts S1x768
  shapeCasts_S2000x256_S2000x256 : S2000x256.ShapeCasts S2000x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2000x768 : S1x768.Broadcasts S2000x768
  slices_S2000x768_o0_0_S2000x256 : S2000x768.Slices ![0, 0] S2000x256
  slices_S2000x768_o0_256_S2000x256 : S2000x768.Slices ![0, 256] S2000x256
  slices_S2000x768_o0_512_S2000x256 : S2000x768.Slices ![0, 512] S2000x256
  shapeCasts_S12288x1_S12288 : S12288x1.ShapeCasts S12288
  bcast_S_S12288 : S_.BroadcastsInDim S12288 (![] : Fin 0 → Fin S12288.rank)
  bcast_S12288_S12288x1_0 : S12288.BroadcastsInDim S12288x1 (![0] : Fin 1 → Fin S12288x1.rank)
  bcast_S_S12288x256 : S_.BroadcastsInDim S12288x256 (![] : Fin 0 → Fin S12288x256.rank)
  bcast_S_S1024 : S_.BroadcastsInDim S1024 (![] : Fin 0 → Fin S1024.rank)
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S1024_S1024x1_0 : S1024.BroadcastsInDim S1024x1 (![0] : Fin 1 → Fin S1024x1.rank)
  transposes_S256x256_S256x256_1_0 : S256x256.Transposes [1, 0] S256x256
  shapeCasts_S256_S1x256 : S256.ShapeCasts S1x256
  shapeCasts_S1_S1x1 : S1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S2048 : S2048x256.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S2048x1_S2048x256 : S2048x1.Broadcasts S2048x256
  bcast_S_S1024x256 : S_.BroadcastsInDim S1024x256 (![] : Fin 0 → Fin S1024x256.rank)
  concatenates_S1024x256_S1024x256_S1024x512_d1 : Shape.Concatenates [S1024x256, S1024x256] S1024x512 1
  transposes_S256x512_S512x256_1_0 : S256x512.Transposes [1, 0] S512x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  dot_S2000x256_S256x256_S2000x256_1_0_0_1_n_n_wf : DotDims.WF S2000x256 S256x256 S2000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  dot_S2000x256_S256x768_S2000x768_1_0_0_1_n_n_wf : DotDims.WF S2000x256 S256x768 S2000x768 [1] [0] [0] [1] [] []
  gather_S50000x256_S12288x1_S12288x256_1_0_n_n_0_1_1256_wf : GatherDims.WF S50000x256 S12288x1 S12288x256 [1] [0] [] [0] [] 1 ![1, 256]
  scatter_S1024_S12288x1_S12288_n_0_0_1_wf : ScatterDims.WF S1024 S12288x1 S12288 [] [0] [0] 1
  gather_S12288x256_S1024x1_S1024x256_1_0_n_n_0_1_1256_wf : GatherDims.WF S12288x256 S1024x1 S1024x256 [1] [0] [] [0] [] 1 ![1, 256]
  gather_S1024x256_S12288x1_S12288x256_1_0_n_n_0_1_1256_wf : GatherDims.WF S1024x256 S12288x1 S12288x256 [1] [0] [] [0] [] 1 ![1, 256]
  dot_S2048x256_S256x256_S2048x256_1_0_0_1_n_n_wf : DotDims.WF S2048x256 S256x256 S2048x256 [1] [0] [0] [1] [] []
  scatter_S1024x256_S12288x1_S12288x256_1_0_0_1_wf : ScatterDims.WF S1024x256 S12288x1 S12288x256 [1] [0] [0] 1
  dot_S1024x512_S512x256_S1024x256_1_0_0_1_n_n_wf : DotDims.WF S1024x512 S512x256 S1024x256 [1] [0] [0] [1] [] []
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x768.size a ≤ S256x768.size a
  hwx1_2 : ∀ i : grid1.Coords, EltTy.bits .f32 = 32 ∨ (Rect.block (s := S256x768) S256x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x768.size a ≤ S256x768.size a
  hwx1_3 : ∀ i : grid1.Coords, EltTy.bits .f32 = 32 ∨ (Rect.block (s := S256x768) S256x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S12288x256.size a
  hwx2_0 : ∀ i : grid2.Coords, EltTy.bits .f32 = 32 ∨ (Rect.block (s := S12288x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S12288x256.size a
  hwx2_1 : ∀ i : grid2.Coords, EltTy.bits .f32 = 32 ∨ (Rect.block (s := S12288x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048x256.size a ≤ S12288x256.size a
  hwx2_8 : ∀ i : grid2.Coords, EltTy.bits .f32 = 32 ∨ (Rect.block (s := S12288x256) S2048x256.size (cc2_transform_8 i) (hinb2_8 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S1024x256.size a
  hwx3_0 : ∀ i : grid3.Coords, EltTy.bits .f32 = 32 ∨ (Rect.block (s := S1024x256) S1024x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S2048x256.size a < S50000x256.size a
  hwx3_1 : ∀ i : grid3.Coords, EltTy.bits .f32 = 32 ∨ (Rect.unit (s := S50000x256) (fun a => cc3_transform_1 i a * S2048x256.size a) (fun a => (Pipeline.Clip.of (cc3_transform_1 i a) (S2048x256.size a) (S50000x256.size a)).extent (S2048x256.size a)) fun a => Pipeline.Clip.inb (Pipeline.Clip.ok_of (hstart3_1 i a))).WholeWords (EltTy.packing .f32)
  hwxs3_1 : ∀ i : grid3.Coords, EltTy.bits .f32 = 32 ∨ (Rect.unit (s := S2048x256) (fun _ => 0) (fun a => (Pipeline.Clip.of (cc3_transform_1 i a) (S2048x256.size a) (S50000x256.size a)).extent (S2048x256.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S1024x2048.size a < S1024x50000.size a
  hwx3_2 : ∀ i : grid3.Coords, EltTy.bits .f32 = 32 ∨ (Rect.unit (s := S1024x50000) (fun a => cc3_transform_2 i a * S1024x2048.size a) (fun a => (Pipeline.Clip.of (cc3_transform_2 i a) (S1024x2048.size a) (S1024x50000.size a)).extent (S1024x2048.size a)) fun a => Pipeline.Clip.inb (Pipeline.Clip.ok_of (hstart3_2 i a))).WholeWords (EltTy.packing .f32)
  hwxs3_2 : ∀ i : grid3.Coords, EltTy.bits .f32 = 32 ∨ (Rect.unit (s := S1024x2048) (fun _ => 0) (fun a => (Pipeline.Clip.of (cc3_transform_2 i a) (S1024x2048.size a) (S1024x50000.size a)).extent (S1024x2048.size a)) fun a => (Nat.zero_add _).trans_le (Pipeline.Clip.extent_le (Pipeline.Clip.ok_of (hstart3_2 i a)))).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S2000x256_S256x768_S2000x768_1_0_0_1_n_n : DotDims S2000x256 S256x768 S2000x768 where
  lhsContracting := [1]
  rhsContracting := [0]
  lhsNonContracting := [0]
  rhsNonContracting := [1]
  lhsBatch := []
  rhsBatch := []
  wf := dot_S2000x256_S256x768_S2000x768_1_0_0_1_n_n_wf
def gather_S50000x256_S12288x1_S12288x256_1_0_n_n_0_1_1256 : GatherDims S50000x256 S12288x1 S12288x256 where
  offsetDims := [1]
  collapsedSliceDims := [0]
  operandBatchingDims := []
  startIndicesBatchingDims := []
  startIndexMap := [0]
  indexVectorDim := 1
  sliceSizes := ![1, 256]
  wf := gather_S50000x256_S12288x1_S12288x256_1_0_n_n_0_1_1256_wf
def scatter_S1024_S12288x1_S12288_n_0_0_1 : ScatterDims S1024 S12288x1 S12288 where
  updateWindowDims := []
  insertedWindowDims := [0]
  scatterDimsToOperandDims := [0]
  indexVectorDim := 1
  wf := scatter_S1024_S12288x1_S12288_n_0_0_1_wf
def gather_S12288x256_S1024x1_S1024x256_1_0_n_n_0_1_1256 : GatherDims S12288x256 S1024x1 S1024x256 where
  offsetDims := [1]
  collapsedSliceDims := [0]
  operandBatchingDims := []
  startIndicesBatchingDims := []
  startIndexMap := [0]
  indexVectorDim := 1
  sliceSizes := ![1, 256]
  wf := gather_S12288x256_S1024x1_S1024x256_1_0_n_n_0_1_1256_wf
def gather_S1024x256_S12288x1_S12288x256_1_0_n_n_0_1_1256 : GatherDims S1024x256 S12288x1 S12288x256 where
  offsetDims := [1]
  collapsedSliceDims := [0]
  operandBatchingDims := []
  startIndicesBatchingDims := []
  startIndexMap := [0]
  indexVectorDim := 1
  sliceSizes := ![1, 256]
  wf := gather_S1024x256_S12288x1_S12288x256_1_0_n_n_0_1_1256_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def scatter_S1024x256_S12288x1_S12288x256_1_0_0_1 : ScatterDims S1024x256 S12288x1 S12288x256 where
  updateWindowDims := [1]
  insertedWindowDims := [0]
  scatterDimsToOperandDims := [0]
  indexVectorDim := 1
  wf := scatter_S1024x256_S12288x1_S12288x256_1_0_0_1_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg4) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S256x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S256x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v56) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v57) S2048x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v66) S1024x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpecClip (Memref.whole main_arg4) S2048x256.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v67) S1024x2048.size cc3_transform_2 reads3_2 true false 2 stage3_2 sem3_2
    hrank3 hreads3_2 hstart3_2 nbuf3_2 (Memref.isWhole_whole _) hwx3_2 hwxs3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S12288x1 : Shape := ⟨2, ![12288, 1]⟩
abbrev S12288 : Shape := ⟨1, ![12288]⟩
abbrev S2x12288 : Shape := ⟨2, ![2, 12288]⟩
abbrev S2x500000 : Shape := ⟨2, ![2, 500000]⟩
abbrev S50000x256 : Shape := ⟨2, ![50000, 256]⟩
abbrev S256x256 : Shape := ⟨2, ![256, 256]⟩
abbrev S768x256 : Shape := ⟨2, ![768, 256]⟩
abbrev S768 : Shape := ⟨1, ![768]⟩
abbrev S256 : Shape := ⟨1, ![256]⟩
abbrev S1x256 : Shape := ⟨2, ![1, 256]⟩
abbrev S1 : Shape := ⟨1, ![1]⟩
abbrev S256x512 : Shape := ⟨2, ![256, 512]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S256x768 : Shape := ⟨2, ![256, 768]⟩
abbrev S50000x768 : Shape := ⟨2, ![50000, 768]⟩
abbrev S1x768 : Shape := ⟨2, ![1, 768]⟩
abbrev S12288x256 : Shape := ⟨2, ![12288, 256]⟩
abbrev S1024 : Shape := ⟨1, ![1024]⟩
abbrev S1024x1 : Shape := ⟨2, ![1024, 1]⟩
abbrev S1024x256 : Shape := ⟨2, ![1024, 256]⟩
abbrev S256x1 : Shape := ⟨2, ![256, 1]⟩
abbrev S1x1 : Shape := ⟨2, ![1, 1]⟩
abbrev S1024x512 : Shape := ⟨2, ![1024, 512]⟩
abbrev S512x256 : Shape := ⟨2, ![512, 256]⟩
abbrev S256x50000 : Shape := ⟨2, ![256, 50000]⟩
abbrev S1024x50000 : Shape := ⟨2, ![1024, 50000]⟩

abbrev nBuf : Space → Nat
  | .hbm => 163
  | .vmem => 0
  | .smem => 0
  | _ => 0

abbrev hbmTy0_0 (i : Nat) : BufTy := match i % 128 with
  | 0 => ⟨S12288x1, .i32⟩
  | 1 => ⟨S12288, .i32⟩
  | 2 => ⟨S2x12288, .i32⟩
  | 3 => ⟨S2x500000, .i32⟩
  | 4 => ⟨S50000x256, .f32⟩
  | 5 => ⟨S256x256, .f32⟩
  | 6 => ⟨S768x256, .f32⟩
  | 7 => ⟨S768x256, .f32⟩
  | 8 => ⟨S768, .f32⟩
  | 9 => ⟨S768, .f32⟩
  | 10 => ⟨S256x256, .f32⟩
  | 11 => ⟨S256, .f32⟩
  | 12 => ⟨S256x256, .f32⟩
  | 13 => ⟨S256, .f32⟩
  | 14 => ⟨S1x256, .f32⟩
  | 15 => ⟨S1, .f32⟩
  | 16 => ⟨S256x512, .f32⟩
  | 17 => ⟨S256, .f32⟩
  | 18 => ⟨S1x500000, .i32⟩
  | 19 => ⟨S500000, .i32⟩
  | 20 => ⟨S1x500000, .i32⟩
  | 21 => ⟨S500000, .i32⟩
  | 22 => ⟨S50000x256, .f32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x256, .f32⟩
  | 32 => ⟨S_, .f32⟩
  | 33 => ⟨S50000x256, .f32⟩
  | 34 => ⟨S500000x1, .i32⟩
  | 35 => ⟨S50000x256, .f32⟩
  | 36 => ⟨S256x768, .f32⟩
  | 37 => ⟨S50000x768, .f32⟩
  | 38 => ⟨S1x768, .f32⟩
  | 39 => ⟨S50000x768, .f32⟩
  | 40 => ⟨S50000x768, .f32⟩
  | 41 => ⟨S256x768, .f32⟩
  | 42 => ⟨S50000x768, .f32⟩
  | 43 => ⟨S1x768, .f32⟩
  | 44 => ⟨S50000x768, .f32⟩
  | 45 => ⟨S50000x768, .f32⟩
  | 46 => ⟨S50000x256, .f32⟩
  | 47 => ⟨S50000x256, .f32⟩
  | 48 => ⟨S50000x256, .f32⟩
  | 49 => ⟨S50000x256, .f32⟩
  | 50 => ⟨S50000x256, .f32⟩
  | 51 => ⟨S50000x256, .f32⟩
  | 52 => ⟨S50000x256, .f32⟩
  | 53 => ⟨S50000x256, .f32⟩
  | 54 => ⟨S50000x256, .f32⟩
  | 55 => ⟨S_, .f32⟩
  | 56 => ⟨S50000x256, .f32⟩
  | 57 => ⟨S50000x256, .f32⟩
  | 58 => ⟨S_, .f32⟩
  | 59 => ⟨S50000x256, .f32⟩
  | 60 => ⟨S50000x256, .f32⟩
  | 61 => ⟨S50000x256, .f32⟩
  | 62 => ⟨S50000x256, .f32⟩
  | 63 => ⟨S50000x256, .f32⟩
  | 64 => ⟨S_, .f32⟩
  | 65 => ⟨S50000x256, .f32⟩
  | 66 => ⟨S50000x256, .f32⟩
  | 67 => ⟨S_, .f32⟩
  | 68 => ⟨S50000x256, .f32⟩
  | 69 => ⟨S50000x256, .f32⟩
  | 70 => ⟨S50000x256, .f32⟩
  | 71 => ⟨S50000x256, .f32⟩
  | 72 => ⟨S50000x256, .f32⟩
  | 73 => ⟨S_, .f32⟩
  | 74 => ⟨S50000x256, .f32⟩
  | 75 => ⟨S50000x256, .f32⟩
  | 76 => ⟨S50000x256, .f32⟩
  | 77 => ⟨S50000x256, .f32⟩
  | 78 => ⟨S50000x256, .f32⟩
  | 79 => ⟨S12288, .i32⟩
  | 80 => ⟨S_, .i32⟩
  | 81 => ⟨S12288, .i32⟩
  | 82 => ⟨S12288, .i32⟩
  | 83 => ⟨S_, .i32⟩
  | 84 => ⟨S12288, .i32⟩
  | 85 => ⟨S12288, .i1⟩
  | 86 => ⟨S_, .i32⟩
  | 87 => ⟨S12288, .i32⟩
  | 88 => ⟨S12288, .i32⟩
  | 89 => ⟨S12288, .i32⟩
  | 90 => ⟨S12288x1, .i32⟩
  | 91 => ⟨S12288x256, .f32⟩
  | 92 => ⟨S_, .f32⟩
  | 93 => ⟨S12288x256, .f32⟩
  | 94 => ⟨S12288x256, .f32⟩
  | 95 => ⟨S_, .i32⟩
  | 96 => ⟨S12288, .i32⟩
  | 97 => ⟨S_, .i32⟩
  | 98 => ⟨S1024, .i32⟩
  | 99 => ⟨S12288x1, .i32⟩
  | 100 => ⟨S1024, .i32⟩
  | 101 => ⟨S_, .i32⟩
  | 102 => ⟨S_, .i32⟩
  | 103 => ⟨S1024, .i32⟩
  | 104 => ⟨S_, .i32⟩
  | 105 => ⟨S1024, .i32⟩
  | 106 => ⟨S1024, .i32⟩
  | 107 => ⟨S_, .i32⟩
  | 108 => ⟨S1024, .i32⟩
  | 109 => ⟨S1024, .i1⟩
  | 110 => ⟨S_, .i32⟩
  | 111 => ⟨S1024, .i32⟩
  | 112 => ⟨S1024, .i32⟩
  | 113 => ⟨S1024, .i32⟩
  | 114 => ⟨S1024x1, .i32⟩
  | 115 => ⟨S1024x256, .f32⟩
  | 116 => ⟨S_, .i32⟩
  | 117 => ⟨S12288, .i32⟩
  | 118 => ⟨S12288, .i1⟩
  | 119 => ⟨S_, .i32⟩
  | 120 => ⟨S12288, .i32⟩
  | 121 => ⟨S12288, .i32⟩
  | 122 => ⟨S12288, .i32⟩
  | 123 => ⟨S12288x1, .i32⟩
  | 124 => ⟨S12288x256, .f32⟩
  | 125 => ⟨S256x256, .f32⟩
  | 126 => ⟨S12288x256, .f32⟩
  | 127 => ⟨S1x256, .f32⟩
  | _ => ⟨S12288x1, .i32⟩

abbrev hbmTy0_1 (i : Nat) : BufTy := match i % 128 with
  | 0 => ⟨S12288x256, .f32⟩
  | 1 => ⟨S12288x256, .f32⟩
  | 2 => ⟨S256x256, .f32⟩
  | 3 => ⟨S12288x256, .f32⟩
  | 4 => ⟨S12288x256, .f32⟩
  | 5 => ⟨S1x256, .f32⟩
  | 6 => ⟨S12288x256, .f32⟩
  | 7 => ⟨S12288x256, .f32⟩
  | 8 => ⟨S12288x256, .f32⟩
  | 9 => ⟨S12288x256, .f32⟩
  | 10 => ⟨S_, .f32⟩
  | 11 => ⟨S12288x256, .f32⟩
  | 12 => ⟨S12288x256, .f32⟩
  | 13 => ⟨S_, .f32⟩
  | 14 => ⟨S12288x256, .f32⟩
  | 15 => ⟨S12288x256, .f32⟩
  | 16 => ⟨S256x1, .f32⟩
  | 17 => ⟨S12288x1, .f32⟩
  | 18 => ⟨S1x1, .f32⟩
  | 19 => ⟨S12288x1, .f32⟩
  | 20 => ⟨S12288x1, .f32⟩
  | 21 => ⟨S12288x256, .f32⟩
  | 22 => ⟨S12288x256, .f32⟩
  | 23 => ⟨S_, .f32⟩
  | 24 => ⟨S1024x256, .f32⟩
  | 25 => ⟨S12288x1, .i32⟩
  | 26 => ⟨S1024x256, .f32⟩
  | 27 => ⟨S1024x512, .f32⟩
  | 28 => ⟨S512x256, .f32⟩
  | 29 => ⟨S1024x256, .f32⟩
  | 30 => ⟨S1x256, .f32⟩
  | 31 => ⟨S1024x256, .f32⟩
  | 32 => ⟨S1024x256, .f32⟩
  | 33 => ⟨S256x50000, .f32⟩
  | 34 => ⟨S1024x50000, .f32⟩
  | _ => ⟨S12288x1, .i32⟩

abbrev hbmTy (i : Nat) : BufTy := match i / 128 with
  | 0 => hbmTy0_0 i
  | 1 => hbmTy0_1 i
  | _ => ⟨S12288x1, .i32⟩

abbrev bufTy : (tb : Table) → Fin (tcTables nBuf tb) → BufTy
  | .hbm, ⟨i, _⟩ => hbmTy i
  | _, _ => ⟨S12288x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_1 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_6 : Ref sig .tc := ⟨.hbm, 80, rfl⟩
abbrev main_v54 : Ref sig .tc := ⟨.hbm, 81, rfl⟩
abbrev main_v55 : Ref sig .tc := ⟨.hbm, 82, rfl⟩
abbrev main_c_7 : Ref sig .tc := ⟨.hbm, 83, rfl⟩
abbrev main_v56 : Ref sig .tc := ⟨.hbm, 84, rfl⟩
abbrev main_v57 : Ref sig .tc := ⟨.hbm, 85, rfl⟩
abbrev main_c_8 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call0_cst : Ref sig .tc := ⟨.hbm, 92, rfl⟩
abbrev main_call0_v0 : Ref sig .tc := ⟨.hbm, 93, rfl⟩
abbrev main_v63 : Ref sig .tc := ⟨.hbm, 94, rfl⟩
abbrev main_c_9 : Ref sig .tc := ⟨.hbm, 95, rfl⟩
abbrev main_v64 : Ref sig .tc := ⟨.hbm, 96, rfl⟩
abbrev main_c_10 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_call1_call0_c : Ref sig .tc := ⟨.hbm, 101, rfl⟩
abbrev main_call1_call0_v0 : Ref sig .tc := ⟨.hbm, 102, rfl⟩
abbrev main_v68 : Ref sig .tc := ⟨.hbm, 103, rfl⟩
abbrev main_c_11 : Ref sig .tc := ⟨.hbm, 104, rfl⟩
abbrev main_v69 : Ref sig .tc := ⟨.hbm, 105, rfl⟩
abbrev main_v70 : Ref sig .tc := ⟨.hbm, 106, rfl⟩
abbrev main_c_12 : Ref sig .tc := ⟨.hbm, 107, rfl⟩
abbrev main_v71 : Ref sig .tc := ⟨.hbm, 108, rfl⟩
abbrev main_v72 : Ref sig .tc := ⟨.hbm, 109, rfl⟩
abbrev main_c_13 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_14 : Ref sig .tc := ⟨.hbm, 116, rfl⟩
abbrev main_v78 : Ref sig .tc := ⟨.hbm, 117, rfl⟩
abbrev main_v79 : Ref sig .tc := ⟨.hbm, 118, rfl⟩
abbrev main_c_15 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_16 : Ref sig .tc := ⟨.hbm, 138, rfl⟩
abbrev main_v98 : Ref sig .tc := ⟨.hbm, 139, rfl⟩
abbrev main_v99 : Ref sig .tc := ⟨.hbm, 140, rfl⟩
abbrev main_cst_17 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_18 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x256 : S_.BroadcastsInDim S50000x256 (![] : Fin 0 → Fin S50000x256.rank)
  transposes_S768x256_S256x768_1_0 : S768x256.Transposes [1, 0] S256x768
  bcast_S768_S1x768_1 : S768.BroadcastsInDim S1x768 (![1] : Fin 1 → Fin S1x768.rank)
  bcast_S1x768_S50000x768_0_1 : S1x768.BroadcastsInDim S50000x768 (![0, 1] : Fin 2 → Fin S50000x768.rank)
  slices_S50000x768_S50000x256_0_0 : S50000x768.Slices ![0, 0] S50000x256
  slices_S50000x768_S50000x256_0_256 : S50000x768.Slices ![0, 256] S50000x256
  slices_S50000x768_S50000x256_0_512 : S50000x768.Slices ![0, 512] S50000x256
  shapeCasts_S12288x1_S12288 : S12288x1.ShapeCasts S12288
  bcast_S_S12288 : S_.BroadcastsInDim S12288 (![] : Fin 0 → Fin S12288.rank)
  bcast_S12288_S12288x1_0 : S12288.BroadcastsInDim S12288x1 (![0] : Fin 1 → Fin S12288x1.rank)
  bcast_S_S12288x256 : S_.BroadcastsInDim S12288x256 (![] : Fin 0 → Fin S12288x256.rank)
  bcast_S_S1024 : S_.BroadcastsInDim S1024 (![] : Fin 0 → Fin S1024.rank)
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S1024_S1024x1_0 : S1024.BroadcastsInDim S1024x1 (![0] : Fin 1 → Fin S1024x1.rank)
  transposes_S256x256_S256x256_1_0 : S256x256.Transposes [1, 0] S256x256
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  transposes_S1x256_S256x1_1_0 : S1x256.Transposes [1, 0] S256x1
  bcast_S1_S1x1_1 : S1.BroadcastsInDim S1x1 (![1] : Fin 1 → Fin S1x1.rank)
  bcast_S1x1_S12288x1_0_1 : S1x1.BroadcastsInDim S12288x1 (![0, 1] : Fin 2 → Fin S12288x1.rank)
  bcast_S12288x1_S12288x256_0_1 : S12288x1.BroadcastsInDim S12288x256 (![0, 1] : Fin 2 → Fin S12288x256.rank)
  bcast_S_S1024x256 : S_.BroadcastsInDim S1024x256 (![] : Fin 0 → Fin S1024x256.rank)
  concatenates_S1024x256_S1024x256_S1024x512_d1 : Shape.Concatenates [S1024x256, S1024x256] S1024x512 1
  transposes_S256x512_S512x256_1_0 : S256x512.Transposes [1, 0] S512x256
  bcast_S1x256_S1024x256_0_1 : S1x256.BroadcastsInDim S1024x256 (![0, 1] : Fin 2 → Fin S1024x256.rank)
  transposes_S50000x256_S256x50000_1_0 : S50000x256.Transposes [1, 0] S256x50000
  dot_S50000x256_S256x256_S50000x256_1_0_0_1_n_n_wf : DotDims.WF S50000x256 S256x256 S50000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  dot_S50000x256_S256x768_S50000x768_1_0_0_1_n_n_wf : DotDims.WF S50000x256 S256x768 S50000x768 [1] [0] [0] [1] [] []
  gather_S50000x256_S12288x1_S12288x256_1_0_n_n_0_1_1256_wf : GatherDims.WF S50000x256 S12288x1 S12288x256 [1] [0] [] [0] [] 1 ![1, 256]
  scatter_S1024_S12288x1_S12288_n_0_0_1_wf : ScatterDims.WF S1024 S12288x1 S12288 [] [0] [0] 1
  gather_S12288x256_S1024x1_S1024x256_1_0_n_n_0_1_1256_wf : GatherDims.WF S12288x256 S1024x1 S1024x256 [1] [0] [] [0] [] 1 ![1, 256]
  gather_S1024x256_S12288x1_S12288x256_1_0_n_n_0_1_1256_wf : GatherDims.WF S1024x256 S12288x1 S12288x256 [1] [0] [] [0] [] 1 ![1, 256]
  dot_S12288x256_S256x256_S12288x256_1_0_0_1_n_n_wf : DotDims.WF S12288x256 S256x256 S12288x256 [1] [0] [0] [1] [] []
  dot_S12288x256_S256x1_S12288x1_1_0_0_1_n_n_wf : DotDims.WF S12288x256 S256x1 S12288x1 [1] [0] [0] [1] [] []
  scatter_S1024x256_S12288x1_S12288x256_1_0_0_1_wf : ScatterDims.WF S1024x256 S12288x1 S12288x256 [1] [0] [0] 1
  dot_S1024x512_S512x256_S1024x256_1_0_0_1_n_n_wf : DotDims.WF S1024x512 S512x256 S1024x256 [1] [0] [0] [1] [] []
  dot_S1024x256_S256x50000_S1024x50000_1_0_0_1_n_n_wf : DotDims.WF S1024x256 S256x50000 S1024x50000 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S50000x256_S256x768_S50000x768_1_0_0_1_n_n : DotDims S50000x256 S256x768 S50000x768 where
  lhsContracting := [1]
  rhsContracting := [0]
  lhsNonContracting := [0]
  rhsNonContracting := [1]
  lhsBatch := []
  rhsBatch := []
  wf := dot_S50000x256_S256x768_S50000x768_1_0_0_1_n_n_wf
def gather_S50000x256_S12288x1_S12288x256_1_0_n_n_0_1_1256 : GatherDims S50000x256 S12288x1 S12288x256 where
  offsetDims := [1]
  collapsedSliceDims := [0]
  operandBatchingDims := []
  startIndicesBatchingDims := []
  startIndexMap := [0]
  indexVectorDim := 1
  sliceSizes := ![1, 256]
  wf := gather_S50000x256_S12288x1_S12288x256_1_0_n_n_0_1_1256_wf
def scatter_S1024_S12288x1_S12288_n_0_0_1 : ScatterDims S1024 S12288x1 S12288 where
  updateWindowDims := []
  insertedWindowDims := [0]
  scatterDimsToOperandDims := [0]
  indexVectorDim := 1
  wf := scatter_S1024_S12288x1_S12288_n_0_0_1_wf
def gather_S12288x256_S1024x1_S1024x256_1_0_n_n_0_1_1256 : GatherDims S12288x256 S1024x1 S1024x256 where
  offsetDims := [1]
  collapsedSliceDims := [0]
  operandBatchingDims := []
  startIndicesBatchingDims := []
  startIndexMap := [0]
  indexVectorDim := 1
  sliceSizes := ![1, 256]
  wf := gather_S12288x256_S1024x1_S1024x256_1_0_n_n_0_1_1256_wf
def gather_S1024x256_S12288x1_S12288x256_1_0_n_n_0_1_1256 : GatherDims S1024x256 S12288x1 S12288x256 where
  offsetDims := [1]
  collapsedSliceDims := [0]
  operandBatchingDims := []
  startIndicesBatchingDims := []
  startIndexMap := [0]
  indexVectorDim := 1
  sliceSizes := ![1, 256]
  wf := gather_S1024x256_S12288x1_S12288x256_1_0_n_n_0_1_1256_wf
def dot_S12288x256_S256x256_S12288x256_1_0_0_1_n_n : DotDims S12288x256 S256x256 S12288x256 where
  lhsContracting := [1]
  rhsContracting := [0]
  lhsNonContracting := [0]
  rhsNonContracting := [1]
  lhsBatch := []
  rhsBatch := []
  wf := dot_S12288x256_S256x256_S12288x256_1_0_0_1_n_n_wf
def dot_S12288x256_S256x1_S12288x1_1_0_0_1_n_n : DotDims S12288x256 S256x1 S12288x1 where
  lhsContracting := [1]
  rhsContracting := [0]
  lhsNonContracting := [0]
  rhsNonContracting := [1]
  lhsBatch := []
  rhsBatch := []
  wf := dot_S12288x256_S256x1_S12288x1_1_0_0_1_n_n_wf
def scatter_S1024x256_S12288x1_S12288x256_1_0_0_1 : ScatterDims S1024x256 S12288x1 S12288x256 where
  updateWindowDims := [1]
  insertedWindowDims := [0]
  scatterDimsToOperandDims := [0]
  indexVectorDim := 1
  wf := scatter_S1024x256_S12288x1_S12288x256_1_0_0_1_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x50000_S1024x50000_1_0_0_1_n_n : DotDims S1024x256 S256x50000 S1024x50000 where
  lhsContracting := [1]
  rhsContracting := [0]
  lhsNonContracting := [0]
  rhsNonContracting := [1]
  lhsBatch := []
  rhsBatch := []
  wf := dot_S1024x256_S256x50000_S1024x50000_1_0_0_1_n_n_wf

class Facts : Prop extends Facts₀ where

variable [Facts]
-- ==== Proof.BRegion0.lean ====
/-
  The first product, m = emb · W, one block of 2000 rows per grid point (25 points, 50000 = 25 · 2000 rows, so no
  block overhangs). Window 0 stages rows [2000 t, 2000 t + 2000) of emb, window 1 the whole 256 × 256 matrix W (its
  block index never moves), window 2 receives the product block, stored whole by the body's one store. Stated at any
  float instance: the body's run names its stored value only through the payload `k0_pay1`.
-/
import proofs.«133217_j69260642615845_1_alg».proof.Proof.Gen.Kernel.Launch
import proofs.«133217_j69260642615845_1_alg».proof.Proof.Gen.Kernel.Skeleton
import proofs.«133217_j69260642615845_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks the body is handed -/

/-- Block `t` of window `w`'s array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of emb: fetched at every point. -/
theorem before0_rows {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The matrix W: fetched once, its block index constant, so the buffer holds it at every point. -/
theorem before0_mat {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What the one store leaves -/

abbrev whole0_rows : Rect S2000x256 := Rect.unit (s := S2000x256) ![0, 0] S2000x256.size inb_S2000x256_S2000x256_0_0
abbrev whole0_mat : Rect S256x256 := Rect.unit (s := S256x256) ![0, 0] S256x256.size inb_S256x256_S256x256_0_0

/-- The product block: the payload of the loaded rows and matrix, stored over the whole buffer. -/
def prod0 (x0 : Vec F S2000x256 .f32) (x1 : Vec F S256x256 .f32) : Vec F S2000x256 .f32 :=
  View.canon [⟨whole0_rows, k0_pay1 (View.ld x0 whole0_rows) (View.ld x1 whole0_mat)⟩]

theorem covered0 (p0 : Vec F S2000x256 .f32) (y : S2000x256.Idx) :
    ∃ pc ∈ ([⟨whole0_rows, p0⟩] : List (View.Piece (Elt F) S2000x256 .f32)), y ∈ pc.1.set :=
  View.cover_of_tiled [⟨whole0_rows, p0⟩] S2000x256.size (by rfl) y

/-! ## The body -/

set_option maxHeartbeats 1000000 in
/-- On whole staging buffers holding a block of rows and the matrix, the body ends with both as they were and the third
    buffer at the product block. -/
theorem body0 (c : Dev nD) (E : Set ℕ) (i : grid0.Coords)
    (a1 : Memref sig .tc .vmem S2000x256 .f32) (h1 : a1.IsWhole) (a2 : Memref sig .tc .vmem S256x256 .f32) (h2 : a2.IsWhole)
    (a3 : Memref sig .tc .vmem S2000x256 .f32) (h3 : a3.IsWhole)
    (x0 : Vec F S2000x256 .f32) (x1 : Vec F S256x256 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (prod0 x0 x1)) -∗ K ⟨⟩))
      ⊢ wp frame (wpE (defs₀ (F := F)) Variants.none c none) E (cc0__mm_kernel i a1 h1 a2 h2 a3 h3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered0 _)

/-! ## The proof data and the obligation -/

/-- Arrays as the region finds them; after the body each input buffer at its block, the output buffer at the product block;
    the invariant is the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after_rows (c : Dev nD) (t : Fin cfg0.N) : (dat0 V c).after 0 t = blk0 V c 0 t := by dsimp only [dat0]
theorem dat0_after_mat (c : Dev nD) (t : Fin cfg0.N) : (dat0 V c).after 1 t = blk0 V c 1 t := by dsimp only [dat0]
theorem dat0_after_out (c : Dev nD) (t : Fin cfg0.N) : (dat0 V c).after 2 t = prod0 (blk0 V c 0 t) (blk0 V c 1 t) := by dsimp only [dat0]

theorem dat0_before_rows (c : Dev nD) (t : Fin cfg0.N) (d) : (dat0 V c).before 0 t d = blk0 V c 0 t :=
  before0_rows V (dat0 V c) (dat0_A V c 0) (dat0_after_rows V c) t d
theorem dat0_before_mat (c : Dev nD) (t : Fin cfg0.N) (d) : (dat0 V c).before 1 t d = blk0 V c 1 t :=
  before0_mat V (dat0 V c) (dat0_A V c 1) (dat0_after_mat V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so `body0` applies; the invariant and what the core owes
    pass through unread. -/
theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_rows, dat0_before_mat]
  rw [show (dat0 V c).Φ t.succ = (dat0 V c).Φ t.castSucc from rfl,
    show (dat0 V c).owesAt () t.succ = (dat0 V c).owesAt () t.castSucc from rfl,
    dat0_after_rows, dat0_after_mat, dat0_after_out]
  iintro ⟨HΦ, Ho, ⟨%d0, H0⟩, ⟨%d1, H1⟩, ⟨%d2, H2⟩⟩
  iapply (body0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem obligation0 (c : Dev nD) : BodyObligation (dat0 (F := F) V c) (defs₀ (F := F)) Variants.none () Set.univ := fun t => by
  rw [bigSep_W0, bigSep_W0]
  exact point0 V c t

end Cert.Kernel.Hand

end
-- ==== Proof.BRegion1.lean ====
/-
  The gated update: one block of 2000 rows per grid point (25 points, no overhang). Windows 0 and 1 stage rows
  [2000 t, 2000 t + 2000) of the aggregated messages and of emb; windows 2 to 5 stage, whole and once, the two transposed
  256 × 768 weight matrices and the two bias rows; window 6 receives the updated rows, stored whole by the body's one store.
  At any float instance: the stored value is named only through the payload `k1_pay1`.
-/
import proofs.«133217_j69260642615845_1_alg».proof.Proof.Gen.Kernel.Launch
import proofs.«133217_j69260642615845_1_alg».proof.Proof.Gen.Kernel.Skeleton
import proofs.«133217_j69260642615845_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks the body is handed -/

/-- Block `t` of window `w`'s array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not: where it is not fetched its block index
    has not moved. One statement per window (the window is a numeral in each). -/
theorem before1_w0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_w1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_w2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_w3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_w4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_w5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-! ## What the one store leaves -/

abbrev whole1_rows : Rect S2000x256 := Rect.unit (s := S2000x256) ![0, 0] S2000x256.size inb_S2000x256_S2000x256_0_0
abbrev whole1_mat : Rect S256x768 := Rect.unit (s := S256x768) ![0, 0] S256x768.size inb_S256x768_S256x768_0_0
abbrev whole1_bias : Rect S1x768 := Rect.unit (s := S1x768) ![0, 0] S1x768.size inb_S1x768_S1x768_0_0

/-- The updated rows: the payload of the six loaded blocks, stored over the whole buffer. -/
def upd1 (x0 x1 : Vec F S2000x256 .f32) (x2 x3 : Vec F S256x768 .f32) (x4 x5 : Vec F S1x768 .f32) : Vec F S2000x256 .f32 :=
  View.canon [⟨whole1_rows, k1_pay1 (View.ld x0 whole1_rows) (View.ld x1 whole1_rows) (View.ld x2 whole1_mat) (View.ld x3 whole1_mat)
    (View.ld x4 whole1_bias) (View.ld x5 whole1_bias)⟩]

theorem covered1 (p0 : Vec F S2000x256 .f32) (y : S2000x256.Idx) :
    ∃ pc ∈ ([⟨whole1_rows, p0⟩] : List (View.Piece (Elt F) S2000x256 .f32)), y ∈ pc.1.set :=
  View.cover_of_tiled [⟨whole1_rows, p0⟩] S2000x256.size (by rfl) y

/-! ## The body -/

set_option maxHeartbeats 1000000 in
/-- On whole staging buffers holding the six input blocks, the body ends with them as they were and the seventh buffer at the
    updated rows. -/
theorem body1 (c : Dev nD) (E : Set ℕ) (i : grid1.Coords)
    (a1 : Memref sig .tc .vmem S2000x256 .f32) (h1 : a1.IsWhole) (a2 : Memref sig .tc .vmem S2000x256 .f32) (h2 : a2.IsWhole)
    (a3 : Memref sig .tc .vmem S256x768 .f32) (h3 : a3.IsWhole) (a4 : Memref sig .tc .vmem S256x768 .f32) (h4 : a4.IsWhole)
    (a5 : Memref sig .tc .vmem S1x768 .f32) (h5 : a5.IsWhole) (a6 : Memref sig .tc .vmem S1x768 .f32) (h6 : a6.IsWhole)
    (a7 : Memref sig .tc .vmem S2000x256 .f32) (h7 : a7.IsWhole)
    (x0 x1 : Vec F S2000x256 .f32) (x2 x3 : Vec F S256x768 .f32) (x4 x5 : Vec F S1x768 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (upd1 x0 x1 x2 x3 x4 x5)) -∗ K ⟨⟩))
      ⊢ wp frame (wpE (defs₀ (F := F)) Variants.none c none) E (cc1__gru_kernel i a1 h1 a2 h2 a3 h3 a4 h4 a5 h5 a6 h6 a7 h7) K := by
  simp only [cc1__gru_kernel_eq_skeleton]; unfold cc1__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (covered1 _)

/-! ## The proof data and the obligation -/

/-- Arrays as the region finds them; after the body each input buffer at its block, the output buffer at the updated rows;
    the invariant is the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => upd1 (blk1 V c 0 t) (blk1 V c 1 t) (blk1 V c 2 t) (blk1 V c 3 t) (blk1 V c 4 t) (blk1 V c 5 t)
  Φ _ := Pipeline.ΦA spec1 c
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after_out (c : Dev nD) (t : Fin cfg1.N) : (dat1 V c).after 6 t
    = upd1 (blk1 V c 0 t) (blk1 V c 1 t) (blk1 V c 2 t) (blk1 V c 3 t) (blk1 V c 4 t) (blk1 V c 5 t) := by dsimp only [dat1]

theorem dat1_before0 (c : Dev nD) (t : Fin cfg1.N) (d) : (dat1 V c).before 0 t d = blk1 V c 0 t :=
  before1_w0 V (dat1 V c) (dat1_A V c 0) (dat1_after0 V c) t d
theorem dat1_before1 (c : Dev nD) (t : Fin cfg1.N) (d) : (dat1 V c).before 1 t d = blk1 V c 1 t :=
  before1_w1 V (dat1 V c) (dat1_A V c 1) (dat1_after1 V c) t d
theorem dat1_before2 (c : Dev nD) (t : Fin cfg1.N) (d) : (dat1 V c).before 2 t d = blk1 V c 2 t :=
  before1_w2 V (dat1 V c) (dat1_A V c 2) (dat1_after2 V c) t d
theorem dat1_before3 (c : Dev nD) (t : Fin cfg1.N) (d) : (dat1 V c).before 3 t d = blk1 V c 3 t :=
  before1_w3 V (dat1 V c) (dat1_A V c 3) (dat1_after3 V c) t d
theorem dat1_before4 (c : Dev nD) (t : Fin cfg1.N) (d) : (dat1 V c).before 4 t d = blk1 V c 4 t :=
  before1_w4 V (dat1 V c) (dat1_A V c 4) (dat1_after4 V c) t d
theorem dat1_before5 (c : Dev nD) (t : Fin cfg1.N) (d) : (dat1 V c).before 5 t d = blk1 V c 5 t :=
  before1_w5 V (dat1 V c) (dat1_A V c 5) (dat1_after5 V c) t d

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it hands back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers hold their blocks, so `body1` applies; the invariant and what the core owes
    pass through unread. -/
theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body1 c Set.univ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation1 (c : Dev nD) : BodyObligation (dat1 (F := F) V c) (defs₀ (F := F)) Variants.none () Set.univ := fun t => by
  rw [bigSep_W1, bigSep_W1]
  exact point1 V c t

end Cert.Kernel.Hand

end
-- ==== Proof.BRegion2.lean ====
/-
  The attention gate: one block of 2048 session nodes per grid point (6 points, 12288 = 6 · 2048 rows, no overhang).
  Windows 0 and 1 stage rows [2048 t, 2048 t + 2048) of the repeated last-node rows and of the node rows; windows 2 to 7
  stage, whole and once, the first transposed weight matrix, its bias row, the second transposed weight matrix, its bias
  row, the scoring row and the scoring offset; window 8 receives the weighted node rows, stored whole by the one store.
  At any float instance: the stored value is named only through the payload `k2_pay1`, which takes the second matrix
  BEFORE the first bias row (the order of the body's loads).
-/
import proofs.«133217_j69260642615845_1_alg».proof.Proof.Gen.Kernel.Launch
import proofs.«133217_j69260642615845_1_alg».proof.Proof.Gen.Kernel.Skeleton
import proofs.«133217_j69260642615845_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks the body is handed -/

/-- Block `t` of window `w`'s array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, fetched there or not: where it is not fetched its block index
    has not moved. One statement per window (the window is a numeral in each). -/
theorem before2_w0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_w1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_w2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_w3 {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
theorem before2_w4 {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)
theorem before2_w5 {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)
theorem before2_w6 {c : Dev nD} (dat : Dat τ (Elt F) Unit ℕ (UR sig nD τ) ℕ cfg2 c) (hA : dat.A 6 = V c (Pipeline.arrRef spec2 6))
    (hafter : ∀ t, dat.after 6 t = blk2 V c 6 t) (t : Fin cfg2.N) (d) : dat.before 6 t d = blk2 V c 6 t :=
  (dat.before_in_eq_fetched 6 rfl (fun _ => rfl) (fun _ _ _ => rfl) (fun t => by rw [hafter]; unfold Dat.blockOf blk2; rw [hA]; try rfl) t d).trans
    (by unfold Dat.fetched Dat.blockOf blk2; rw [hA]; try rfl)
theorem before2_w7 {c : Dev nD} (dat : Dat τ (Elt F) Unit ℕ (UR sig nD τ) ℕ cfg2 c) (hA : dat.A 7 = V c (Pipeline.arrRef spec2 7))
    (hafter : ∀ t, dat.after 7 t = blk2 V c 7 t) (t : Fin cfg2.N) (d) : dat.before 7 t d = blk2 V c 7 t :=
  (dat.before_in_eq_fetched 7 rfl (fun _ => rfl) (fun _ _ _ => rfl) (fun t => by rw [hafter]; unfold Dat.blockOf blk2; rw [hA]; try rfl) t d).trans
    (by unfold Dat.fetched Dat.blockOf blk2; rw [hA]; try rfl)

/-! ## What the one store leaves -/

abbrev whole2_rows : Rect S2048x256 := Rect.unit (s := S2048x256) ![0, 0] S2048x256.size inb_S2048x256_S2048x256_0_0
abbrev whole2_mat : Rect S256x256 := Rect.unit (s := S256x256) ![0, 0] S256x256.size inb_S256x256_S256x256_0_0
abbrev whole2_row : Rect S1x256 := Rect.unit (s := S1x256) ![0, 0] S1x256.size inb_S1x256_S1x256_0_0
abbrev whole2_one : Rect S1x1 := Rect.unit (s := S1x1) ![0, 0] S1x1.size inb_S1x1_S1x1_0_0

/-- The weighted node rows: the payload of the eight loaded blocks (windows 0, 1, 2, 4, 3, 5, 6, 7 in the payload's order),
    stored over the whole buffer. -/
def wgt2 (x0 x1 : Vec F S2048x256 .f32) (x2 : Vec F S256x256 .f32) (x3 : Vec F S1x256 .f32) (x4 : Vec F S256x256 .f32)
    (x5 x6 : Vec F S1x256 .f32) (x7 : Vec F S1x1 .f32) : Vec F S2048x256 .f32 :=
  View.canon [⟨whole2_rows, k2_pay1 (View.ld x0 whole2_rows) (View.ld x1 whole2_rows) (View.ld x2 whole2_mat) (View.ld x4 whole2_mat)
    (View.ld x3 whole2_row) (View.ld x5 whole2_row) (View.ld x6 whole2_row) (View.ld x7 whole2_one)⟩]

theorem covered2 (p0 : Vec F S2048x256 .f32) (y : S2048x256.Idx) :
    ∃ pc ∈ ([⟨whole2_rows, p0⟩] : List (View.Piece (Elt F) S2048x256 .f32)), y ∈ pc.1.set :=
  View.cover_of_tiled [⟨whole2_rows, p0⟩] S2048x256.size (by rfl) y

/-! ## The body -/

set_option maxHeartbeats 1000000 in
/-- On whole staging buffers holding the eight input blocks, the body ends with them as they were and the ninth buffer at the
    weighted node rows. -/
theorem body2 (c : Dev nD) (E : Set ℕ) (i : grid2.Coords)
    (a1 : Memref sig .tc .vmem S2048x256 .f32) (h1 : a1.IsWhole) (a2 : Memref sig .tc .vmem S2048x256 .f32) (h2 : a2.IsWhole)
    (a3 : Memref sig .tc .vmem S256x256 .f32) (h3 : a3.IsWhole) (a4 : Memref sig .tc .vmem S1x256 .f32) (h4 : a4.IsWhole)
    (a5 : Memref sig .tc .vmem S256x256 .f32) (h5 : a5.IsWhole) (a6 : Memref sig .tc .vmem S1x256 .f32) (h6 : a6.IsWhole)
    (a7 : Memref sig .tc .vmem S1x256 .f32) (h7 : a7.IsWhole) (a8 : Memref sig .tc .vmem S1x1 .f32) (h8 : a8.IsWhole)
    (a9 : Memref sig .tc .vmem S2048x256 .f32) (h9 : a9.IsWhole)
    (x0 x1 : Vec F S2048x256 .f32) (x2 : Vec F S256x256 .f32) (x3 : Vec F S1x256 .f32) (x4 : Vec F S256x256 .f32)
    (x5 x6 : Vec F S1x256 .f32) (x7 : Vec F S1x1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7
        ∗ (∃ d, owns (c : Thread nD τ) a9 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7
            ∗ owns (c : Thread nD τ) a9 fullShare (wgt2 x0 x1 x2 x3 x4 x5 x6 x7)) -∗ K ⟨⟩))
      ⊢ wp frame (wpE (defs₀ (F := F)) Variants.none c none) E
          (cc2__gate_kernel i a1 h1 a2 h2 a3 h3 a4 h4 a5 h5 a6 h6 a7 h7 a8 h8 a9 h9) K := by
  simp only [cc2__gate_kernel_eq_skeleton]; unfold cc2__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (covered2 _)

/-! ## The proof data and the obligation -/

/-- Arrays as the region finds them; after the body each input buffer at its block, the output buffer at the weighted rows;
    the invariant is the scoped rest and the generator register, untouched; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => wgt2 (blk2 V c 0 t) (blk2 V c 1 t) (blk2 V c 2 t) (blk2 V c 3 t) (blk2 V c 4 t) (blk2 V c 5 t) (blk2 V c 6 t) (blk2 V c 7 t)
  Φ _ := Pipeline.ΦA spec2 c
  q _ := fullShare
  owed _ := 0

theorem dat2_A (c : Dev nD) (w : Fin cfg2.W) : (dat2 V c).A w = V c (Pipeline.arrRef spec2 w) := by dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) : (dat2 V c).after 4 t = blk2 V c 4 t := by dsimp only [dat2]
theorem dat2_after5 (c : Dev nD) (t : Fin cfg2.N) : (dat2 V c).after 5 t = blk2 V c 5 t := by dsimp only [dat2]
theorem dat2_after6 (c : Dev nD) (t : Fin cfg2.N) : (dat2 V c).after 6 t = blk2 V c 6 t := by dsimp only [dat2]
theorem dat2_after7 (c : Dev nD) (t : Fin cfg2.N) : (dat2 V c).after 7 t = blk2 V c 7 t := by dsimp only [dat2]
theorem dat2_after_out (c : Dev nD) (t : Fin cfg2.N) : (dat2 V c).after 8 t
    = wgt2 (blk2 V c 0 t) (blk2 V c 1 t) (blk2 V c 2 t) (blk2 V c 3 t) (blk2 V c 4 t) (blk2 V c 5 t) (blk2 V c 6 t) (blk2 V c 7 t) := by dsimp only [dat2]

theorem dat2_before0 (c : Dev nD) (t : Fin cfg2.N) (d) : (dat2 V c).before 0 t d = blk2 V c 0 t :=
  before2_w0 V (dat2 V c) (dat2_A V c 0) (dat2_after0 V c) t d
theorem dat2_before1 (c : Dev nD) (t : Fin cfg2.N) (d) : (dat2 V c).before 1 t d = blk2 V c 1 t :=
  before2_w1 V (dat2 V c) (dat2_A V c 1) (dat2_after1 V c) t d
theorem dat2_before2 (c : Dev nD) (t : Fin cfg2.N) (d) : (dat2 V c).before 2 t d = blk2 V c 2 t :=
  before2_w2 V (dat2 V c) (dat2_A V c 2) (dat2_after2 V c) t d
theorem dat2_before3 (c : Dev nD) (t : Fin cfg2.N) (d) : (dat2 V c).before 3 t d = blk2 V c 3 t :=
  before2_w3 V (dat2 V c) (dat2_A V c 3) (dat2_after3 V c) t d
theorem dat2_before4 (c : Dev nD) (t : Fin cfg2.N) (d) : (dat2 V c).before 4 t d = blk2 V c 4 t :=
  before2_w4 V (dat2 V c) (dat2_A V c 4) (dat2_after4 V c) t d
theorem dat2_before5 (c : Dev nD) (t : Fin cfg2.N) (d) : (dat2 V c).before 5 t d = blk2 V c 5 t :=
  before2_w5 V (dat2 V c) (dat2_A V c 5) (dat2_after5 V c) t d
theorem dat2_before6 (c : Dev nD) (t : Fin cfg2.N) (d) : (dat2 V c).before 6 t d = blk2 V c 6 t :=
  before2_w6 V (dat2 V c) (dat2_A V c 6) (dat2_after6 V c) t d
theorem dat2_before7 (c : Dev nD) (t : Fin cfg2.N) (d) : (dat2 V c).before 7 t d = blk2 V c 7 t :=
  before2_w7 V (dat2 V c) (dat2_A V c 7) (dat2_after7 V c) t d

/-- What the body is called with at point `t`, the windows one by one, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it hands back. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the input buffers hold their blocks, so `body2` applies; the invariant and what the core owes
    pass through unread. -/
theorem point2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3, dat2_before4, dat2_before5, dat2_before6, dat2_before7]
  rw [show (dat2 V c).Φ t.succ = (dat2 V c).Φ t.castSucc from rfl,
    show (dat2 V c).owesAt () t.succ = (dat2 V c).owesAt () t.castSucc from rfl,
    dat2_after0, dat2_after1, dat2_after2, dat2_after3, dat2_after4, dat2_after5, dat2_after6, dat2_after7, dat2_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body2 c Set.univ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem obligation2 (c : Dev nD) : BodyObligation (dat2 (F := F) V c) (defs₀ (F := F)) Variants.none () Set.univ := fun t => by
  rw [bigSep_W2, bigSep_W2]
  exact point2 V c t

end Cert.Kernel.Hand

end
-- ==== Proof.BRegion3.lean ====
/-
  The scores: s_h · embᵀ, one block of 2048 items per grid point (25 points). 50000 = 24 · 2048 + 848, so the last block of
  emb (window 1) and the last block of the scores (window 2) overhang their arrays: at point 24 only 848 rows of emb are
  fetched, the other 1200 rows of the staging buffer hold words nothing names, and only 848 columns of the product block are
  written back. Window 0 stages the whole 1024 × 256 session matrix once. The body's one store writes the whole product block;
  its columns past the array's end are computed from the unnamed rows and are never written back.

  Stated at any float instance. The matrix product is an operation of the float instance, of which nothing is assumed: in
  particular not that column j of x · yᵀ reads row j of y only. So the columns of the product block that ARE written back
  cannot be named from the named part of the items' buffer alone, and the scores are not named here at all. Window 2 — the
  output window — is FORGOTTEN: its staging buffer is handed to the body at arbitrary contents and taken back at arbitrary
  contents, and the scores' array ends at some contents. This costs a frame claim nothing: the region is the program's last
  item, the scores' array is no argument, and the two input windows are still followed exactly (the session matrix whole, an
  items buffer on the rows its transfer moves).
-/
import proofs.«133217_j69260642615845_1_alg».proof.Proof.Gen.Kernel.Launch
import proofs.«133217_j69260642615845_1_alg».proof.Proof.Gen.Kernel.Skeleton
import proofs.«133217_j69260642615845_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks the body is handed -/

/-- The part of block `t` of window `w`'s array that lies inside the array, as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The filler that names the product block: the zero word. -/
abbrev zeroFill : S2048x256.Idx → Elt F .f32 := fun _ => Scalar.ofBits .f32 0#32

/-- Block `t` of emb filled out to a whole staging buffer by `d`. -/
abbrev items3 (c : Dev nD) (t : Fin cfg3.N) (d : S2048x256.Idx → Elt F .f32) : S2048x256.Idx → Elt F .f32 :=
  win3_1.fill (grid3.coords t) d (blk3 V c 1 t)

/-- The session matrix: fetched once, its block index constant, so the buffer holds it at every point. -/
theorem before3_sess {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-! ## What the one store leaves -/

abbrev whole3_sess : Rect S1024x256 := Rect.unit (s := S1024x256) ![0, 0] S1024x256.size inb_S1024x256_S1024x256_0_0
abbrev whole3_items : Rect S2048x256 := Rect.unit (s := S2048x256) ![0, 0] S2048x256.size inb_S2048x256_S2048x256_0_0
abbrev whole3_out : Rect S1024x2048 := Rect.unit (s := S1024x2048) ![0, 0] S1024x2048.size inb_S1024x2048_S1024x2048_0_0

/-- The product block: the payload of the loaded session matrix and items, stored over the whole buffer. -/
def prod3 (x0 : Vec F S1024x256 .f32) (x1 : Vec F S2048x256 .f32) : Vec F S1024x2048 .f32 :=
  View.canon [⟨whole3_out, k3_pay1 (View.ld x0 whole3_sess) (View.ld x1 whole3_items)⟩]

theorem covered3 (p0 : Vec F S1024x2048 .f32) (y : S1024x2048.Idx) :
    ∃ pc ∈ ([⟨whole3_out, p0⟩] : List (View.Piece (Elt F) S1024x2048 .f32)), y ∈ pc.1.set :=
  View.cover_of_tiled [⟨whole3_out, p0⟩] S1024x2048.size (by rfl) y

/-! ## The body -/

set_option maxHeartbeats 1000000 in
/-- On whole staging buffers holding the session matrix and some items, the body ends with both as they were and the third
    buffer at their product block. -/
theorem body3 (c : Dev nD) (E : Set ℕ) (i : grid3.Coords)
    (a1 : Memref sig .tc .vmem S1024x256 .f32) (h1 : a1.IsWhole) (a2 : Memref sig .tc .vmem S2048x256 .f32) (h2 : a2.IsWhole)
    (a3 : Memref sig .tc .vmem S1024x2048 .f32) (h3 : a3.IsWhole)
    (x0 : Vec F S1024x256 .f32) (x1 : Vec F S2048x256 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (prod3 x0 x1)) -∗ K ⟨⟩))
      ⊢ wp frame (wpE (defs₀ (F := F)) Variants.none c none) E (cc3__final_kernel i a1 h1 a2 h2 a3 h3) K := by
  simp only [cc3__final_kernel_eq_skeleton]; unfold cc3__final_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered3 _)

/-! ## The proof data and the obligation -/

/-- Arrays as the region finds them; after the body the session buffer at the session matrix, an items buffer at its block
    (zero past the array's end), the output buffer at the product of the two; the invariant is the scoped rest and the
    generator register, untouched; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => items3 V c t zeroFill
    | ⟨2, _⟩ => prod3 (blk3 V c 0 t) (items3 V c t zeroFill)
  Φ _ := Pipeline.ΦA spec3 c
  q _ := fullShare
  owed _ := 0

theorem dat3_A (c : Dev nD) (w : Fin cfg3.W) : (dat3 V c).A w = V c (Pipeline.arrRef spec3 w) := by dsimp only [dat3]
theorem dat3_after_sess (c : Dev nD) (t : Fin cfg3.N) : (dat3 V c).after 0 t = blk3 V c 0 t := by dsimp only [dat3]
theorem dat3_after_items (c : Dev nD) (t : Fin cfg3.N) : (dat3 V c).after 1 t = items3 V c t zeroFill := by dsimp only [dat3]
theorem dat3_after_out (c : Dev nD) (t : Fin cfg3.N) : (dat3 V c).after 2 t = prod3 (blk3 V c 0 t) (items3 V c t zeroFill) := by
  dsimp only [dat3]

theorem dat3_before_sess (c : Dev nD) (t : Fin cfg3.N) (d) : (dat3 V c).before 0 t d = blk3 V c 0 t :=
  before3_sess V (dat3 V c) (dat3_A V c 0) (dat3_after_sess V c) t d

/-- An items buffer is fetched at every point: it holds its block inside the array and the filler `d` past its end. -/
theorem dat3_before_items (c : Dev nD) (t : Fin cfg3.N) (d) : (dat3 V c).before 1 t d = items3 V c t d := by
  unfold Dat.before; rw [if_pos (fetch3_1 t)]; rfl

/-- The output window is forgotten; the two input windows are not. -/
abbrev fgt3 : Fin cfg3.W → Bool := fun w => Nat.beq w.val 2

/-- What the body is called with at point `t`, the windows one by one: the two input buffers at what they then hold, the
    output buffer at anything, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ X, owns (c : Thread nD τ) (st3_2 t) fullShare X))

/-- and what it hands back: the session buffer exactly, the items buffer on the part its transfer moves, the output buffer
    at anything. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ (∃ d, owns (c : Thread nD τ) (st3_1 t) fullShare (win3_1.fill (grid3.coords t) d (win3_1.cut (grid3.coords t) ((dat3 V c).after 1 t))))
    ∗ (∃ X, owns (c : Thread nD τ) (st3_2 t) fullShare X))

/-- The body at any point. The session buffer holds the session matrix; the items buffer arrives filled out by some `d` and
    leaves as it came; the output buffer leaves at the product of the two, of which nothing is said. -/
theorem point3 (c : Dev nD) (t : Fin cfg3.N) :
    pre3 V c t ⊢ wp frame (wpE (defs₀ (F := F)) Variants.none c none) Set.univ (bodyAt3 t) (fun _ => post3 V c t) := by
  unfold pre3 post3 bodyAt3
  simp only [dat3_before_sess, dat3_before_items]
  rw [show (dat3 V c).Φ t.succ = (dat3 V c).Φ t.castSucc from rfl,
    show (dat3 V c).owesAt () t.succ = (dat3 V c).owesAt () t.castSucc from rfl,
    dat3_after_sess, dat3_after_items]
  iintro ⟨HΦ, Ho, ⟨%d0, H0⟩, ⟨%d1, H1⟩, ⟨%X2, H2⟩⟩
  iapply (body3 c Set.univ _ _ _ _ _ _ _ (blk3 V c 0 t) (items3 V c t d1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [show win3_1.cut (grid3.coords t) (items3 V c t zeroFill) = blk3 V c 1 t from win3_1.cut_fill _ _ _]
    iexact H1
  · iexists _; iexact H2

/-- The pipeline's body obligation in its loose form with the output window forgotten, at every point. -/
theorem obligation3 (c : Dev nD) :
    Pipeline.BodyObligationLoose (dat3 (F := F) V c) (defs₀ (F := F)) Variants.none () Set.univ fgt3 := fun t => by
  rw [bigSep_W3, bigSep_W3]
  exact point3 V c t

end Cert.Kernel.Hand

end
-- ==== Proof.BRun.lean ====
/-
  The kernel program's run at any float instance, for the frame. @main is eleven items: the first product (region 0), a
  stretch of host operations (the gather of messages along the edges and their scatter-add), the gated update (region 1), five
  stretches (the lookup of the session nodes, the rectifier, the last node of each session, its repetition along the nodes),
  the attention gate (region 2), a stretch (the session sums and the final dense layer), the scores (region 3). The contents
  of the TensorCore's unscoped buffers are followed through the first ten items exactly — a host stretch applies its
  operations, a region leaves its output array at the fold of its write-backs and everything else as it found it. Region 3's
  output window is forgotten: its array, the scores', ends at SOME contents, every other buffer as region 3 found it. The
  regions' proof data are read relationally (what a window's array may hold, not what it holds), which for regions 0 to 2
  says the same as naming the contents and for region 3's forgotten window says nothing. No argument array is a region's
  output array and no host operation writes one, so every weakly fair execution ends with every argument at its launch contents.
-/
import proofs.«133217_j69260642615845_1_alg».proof.Proof.Gen.Kernel.Launch
import proofs.«133217_j69260642615845_1_alg».proof.Proof.Gen.Kernel.Skeleton
import proofs.«133217_j69260642615845_1_alg».proof.Proof.Gen.Kernel.Points
import proofs.«133217_j69260642615845_1_alg».proof.Proof.Gen.Kernel.Regions
import proofs.«133217_j69260642615845_1_alg».proof.Proof.BRegion0
import proofs.«133217_j69260642615845_1_alg».proof.Proof.BRegion1
import proofs.«133217_j69260642615845_1_alg».proof.Proof.BRegion2
import proofs.«133217_j69260642615845_1_alg».proof.Proof.BRegion3
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m ((c : Dev nD), b)
/-- What region 0 is entered with, read at the TensorCore's references. -/
abbrev E0 : (c : Dev nD) → (b : Ref sig .tc) → Buf (Elt F) ((c : Thread nD τ).loc b) := fun c b => W0 m c b

/-- After region 0: its windows' arrays at what the pipeline leaves (an input's as entered, the output's write-backs folded),
    every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_other (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem left0 (c : Dev nD) (w : Fin cfg0.W) : (dat0 (E0 m) c).arrAt w cfg0.N = (fun b : Ref sig .tc => W1 m c b) (Pipeline.arrRef spec0 w) :=
  (W1_arr m c w).symm
theorem kept0 (c : Dev nD) : ∀ b, b ∉ Finset.univ.image (Pipeline.arrRef spec0) → (fun b : Ref sig .tc => W1 m c b) b = E0 m c b :=
  fun b hb => W1_other m c b fun w e => hb (Finset.mem_image.mpr ⟨w, Finset.mem_univ _, e⟩)

/-- After the first host stretch. -/
abbrev W2 : Dev nD → Valuation τ sig (Elt F) := fun c => StableHlo.after hostOps1 (W1 m c)
abbrev E1 : (c : Dev nD) → (b : Ref sig .tc) → Buf (Elt F) ((c : Thread nD τ).loc b) := fun c b => W2 m c b

/-- After region 1: its windows' arrays at what the pipeline leaves (an input's as entered, the output's write-backs folded),
    every other buffer as entered. -/
def W3 (c : Dev nD) : Valuation τ sig (Elt F) :=
  Pipeline.withArrays spec1 c (W2 m c) fun w => (dat1 (E1 m) c).arrAt w cfg1.N
theorem W3_arr (c : Dev nD) (w : Fin cfg1.W) :
    W3 m c (Proc.devRef .tc (Pipeline.arrRef spec1 w)) = (dat1 (E1 m) c).arrAt w cfg1.N := by
  unfold W3; exact Pipeline.withArrays_arr spec1 launch1.win.arr_inj c _ _ w
theorem W3_other (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem left1 (c : Dev nD) (w : Fin cfg1.W) : (dat1 (E1 m) c).arrAt w cfg1.N = (fun b : Ref sig .tc => W3 m c b) (Pipeline.arrRef spec1 w) :=
  (W3_arr m c w).symm
theorem kept1 (c : Dev nD) : ∀ b, b ∉ Finset.univ.image (Pipeline.arrRef spec1) → (fun b : Ref sig .tc => W3 m c b) b = E1 m c b :=
  fun b hb => W3_other m c b fun w e => hb (Finset.mem_image.mpr ⟨w, Finset.mem_univ _, e⟩)

/-- After each of the five stretches between the gated update and the attention gate. -/
abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)
abbrev W7 : Dev nD → Valuation τ sig (Elt F) := fun c => StableHlo.after hostOps2_3 (W6 m c)
abbrev W8 : Dev nD → Valuation τ sig (Elt F) := fun c => StableHlo.after hostOps2_4 (W7 m c)
abbrev E2 : (c : Dev nD) → (b : Ref sig .tc) → Buf (Elt F) ((c : Thread nD τ).loc b) := fun c b => W8 m c b

/-- After region 2: its windows' arrays at what the pipeline leaves (an input's as entered, the output's write-backs folded),
    every other buffer as entered. -/
def W9 (c : Dev nD) : Valuation τ sig (Elt F) :=
  Pipeline.withArrays spec2 c (W8 m c) fun w => (dat2 (E2 m) c).arrAt w cfg2.N
theorem W9_arr (c : Dev nD) (w : Fin cfg2.W) :
    W9 m c (Proc.devRef .tc (Pipeline.arrRef spec2 w)) = (dat2 (E2 m) c).arrAt w cfg2.N := by
  unfold W9; exact Pipeline.withArrays_arr spec2 launch2.win.arr_inj c _ _ w
theorem W9_other (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
theorem left2 (c : Dev nD) (w : Fin cfg2.W) : (dat2 (E2 m) c).arrAt w cfg2.N = (fun b : Ref sig .tc => W9 m c b) (Pipeline.arrRef spec2 w) :=
  (W9_arr m c w).symm
theorem kept2 (c : Dev nD) : ∀ b, b ∉ Finset.univ.image (Pipeline.arrRef spec2) → (fun b : Ref sig .tc => W9 m c b) b = E2 m c b :=
  fun b hb => W9_other m c b fun w e => hb (Finset.mem_image.mpr ⟨w, Finset.mem_univ _, e⟩)

/-- After the last host stretch. -/
abbrev W10 : Dev nD → Valuation τ sig (Elt F) := fun c => StableHlo.after hostOps3 (W9 m c)
abbrev E3 : (c : Dev nD) → (b : Ref sig .tc) → Buf (Elt F) ((c : Thread nD τ).loc b) := fun c b => W10 m c b

/-- After region 3, its windows' arrays at contents `A`: every other buffer as entered. -/
def W11 (c : Dev nD) (A : (w : Fin 3) → Buf (Elt F) ((spec3 w).arr.view.loc (c : Thread nD τ))) : Valuation τ sig (Elt F) :=
  Pipeline.withArrays spec3 c (W10 m c) A
theorem W11_arr (c : Dev nD) (A : (w : Fin 3) → Buf (Elt F) ((spec3 w).arr.view.loc (c : Thread nD τ))) (w : Fin 3) :
    W11 m c A (Proc.devRef .tc (Pipeline.arrRef spec3 w)) = A w := by
  unfold W11; exact Pipeline.withArrays_arr spec3 launch3.win.arr_inj c _ _ w
theorem W11_other (c : Dev nD) (A : (w : Fin 3) → Buf (Elt F) ((spec3 w).arr.view.loc (c : Thread nD τ))) (b : Ref sig .tc)
    (hb : ∀ w, Pipeline.arrRef spec3 w ≠ b) : W11 m c A (Proc.devRef .tc b) = W10 m c (Proc.devRef .tc b) := by
  unfold W11; exact Pipeline.withArrays_of_ne spec3 c _ _ b hb
theorem left3 (c : Dev nD) (A : (w : Fin 3) → Buf (Elt F) ((spec3 w).arr.view.loc (c : Thread nD τ))) (w : Fin 3) :
    A w = (fun b : Ref sig .tc => W11 m c A b) (Pipeline.arrRef spec3 w) :=
  (W11_arr m c A w).symm
theorem kept3 (c : Dev nD) (A : (w : Fin 3) → Buf (Elt F) ((spec3 w).arr.view.loc (c : Thread nD τ))) :
    ∀ b, b ∉ Finset.univ.image (Pipeline.arrRef spec3) → (fun b : Ref sig .tc => W11 m c A b) b = E3 m c b :=
  fun b hb => W11_other m c A b fun w e => hb (Finset.mem_image.mpr ⟨w, Finset.mem_univ _, e⟩)

/-! ## The proof data family and the thread state -/

/-- No pipeline has a prefetched table. -/
abbrev adm' : (p : Fin 4) → (pcfgs (F := F) p).Adm := fun p => (cfgs p).toPCfg_adm

/-- Every pipeline's proof data at its region's entry contents: a literal match, so that the launch theorem's pinned configuration at
    a numeral reduces to the printed one. -/
def pdats : (p : Fin 4) → (c : Dev nD) → Dat τ (Elt F) Unit ℕ (UR sig nD τ) ℕ (Pipeline.pin (pcfgs (F := F)) adm' p) c
  | ⟨0, _⟩ => fun c => dat0 (E0 m) c
  | ⟨1, _⟩ => fun c => dat1 (E1 m) c
  | ⟨2, _⟩ => fun c => dat2 (E2 m) c
  | ⟨3, _⟩ => fun c => dat3 (E3 m) c

abbrev 𝒱₀ : Variants := Variants.none
/-- No core owes another anything: no level is assigned. -/
abbrev L₀ : GSem nD τ sig → Finset Unit := fun _ => ∅
abbrev lv₀ : GSem nD τ sig → Unit → ℕ := fun _ _ => 0
/-- What rides beside the buffers through every item: the core's generator register at some state and its `owes`, at nothing. -/
abbrev Rest (c : Dev nD) : sProp 𝕄 := iprop((∃ r, prngReg c r) ∗ ∃ W, owes (c : Thread nD τ) (0 : CellTallies nD τ sig Unit) W)
/-- What region 3's input windows' arrays hold at its end is named; what its output window's array holds is not. -/
def Ends3 (c : Dev nD) (A : (w : Fin 3) → Buf (Elt F) ((spec3 w).arr.view.loc (c : Thread nD τ))) : Prop :=
  A 0 = (dat3 (E3 m) c).arrAt 0 cfg3.N ∧ A 1 = (dat3 (E3 m) c).arrAt 1 cfg3.N
/-- The last thread state, without the `owes`: every unscoped buffer held, region 3's arrays at some contents its input
    windows' part of which is named. -/
abbrev Last (c : Dev nD) : sProp 𝕄 :=
  iprop((∃ A, ⌜Ends3 m c A⌝ ∗ StableHlo.held (c : Thread nD τ) (Pipeline.ucRefs τ sig) (W11 m c A)) ∗ ∃ r, prngReg c r)

/-- A stretch of host operations as a segment over the unscoped references, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-! ## The regions as segments -/

-- a library lemma stated over the pinned configuration unifies with the printed one only when unification may unfold plain
-- definitions in a metavariable's type
set_option backward.isDefEq.respectTransparency.types false in
/-- Region 0 over the thread state: entered with every unscoped buffer at `W0`, left with them at `W1`. Its windows'
    arrays are split out of the unscoped buffers on entry and put back at their final contents on exit; the generator register
    goes into the region's invariant and comes back; nothing is owed; the kernel has no semaphore of its own. -/
def region0 : Pipeline.RegionSeg (pcfgs (F := F)) adm' (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (obligation0 (E0 m) c).loose
  hwaits := Pipeline.hwaits_of_owed_zero _ _ _ _ L₀ lv₀ 0 fun _ _ => rfl
  pre c := iprop(StableHlo.held (c : Thread nD τ) (Pipeline.ucRefs τ sig) (W0 m c) ∗ Rest c)
  post c := iprop(StableHlo.held (c : Thread nD τ) (Pipeline.ucRefs τ sig) (W1 m c) ∗ Rest c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E0 m c) (fun b => W1 m c b) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered with every unscoped buffer at `W2`, left with them at `W3`. Its windows'
    arrays are split out of the unscoped buffers on entry and put back at their final contents on exit; the generator register
    goes into the region's invariant and comes back; nothing is owed; the kernel has no semaphore of its own. -/
def region1 : Pipeline.RegionSeg (pcfgs (F := F)) adm' (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (obligation1 (E1 m) c).loose
  hwaits := Pipeline.hwaits_of_owed_zero _ _ _ _ L₀ lv₀ 1 fun _ _ => rfl
  pre c := iprop(StableHlo.held (c : Thread nD τ) (Pipeline.ucRefs τ sig) (W2 m c) ∗ Rest c)
  post c := iprop(StableHlo.held (c : Thread nD τ) (Pipeline.ucRefs τ sig) (W3 m c) ∗ Rest c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E1 m c) (fun b => W3 m c b) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 over the thread state: entered with every unscoped buffer at `W8`, left with them at `W9`. Its windows'
    arrays are split out of the unscoped buffers on entry and put back at their final contents on exit; the generator register
    goes into the region's invariant and comes back; nothing is owed; the kernel has no semaphore of its own. -/
def region2 : Pipeline.RegionSeg (pcfgs (F := F)) adm' (pdats m) () defs₀ 𝒱₀ L₀ lv₀ 2 where
  win := launch2.win.to₀
  block_pos := launch2.block_pos
  stage_whole := launch2.stage_whole
  K := PEmpty
  osem k := k.elim
  ho := Pipeline.OwnSemFacts.none _
  hbody c := (obligation2 (E2 m) c).loose
  hwaits := Pipeline.hwaits_of_owed_zero _ _ _ _ L₀ lv₀ 2 fun _ _ => rfl
  pre c := iprop(StableHlo.held (c : Thread nD τ) (Pipeline.ucRefs τ sig) (W8 m c) ∗ Rest c)
  post c := iprop(StableHlo.held (c : Thread nD τ) (Pipeline.ucRefs τ sig) (W9 m c) ∗ Rest c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm' (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (E2 m c) (fun b => W9 m c b) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The relational proof data -/

/-- Every pipeline's proof data read relationally: regions 0 to 2 allow of a window's array exactly what their exact data
    name; region 3 forgets its output window, of whose array nothing is said. A literal match, as for `pdats`. -/
def rdats : (p : Fin 4) → (c : Dev nD) → RDat τ (Elt F) Unit ℕ (UR sig nD τ) ℕ (Pipeline.pin (pcfgs (F := F)) adm' p) c
  | ⟨0, _⟩ => fun c => (dat0 (E0 m) c).toR
  | ⟨1, _⟩ => fun c => (dat1 (E1 m) c).toR
  | ⟨2, _⟩ => fun c => (dat2 (E2 m) c).toR
  | ⟨3, _⟩ => fun c => (dat3 (E3 m) c).toRForget fgt3

-- the relational record's fields are the exact record's up to unfolding the proof data family at the region's numeral
set_option backward.isDefEq.respectTransparency.types false in
/-- Region 0 over the relational proof data: the exact record field by field — the body obligation read relationally, the
    exit fed the arrays at the contents the exact data name, which is all the relational data allow. -/
def rregion0 : Pipeline.RDat.RegionSeg (pcfgs (F := F)) adm' (rdats m) () defs₀ 𝒱₀ L₀ lv₀ 0 where
  win := (region0 m).win
  block_pos := (region0 m).block_pos
  stage_whole := (region0 m).stage_whole
  K := (region0 m).K
  fK := (region0 m).fK
  osem := (region0 m).osem
  ho := (region0 m).ho
  hbody c := ((region0 m).hbody c).toR
  hwaits := Pipeline.RDat.hwaits_of_owed_zero _ _ _ _ L₀ lv₀ 0 fun _ _ => rfl
  pre := (region0 m).pre
  post := (region0 m).post
  X := (region0 m).X
  Y := (region0 m).Y
  Z := (region0 m).Z
  hentry := (region0 m).hentry
  hin := (region0 m).hin
  hout := (region0 m).hout
  hexit c := (sep_mono (Entails.of_eq ((pdats m 0 c).toR_arraysAt_eq cfg0.N)) .rfl).trans ((region0 m).hexit c)

-- the relational record's fields are the exact record's up to unfolding the proof data family at the region's numeral
set_option backward.isDefEq.respectTransparency.types false in
/-- Region 1 over the relational proof data: the exact record field by field — the body obligation read relationally, the
    exit fed the arrays at the contents the exact data name, which is all the relational data allow. -/
def rregion1 : Pipeline.RDat.RegionSeg (pcfgs (F := F)) adm' (rdats m) () defs₀ 𝒱₀ L₀ lv₀ 1 where
  win := (region1 m).win
  block_pos := (region1 m).block_pos
  stage_whole := (region1 m).stage_whole
  K := (region1 m).K
  fK := (region1 m).fK
  osem := (region1 m).osem
  ho := (region1 m).ho
  hbody c := ((region1 m).hbody c).toR
  hwaits := Pipeline.RDat.hwaits_of_owed_zero _ _ _ _ L₀ lv₀ 1 fun _ _ => rfl
  pre := (region1 m).pre
  post := (region1 m).post
  X := (region1 m).X
  Y := (region1 m).Y
  Z := (region1 m).Z
  hentry := (region1 m).hentry
  hin := (region1 m).hin
  hout := (region1 m).hout
  hexit c := (sep_mono (Entails.of_eq ((pdats m 1 c).toR_arraysAt_eq cfg1.N)) .rfl).trans ((region1 m).hexit c)

-- the relational record's fields are the exact record's up to unfolding the proof data family at the region's numeral
set_option backward.isDefEq.respectTransparency.types false in
/-- Region 2 over the relational proof data: the exact record field by field — the body obligation read relationally, the
    exit fed the arrays at the contents the exact data name, which is all the relational data allow. -/
def rregion2 : Pipeline.RDat.RegionSeg (pcfgs (F := F)) adm' (rdats m) () defs₀ 𝒱₀ L₀ lv₀ 2 where
  win := (region2 m).win
  block_pos := (region2 m).block_pos
  stage_whole := (region2 m).stage_whole
  K := (region2 m).K
  fK := (region2 m).fK
  osem := (region2 m).osem
  ho := (region2 m).ho
  hbody c := ((region2 m).hbody c).toR
  hwaits := Pipeline.RDat.hwaits_of_owed_zero _ _ _ _ L₀ lv₀ 2 fun _ _ => rfl
  pre := (region2 m).pre
  post := (region2 m).post
  X := (region2 m).X
  Y := (region2 m).Y
  Z := (region2 m).Z
  hentry := (region2 m).hentry
  hin := (region2 m).hin
  hout := (region2 m).hout
  hexit c := (sep_mono (Entails.of_eq ((pdats m 2 c).toR_arraysAt_eq cfg2.N)) .rfl).trans ((region2 m).hexit c)

/-! ## Region 3, its output window forgotten -/

/-- Three buffers as one family over region 3's windows. -/
def arrs3 (c : Dev nD) (F0 : Buf (Elt F) ((spec3 0).arr.view.loc (c : Thread nD τ))) (F1 : Buf (Elt F) ((spec3 1).arr.view.loc (c : Thread nD τ)))
    (F2 : Buf (Elt F) ((spec3 2).arr.view.loc (c : Thread nD τ))) : (w : Fin 3) → Buf (Elt F) ((spec3 w).arr.view.loc (c : Thread nD τ))
  | 0 => F0
  | 1 => F1
  | 2 => F2
  | ⟨_ + 3, h⟩ => absurd h (Nat.not_lt.2 (Nat.le_add_left _ _))

/-- At region 3's end each of its arrays is held at some contents the relational data allow: for the two input windows that
    is what the exact data name, for the forgotten output window it is anything. -/
theorem ends3 (c : Dev nD) :
    (((dat3 (E3 m) c).toRForget fgt3).arraysAt cfg3.N : sProp 𝕄) ⊢ iprop(∃ A, ⌜Ends3 m c A⌝ ∗ (dat3 (E3 m) c).arrays A) := by
  unfold Pipeline.RDat.arraysAt Pipeline.Dat.arrays
  rw [bigSep_W3]
  iintro ⟨⟨%F0, %h0, H0⟩, ⟨%F1, %h1, H1⟩, ⟨%F2, -, H2⟩⟩
  iexists arrs3 c F0 F1 F2
  isplitr
  · ipureintro
    exact ⟨((dat3 (E3 m) c).toRForget_arrAt_iff (fgt := fgt3) (w := 0) rfl _ _).mp h0,
      ((dat3 (E3 m) c).toRForget_arrAt_iff (fgt := fgt3) (w := 1) rfl _ _).mp h1⟩
  rw [bigSep_W3]
  isplitl [H0]; · iexact H0
  isplitl [H1]; · iexact H1
  iexact H2

-- a library lemma stated over the pinned configuration unifies with the printed one only when unification may unfold plain
-- definitions in a metavariable's type
set_option backward.isDefEq.respectTransparency.types false in
/-- Region 3 over the thread state: entered with every unscoped buffer at `W10`, left with them at `W11` of SOME contents of
    its arrays, those of the two input windows named. Its windows' arrays are split out of the unscoped buffers on entry and put
    back at whatever they hold on exit; the generator register goes into the region's invariant and comes back; nothing is
    owed; the kernel has no semaphore of its own. -/
def rregion3 : Pipeline.RDat.RegionSeg (pcfgs (F := F)) adm' (rdats m) () defs₀ 𝒱₀ L₀ lv₀ 3 where
  win := launch3.win.to₀
  block_pos := launch3.block_pos
  stage_whole := launch3.stage_whole
  K := PEmpty
  osem k := k.elim
  ho := Pipeline.OwnSemFacts.none _
  hbody c := (obligation3 (E3 m) c).toRForget
  hwaits := Pipeline.RDat.hwaits_of_owed_zero _ _ _ _ L₀ lv₀ 3 fun _ _ => rfl
  pre c := iprop(StableHlo.held (c : Thread nD τ) (Pipeline.ucRefs τ sig) (W10 m c) ∗ Rest c)
  post c := iprop(Last m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.RDat.arrays_of_unscopedBufs (p := 3) (pcfgs (F := F)) adm' (rdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m 3 c).Φ (Fin.last _) = Pipeline.ΦA spec3 c from rfl]; unfold Pipeline.ΦA
    iintro ⟨Hr, Hp⟩
    isplitl [Hp]; · iexact Hp
    isplitr; · iempintro
    iexact Hr
  hexit c := by
    refine (sep_mono (ends3 m c) .rfl).trans ?_
    iintro ⟨⟨%A, %hA, Ha⟩, HO, HY, Hrest⟩
    have hjoin := Pipeline.unscopedBufs_of_arrays (p := 3) (pcfgs (F := F)) adm' (Ix := Unit) (Name := ℕ) (U := UR sig nD τ) (Lvl := ℕ)
      launch3.win launch3.arr_whole c (pdats m) ((pdats m 3 c).share_full fun _ => rfl)
      (E3 m c) (fun b => W11 m c A b) A (left3 m c A) (kept3 m c A)
    rw [Pipeline.unscopedBufs_held] at hjoin
    imodintro
    isplitl [Ha Hrest HY]
    · isplitl [Ha Hrest]
      · iexists A
        isplitr; · ipureintro; exact hA
        iapply hjoin
        isplitl [Ha]
        · iexact Ha
        · iexact Hrest
      iexact HY
    unfold Pipeline.RDat.owesAt Pipeline.owesWithin
    icases HO with ⟨%W, -, HO⟩; iexists W; iexact HO

/-! ## @main as its items -/

abbrev ritems : List (Pipeline.RDat.Seg (pcfgs (F := F)) adm' (rdats m) () defs₀ 𝒱₀ L₀ lv₀) :=
  [ .region (rregion0 m),
    .host (stretch hostOps1 hostOps1_sub hostOps1_fresh (W1 m)),
    .region (rregion1 m),
    .host (stretch hostOps2 hostOps2_sub hostOps2_fresh (W3 m)),
    .host (stretch hostOps2_1 hostOps2_1_sub hostOps2_1_fresh (W4 m)),
    .host (stretch hostOps2_2 hostOps2_2_sub hostOps2_2_fresh (W5 m)),
    .host (stretch hostOps2_3 hostOps2_3_sub hostOps2_3_fresh (W6 m)),
    .host (stretch hostOps2_4 hostOps2_4_sub hostOps2_4_fresh (W7 m)),
    .region (rregion2 m),
    .host (stretch hostOps3 hostOps3_sub hostOps3_fresh (W9 m)),
    .region (rregion3 m) ]

/-- @main is the run of its items. -/
theorem main_ritems (c : Dev nD) : main (F := F) c = Pipeline.RDat.Seg.run (ritems m) := (main_chain c).trans (by chain_rfl)

/-- An unscoped TensorCore reference is among those the thread state holds. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the run leaves unchanged

A region changes its one output array and nothing else (an input window's array ends as it was entered); a stretch of host
operations changes the buffers its operations write and nothing else. So a buffer that is no region's output and that no host
operation writes holds at the end what it held at launch — whatever the scores' array then holds. -/

/-- Region 0 changes its output array only: any other buffer — an input window's array included — is as it was. -/
theorem W1_keep (c : Dev nD) (b : Ref sig .tc) (hb : b ≠ main_v0) : W1 m c (Proc.devRef .tc b) = W0 m c (Proc.devRef .tc b) := by
  by_cases h : ∃ w, Pipeline.arrRef spec0 w = b
  · obtain ⟨w, rfl⟩ := h
    rw [W1_arr]
    fin_cases w
    · exact ((dat0 (E0 m) c).arrAt_in 0 rfl _).trans (dat0_A (E0 m) c 0)
    · exact ((dat0 (E0 m) c).arrAt_in 1 rfl _).trans (dat0_A (E0 m) c 1)
    · exact absurd rfl hb
  · exact W1_other m c b fun w e => h ⟨w, e⟩

/-- Region 1 changes its output array only: any other buffer — an input window's array included — is as it was. -/
theorem W3_keep (c : Dev nD) (b : Ref sig .tc) (hb : b ≠ main_v19) : W3 m c (Proc.devRef .tc b) = W2 m c (Proc.devRef .tc b) := by
  by_cases h : ∃ w, Pipeline.arrRef spec1 w = b
  · obtain ⟨w, rfl⟩ := h
    rw [W3_arr]
    fin_cases w
    · exact ((dat1 (E1 m) c).arrAt_in 0 rfl _).trans (dat1_A (E1 m) c 0)
    · exact ((dat1 (E1 m) c).arrAt_in 1 rfl _).trans (dat1_A (E1 m) c 1)
    · exact ((dat1 (E1 m) c).arrAt_in 2 rfl _).trans (dat1_A (E1 m) c 2)
    · exact ((dat1 (E1 m) c).arrAt_in 3 rfl _).trans (dat1_A (E1 m) c 3)
    · exact ((dat1 (E1 m) c).arrAt_in 4 rfl _).trans (dat1_A (E1 m) c 4)
    · exact ((dat1 (E1 m) c).arrAt_in 5 rfl _).trans (dat1_A (E1 m) c 5)
    · exact absurd rfl hb
  · exact W3_other m c b fun w e => h ⟨w, e⟩

/-- Region 2 changes its output array only: any other buffer — an input window's array included — is as it was. -/
theorem W9_keep (c : Dev nD) (b : Ref sig .tc) (hb : b ≠ main_v57) : W9 m c (Proc.devRef .tc b) = W8 m c (Proc.devRef .tc b) := by
  by_cases h : ∃ w, Pipeline.arrRef spec2 w = b
  · obtain ⟨w, rfl⟩ := h
    rw [W9_arr]
    fin_cases w
    · exact ((dat2 (E2 m) c).arrAt_in 0 rfl _).trans (dat2_A (E2 m) c 0)
    · exact ((dat2 (E2 m) c).arrAt_in 1 rfl _).trans (dat2_A (E2 m) c 1)
    · exact ((dat2 (E2 m) c).arrAt_in 2 rfl _).trans (dat2_A (E2 m) c 2)
    · exact ((dat2 (E2 m) c).arrAt_in 3 rfl _).trans (dat2_A (E2 m) c 3)
    · exact ((dat2 (E2 m) c).arrAt_in 4 rfl _).trans (dat2_A (E2 m) c 4)
    · exact ((dat2 (E2 m) c).arrAt_in 5 rfl _).trans (dat2_A (E2 m) c 5)
    · exact ((dat2 (E2 m) c).arrAt_in 6 rfl _).trans (dat2_A (E2 m) c 6)
    · exact ((dat2 (E2 m) c).arrAt_in 7 rfl _).trans (dat2_A (E2 m) c 7)
    · exact absurd rfl hb
  · exact W9_other m c b fun w e => h ⟨w, e⟩

/-- Region 3 changes its output array only, whatever it leaves there: any other buffer — an input window's array included —
    is as it was. -/
theorem W11_keep (c : Dev nD) (A : (w : Fin 3) → Buf (Elt F) ((spec3 w).arr.view.loc (c : Thread nD τ))) (hA : Ends3 m c A)
    (b : Ref sig .tc) (hb : b ≠ main_v67) : W11 m c A (Proc.devRef .tc b) = W10 m c (Proc.devRef .tc b) := by
  by_cases h : ∃ w, Pipeline.arrRef spec3 w = b
  · obtain ⟨w, rfl⟩ := h
    rw [W11_arr]
    fin_cases w
    · exact hA.1.trans (((dat3 (E3 m) c).arrAt_in 0 rfl _).trans (dat3_A (E3 m) c 0))
    · exact hA.2.trans (((dat3 (E3 m) c).arrAt_in 1 rfl _).trans (dat3_A (E3 m) c 1))
    · exact absurd rfl hb
  · exact W11_other m c A b fun w e => h ⟨w, e⟩

/-- A buffer that is no region's output and that no host operation writes holds at the end what it held at launch. -/
theorem W11_untouched (c : Dev nD) (A : (w : Fin 3) → Buf (Elt F) ((spec3 w).arr.view.loc (c : Thread nD τ))) (hA : Ends3 m c A)
    (b : Ref sig .tc)
    (r0 : b ≠ main_v0) (s1 : b ∉ hostOps1_W) (r1 : b ≠ main_v19) (s2 : b ∉ hostOps2_W) (s3 : b ∉ hostOps2_1_W) (s4 : b ∉ hostOps2_2_W)
    (s5 : b ∉ hostOps2_3_W) (s6 : b ∉ hostOps2_4_W) (r2 : b ≠ main_v57) (s7 : b ∉ hostOps3_W) (r3 : b ≠ main_v67) :
    W11 m c A (Proc.devRef .tc b) = m ((c : Thread nD τ).loc b) :=
  calc W11 m c A (Proc.devRef .tc b)
    _ = W10 m c (Proc.devRef .tc b) := W11_keep m c A hA b r3
    _ = W9 m c (Proc.devRef .tc b) := StableHlo.after_of_writes_sub hostOps3 _ hostOps3_writes s7
    _ = W8 m c (Proc.devRef .tc b) := W9_keep m c b r2
    _ = W7 m c (Proc.devRef .tc b) := StableHlo.after_of_writes_sub hostOps2_4 _ hostOps2_4_writes s6
    _ = W6 m c (Proc.devRef .tc b) := StableHlo.after_of_writes_sub hostOps2_3 _ hostOps2_3_writes s5
    _ = W5 m c (Proc.devRef .tc b) := StableHlo.after_of_writes_sub hostOps2_2 _ hostOps2_2_writes s4
    _ = W4 m c (Proc.devRef .tc b) := StableHlo.after_of_writes_sub hostOps2_1 _ hostOps2_1_writes s3
    _ = W3 m c (Proc.devRef .tc b) := StableHlo.after_of_writes_sub hostOps2 _ hostOps2_writes s2
    _ = W2 m c (Proc.devRef .tc b) := W3_keep m c b r1
    _ = W1 m c (Proc.devRef .tc b) := StableHlo.after_of_writes_sub hostOps1 _ hostOps1_writes s1
    _ = W0 m c (Proc.devRef .tc b) := W1_keep m c b r0
    _ = m ((c : Thread nD τ).loc b) := rfl

/-- What the last thread state says of a final memory: every unscoped buffer at `W11` of some contents of region 3's arrays,
    those of its input windows named. -/
def Final (c : Dev nD) (s : MemSt nD τ sig (Elt F)) : Prop :=
  ∃ A, Ends3 m c A ∧ ∀ b ∈ Pipeline.ucRefs τ sig, s.mem (((c : Thread nD τ)).1, b) = W11 m c A b

/-- An unscoped buffer that is no region's output and that no host operation writes: a final memory holds its launch contents. -/
theorem Final.kept {c : Dev nD} {s : MemSt nD τ sig (Elt F)} (h : Final m c s) (b : Ref sig .tc)
    (hu : ¬ (Proc.devRef .tc b : DevRef τ sig).isScoped)
    (r0 : b ≠ main_v0) (s1 : b ∉ hostOps1_W) (r1 : b ≠ main_v19) (s2 : b ∉ hostOps2_W) (s3 : b ∉ hostOps2_1_W) (s4 : b ∉ hostOps2_2_W)
    (s5 : b ∉ hostOps2_3_W) (s6 : b ∉ hostOps2_4_W) (r2 : b ≠ main_v57) (s7 : b ∉ hostOps3_W) (r3 : b ≠ main_v67) :
    s.mem ((c.tc : Thread nD τ).loc b) = m ((c.tc : Thread nD τ).loc b) := by
  obtain ⟨A, hA, hs⟩ := h
  exact (hs (Proc.devRef .tc b) (held_ref b hu)).trans (W11_untouched m c A hA b r0 s1 r1 s2 s3 s4 s5 s6 r2 s7 r3)

/-! ## The run -/

-- the launch theorem's implicit arguments are found by unifying its conclusion with this one, which takes unfolding plain definitions in
-- a metavariable's type
set_option backward.isDefEq.respectTransparency.types false in
/-- THE FRAME: from any memory with zero counters, every weakly fair execution of @main on the TensorCores terminates, nothing
    faulting, and in every final state every argument array of every core holds its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.RDat.θ_run_regions_kit (pcfgs (F := F)) adm' (rdats m) () cellOf_inj emb₁ defs₀ 𝒱₀ L₀ lv₀ m ρ main (ritems m)
    (fun c Q => by rw [main_ritems m c])
    (by simp only [ritems, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Last m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := Final m)
    (hfin := fun c s' => by
      iintro ⟨⟨⟨%A, %hA, Hh⟩, -⟩, HSI⟩
      unfold StableHlo.held
      imodintro
      ihave H := (pointsTo_read_all (Pipeline.ucRefs τ sig) (fun b => (((c : Thread nD τ)).1, b)) (W11 m c A) s') $$ [Hh HSI]
      · isplitl [Hh] <;> iassumption
      icases H with ⟨%h, HSI⟩
      isplitr; · ipureintro; exact ⟨A, hA, h⟩
      iexact HSI)
    (hQ := fun s h c => ⟨(h c).kept m main_arg0 (by decide) (by decide) (by decide) (by decide) (by decide) (by decide) (by decide) (by decide) (by decide) (by decide) (by decide) (by decide),
      (h c).kept m main_arg1 (by decide) (by decide) (by decide) (by decide) (by decide) (by decide) (by decide) (by decide) (by decide) (by decide) (by decide) (by decide),
      (h c).kept m main_arg2 (by decide) (by decide) (by decide) (by decide) (by decide) (by decide) (by decide) (by decide) (by decide) (by decide) (by decide) (by decide),
      (h c).kept m main_arg3 (by decide) (by decide) (by decide) (by decide) (by decide) (by decide) (by decide) (by decide) (by decide) (by decide) (by decide) (by decide),
      (h c).kept m main_arg4 (by decide) (by decide) (by decide) (by decide) (by decide) (by decide) (by decide) (by decide) (by decide) (by decide) (by decide) (by decide),
      (h c).kept m main_arg5 (by decide) (by decide) (by decide) (by decide) (by decide) (by decide) (by decide) (by decide) (by decide) (by decide) (by decide) (by decide),
      (h c).kept m main_arg6 (by decide) (by decide) (by decide) (by decide) (by decide) (by decide) (by decide) (by decide) (by decide) (by decide) (by decide) (by decide),
      (h c).kept m main_arg7 (by decide) (by decide) (by decide) (by decide) (by decide) (by decide) (by decide) (by decide) (by decide) (by decide) (by decide) (by decide),
      (h c).kept m main_arg8 (by decide) (by decide) (by decide) (by decide) (by decide) (by decide) (by decide) (by decide) (by decide) (by decide) (by decide) (by decide),
      (h c).kept m main_arg9 (by decide) (by decide) (by decide) (by decide) (by decide) (by decide) (by decide) (by decide) (by decide) (by decide) (by decide) (by decide),
      (h c).kept m main_arg10 (by decide) (by decide) (by decide) (by decide) (by decide) (by decide) (by decide) (by decide) (by decide) (by decide) (by decide) (by decide),
      (h c).kept m main_arg11 (by decide) (by decide) (by decide) (by decide) (by decide) (by decide) (by decide) (by decide) (by decide) (by decide) (by decide) (by decide),
      (h c).kept m main_arg12 (by decide) (by decide) (by decide) (by decide) (by decide) (by decide) (by decide) (by decide) (by decide) (by decide) (by decide) (by decide),
      (h c).kept m main_arg13 (by decide) (by decide) (by decide) (by decide) (by decide) (by decide) (by decide) (by decide) (by decide) (by decide) (by decide) (by decide),
      (h c).kept m main_arg14 (by decide) (by decide) (by decide) (by decide) (by decide) (by decide) (by decide) (by decide) (by decide) (by decide) (by decide) (by decide),
      (h c).kept m main_arg15 (by decide) (by decide) (by decide) (by decide) (by decide) (by decide) (by decide) (by decide) (by decide) (by decide) (by decide) (by decide),
      (h c).kept m main_arg16 (by decide) (by decide) (by decide) (by decide) (by decide) (by decide) (by decide) (by decide) (by decide) (by decide) (by decide) (by decide),
      (h c).kept m main_arg17 (by decide) (by decide) (by decide) (by decide) (by decide) (by decide) (by decide) (by decide) (by decide) (by decide) (by decide) (by decide)⟩)

end Cert.Kernel.Hand

end
-- ==== Proof.Region0.lean ====
/-
  The first product, m = emb · W, one block of 2000 rows per grid point (25 points, 50000 = 25 · 2000 rows, so no
  block overhangs). Window 0 stages rows [2000 t, 2000 t + 2000) of emb, window 1 the whole 256 × 256 matrix W (its
  block index never moves), window 2 receives the product block, stored whole by the body's one store. Stated at any
  float instance: the body's run names its stored value only through the payload `k0_pay1`.
-/
import proofs.«133217_j69260642615845_1_alg».proof.Proof.Gen.KernelIdeal.Launch
import proofs.«133217_j69260642615845_1_alg».proof.Proof.Gen.KernelIdeal.Skeleton
import proofs.«133217_j69260642615845_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks the body is handed -/

/-- Block `t` of window `w`'s array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of emb: fetched at every point. -/
theorem before0_rows {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The matrix W: fetched once, its block index constant, so the buffer holds it at every point. -/
theorem before0_mat {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What the one store leaves -/

abbrev whole0_rows : Rect S2000x256 := Rect.unit (s := S2000x256) ![0, 0] S2000x256.size inb_S2000x256_S2000x256_0_0
abbrev whole0_mat : Rect S256x256 := Rect.unit (s := S256x256) ![0, 0] S256x256.size inb_S256x256_S256x256_0_0

/-- The product block: the payload of the loaded rows and matrix, stored over the whole buffer. -/
def prod0 (x0 : Vec F S2000x256 .f32) (x1 : Vec F S256x256 .f32) : Vec F S2000x256 .f32 :=
  View.canon [⟨whole0_rows, k0_pay1 (View.ld x0 whole0_rows) (View.ld x1 whole0_mat)⟩]

theorem covered0 (p0 : Vec F S2000x256 .f32) (y : S2000x256.Idx) :
    ∃ pc ∈ ([⟨whole0_rows, p0⟩] : List (View.Piece (Elt F) S2000x256 .f32)), y ∈ pc.1.set :=
  View.cover_of_tiled [⟨whole0_rows, p0⟩] S2000x256.size (by rfl) y

/-! ## The body -/

set_option maxHeartbeats 1000000 in
/-- On whole staging buffers holding a block of rows and the matrix, the body ends with both as they were and the third
    buffer at the product block. -/
theorem body0 (c : Dev nD) (E : Set ℕ) (i : grid0.Coords)
    (a1 : Memref sig .tc .vmem S2000x256 .f32) (h1 : a1.IsWhole) (a2 : Memref sig .tc .vmem S256x256 .f32) (h2 : a2.IsWhole)
    (a3 : Memref sig .tc .vmem S2000x256 .f32) (h3 : a3.IsWhole)
    (x0 : Vec F S2000x256 .f32) (x1 : Vec F S256x256 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (prod0 x0 x1)) -∗ K ⟨⟩))
      ⊢ wp frame (wpE (defs₀ (F := F)) Variants.none c none) E (cc0__mm_kernel i a1 h1 a2 h2 a3 h3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered0 _)

/-! ## The proof data and the obligation -/

/-- Arrays as the region finds them; after the body each input buffer at its block, the output buffer at the product block;
    the invariant is the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after_rows (c : Dev nD) (t : Fin cfg0.N) : (dat0 V c).after 0 t = blk0 V c 0 t := by dsimp only [dat0]
theorem dat0_after_mat (c : Dev nD) (t : Fin cfg0.N) : (dat0 V c).after 1 t = blk0 V c 1 t := by dsimp only [dat0]
theorem dat0_after_out (c : Dev nD) (t : Fin cfg0.N) : (dat0 V c).after 2 t = prod0 (blk0 V c 0 t) (blk0 V c 1 t) := by dsimp only [dat0]

theorem dat0_before_rows (c : Dev nD) (t : Fin cfg0.N) (d) : (dat0 V c).before 0 t d = blk0 V c 0 t :=
  before0_rows V (dat0 V c) (dat0_A V c 0) (dat0_after_rows V c) t d
theorem dat0_before_mat (c : Dev nD) (t : Fin cfg0.N) (d) : (dat0 V c).before 1 t d = blk0 V c 1 t :=
  before0_mat V (dat0 V c) (dat0_A V c 1) (dat0_after_mat V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so `body0` applies; the invariant and what the core owes
    pass through unread. -/
theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_rows, dat0_before_mat]
  rw [show (dat0 V c).Φ t.succ = (dat0 V c).Φ t.castSucc from rfl,
    show (dat0 V c).owesAt () t.succ = (dat0 V c).owesAt () t.castSucc from rfl,
    dat0_after_rows, dat0_after_mat, dat0_after_out]
  iintro ⟨HΦ, Ho, ⟨%d0, H0⟩, ⟨%d1, H1⟩, ⟨%d2, H2⟩⟩
  iapply (body0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem obligation0 (c : Dev nD) : BodyObligation (dat0 (F := F) V c) (defs₀ (F := F)) Variants.none () Set.univ := fun t => by
  rw [bigSep_W0, bigSep_W0]
  exact point0 V c t

end Cert.KernelIdeal.Hand

end
-- ==== Proof.Region1.lean ====
/-
  The gated update: one block of 2000 rows per grid point (25 points, no overhang). Windows 0 and 1 stage rows
  [2000 t, 2000 t + 2000) of the aggregated messages and of emb; windows 2 to 5 stage, whole and once, the two transposed
  256 × 768 weight matrices and the two bias rows; window 6 receives the updated rows, stored whole by the body's one store.
  At any float instance: the stored value is named only through the payload `k1_pay1`.
-/
import proofs.«133217_j69260642615845_1_alg».proof.Proof.Gen.KernelIdeal.Launch
import proofs.«133217_j69260642615845_1_alg».proof.Proof.Gen.KernelIdeal.Skeleton
import proofs.«133217_j69260642615845_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks the body is handed -/

/-- Block `t` of window `w`'s array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not: where it is not fetched its block index
    has not moved. One statement per window (the window is a numeral in each). -/
theorem before1_w0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_w1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_w2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_w3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_w4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_w5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-! ## What the one store leaves -/

abbrev whole1_rows : Rect S2000x256 := Rect.unit (s := S2000x256) ![0, 0] S2000x256.size inb_S2000x256_S2000x256_0_0
abbrev whole1_mat : Rect S256x768 := Rect.unit (s := S256x768) ![0, 0] S256x768.size inb_S256x768_S256x768_0_0
abbrev whole1_bias : Rect S1x768 := Rect.unit (s := S1x768) ![0, 0] S1x768.size inb_S1x768_S1x768_0_0

/-- The updated rows: the payload of the six loaded blocks, stored over the whole buffer. -/
def upd1 (x0 x1 : Vec F S2000x256 .f32) (x2 x3 : Vec F S256x768 .f32) (x4 x5 : Vec F S1x768 .f32) : Vec F S2000x256 .f32 :=
  View.canon [⟨whole1_rows, k1_pay1 (View.ld x0 whole1_rows) (View.ld x1 whole1_rows) (View.ld x2 whole1_mat) (View.ld x3 whole1_mat)
    (View.ld x4 whole1_bias) (View.ld x5 whole1_bias)⟩]

theorem covered1 (p0 : Vec F S2000x256 .f32) (y : S2000x256.Idx) :
    ∃ pc ∈ ([⟨whole1_rows, p0⟩] : List (View.Piece (Elt F) S2000x256 .f32)), y ∈ pc.1.set :=
  View.cover_of_tiled [⟨whole1_rows, p0⟩] S2000x256.size (by rfl) y

/-! ## The body -/

set_option maxHeartbeats 1000000 in
/-- On whole staging buffers holding the six input blocks, the body ends with them as they were and the seventh buffer at the
    updated rows. -/
theorem body1 (c : Dev nD) (E : Set ℕ) (i : grid1.Coords)
    (a1 : Memref sig .tc .vmem S2000x256 .f32) (h1 : a1.IsWhole) (a2 : Memref sig .tc .vmem S2000x256 .f32) (h2 : a2.IsWhole)
    (a3 : Memref sig .tc .vmem S256x768 .f32) (h3 : a3.IsWhole) (a4 : Memref sig .tc .vmem S256x768 .f32) (h4 : a4.IsWhole)
    (a5 : Memref sig .tc .vmem S1x768 .f32) (h5 : a5.IsWhole) (a6 : Memref sig .tc .vmem S1x768 .f32) (h6 : a6.IsWhole)
    (a7 : Memref sig .tc .vmem S2000x256 .f32) (h7 : a7.IsWhole)
    (x0 x1 : Vec F S2000x256 .f32) (x2 x3 : Vec F S256x768 .f32) (x4 x5 : Vec F S1x768 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (upd1 x0 x1 x2 x3 x4 x5)) -∗ K ⟨⟩))
      ⊢ wp frame (wpE (defs₀ (F := F)) Variants.none c none) E (cc1__gru_kernel i a1 h1 a2 h2 a3 h3 a4 h4 a5 h5 a6 h6 a7 h7) K := by
  simp only [cc1__gru_kernel_eq_skeleton]; unfold cc1__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (covered1 _)

/-! ## The proof data and the obligation -/

/-- Arrays as the region finds them; after the body each input buffer at its block, the output buffer at the updated rows;
    the invariant is the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => upd1 (blk1 V c 0 t) (blk1 V c 1 t) (blk1 V c 2 t) (blk1 V c 3 t) (blk1 V c 4 t) (blk1 V c 5 t)
  Φ _ := Pipeline.ΦA spec1 c
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after_out (c : Dev nD) (t : Fin cfg1.N) : (dat1 V c).after 6 t
    = upd1 (blk1 V c 0 t) (blk1 V c 1 t) (blk1 V c 2 t) (blk1 V c 3 t) (blk1 V c 4 t) (blk1 V c 5 t) := by dsimp only [dat1]

theorem dat1_before0 (c : Dev nD) (t : Fin cfg1.N) (d) : (dat1 V c).before 0 t d = blk1 V c 0 t :=
  before1_w0 V (dat1 V c) (dat1_A V c 0) (dat1_after0 V c) t d
theorem dat1_before1 (c : Dev nD) (t : Fin cfg1.N) (d) : (dat1 V c).before 1 t d = blk1 V c 1 t :=
  before1_w1 V (dat1 V c) (dat1_A V c 1) (dat1_after1 V c) t d
theorem dat1_before2 (c : Dev nD) (t : Fin cfg1.N) (d) : (dat1 V c).before 2 t d = blk1 V c 2 t :=
  before1_w2 V (dat1 V c) (dat1_A V c 2) (dat1_after2 V c) t d
theorem dat1_before3 (c : Dev nD) (t : Fin cfg1.N) (d) : (dat1 V c).before 3 t d = blk1 V c 3 t :=
  before1_w3 V (dat1 V c) (dat1_A V c 3) (dat1_after3 V c) t d
theorem dat1_before4 (c : Dev nD) (t : Fin cfg1.N) (d) : (dat1 V c).before 4 t d = blk1 V c 4 t :=
  before1_w4 V (dat1 V c) (dat1_A V c 4) (dat1_after4 V c) t d
theorem dat1_before5 (c : Dev nD) (t : Fin cfg1.N) (d) : (dat1 V c).before 5 t d = blk1 V c 5 t :=
  before1_w5 V (dat1 V c) (dat1_A V c 5) (dat1_after5 V c) t d

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it hands back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers hold their blocks, so `body1` applies; the invariant and what the core owes
    pass through unread. -/
theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body1 c Set.univ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation1 (c : Dev nD) : BodyObligation (dat1 (F := F) V c) (defs₀ (F := F)) Variants.none () Set.univ := fun t => by
  rw [bigSep_W1, bigSep_W1]
  exact point1 V c t

end Cert.KernelIdeal.Hand

end
-- ==== Proof.Region2.lean ====
/-
  The attention gate: one block of 2048 session nodes per grid point (6 points, 12288 = 6 · 2048 rows, no overhang).
  Windows 0 and 1 stage rows [2048 t, 2048 t + 2048) of the repeated last-node rows and of the node rows; windows 2 to 7
  stage, whole and once, the first transposed weight matrix, its bias row, the second transposed weight matrix, its bias
  row, the scoring row and the scoring offset; window 8 receives the weighted node rows, stored whole by the one store.
  At any float instance: the stored value is named only through the payload `k2_pay1`, which takes the second matrix
  BEFORE the first bias row (the order of the body's loads).
-/
import proofs.«133217_j69260642615845_1_alg».proof.Proof.Gen.KernelIdeal.Launch
import proofs.«133217_j69260642615845_1_alg».proof.Proof.Gen.KernelIdeal.Skeleton
import proofs.«133217_j69260642615845_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks the body is handed -/

/-- Block `t` of window `w`'s array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, fetched there or not: where it is not fetched its block index
    has not moved. One statement per window (the window is a numeral in each). -/
theorem before2_w0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_w1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_w2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_w3 {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
theorem before2_w4 {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)
theorem before2_w5 {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)
theorem before2_w6 {c : Dev nD} (dat : Dat τ (Elt F) Unit ℕ (UR sig nD τ) ℕ cfg2 c) (hA : dat.A 6 = V c (Pipeline.arrRef spec2 6))
    (hafter : ∀ t, dat.after 6 t = blk2 V c 6 t) (t : Fin cfg2.N) (d) : dat.before 6 t d = blk2 V c 6 t :=
  (dat.before_in_eq_fetched 6 rfl (fun _ => rfl) (fun _ _ _ => rfl) (fun t => by rw [hafter]; unfold Dat.blockOf blk2; rw [hA]; try rfl) t d).trans
    (by unfold Dat.fetched Dat.blockOf blk2; rw [hA]; try rfl)
theorem before2_w7 {c : Dev nD} (dat : Dat τ (Elt F) Unit ℕ (UR sig nD τ) ℕ cfg2 c) (hA : dat.A 7 = V c (Pipeline.arrRef spec2 7))
    (hafter : ∀ t, dat.after 7 t = blk2 V c 7 t) (t : Fin cfg2.N) (d) : dat.before 7 t d = blk2 V c 7 t :=
  (dat.before_in_eq_fetched 7 rfl (fun _ => rfl) (fun _ _ _ => rfl) (fun t => by rw [hafter]; unfold Dat.blockOf blk2; rw [hA]; try rfl) t d).trans
    (by unfold Dat.fetched Dat.blockOf blk2; rw [hA]; try rfl)

/-! ## What the one store leaves -/

abbrev whole2_rows : Rect S2048x256 := Rect.unit (s := S2048x256) ![0, 0] S2048x256.size inb_S2048x256_S2048x256_0_0
abbrev whole2_mat : Rect S256x256 := Rect.unit (s := S256x256) ![0, 0] S256x256.size inb_S256x256_S256x256_0_0
abbrev whole2_row : Rect S1x256 := Rect.unit (s := S1x256) ![0, 0] S1x256.size inb_S1x256_S1x256_0_0
abbrev whole2_one : Rect S1x1 := Rect.unit (s := S1x1) ![0, 0] S1x1.size inb_S1x1_S1x1_0_0

/-- The weighted node rows: the payload of the eight loaded blocks (windows 0, 1, 2, 4, 3, 5, 6, 7 in the payload's order),
    stored over the whole buffer. -/
def wgt2 (x0 x1 : Vec F S2048x256 .f32) (x2 : Vec F S256x256 .f32) (x3 : Vec F S1x256 .f32) (x4 : Vec F S256x256 .f32)
    (x5 x6 : Vec F S1x256 .f32) (x7 : Vec F S1x1 .f32) : Vec F S2048x256 .f32 :=
  View.canon [⟨whole2_rows, k2_pay1 (View.ld x0 whole2_rows) (View.ld x1 whole2_rows) (View.ld x2 whole2_mat) (View.ld x4 whole2_mat)
    (View.ld x3 whole2_row) (View.ld x5 whole2_row) (View.ld x6 whole2_row) (View.ld x7 whole2_one)⟩]

theorem covered2 (p0 : Vec F S2048x256 .f32) (y : S2048x256.Idx) :
    ∃ pc ∈ ([⟨whole2_rows, p0⟩] : List (View.Piece (Elt F) S2048x256 .f32)), y ∈ pc.1.set :=
  View.cover_of_tiled [⟨whole2_rows, p0⟩] S2048x256.size (by rfl) y

/-! ## The body -/

set_option maxHeartbeats 1000000 in
/-- On whole staging buffers holding the eight input blocks, the body ends with them as they were and the ninth buffer at the
    weighted node rows. -/
theorem body2 (c : Dev nD) (E : Set ℕ) (i : grid2.Coords)
    (a1 : Memref sig .tc .vmem S2048x256 .f32) (h1 : a1.IsWhole) (a2 : Memref sig .tc .vmem S2048x256 .f32) (h2 : a2.IsWhole)
    (a3 : Memref sig .tc .vmem S256x256 .f32) (h3 : a3.IsWhole) (a4 : Memref sig .tc .vmem S1x256 .f32) (h4 : a4.IsWhole)
    (a5 : Memref sig .tc .vmem S256x256 .f32) (h5 : a5.IsWhole) (a6 : Memref sig .tc .vmem S1x256 .f32) (h6 : a6.IsWhole)
    (a7 : Memref sig .tc .vmem S1x256 .f32) (h7 : a7.IsWhole) (a8 : Memref sig .tc .vmem S1x1 .f32) (h8 : a8.IsWhole)
    (a9 : Memref sig .tc .vmem S2048x256 .f32) (h9 : a9.IsWhole)
    (x0 x1 : Vec F S2048x256 .f32) (x2 : Vec F S256x256 .f32) (x3 : Vec F S1x256 .f32) (x4 : Vec F S256x256 .f32)
    (x5 x6 : Vec F S1x256 .f32) (x7 : Vec F S1x1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7
        ∗ (∃ d, owns (c : Thread nD τ) a9 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7
            ∗ owns (c : Thread nD τ) a9 fullShare (wgt2 x0 x1 x2 x3 x4 x5 x6 x7)) -∗ K ⟨⟩))
      ⊢ wp frame (wpE (defs₀ (F := F)) Variants.none c none) E
          (cc2__gate_kernel i a1 h1 a2 h2 a3 h3 a4 h4 a5 h5 a6 h6 a7 h7 a8 h8 a9 h9) K := by
  simp only [cc2__gate_kernel_eq_skeleton]; unfold cc2__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (covered2 _)

/-! ## The proof data and the obligation -/

/-- Arrays as the region finds them; after the body each input buffer at its block, the output buffer at the weighted rows;
    the invariant is the scoped rest and the generator register, untouched; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => wgt2 (blk2 V c 0 t) (blk2 V c 1 t) (blk2 V c 2 t) (blk2 V c 3 t) (blk2 V c 4 t) (blk2 V c 5 t) (blk2 V c 6 t) (blk2 V c 7 t)
  Φ _ := Pipeline.ΦA spec2 c
  q _ := fullShare
  owed _ := 0

theorem dat2_A (c : Dev nD) (w : Fin cfg2.W) : (dat2 V c).A w = V c (Pipeline.arrRef spec2 w) := by dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) : (dat2 V c).after 4 t = blk2 V c 4 t := by dsimp only [dat2]
theorem dat2_after5 (c : Dev nD) (t : Fin cfg2.N) : (dat2 V c).after 5 t = blk2 V c 5 t := by dsimp only [dat2]
theorem dat2_after6 (c : Dev nD) (t : Fin cfg2.N) : (dat2 V c).after 6 t = blk2 V c 6 t := by dsimp only [dat2]
theorem dat2_after7 (c : Dev nD) (t : Fin cfg2.N) : (dat2 V c).after 7 t = blk2 V c 7 t := by dsimp only [dat2]
theorem dat2_after_out (c : Dev nD) (t : Fin cfg2.N) : (dat2 V c).after 8 t
    = wgt2 (blk2 V c 0 t) (blk2 V c 1 t) (blk2 V c 2 t) (blk2 V c 3 t) (blk2 V c 4 t) (blk2 V c 5 t) (blk2 V c 6 t) (blk2 V c 7 t) := by dsimp only [dat2]

theorem dat2_before0 (c : Dev nD) (t : Fin cfg2.N) (d) : (dat2 V c).before 0 t d = blk2 V c 0 t :=
  before2_w0 V (dat2 V c) (dat2_A V c 0) (dat2_after0 V c) t d
theorem dat2_before1 (c : Dev nD) (t : Fin cfg2.N) (d) : (dat2 V c).before 1 t d = blk2 V c 1 t :=
  before2_w1 V (dat2 V c) (dat2_A V c 1) (dat2_after1 V c) t d
theorem dat2_before2 (c : Dev nD) (t : Fin cfg2.N) (d) : (dat2 V c).before 2 t d = blk2 V c 2 t :=
  before2_w2 V (dat2 V c) (dat2_A V c 2) (dat2_after2 V c) t d
theorem dat2_before3 (c : Dev nD) (t : Fin cfg2.N) (d) : (dat2 V c).before 3 t d = blk2 V c 3 t :=
  before2_w3 V (dat2 V c) (dat2_A V c 3) (dat2_after3 V c) t d
theorem dat2_before4 (c : Dev nD) (t : Fin cfg2.N) (d) : (dat2 V c).before 4 t d = blk2 V c 4 t :=
  before2_w4 V (dat2 V c) (dat2_A V c 4) (dat2_after4 V c) t d
theorem dat2_before5 (c : Dev nD) (t : Fin cfg2.N) (d) : (dat2 V c).before 5 t d = blk2 V c 5 t :=
  before2_w5 V (dat2 V c) (dat2_A V c 5) (dat2_after5 V c) t d
theorem dat2_before6 (c : Dev nD) (t : Fin cfg2.N) (d) : (dat2 V c).before 6 t d = blk2 V c 6 t :=
  before2_w6 V (dat2 V c) (dat2_A V c 6) (dat2_after6 V c) t d
theorem dat2_before7 (c : Dev nD) (t : Fin cfg2.N) (d) : (dat2 V c).before 7 t d = blk2 V c 7 t :=
  before2_w7 V (dat2 V c) (dat2_A V c 7) (dat2_after7 V c) t d

/-- What the body is called with at point `t`, the windows one by one, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it hands back. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the input buffers hold their blocks, so `body2` applies; the invariant and what the core owes
    pass through unread. -/
theorem point2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3, dat2_before4, dat2_before5, dat2_before6, dat2_before7]
  rw [show (dat2 V c).Φ t.succ = (dat2 V c).Φ t.castSucc from rfl,
    show (dat2 V c).owesAt () t.succ = (dat2 V c).owesAt () t.castSucc from rfl,
    dat2_after0, dat2_after1, dat2_after2, dat2_after3, dat2_after4, dat2_after5, dat2_after6, dat2_after7, dat2_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body2 c Set.univ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem obligation2 (c : Dev nD) : BodyObligation (dat2 (F := F) V c) (defs₀ (F := F)) Variants.none () Set.univ := fun t => by
  rw [bigSep_W2, bigSep_W2]
  exact point2 V c t

end Cert.KernelIdeal.Hand

end
-- ==== Proof.Region3.lean ====
/-
  The scores: s_h · embᵀ, one block of 2048 items per grid point (25 points). 50000 = 24 · 2048 + 848, so the last block of
  emb (window 1) and the last block of the scores (window 2) overhang their arrays: at point 24 only 848 rows of emb are
  fetched, the other 1200 rows of the staging buffer hold words nothing names, and only 848 columns of the product block are
  written back. Window 0 stages the whole 1024 × 256 session matrix once. The body's one store writes the whole product block;
  its columns past the array's end are computed from the unnamed rows and are never written back.

  What the staging buffers hold is therefore stated only on the part the transfers move: a buffer of window 1 holds its
  block of emb filled out with some filler `d`, and the product block is named through the zero filler. That the moved
  columns of the product do not depend on the filler (`Local3`) is a property of the matrix product — column j of
  x · yᵀ reads row j of y only — which holds where the product is a sum over the contracted axis and is taken here as a
  hypothesis, stated for the float instance at hand.
-/
import proofs.«133217_j69260642615845_1_alg».proof.Proof.Gen.KernelIdeal.Launch
import proofs.«133217_j69260642615845_1_alg».proof.Proof.Gen.KernelIdeal.Skeleton
import proofs.«133217_j69260642615845_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks the body is handed -/

/-- The part of block `t` of window `w`'s array that lies inside the array, as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The filler that names the product block: the zero word. -/
abbrev zeroFill : S2048x256.Idx → Elt F .f32 := fun _ => Scalar.ofBits .f32 0#32

/-- Block `t` of emb filled out to a whole staging buffer by `d`. -/
abbrev items3 (c : Dev nD) (t : Fin cfg3.N) (d : S2048x256.Idx → Elt F .f32) : S2048x256.Idx → Elt F .f32 :=
  win3_1.fill (grid3.coords t) d (blk3 V c 1 t)

/-- The session matrix: fetched once, its block index constant, so the buffer holds it at every point. -/
theorem before3_sess {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-! ## What the one store leaves -/

abbrev whole3_sess : Rect S1024x256 := Rect.unit (s := S1024x256) ![0, 0] S1024x256.size inb_S1024x256_S1024x256_0_0
abbrev whole3_items : Rect S2048x256 := Rect.unit (s := S2048x256) ![0, 0] S2048x256.size inb_S2048x256_S2048x256_0_0
abbrev whole3_out : Rect S1024x2048 := Rect.unit (s := S1024x2048) ![0, 0] S1024x2048.size inb_S1024x2048_S1024x2048_0_0

/-- The product block: the payload of the loaded session matrix and items, stored over the whole buffer. -/
def prod3 (x0 : Vec F S1024x256 .f32) (x1 : Vec F S2048x256 .f32) : Vec F S1024x2048 .f32 :=
  View.canon [⟨whole3_out, k3_pay1 (View.ld x0 whole3_sess) (View.ld x1 whole3_items)⟩]

theorem covered3 (p0 : Vec F S1024x2048 .f32) (y : S1024x2048.Idx) :
    ∃ pc ∈ ([⟨whole3_out, p0⟩] : List (View.Piece (Elt F) S1024x2048 .f32)), y ∈ pc.1.set :=
  View.cover_of_tiled [⟨whole3_out, p0⟩] S1024x2048.size (by rfl) y

/-- The moved columns of the product do not depend on what fills the items' buffer past the array's end. -/
def Local3 : Prop := ∀ (t : Fin cfg3.N) (x0 : Vec F S1024x256 .f32) (e : (win3_1.xblock (grid3.coords t)).Idx → Elt F .f32)
    (d d' : S2048x256.Idx → Elt F .f32),
  win3_2.cut (grid3.coords t) (prod3 x0 (win3_1.fill (grid3.coords t) d e))
    = win3_2.cut (grid3.coords t) (prod3 x0 (win3_1.fill (grid3.coords t) d' e))

/-! ## The body -/

set_option maxHeartbeats 1000000 in
/-- On whole staging buffers holding the session matrix and some items, the body ends with both as they were and the third
    buffer at their product block. -/
theorem body3 (c : Dev nD) (E : Set ℕ) (i : grid3.Coords)
    (a1 : Memref sig .tc .vmem S1024x256 .f32) (h1 : a1.IsWhole) (a2 : Memref sig .tc .vmem S2048x256 .f32) (h2 : a2.IsWhole)
    (a3 : Memref sig .tc .vmem S1024x2048 .f32) (h3 : a3.IsWhole)
    (x0 : Vec F S1024x256 .f32) (x1 : Vec F S2048x256 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (prod3 x0 x1)) -∗ K ⟨⟩))
      ⊢ wp frame (wpE (defs₀ (F := F)) Variants.none c none) E (cc3__final_kernel i a1 h1 a2 h2 a3 h3) K := by
  simp only [cc3__final_kernel_eq_skeleton]; unfold cc3__final_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered3 _)

/-! ## The proof data and the obligation -/

/-- Arrays as the region finds them; after the body the session buffer at the session matrix, an items buffer at its block
    (zero past the array's end), the output buffer at the product of the two; the invariant is the scoped rest and the
    generator register, untouched; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => items3 V c t zeroFill
    | ⟨2, _⟩ => prod3 (blk3 V c 0 t) (items3 V c t zeroFill)
  Φ _ := Pipeline.ΦA spec3 c
  q _ := fullShare
  owed _ := 0

theorem dat3_A (c : Dev nD) (w : Fin cfg3.W) : (dat3 V c).A w = V c (Pipeline.arrRef spec3 w) := by dsimp only [dat3]
theorem dat3_after_sess (c : Dev nD) (t : Fin cfg3.N) : (dat3 V c).after 0 t = blk3 V c 0 t := by dsimp only [dat3]
theorem dat3_after_items (c : Dev nD) (t : Fin cfg3.N) : (dat3 V c).after 1 t = items3 V c t zeroFill := by dsimp only [dat3]
theorem dat3_after_out (c : Dev nD) (t : Fin cfg3.N) : (dat3 V c).after 2 t = prod3 (blk3 V c 0 t) (items3 V c t zeroFill) := by
  dsimp only [dat3]

theorem dat3_before_sess (c : Dev nD) (t : Fin cfg3.N) (d) : (dat3 V c).before 0 t d = blk3 V c 0 t :=
  before3_sess V (dat3 V c) (dat3_A V c 0) (dat3_after_sess V c) t d

/-- An items buffer is fetched at every point: it holds its block inside the array and the filler `d` past its end. -/
theorem dat3_before_items (c : Dev nD) (t : Fin cfg3.N) (d) : (dat3 V c).before 1 t d = items3 V c t d := by
  unfold Dat.before; rw [if_pos (fetch3_1 t)]; rfl

/-- What the body is called with at point `t`, the windows one by one, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it hands back: the session buffer exactly, the two overhanging windows' buffers on the part their transfers move. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ (∃ d, owns (c : Thread nD τ) (st3_1 t) fullShare (win3_1.fill (grid3.coords t) d (win3_1.cut (grid3.coords t) ((dat3 V c).after 1 t))))
    ∗ (∃ d, owns (c : Thread nD τ) (st3_2 t) fullShare (win3_2.fill (grid3.coords t) d (win3_2.cut (grid3.coords t) ((dat3 V c).after 2 t)))))

/-- The body at any point. The items buffer arrives filled out by some `d` and leaves as it came; the output buffer leaves at
    the product of the session matrix and THAT buffer, whose moved columns are those of the named product (`Local3`). -/
theorem point3 (hloc : Local3 (F := F)) (c : Dev nD) (t : Fin cfg3.N) :
    pre3 V c t ⊢ wp frame (wpE (defs₀ (F := F)) Variants.none c none) Set.univ (bodyAt3 t) (fun _ => post3 V c t) := by
  unfold pre3 post3 bodyAt3
  simp only [dat3_before_sess, dat3_before_items]
  rw [show (dat3 V c).Φ t.succ = (dat3 V c).Φ t.castSucc from rfl,
    show (dat3 V c).owesAt () t.succ = (dat3 V c).owesAt () t.castSucc from rfl,
    dat3_after_sess, dat3_after_items, dat3_after_out]
  iintro ⟨HΦ, Ho, ⟨%d0, H0⟩, ⟨%d1, H1⟩, ⟨%d2, H2⟩⟩
  iapply (body3 c Set.univ _ _ _ _ _ _ _ (blk3 V c 0 t) (items3 V c t d1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [show win3_1.cut (grid3.coords t) (items3 V c t zeroFill) = blk3 V c 1 t from win3_1.cut_fill _ _ _]
    iexact H1
  · iexists (prod3 (blk3 V c 0 t) (items3 V c t d1))
    rw [show win3_2.fill (grid3.coords t) (prod3 (blk3 V c 0 t) (items3 V c t d1))
          (win3_2.cut (grid3.coords t) (prod3 (blk3 V c 0 t) (items3 V c t zeroFill))) = prod3 (blk3 V c 0 t) (items3 V c t d1) from by
        rw [hloc t (blk3 V c 0 t) (blk3 V c 1 t) zeroFill d1]; exact win3_2.fill_cut _ _]
    iexact H2

/-- The pipeline's body obligation in its loose form, at every point. -/
theorem obligation3 (hloc : Local3 (F := F)) (c : Dev nD) :
    Pipeline.BodyObligationLoose (dat3 (F := F) V c) (defs₀ (F := F)) Variants.none () Set.univ := fun t => by
  rw [bigSep_W3, bigSep_W3]
  exact point3 V hloc c t

end Cert.KernelIdeal.Hand

end
-- ==== Proof.KRun.lean ====
/-
  The kernel program's run. @main is eleven items: the first product (region 0), a stretch of host operations (the gather
  of messages along the edges and their scatter-add), the gated update (region 1), five stretches (the lookup of the session
  nodes, the rectifier, the last node of each session, its repetition along the nodes), the attention gate (region 2), a
  stretch (the session sums and the final dense layer), the scores (region 3). The contents of the TensorCore's unscoped
  buffers are followed through the items — a host stretch applies its operations, a region leaves its output array at the
  fold of its write-backs and everything else as it found it — and every weakly fair execution ends with EVERY unscoped buffer
  at the last of these contents: the results as well as the arguments.
-/
import proofs.«133217_j69260642615845_1_alg».proof.Proof.Gen.KernelIdeal.Launch
import proofs.«133217_j69260642615845_1_alg».proof.Proof.Gen.KernelIdeal.Skeleton
import proofs.«133217_j69260642615845_1_alg».proof.Proof.Gen.KernelIdeal.Points
import proofs.«133217_j69260642615845_1_alg».proof.Proof.Gen.KernelIdeal.Regions
import proofs.«133217_j69260642615845_1_alg».proof.Proof.Region0
import proofs.«133217_j69260642615845_1_alg».proof.Proof.Region1
import proofs.«133217_j69260642615845_1_alg».proof.Proof.Region2
import proofs.«133217_j69260642615845_1_alg».proof.Proof.Region3
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m ((c : Dev nD), b)
/-- What region 0 is entered with, read at the TensorCore's references. -/
abbrev E0 : (c : Dev nD) → (b : Ref sig .tc) → Buf (Elt F) ((c : Thread nD τ).loc b) := fun c b => W0 m c b

/-- After region 0: its windows' arrays at what the pipeline leaves (an input's as entered, the output's write-backs folded),
    every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_other (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem left0 (c : Dev nD) (w : Fin cfg0.W) : (dat0 (E0 m) c).arrAt w cfg0.N = (fun b : Ref sig .tc => W1 m c b) (Pipeline.arrRef spec0 w) :=
  (W1_arr m c w).symm
theorem kept0 (c : Dev nD) : ∀ b, b ∉ Finset.univ.image (Pipeline.arrRef spec0) → (fun b : Ref sig .tc => W1 m c b) b = E0 m c b :=
  fun b hb => W1_other m c b fun w e => hb (Finset.mem_image.mpr ⟨w, Finset.mem_univ _, e⟩)

/-- After the first host stretch. -/
abbrev W2 : Dev nD → Valuation τ sig (Elt F) := fun c => StableHlo.after hostOps1 (W1 m c)
abbrev E1 : (c : Dev nD) → (b : Ref sig .tc) → Buf (Elt F) ((c : Thread nD τ).loc b) := fun c b => W2 m c b

/-- After region 1: its windows' arrays at what the pipeline leaves (an input's as entered, the output's write-backs folded),
    every other buffer as entered. -/
def W3 (c : Dev nD) : Valuation τ sig (Elt F) :=
  Pipeline.withArrays spec1 c (W2 m c) fun w => (dat1 (E1 m) c).arrAt w cfg1.N
theorem W3_arr (c : Dev nD) (w : Fin cfg1.W) :
    W3 m c (Proc.devRef .tc (Pipeline.arrRef spec1 w)) = (dat1 (E1 m) c).arrAt w cfg1.N := by
  unfold W3; exact Pipeline.withArrays_arr spec1 launch1.win.arr_inj c _ _ w
theorem W3_other (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem left1 (c : Dev nD) (w : Fin cfg1.W) : (dat1 (E1 m) c).arrAt w cfg1.N = (fun b : Ref sig .tc => W3 m c b) (Pipeline.arrRef spec1 w) :=
  (W3_arr m c w).symm
theorem kept1 (c : Dev nD) : ∀ b, b ∉ Finset.univ.image (Pipeline.arrRef spec1) → (fun b : Ref sig .tc => W3 m c b) b = E1 m c b :=
  fun b hb => W3_other m c b fun w e => hb (Finset.mem_image.mpr ⟨w, Finset.mem_univ _, e⟩)

/-- After each of the five stretches between the gated update and the attention gate. -/
abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)
abbrev W7 : Dev nD → Valuation τ sig (Elt F) := fun c => StableHlo.after hostOps2_3 (W6 m c)
abbrev W8 : Dev nD → Valuation τ sig (Elt F) := fun c => StableHlo.after hostOps2_4 (W7 m c)
abbrev E2 : (c : Dev nD) → (b : Ref sig .tc) → Buf (Elt F) ((c : Thread nD τ).loc b) := fun c b => W8 m c b

/-- After region 2: its windows' arrays at what the pipeline leaves (an input's as entered, the output's write-backs folded),
    every other buffer as entered. -/
def W9 (c : Dev nD) : Valuation τ sig (Elt F) :=
  Pipeline.withArrays spec2 c (W8 m c) fun w => (dat2 (E2 m) c).arrAt w cfg2.N
theorem W9_arr (c : Dev nD) (w : Fin cfg2.W) :
    W9 m c (Proc.devRef .tc (Pipeline.arrRef spec2 w)) = (dat2 (E2 m) c).arrAt w cfg2.N := by
  unfold W9; exact Pipeline.withArrays_arr spec2 launch2.win.arr_inj c _ _ w
theorem W9_other (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
theorem left2 (c : Dev nD) (w : Fin cfg2.W) : (dat2 (E2 m) c).arrAt w cfg2.N = (fun b : Ref sig .tc => W9 m c b) (Pipeline.arrRef spec2 w) :=
  (W9_arr m c w).symm
theorem kept2 (c : Dev nD) : ∀ b, b ∉ Finset.univ.image (Pipeline.arrRef spec2) → (fun b : Ref sig .tc => W9 m c b) b = E2 m c b :=
  fun b hb => W9_other m c b fun w e => hb (Finset.mem_image.mpr ⟨w, Finset.mem_univ _, e⟩)

/-- After the last host stretch. -/
abbrev W10 : Dev nD → Valuation τ sig (Elt F) := fun c => StableHlo.after hostOps3 (W9 m c)
abbrev E3 : (c : Dev nD) → (b : Ref sig .tc) → Buf (Elt F) ((c : Thread nD τ).loc b) := fun c b => W10 m c b

/-- After region 3: its windows' arrays at what the pipeline leaves (an input's as entered, the output's write-backs folded),
    every other buffer as entered. -/
def W11 (c : Dev nD) : Valuation τ sig (Elt F) :=
  Pipeline.withArrays spec3 c (W10 m c) fun w => (dat3 (E3 m) c).arrAt w cfg3.N
theorem W11_arr (c : Dev nD) (w : Fin cfg3.W) :
    W11 m c (Proc.devRef .tc (Pipeline.arrRef spec3 w)) = (dat3 (E3 m) c).arrAt w cfg3.N := by
  unfold W11; exact Pipeline.withArrays_arr spec3 launch3.win.arr_inj c _ _ w
theorem W11_other (c : Dev nD) (b : Ref sig .tc) (hb : ∀ w, Pipeline.arrRef spec3 w ≠ b) :
    W11 m c (Proc.devRef .tc b) = W10 m c (Proc.devRef .tc b) := by
  unfold W11; exact Pipeline.withArrays_of_ne spec3 c _ _ b hb
theorem left3 (c : Dev nD) (w : Fin cfg3.W) : (dat3 (E3 m) c).arrAt w cfg3.N = (fun b : Ref sig .tc => W11 m c b) (Pipeline.arrRef spec3 w) :=
  (W11_arr m c w).symm
theorem kept3 (c : Dev nD) : ∀ b, b ∉ Finset.univ.image (Pipeline.arrRef spec3) → (fun b : Ref sig .tc => W11 m c b) b = E3 m c b :=
  fun b hb => W11_other m c b fun w e => hb (Finset.mem_image.mpr ⟨w, Finset.mem_univ _, e⟩)

/-! ## The proof data family and the thread state -/

/-- No pipeline has a prefetched table. -/
abbrev adm' : (p : Fin 4) → (pcfgs (F := F) p).Adm := fun p => (cfgs p).toPCfg_adm

/-- Every pipeline's proof data at its region's entry contents: a literal match, so that the launch theorem's pinned configuration at
    a numeral reduces to the printed one. -/
def pdats : (p : Fin 4) → (c : Dev nD) → Dat τ (Elt F) Unit ℕ (UR sig nD τ) ℕ (Pipeline.pin (pcfgs (F := F)) adm' p) c
  | ⟨0, _⟩ => fun c => dat0 (E0 m) c
  | ⟨1, _⟩ => fun c => dat1 (E1 m) c
  | ⟨2, _⟩ => fun c => dat2 (E2 m) c
  | ⟨3, _⟩ => fun c => dat3 (E3 m) c

abbrev 𝒱₀ : Variants := Variants.none
/-- No core owes another anything: no level is assigned. -/
abbrev L₀ : GSem nD τ sig → Finset Unit := fun _ => ∅
abbrev lv₀ : GSem nD τ sig → Unit → ℕ := fun _ _ => 0
/-- What rides beside the buffers through every item: the core's generator register at some state and its `owes`, at nothing. -/
abbrev Rest (c : Dev nD) : sProp 𝕄 := iprop((∃ r, prngReg c r) ∗ ∃ W, owes (c : Thread nD τ) (0 : CellTallies nD τ sig Unit) W)
/-- The last thread state, without the `owes`. -/
abbrev Last (c : Dev nD) : sProp 𝕄 := iprop(StableHlo.held (c : Thread nD τ) (Pipeline.ucRefs τ sig) (W11 m c) ∗ ∃ r, prngReg c r)

/-- A stretch of host operations as a segment over the unscoped references, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-! ## The regions as segments -/

-- a library lemma stated over the pinned configuration unifies with the printed one only when unification may unfold plain
-- definitions in a metavariable's type
set_option backward.isDefEq.respectTransparency.types false in
/-- Region 0 over the thread state: entered with every unscoped buffer at `W0`, left with them at `W1`. Its windows'
    arrays are split out of the unscoped buffers on entry and put back at their final contents on exit; the generator register
    goes into the region's invariant and comes back; nothing is owed; the kernel has no semaphore of its own. -/
def region0 : Pipeline.RegionSeg (pcfgs (F := F)) adm' (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (obligation0 (E0 m) c).loose
  hwaits := Pipeline.hwaits_of_owed_zero _ _ _ _ L₀ lv₀ 0 fun _ _ => rfl
  pre c := iprop(StableHlo.held (c : Thread nD τ) (Pipeline.ucRefs τ sig) (W0 m c) ∗ Rest c)
  post c := iprop(StableHlo.held (c : Thread nD τ) (Pipeline.ucRefs τ sig) (W1 m c) ∗ Rest c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E0 m c) (fun b => W1 m c b) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered with every unscoped buffer at `W2`, left with them at `W3`. Its windows'
    arrays are split out of the unscoped buffers on entry and put back at their final contents on exit; the generator register
    goes into the region's invariant and comes back; nothing is owed; the kernel has no semaphore of its own. -/
def region1 : Pipeline.RegionSeg (pcfgs (F := F)) adm' (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (obligation1 (E1 m) c).loose
  hwaits := Pipeline.hwaits_of_owed_zero _ _ _ _ L₀ lv₀ 1 fun _ _ => rfl
  pre c := iprop(StableHlo.held (c : Thread nD τ) (Pipeline.ucRefs τ sig) (W2 m c) ∗ Rest c)
  post c := iprop(StableHlo.held (c : Thread nD τ) (Pipeline.ucRefs τ sig) (W3 m c) ∗ Rest c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E1 m c) (fun b => W3 m c b) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 over the thread state: entered with every unscoped buffer at `W8`, left with them at `W9`. Its windows'
    arrays are split out of the unscoped buffers on entry and put back at their final contents on exit; the generator register
    goes into the region's invariant and comes back; nothing is owed; the kernel has no semaphore of its own. -/
def region2 : Pipeline.RegionSeg (pcfgs (F := F)) adm' (pdats m) () defs₀ 𝒱₀ L₀ lv₀ 2 where
  win := launch2.win.to₀
  block_pos := launch2.block_pos
  stage_whole := launch2.stage_whole
  K := PEmpty
  osem k := k.elim
  ho := Pipeline.OwnSemFacts.none _
  hbody c := (obligation2 (E2 m) c).loose
  hwaits := Pipeline.hwaits_of_owed_zero _ _ _ _ L₀ lv₀ 2 fun _ _ => rfl
  pre c := iprop(StableHlo.held (c : Thread nD τ) (Pipeline.ucRefs τ sig) (W8 m c) ∗ Rest c)
  post c := iprop(StableHlo.held (c : Thread nD τ) (Pipeline.ucRefs τ sig) (W9 m c) ∗ Rest c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm' (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (E2 m c) (fun b => W9 m c b) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 3 over the thread state: entered with every unscoped buffer at `W10`, left with them at `W11`. Its windows'
    arrays are split out of the unscoped buffers on entry and put back at their final contents on exit; the generator register
    goes into the region's invariant and comes back; nothing is owed; the kernel has no semaphore of its own. -/
def region3 (hloc : Local3 (F := F)) : Pipeline.RegionSeg (pcfgs (F := F)) adm' (pdats m) () defs₀ 𝒱₀ L₀ lv₀ 3 where
  win := launch3.win.to₀
  block_pos := launch3.block_pos
  stage_whole := launch3.stage_whole
  K := PEmpty
  osem k := k.elim
  ho := Pipeline.OwnSemFacts.none _
  hbody c := obligation3 (E3 m) hloc c
  hwaits := Pipeline.hwaits_of_owed_zero _ _ _ _ L₀ lv₀ 3 fun _ _ => rfl
  pre c := iprop(StableHlo.held (c : Thread nD τ) (Pipeline.ucRefs τ sig) (W10 m c) ∗ Rest c)
  post c := iprop(Last m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm' (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m) ((pdats m 3 c).share_full fun _ => rfl)
      (E3 m c) (fun b => W11 m c b) ((pdats m 3 c).arrAt · cfg3.N) (left3 m c) (kept3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the run -/

abbrev items (hloc : Local3 (F := F)) : List (Pipeline.Seg (pcfgs (F := F)) adm' (pdats m) () defs₀ 𝒱₀ L₀ lv₀) :=
  [ .region (region0 m),
    .host (stretch hostOps1 hostOps1_sub hostOps1_fresh (W1 m)),
    .region (region1 m),
    .host (stretch hostOps2 hostOps2_sub hostOps2_fresh (W3 m)),
    .host (stretch hostOps2_1 hostOps2_1_sub hostOps2_1_fresh (W4 m)),
    .host (stretch hostOps2_2 hostOps2_2_sub hostOps2_2_fresh (W5 m)),
    .host (stretch hostOps2_3 hostOps2_3_sub hostOps2_3_fresh (W6 m)),
    .host (stretch hostOps2_4 hostOps2_4_sub hostOps2_4_fresh (W7 m)),
    .region (region2 m),
    .host (stretch hostOps3 hostOps3_sub hostOps3_fresh (W9 m)),
    .region (region3 m hloc) ]

/-- @main is the run of its items. -/
theorem main_items (hloc : Local3 (F := F)) (c : Dev nD) : main (F := F) c = Pipeline.Seg.run (items m hloc) := (main_chain c).trans (by chain_rfl)

/-- An unscoped TensorCore reference is among those the thread state holds. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding plain definitions in
-- a metavariable's type
set_option backward.isDefEq.respectTransparency.types false in
/-- THE RUN: from any memory with zero counters, every weakly fair execution of @main on the TensorCores terminates, nothing
    faulting, and in every final state every unscoped buffer of every core holds the last contents of the fold. -/
theorem run_all (hloc : Local3 (F := F)) : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm' (pdats m) () cellOf_inj emb₁ defs₀ 𝒱₀ L₀ lv₀ m ρ main (items m hloc)
    (fun c Q => by rw [main_items m hloc c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Last m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.KernelIdeal.Hand

end
-- ==== Proof.KKeep.lean ====
/-
  What the kernel program's run leaves unchanged. A region changes its one output array and nothing else (an input
  window's array ends as it was entered); a stretch of host operations changes the buffers its operations write and nothing
  else. So a buffer that is no region's output and that no host operation writes — every argument array — holds at the end
  what it held at launch; and a buffer written once holds at the end what it held right after it was written.
-/
import proofs.«133217_j69260642615845_1_alg».proof.Proof.KRun

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Region 0 changes its output array only: any other buffer — an input window's array included — is as it was. -/
theorem W1_keep (c : Dev nD) (b : Ref sig .tc) (hb : b ≠ main_v0) : W1 m c (Proc.devRef .tc b) = W0 m c (Proc.devRef .tc b) := by
  by_cases h : ∃ w, Pipeline.arrRef spec0 w = b
  · obtain ⟨w, rfl⟩ := h
    rw [W1_arr]
    fin_cases w
    · exact ((dat0 (E0 m) c).arrAt_in 0 rfl _).trans (dat0_A (E0 m) c 0)
    · exact ((dat0 (E0 m) c).arrAt_in 1 rfl _).trans (dat0_A (E0 m) c 1)
    · exact absurd rfl hb
  · exact W1_other m c b fun w e => h ⟨w, e⟩

/-- Region 1 changes its output array only: any other buffer — an input window's array included — is as it was. -/
theorem W3_keep (c : Dev nD) (b : Ref sig .tc) (hb : b ≠ main_v19) : W3 m c (Proc.devRef .tc b) = W2 m c (Proc.devRef .tc b) := by
  by_cases h : ∃ w, Pipeline.arrRef spec1 w = b
  · obtain ⟨w, rfl⟩ := h
    rw [W3_arr]
    fin_cases w
    · exact ((dat1 (E1 m) c).arrAt_in 0 rfl _).trans (dat1_A (E1 m) c 0)
    · exact ((dat1 (E1 m) c).arrAt_in 1 rfl _).trans (dat1_A (E1 m) c 1)
    · exact ((dat1 (E1 m) c).arrAt_in 2 rfl _).trans (dat1_A (E1 m) c 2)
    · exact ((dat1 (E1 m) c).arrAt_in 3 rfl _).trans (dat1_A (E1 m) c 3)
    · exact ((dat1 (E1 m) c).arrAt_in 4 rfl _).trans (dat1_A (E1 m) c 4)
    · exact ((dat1 (E1 m) c).arrAt_in 5 rfl _).trans (dat1_A (E1 m) c 5)
    · exact absurd rfl hb
  · exact W3_other m c b fun w e => h ⟨w, e⟩

/-- Region 2 changes its output array only: any other buffer — an input window's array included — is as it was. -/
theorem W9_keep (c : Dev nD) (b : Ref sig .tc) (hb : b ≠ main_v57) : W9 m c (Proc.devRef .tc b) = W8 m c (Proc.devRef .tc b) := by
  by_cases h : ∃ w, Pipeline.arrRef spec2 w = b
  · obtain ⟨w, rfl⟩ := h
    rw [W9_arr]
    fin_cases w
    · exact ((dat2 (E2 m) c).arrAt_in 0 rfl _).trans (dat2_A (E2 m) c 0)
    · exact ((dat2 (E2 m) c).arrAt_in 1 rfl _).trans (dat2_A (E2 m) c 1)
    · exact ((dat2 (E2 m) c).arrAt_in 2 rfl _).trans (dat2_A (E2 m) c 2)
    · exact ((dat2 (E2 m) c).arrAt_in 3 rfl _).trans (dat2_A (E2 m) c 3)
    · exact ((dat2 (E2 m) c).arrAt_in 4 rfl _).trans (dat2_A (E2 m) c 4)
    · exact ((dat2 (E2 m) c).arrAt_in 5 rfl _).trans (dat2_A (E2 m) c 5)
    · exact ((dat2 (E2 m) c).arrAt_in 6 rfl _).trans (dat2_A (E2 m) c 6)
    · exact ((dat2 (E2 m) c).arrAt_in 7 rfl _).trans (dat2_A (E2 m) c 7)
    · exact absurd rfl hb
  · exact W9_other m c b fun w e => h ⟨w, e⟩

/-- Region 3 changes its output array only: any other buffer — an input window's array included — is as it was. -/
theorem W11_keep (c : Dev nD) (b : Ref sig .tc) (hb : b ≠ main_v67) : W11 m c (Proc.devRef .tc b) = W10 m c (Proc.devRef .tc b) := by
  by_cases h : ∃ w, Pipeline.arrRef spec3 w = b
  · obtain ⟨w, rfl⟩ := h
    rw [W11_arr]
    fin_cases w
    · exact ((dat3 (E3 m) c).arrAt_in 0 rfl _).trans (dat3_A (E3 m) c 0)
    · exact ((dat3 (E3 m) c).arrAt_in 1 rfl _).trans (dat3_A (E3 m) c 1)
    · exact absurd rfl hb
  · exact W11_other m c b fun w e => h ⟨w, e⟩

/-- A buffer that is no region's output and that no host operation writes holds at the end what it held at launch. -/
theorem W11_untouched (c : Dev nD) (b : Ref sig .tc)
    (r0 : b ≠ main_v0) (s1 : b ∉ hostOps1_W) (r1 : b ≠ main_v19) (s2 : b ∉ hostOps2_W) (s3 : b ∉ hostOps2_1_W) (s4 : b ∉ hostOps2_2_W)
    (s5 : b ∉ hostOps2_3_W) (s6 : b ∉ hostOps2_4_W) (r2 : b ≠ main_v57) (s7 : b ∉ hostOps3_W) (r3 : b ≠ main_v67) :
    W11 m c (Proc.devRef .tc b) = m ((c : Thread nD τ).loc b) :=
  calc W11 m c (Proc.devRef .tc b)
    _ = W10 m c (Proc.devRef .tc b) := W11_keep m c b r3
    _ = W9 m c (Proc.devRef .tc b) := StableHlo.after_of_writes_sub hostOps3 _ hostOps3_writes s7
    _ = W8 m c (Proc.devRef .tc b) := W9_keep m c b r2
    _ = W7 m c (Proc.devRef .tc b) := StableHlo.after_of_writes_sub hostOps2_4 _ hostOps2_4_writes s6
    _ = W6 m c (Proc.devRef .tc b) := StableHlo.after_of_writes_sub hostOps2_3 _ hostOps2_3_writes s5
    _ = W5 m c (Proc.devRef .tc b) := StableHlo.after_of_writes_sub hostOps2_2 _ hostOps2_2_writes s4
    _ = W4 m c (Proc.devRef .tc b) := StableHlo.after_of_writes_sub hostOps2_1 _ hostOps2_1_writes s3
    _ = W3 m c (Proc.devRef .tc b) := StableHlo.after_of_writes_sub hostOps2 _ hostOps2_writes s2
    _ = W2 m c (Proc.devRef .tc b) := W3_keep m c b r1
    _ = W1 m c (Proc.devRef .tc b) := StableHlo.after_of_writes_sub hostOps1 _ hostOps1_writes s1
    _ = W0 m c (Proc.devRef .tc b) := W1_keep m c b r0
    _ = m ((c : Thread nD τ).loc b) := rfl

/-- The scores at the end: what region 3's write-backs leave in its output array. -/
theorem W11_scores (c : Dev nD) : W11 m c (Proc.devRef .tc main_v67) = (dat3 (E3 m) c).arrAt 2 cfg3.N := W11_arr m c 2

/-- The rectified node rows at the end: as the stretches before the attention gate left them (the gate reads them through
    an input window; nothing after writes them). -/
theorem W11_nodes (c : Dev nD) : W11 m c (Proc.devRef .tc main_v30) = W8 m c (Proc.devRef .tc main_v30) :=
  calc W11 m c (Proc.devRef .tc main_v30)
    _ = W10 m c (Proc.devRef .tc main_v30) := W11_keep m c main_v30 (by decide)
    _ = W9 m c (Proc.devRef .tc main_v30) := StableHlo.after_of_writes_sub hostOps3 _ hostOps3_writes (by decide)
    _ = W8 m c (Proc.devRef .tc main_v30) := W9_keep m c main_v30 (by decide)

end Cert.KernelIdeal.Hand

end
-- ==== Proof.Pay3.lean ====
/-
  The last kernel body read at an index, at the ideal values: the product of a 1024 × 256 block by the TRANSPOSE
  of a 2048 × 256 block (axis 1 of both operands is contracted) is, at (b, j), the sum over k of x (b, k) · y (j, k):
  column j of the product reads row j of the second operand only.
-/
import proofs.«133217_j69260642615845_1_alg».proof.Proof.Gen.KernelIdeal.Skeleton
import Idealize.ShloMosaic.PureOps.Ideal.Laws
import Idealize.ShloMosaic.Lib.ValueIdx
import Idealize.ShloMosaic.Lib.ValueLayout

noncomputable section

namespace Cert.KernelIdeal.Pay

open Idealize.ShloMosaic Idealize.SL.Sem Idealize.ShloMosaic.ValueIdx
open scoped BigOperators

/-- The dimension numbers of the 1024 × 256 by (2048 × 256)ᵀ product: axis 1 of the left against axis 1 of the right. -/
abbrev D3 := dot_S1024x256_S2048x256_S1024x2048_1_1_0_0_n_n

/-- The left operand's index at output (b, j) and contraction coordinate c is (b, c). -/
theorem D3_lhs (b : Fin 1024) (j : Fin 2048) (c : Fin 256) :
    D3.lhsIdx (ix2 b j) ((contrEquiv1 D3 256 rfl rfl).symm c) = ix2 b c := by
  have c2 := contrEquiv1_symm_val D3 256 rfl rfl c
  funext ax; apply Fin.ext
  match ax with
  | ⟨0, _⟩ => simp [DotDims.lhsIdx, D3, dot_S1024x256_S2048x256_S1024x2048_1_1_0_0_n_n]; rfl
  | ⟨1, _⟩ => simp [DotDims.lhsIdx, D3, dot_S1024x256_S2048x256_S1024x2048_1_1_0_0_n_n]; exact c2

/-- The right operand's index at output (b, j) and contraction coordinate c is (j, c). -/
theorem D3_rhs (b : Fin 1024) (j : Fin 2048) (c : Fin 256) :
    D3.rhsIdx (ix2 b j) ((contrEquiv1 D3 256 rfl rfl).symm c) = ix2 j c := by
  have c2 := contrEquiv1_symm_val D3 256 rfl rfl c
  funext ax; apply Fin.ext
  match ax with
  | ⟨0, _⟩ => simp [DotDims.rhsIdx, D3, dot_S1024x256_S2048x256_S1024x2048_1_1_0_0_n_n]; rfl
  | ⟨1, _⟩ => simp [DotDims.rhsIdx, D3, dot_S1024x256_S2048x256_S1024x2048_1_1_0_0_n_n]; exact c2

/-- The product into the zero accumulator, read at (b, j). -/
theorem mm3_apply {φ₁ φ₂ : FTy} (A : FVec Ideal S1024x256 φ₁) (B : FVec Ideal S2048x256 φ₂) (b : Fin 1024) (j : Fin 2048) :
    matmul D3 none A B (constant (F := Ideal) S1024x2048 .f32 0x00000000#32) (ix2 b j)
      = ∑ c : Fin 256, A (ix2 b c) * B (ix2 j c) := by
  show FloatOps.matmul D3 none A B _ (ix2 b j) = _
  rw [Ideal.matmul_constant_zero_apply, ← Equiv.sum_comp (contrEquiv1 D3 256 rfl rfl).symm]
  refine Finset.sum_congr rfl fun c _ => ?_
  rw [D3_lhs, D3_rhs]

/-- The last kernel body at (b, j): ∑ k, x (b, k) · y (j, k). -/
theorem pay3_apply (x : Vec Ideal S1024x256 .f32) (y : Vec Ideal S2048x256 .f32) (b : Fin 1024) (j : Fin 2048) :
    Gen.k3_pay1 x y (ix2 b j) = ∑ k : Fin 256, x (ix2 b k) * y (ix2 j k) := by
  unfold Gen.k3_pay1
  refine (mm3_apply _ _ b j).trans ?_
  refine Finset.sum_congr rfl fun c _ => ?_
  show shapeCast S1024x256 x _ (ix2 b c) * y (ix2 j c) = _
  rw [shapeCast_self]

end Cert.KernelIdeal.Pay
-- ==== Proof.Local3.lean ====
/-
  The written-back columns of the last product block do not depend on what fills the item buffer past the array's end.
  The product block is the body's payload of the two whole buffers; at (b, j) it is ∑ k, x (b, k) · y (j, k), so column j
  reads row j of the item block only. A column j that is written back lies below the cut of the product's second axis,
  which is the cut of the item block's first axis (both blocks are 2048 wide on that axis, over an array of 50000, at
  the same block index), so row j of the item block is a fetched row, where the filled block holds the fetched
  contents whatever the filler.
-/
import proofs.«133217_j69260642615845_1_alg».proof.Proof.Region3
import proofs.«133217_j69260642615845_1_alg».proof.Proof.Pay3

set_option maxRecDepth 16384

noncomputable section

namespace Cert.KernelIdeal.Pay

open Cert.KernelIdeal Cert.KernelIdeal.Gen Cert.KernelIdeal.Hand
open Idealize.ShloMosaic Idealize.SL.Sem Idealize.ShloMosaic.ValueIdx
open Idealize.ShloMosaic.Pipeline (Window)
open scoped BigOperators

/-- The product block is the payload of the two whole buffers. -/
theorem prod3_eq (x0 : Vec Ideal S1024x256 .f32) (x1 : Vec Ideal S2048x256 .f32) :
    prod3 x0 x1 = k3_pay1 x0 x1 := by
  have hz : (![0, 0] : Fin 2 → Nat) = fun _ => 0 := by funext a; fin_cases a <;> rfl
  unfold prod3
  rw [View.canon_unit_zero hz]
  simp only [View.ld_unit_zero (S := S1024x256) hz, View.ld_unit_zero (S := S2048x256) hz]

/-- As many rows of the item block are fetched as columns of the product block are written back. -/
theorem xsize3 (i : grid3.Coords) : win3_1.xsize i (0 : Fin 2) = win3_2.xsize i (1 : Fin 2) := rfl

/-- The item block's second axis is never cut. -/
theorem xsize3_lane (i : grid3.Coords) : win3_1.xsize i (1 : Fin 2) = 256 := rfl

/-- A written-back column of the product block reads only fetched rows of the item block, so what fills the other
    rows does not matter. -/
theorem local3 : Local3 (F := Ideal) := by
  intro t x0 e d d'
  funext j
  show prod3 x0 (win3_1.fill (grid3.coords t) d e) (win3_2.xinj (grid3.coords t) j)
     = prod3 x0 (win3_1.fill (grid3.coords t) d' e) (win3_2.xinj (grid3.coords t) j)
  rw [prod3_eq, prod3_eq]
  obtain ⟨b, c, hbc, hc⟩ : ∃ (b : Fin 1024) (c : Fin 2048), win3_2.xinj (grid3.coords t) j = ix2 b c
      ∧ c.val < win3_1.xsize (grid3.coords t) (0 : Fin 2) :=
    ⟨win3_2.xinj (grid3.coords t) j 0, win3_2.xinj (grid3.coords t) j 1, eq_ix2 _, (j 1).isLt⟩
  rw [hbc]
  refine (pay3_apply x0 _ b c).trans (Eq.trans ?_ (pay3_apply x0 _ b c).symm)
  refine Finset.sum_congr rfl fun k _ => ?_
  have hm : win3_1.moved (grid3.coords t) (ix2 c k) = true :=
    (win3_1.moved_iff (grid3.coords t) (ix2 c k)).mpr fun a => by
      match a with
      | ⟨0, _⟩ => exact hc
      | ⟨1, _⟩ => exact k.isLt
  refine congrArg (x0 (ix2 b k) * ·) ?_
  unfold Window.fill
  rw [dif_pos hm, dif_pos hm]

end Cert.KernelIdeal.Pay
-- ==== Proof.KFrame.lean ====
/-
  The idealized kernel program's run in the two shapes the claims ask for: the frame (every argument array ends as launched) and
  the run with its results named (the scores and the rectified node rows at the fold's last contents, beside the arguments).
  Both are the run of KRun.lean at the ideal instance, where the locality of the last product holds, read at the buffers
  in question: an argument is no region's output and no host operation writes it.
-/
import proofs.«133217_j69260642615845_1_alg».proof.Proof.KKeep
import proofs.«133217_j69260642615845_1_alg».proof.Proof.Local3

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- No argument is a region's output or written by a host operation (decided over the list). -/
theorem arg_facts : ∀ b ∈ argRefs, b ≠ main_v0 ∧ b ∉ hostOps1_W ∧ b ≠ main_v19 ∧ b ∉ hostOps2_W ∧ b ∉ hostOps2_1_W ∧ b ∉ hostOps2_2_W
    ∧ b ∉ hostOps2_3_W ∧ b ∉ hostOps2_4_W ∧ b ≠ main_v57 ∧ b ∉ hostOps3_W ∧ b ≠ main_v67 ∧ ¬ (Proc.devRef .tc b : DevRef τ sig).isScoped := by
  decide

/-- So every argument holds at the end of the fold what it held at launch, and is among the buffers the run reads. -/
theorem arg_kept (c : Dev nD) (b : Ref sig .tc) (hb : b ∈ argRefs) : W11 m c (Proc.devRef .tc b) = m ((c : Thread nD τ).loc b) := by
  obtain ⟨h0, h1, h2, h3, h4, h5, h6, h7, h8, h9, h10, -⟩ := arg_facts b hb
  exact W11_untouched m c b h0 h1 h2 h3 h4 h5 h6 h7 h8 h9 h10

theorem arg_read (r : PUnit × MemSt nD τ sig (Elt Ideal)) (c : Dev nD)
    (h : ∀ b ∈ Pipeline.ucRefs τ sig, r.2.mem (((c : Thread nD τ)).1, b) = W11 m c b) (b : Ref sig .tc) (hb : b ∈ argRefs) :
    r.2.mem ((c.tc : Thread nD τ).loc b) = m ((c.tc : Thread nD τ).loc b) :=
  (h _ (held_ref b (arg_facts b hb).2.2.2.2.2.2.2.2.2.2.2)).trans (arg_kept m c b hb)

/-- THE FRAME of the idealized kernel program. -/
theorem frame_ideal : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨arg_read m r c (h c) main_arg0 (by decide),
    arg_read m r c (h c) main_arg1 (by decide),
    arg_read m r c (h c) main_arg2 (by decide),
    arg_read m r c (h c) main_arg3 (by decide),
    arg_read m r c (h c) main_arg4 (by decide),
    arg_read m r c (h c) main_arg5 (by decide),
    arg_read m r c (h c) main_arg6 (by decide),
    arg_read m r c (h c) main_arg7 (by decide),
    arg_read m r c (h c) main_arg8 (by decide),
    arg_read m r c (h c) main_arg9 (by decide),
    arg_read m r c (h c) main_arg10 (by decide),
    arg_read m r c (h c) main_arg11 (by decide),
    arg_read m r c (h c) main_arg12 (by decide),
    arg_read m r c (h c) main_arg13 (by decide),
    arg_read m r c (h c) main_arg14 (by decide),
    arg_read m r c (h c) main_arg15 (by decide),
    arg_read m r c (h c) main_arg16 (by decide),
    arg_read m r c (h c) main_arg17 (by decide)⟩)
    (run_all (F := Ideal) m ρ Cert.KernelIdeal.Pay.local3)

/-- THE RUN WITH ITS RESULTS: the scores and the rectified node rows at the fold's last contents, the third result (an argument)
    and every argument as launched. -/
theorem run_results : θ_run defs (onTc (τ := τ) (main (F := Ideal))) ⟨m, fun _ => 0, ρ⟩ (fun r => ∀ c : Dev nD,
      r.2.mem ((c.tc : Thread nD τ).loc main_v67) = W11 m c (Proc.devRef .tc main_v67)
      ∧ r.2.mem ((c.tc : Thread nD τ).loc main_v30) = W11 m c (Proc.devRef .tc main_v30)
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨h c _ (held_ref main_v67 (by decide)), h c _ (held_ref main_v30 (by decide)),
    arg_read m r c (h c) main_arg2 (by decide),
    arg_read m r c (h c) main_arg0 (by decide),
    arg_read m r c (h c) main_arg1 (by decide),
    arg_read m r c (h c) main_arg2 (by decide),
    arg_read m r c (h c) main_arg3 (by decide),
    arg_read m r c (h c) main_arg4 (by decide),
    arg_read m r c (h c) main_arg5 (by decide),
    arg_read m r c (h c) main_arg6 (by decide),
    arg_read m r c (h c) main_arg7 (by decide),
    arg_read m r c (h c) main_arg8 (by decide),
    arg_read m r c (h c) main_arg9 (by decide),
    arg_read m r c (h c) main_arg10 (by decide),
    arg_read m r c (h c) main_arg11 (by decide),
    arg_read m r c (h c) main_arg12 (by decide),
    arg_read m r c (h c) main_arg13 (by decide),
    arg_read m r c (h c) main_arg14 (by decide),
    arg_read m r c (h c) main_arg15 (by decide),
    arg_read m r c (h c) main_arg16 (by decide),
    arg_read m r c (h c) main_arg17 (by decide)⟩)
    (run_all (F := Ideal) m ρ Cert.KernelIdeal.Pay.local3)

end Cert.KernelIdeal.Hand

end
-- ==== Proof.Pay0.lean ====
/-
  The first kernel body read at an index, at the ideal values: the product of a 2000 × 256 block by a 256 × 256
  matrix is, at (r, j), the sum over k of x (r, k) · w (k, j). The narrowing of the operands is the identity and the
  zero accumulator adds nothing.
-/
import proofs.«133217_j69260642615845_1_alg».proof.Proof.Gen.KernelIdeal.Skeleton
import Idealize.ShloMosaic.PureOps.Ideal.Laws
import Idealize.ShloMosaic.Lib.ValueIdx

noncomputable section

namespace Cert.KernelIdeal.Pay

open Idealize.ShloMosaic Idealize.SL.Sem Idealize.ShloMosaic.ValueIdx
open scoped BigOperators

/-- The dimension numbers of the 2000 × 256 by 256 × 256 product: axis 1 of the left against axis 0 of the right. -/
abbrev D0 := dot_S2000x256_S256x256_S2000x256_1_0_0_1_n_n

/-- The left operand's index at output (r, j) and contraction coordinate c is (r, c). -/
theorem D0_lhs (r : Fin 2000) (j : Fin 256) (c : Fin 256) :
    D0.lhsIdx (ix2 r j) ((contrEquiv1 D0 256 rfl rfl).symm c) = ix2 r c := by
  have c2 := contrEquiv1_symm_val D0 256 rfl rfl c
  funext ax; apply Fin.ext
  match ax with
  | ⟨0, _⟩ => simp [DotDims.lhsIdx, D0, dot_S2000x256_S256x256_S2000x256_1_0_0_1_n_n]; rfl
  | ⟨1, _⟩ => simp [DotDims.lhsIdx, D0, dot_S2000x256_S256x256_S2000x256_1_0_0_1_n_n]; exact c2

/-- The right operand's index at output (r, j) and contraction coordinate c is (c, j). -/
theorem D0_rhs (r : Fin 2000) (j : Fin 256) (c : Fin 256) :
    D0.rhsIdx (ix2 r j) ((contrEquiv1 D0 256 rfl rfl).symm c) = ix2 c j := by
  have c2 := contrEquiv1_symm_val D0 256 rfl rfl c
  funext ax; apply Fin.ext
  match ax with
  | ⟨0, _⟩ => simp [DotDims.rhsIdx, D0, dot_S2000x256_S256x256_S2000x256_1_0_0_1_n_n]; exact c2
  | ⟨1, _⟩ => simp [DotDims.rhsIdx, D0, dot_S2000x256_S256x256_S2000x256_1_0_0_1_n_n]; rfl

/-- The product into the zero accumulator, read at (r, j): the sum over the contracted coordinate of the products of
    the operands' entries. -/
theorem mm0_apply {φ₁ φ₂ : FTy} (A : FVec Ideal S2000x256 φ₁) (B : FVec Ideal S256x256 φ₂) (r : Fin 2000) (j : Fin 256) :
    matmul D0 none A B (constant (F := Ideal) S2000x256 .f32 0x00000000#32) (ix2 r j)
      = ∑ c : Fin 256, A (ix2 r c) * B (ix2 c j) := by
  show FloatOps.matmul D0 none A B _ (ix2 r j) = _
  rw [Ideal.matmul_constant_zero_apply, ← Equiv.sum_comp (contrEquiv1 D0 256 rfl rfl).symm]
  refine Finset.sum_congr rfl fun c _ => ?_
  rw [D0_lhs, D0_rhs]

/-- The first kernel body at (r, j): ∑ k, x (r, k) · w (k, j). -/
theorem pay0_apply (x : Vec Ideal S2000x256 .f32) (w : Vec Ideal S256x256 .f32) (r : Fin 2000) (j : Fin 256) :
    Gen.k0_pay1 x w (ix2 r j) = ∑ k : Fin 256, x (ix2 r k) * w (ix2 k j) := by
  unfold Gen.k0_pay1
  exact mm0_apply _ _ r j

end Cert.KernelIdeal.Pay
-- ==== Proof.KVal0.lean ====
/-
  What the first product leaves, at the ideal instance: the whole array m = emb · W, entry by entry,
  m (i, j) = Σ_k emb (i, k) · W (k, j). Grid point t writes back rows [2000 t, 2000 t + 2000): row r of its block is row
  2000 t + r of the array, and the entry there is the product of that row of emb with W (the payload read at an index). The 25
  blocks cover the 50000 rows: row i lies in block i / 2000.
-/
import proofs.«133217_j69260642615845_1_alg».proof.Proof.KRun
import proofs.«133217_j69260642615845_1_alg».proof.Proof.Pay0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The product of a 50000 × 256 table with a 256 × 256 matrix, entry by entry. -/
def Mm (a : S50000x256.Idx → EReal) (w : S256x256.Idx → EReal) : S50000x256.Idx → EReal :=
  fun i => ∑ k : Fin 256, a (ix2 (i 0 : Fin 50000) k) * w (ix2 k (i 1 : Fin 256))

/-- The printed index maps over the grid: the rows' window moves with the output's, the matrix stays, the output's block
    index is the point. -/
theorem maps0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every block of rows is some point's. -/
theorem onto0 : ∀ q : Fin 25, ∃ t : Fin cfg0.N, win0_2.index t = ![q.val, 0] :=
  (by decide +kernel : ∀ q : Fin 25, ∃ t : Fin grid0.N, win0_2.index t = ![q.val, 0])

/-- What point `t` writes back is block `t` of the product. -/
theorem flushed0 (c : Dev nD) (t : Fin cfg0.N) :
    (dat0 V c).flushed 2 t = ((cfg0.win 2).blk t).view.read (Elt Ideal) (Mm (V c main_arg4) (V c main_arg5)) := by
  show (cfg0.win 2).cut (grid0.coords t) ((dat0 V c).after 2 t) = _
  rw [dat0_after_out]
  unfold prod0
  rw [View.canon_unit_zero zero2]
  simp only [View.ld_unit_zero (S := S2000x256) zero2, View.ld_unit_zero (S := S256x256) zero2]
  obtain ⟨e0, e1, e2, e3, e4, e5⟩ := maps0 t
  funext j
  obtain ⟨r, q, rfl⟩ : ∃ (r : Fin 2000) (q : Fin 256), j = ix2 r q := ⟨j 0, j 1, eq_ix2 j⟩
  show k0_pay1 (blk0 V c 0 t) (blk0 V c 1 t) (ix2 r q) = Mm (V c main_arg4) (V c main_arg5) (((cfg0.win 2).blk t).view.emb (ix2 r q))
  refine (Cert.KernelIdeal.Pay.pay0_apply _ _ r q).trans ?_
  unfold Mm
  refine Finset.sum_congr rfl fun k _ => ?_
  have hrow : ((cfg0.win 0).blk t).view.emb (ix2 r k) = ix2 ((((cfg0.win 2).blk t).view.emb (ix2 r q)) 0 : Fin 50000) k := by
    funext a; apply Fin.ext
    match a with
    | ⟨0, _⟩ => show win0_0.index t (0 : Fin 2) * 2000 + 1 * r.val = win0_2.index t (0 : Fin 2) * 2000 + 1 * r.val; omega
    | ⟨1, _⟩ => show win0_0.index t (1 : Fin 2) * 256 + 1 * k.val = k.val; omega
  have hmat : ((cfg0.win 1).blk t).view.emb (ix2 k q) = ix2 k ((((cfg0.win 2).blk t).view.emb (ix2 r q)) 1 : Fin 256) := by
    funext a; apply Fin.ext
    match a with
    | ⟨0, _⟩ => show win0_1.index t (0 : Fin 2) * 256 + 1 * k.val = k.val; omega
    | ⟨1, _⟩ => show win0_1.index t (1 : Fin 2) * 256 + 1 * q.val = win0_2.index t (1 : Fin 2) * 256 + 1 * q.val; omega
  have h1 : blk0 V c 0 t (ix2 r k) = V c main_arg4 (ix2 ((((cfg0.win 2).blk t).view.emb (ix2 r q)) 0 : Fin 50000) k) := by
    exact congrArg (V c main_arg4) hrow
  have h2 : blk0 V c 1 t (ix2 k q) = V c main_arg5 (ix2 k ((((cfg0.win 2).blk t).view.emb (ix2 r q)) 1 : Fin 256)) := by
    exact congrArg (V c main_arg5) hmat
  exact congrArg₂ (fun (a b : EReal) => a * b) h1 h2

/-- An index of the array is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Every row of the array lies in some point's block. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- THE ARRAY after region 0: the product, whole. -/
theorem final0 (c : Dev nD) : (dat0 V c).arrAt 2 cfg0.N = Mm (V c main_arg4) (V c main_arg5) :=
  (dat0 V c).arrAt_eq_of_cover 2 (Mm (V c main_arg4) (V c main_arg5)) (fun t _ => flushed0 V c t) cover0

end Cert.KernelIdeal.Hand

end
-- ==== Proof.RefStages.lean ====
/- The reference program's @main as named stages: one definition per result buffer of its operations, each a function
   of the program's eighteen argument arrays (in @main's order) and defined as the operation's pure function applied
   to the stages of its operands. The two functions @main calls are written out where they are called: @relu is a
   zero constant (`call0_cst`), its broadcast (`call0_v0`) and the maximum (`v63`); @cumsum is @cumsum_0, a zero
   constant (`call1_call0_c`), its rank-0 broadcast (`call1_call0_v0`) and the windowed sum (`v68`). Constants are stages
   of their own (`c`, `c_0`, `cst`, …), named as the program names them. The program's three results are `v119`,
   `v63` and the argument `edge_index` itself. Everything is read at the ideal float instance. -/
import proofs.«133217_j69260642615845_1_alg».proof.ReferenceIdeal
import Idealize.ShloMosaic.PureOps.Ideal

set_option synthInstance.maxSize 4096

noncomputable section

namespace Cert.ReferenceIdeal.RefStages

open Idealize.ShloMosaic Idealize.SL.Sem
open Cert.ReferenceIdeal Cert.ReferenceIdeal.Facts₀ Cert.ReferenceIdeal.Facts

variable [Cert.ReferenceIdeal.Facts]

def v0 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1x500000, .i32⟩ : BufTy).Contents (Elt Ideal) :=
  extractStridedSlice S1x500000 ![0, 0] full_graph slices_S2x500000_S1x500000_0_0
def v1 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S500000, .i32⟩ : BufTy).Contents (Elt Ideal) :=
  shapeCast S500000 (v0 x batch edge_index full_graph emb ggnn_W gru_Wih gru_Whh gru_bih gru_bhh W1_w W1_b W2_w W2_b q_w q_b W3_w W3_b) shapeCasts_S1x500000_S500000
def v2 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1x500000, .i32⟩ : BufTy).Contents (Elt Ideal) :=
  extractStridedSlice S1x500000 ![1, 0] full_graph slices_S2x500000_S1x500000_1_0
def v3 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S500000, .i32⟩ : BufTy).Contents (Elt Ideal) :=
  shapeCast S500000 (v2 x batch edge_index full_graph emb ggnn_W gru_Wih gru_Whh gru_bih gru_bhh W1_w W1_b W2_w W2_b q_w q_b W3_w W3_b) shapeCasts_S1x500000_S500000
def v4 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  Host.dotGeneral (F := Ideal) (φ₁ := .f32) (φ₂ := .f32) dot_S50000x256_S256x256_S50000x256_1_0_0_1_n_n none emb ggnn_W
def c (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .i32⟩ : BufTy).Contents (Elt Ideal) :=
  constantI S_ 32 0#32
def v5 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S500000, .i32⟩ : BufTy).Contents (Elt Ideal) :=
  broadcastInDim S500000 ![] bcast_S_S500000 (c x batch edge_index full_graph emb ggnn_W gru_Wih gru_Whh gru_bih gru_bhh W1_w W1_b W2_w W2_b q_w q_b W3_w W3_b)
def v6 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S500000, .i1⟩ : BufTy).Contents (Elt Ideal) :=
  cmpi .slt (v1 x batch edge_index full_graph emb ggnn_W gru_Wih gru_Whh gru_bih gru_bhh W1_w W1_b W2_w W2_b q_w q_b W3_w W3_b) (v5 x batch edge_index full_graph emb ggnn_W gru_Wih gru_Whh gru_bih gru_bhh W1_w W1_b W2_w W2_b q_w q_b W3_w W3_b)
def c_0 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .i32⟩ : BufTy).Contents (Elt Ideal) :=
  constantI S_ 32 50000#32
def v7 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S500000, .i32⟩ : BufTy).Contents (Elt Ideal) :=
  broadcastInDim S500000 ![] bcast_S_S500000 (c_0 x batch edge_index full_graph emb ggnn_W gru_Wih gru_Whh gru_bih gru_bhh W1_w W1_b W2_w W2_b q_w q_b W3_w W3_b)
def v8 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S500000, .i32⟩ : BufTy).Contents (Elt Ideal) :=
  addi (v1 x batch edge_index full_graph emb ggnn_W gru_Wih gru_Whh gru_bih gru_bhh W1_w W1_b W2_w W2_b q_w q_b W3_w W3_b) (v7 x batch edge_index full_graph emb ggnn_W gru_Wih gru_Whh gru_bih gru_bhh W1_w W1_b W2_w W2_b q_w q_b W3_w W3_b)
def v9 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S500000, .i32⟩ : BufTy).Contents (Elt Ideal) :=
  select (v6 x batch edge_index full_graph emb ggnn_W gru_Wih gru_Whh gru_bih gru_bhh W1_w W1_b W2_w W2_b q_w q_b W3_w W3_b) (v8 x batch edge_index full_graph emb ggnn_W gru_Wih gru_Whh gru_bih gru_bhh W1_w W1_b W2_w W2_b q_w q_b W3_w W3_b) (v1 x batch edge_index full_graph emb ggnn_W gru_Wih gru_Whh gru_bih gru_bhh W1_w W1_b W2_w W2_b q_w q_b W3_w W3_b)
def v10 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S500000x1, .i32⟩ : BufTy).Contents (Elt Ideal) :=
  broadcastInDim S500000x1 ![0] bcast_S500000_S500000x1_0 (v9 x batch edge_index full_graph emb ggnn_W gru_Wih gru_Whh gru_bih gru_bhh W1_w W1_b W2_w W2_b q_w q_b W3_w W3_b)
def v11 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S500000x256, .f32⟩ : BufTy).Contents (Elt Ideal) :=
  Host.gather gather_S50000x256_S500000x1_S500000x256_1_0_n_n_0_1_1256 (v4 x batch edge_index full_graph emb ggnn_W gru_Wih gru_Whh gru_bih gru_bhh W1_w W1_b W2_w W2_b q_w q_b W3_w W3_b) (v10 x batch edge_index full_graph emb ggnn_W gru_Wih gru_Whh gru_bih gru_bhh W1_w W1_b W2_w W2_b q_w q_b W3_w W3_b)
def cst (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .f32⟩ : BufTy).Contents (Elt Ideal) :=
  constant (F := Ideal) S_ .f32 0x00000000#32
def v12 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  broadcastInDim S50000x256 ![] bcast_S_S50000x256 (cst x batch edge_index full_graph emb ggnn_W gru_Wih gru_Whh gru_bih gru_bhh W1_w W1_b W2_w W2_b q_w q_b W3_w W3_b)
def v13 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S500000x1, .i32⟩ : BufTy).Contents (Elt Ideal) :=
  broadcastInDim S500000x1 ![0] bcast_S500000_S500000x1_0 (v3 x batch edge_index full_graph emb ggnn_W gru_Wih gru_Whh gru_bih gru_bhh W1_w W1_b W2_w W2_b q_w q_b W3_w W3_b)
def v14 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  Host.scatterAdd (F := Ideal) (φ := .f32) scatter_S50000x256_S500000x1_S500000x256_1_0_0_1 (v12 x batch edge_index full_graph emb ggnn_W gru_Wih gru_Whh gru_bih gru_bhh W1_w W1_b W2_w W2_b q_w q_b W3_w W3_b) (v13 x batch edge_index full_graph emb ggnn_W gru_Wih gru_Whh gru_bih gru_bhh W1_w W1_b W2_w W2_b q_w q_b W3_w W3_b) (v11 x batch edge_index full_graph emb ggnn_W gru_Wih gru_Whh gru_bih gru_bhh W1_w W1_b W2_w W2_b q_w q_b W3_w W3_b)
def v15 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S256x768, .f32⟩ : BufTy).Contents (Elt Ideal) :=
  transpose S256x768 [1, 0] gru_Wih transposes_S768x256_S256x768_1_0
def v16 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x768, .f32⟩ : BufTy).Contents (Elt Ideal) :=
  Host.dotGeneral (F := Ideal) (φ₁ := .f32) (φ₂ := .f32) dot_S50000x256_S256x768_S50000x768_1_0_0_1_n_n none (v14 x batch edge_index full_graph emb ggnn_W gru_Wih gru_Whh gru_bih gru_bhh W1_w W1_b W2_w W2_b q_w q_b W3_w W3_b) (v15 x batch edge_index full_graph emb ggnn_W gru_Wih gru_Whh gru_bih gru_bhh W1_w W1_b W2_w W2_b q_w q_b W3_w W3_b)
def v17 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1x768, .f32⟩ : BufTy).Contents (Elt Ideal) :=
  broadcastInDim S1x768 ![1] bcast_S768_S1x768_1 gru_bih
def v18 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x768, .f32⟩ : BufTy).Contents (Elt Ideal) :=
  broadcastInDim S50000x768 ![0, 1] bcast_S1x768_S50000x768_0_1 (v17 x batch edge_index full_graph emb ggnn_W gru_Wih gru_Whh gru_bih gru_bhh W1_w W1_b W2_w W2_b q_w q_b W3_w W3_b)
def v19 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x768, .f32⟩ : BufTy).Contents (Elt Ideal) :=
  addf (F := Ideal) (φ := .f32) (v16 x batch edge_index full_graph emb ggnn_W gru_Wih gru_Whh gru_bih gru_bhh W1_w W1_b W2_w W2_b q_w q_b W3_w W3_b) (v18 x batch edge_index full_graph emb ggnn_W gru_Wih gru_Whh gru_bih gru_bhh W1_w W1_b W2_w W2_b q_w q_b W3_w W3_b)
def v20 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S256x768, .f32⟩ : BufTy).Contents (Elt Ideal) :=
  transpose S256x768 [1, 0] gru_Whh transposes_S768x256_S256x768_1_0
def v21 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x768, .f32⟩ : BufTy).Contents (Elt Ideal) :=
  Host.dotGeneral (F := Ideal) (φ₁ := .f32) (φ₂ := .f32) dot_S50000x256_S256x768_S50000x768_1_0_0_1_n_n none emb (v20 x batch edge_index full_graph emb ggnn_W gru_Wih gru_Whh gru_bih gru_bhh W1_w W1_b W2_w W2_b q_w q_b W3_w W3_b)
def v22 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1x768, .f32⟩ : BufTy).Contents (Elt Ideal) :=
  broadcastInDim S1x768 ![1] bcast_S768_S1x768_1 gru_bhh
def v23 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x768, .f32⟩ : BufTy).Contents (Elt Ideal) :=
  broadcastInDim S50000x768 ![0, 1] bcast_S1x768_S50000x768_0_1 (v22 x batch edge_index full_graph emb ggnn_W gru_Wih gru_Whh gru_bih gru_bhh W1_w W1_b W2_w W2_b q_w q_b W3_w W3_b)
def v24 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x768, .f32⟩ : BufTy).Contents (Elt Ideal) :=
  addf (F := Ideal) (φ := .f32) (v21 x batch edge_index full_graph emb ggnn_W gru_Wih gru_Whh gru_bih gru_bhh W1_w W1_b W2_w W2_b q_w q_b W3_w W3_b) (v23 x batch edge_index full_graph emb ggnn_W gru_Wih gru_Whh gru_bih gru_bhh W1_w W1_b W2_w W2_b q_w q_b W3_w W3_b)
def v25 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  extractStridedSlice S50000x256 ![0, 0] (v19 x batch edge_index full_graph emb ggnn_W gru_Wih gru_Whh gru_bih gru_bhh W1_w W1_b W2_w W2_b q_w q_b W3_w W3_b) slices_S50000x768_S50000x256_0_0
def v26 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  extractStridedSlice S50000x256 ![0, 256] (v19 x batch edge_index full_graph emb ggnn_W gru_Wih gru_Whh gru_bih gru_bhh W1_w W1_b W2_w W2_b q_w q_b W3_w W3_b) slices_S50000x768_S50000x256_0_256
def v27 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  extractStridedSlice S50000x256 ![0, 512] (v19 x batch edge_index full_graph emb ggnn_W gru_Wih gru_Whh gru_bih gru_bhh W1_w W1_b W2_w W2_b q_w q_b W3_w W3_b) slices_S50000x768_S50000x256_0_512
def v28 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  extractStridedSlice S50000x256 ![0, 0] (v24 x batch edge_index full_graph emb ggnn_W gru_Wih gru_Whh gru_bih gru_bhh W1_w W1_b W2_w W2_b q_w q_b W3_w W3_b) slices_S50000x768_S50000x256_0_0
def v29 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  extractStridedSlice S50000x256 ![0, 256] (v24 x batch edge_index full_graph emb ggnn_W gru_Wih gru_Whh gru_bih gru_bhh W1_w W1_b W2_w W2_b q_w q_b W3_w W3_b) slices_S50000x768_S50000x256_0_256
def v30 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  extractStridedSlice S50000x256 ![0, 512] (v24 x batch edge_index full_graph emb ggnn_W gru_Wih gru_Whh gru_bih gru_bhh W1_w W1_b W2_w W2_b q_w q_b W3_w W3_b) slices_S50000x768_S50000x256_0_512
def v31 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  addf (F := Ideal) (φ := .f32) (v25 x batch edge_index full_graph emb ggnn_W gru_Wih gru_Whh gru_bih gru_bhh W1_w W1_b W2_w W2_b q_w q_b W3_w W3_b) (v28 x batch edge_index full_graph emb ggnn_W gru_Wih gru_Whh gru_bih gru_bhh W1_w W1_b W2_w W2_b q_w q_b W3_w W3_b)
def v32 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  Host.negf (F := Ideal) (φ := .f32) (v31 x batch edge_index full_graph emb ggnn_W gru_Wih gru_Whh gru_bih gru_bhh W1_w W1_b W2_w W2_b q_w q_b W3_w W3_b)
def v33 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  Host.exp (F := Ideal) (φ := .f32) (v32 x batch edge_index full_graph emb ggnn_W gru_Wih gru_Whh gru_bih gru_bhh W1_w W1_b W2_w W2_b q_w q_b W3_w W3_b)
def cst_1 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .f32⟩ : BufTy).Contents (Elt Ideal) :=
  constant (F := Ideal) S_ .f32 0x3F800000#32
def v34 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  broadcastInDim S50000x256 ![] bcast_S_S50000x256 (cst_1 x batch edge_index full_graph emb ggnn_W gru_Wih gru_Whh gru_bih gru_bhh W1_w W1_b W2_w W2_b q_w q_b W3_w W3_b)
def v35 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  addf (F := Ideal) (φ := .f32) (v34 x batch edge_index full_graph emb ggnn_W gru_Wih gru_Whh gru_bih gru_bhh W1_w W1_b W2_w W2_b q_w q_b W3_w W3_b) (v33 x batch edge_index full_graph emb ggnn_W gru_Wih gru_Whh gru_bih gru_bhh W1_w W1_b W2_w W2_b q_w q_b W3_w W3_b)
def cst_2 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .f32⟩ : BufTy).Contents (Elt Ideal) :=
  constant (F := Ideal) S_ .f32 0x3F800000#32
def v36 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  broadcastInDim S50000x256 ![] bcast_S_S50000x256 (cst_2 x batch edge_index full_graph emb ggnn_W gru_Wih gru_Whh gru_bih gru_bhh W1_w W1_b W2_w W2_b q_w q_b W3_w W3_b)
def v37 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  Host.divf (F := Ideal) (φ := .f32) (v36 x batch edge_index full_graph emb ggnn_W gru_Wih gru_Whh gru_bih gru_bhh W1_w W1_b W2_w W2_b q_w q_b W3_w W3_b) (v35 x batch edge_index full_graph emb ggnn_W gru_Wih gru_Whh gru_bih gru_bhh W1_w W1_b W2_w W2_b q_w q_b W3_w W3_b)
def v38 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  addf (F := Ideal) (φ := .f32) (v26 x batch edge_index full_graph emb ggnn_W gru_Wih gru_Whh gru_bih gru_bhh W1_w W1_b W2_w W2_b q_w q_b W3_w W3_b) (v29 x batch edge_index full_graph emb ggnn_W gru_Wih gru_Whh gru_bih gru_bhh W1_w W1_b W2_w W2_b q_w q_b W3_w W3_b)
def v39 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  Host.negf (F := Ideal) (φ := .f32) (v38 x batch edge_index full_graph emb ggnn_W gru_Wih gru_Whh gru_bih gru_bhh W1_w W1_b W2_w W2_b q_w q_b W3_w W3_b)
def v40 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  Host.exp (F := Ideal) (φ := .f32) (v39 x batch edge_index full_graph emb ggnn_W gru_Wih gru_Whh gru_bih gru_bhh W1_w W1_b W2_w W2_b q_w q_b W3_w W3_b)
def cst_3 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .f32⟩ : BufTy).Contents (Elt Ideal) :=
  constant (F := Ideal) S_ .f32 0x3F800000#32
def v41 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  broadcastInDim S50000x256 ![] bcast_S_S50000x256 (cst_3 x batch edge_index full_graph emb ggnn_W gru_Wih gru_Whh gru_bih gru_bhh W1_w W1_b W2_w W2_b q_w q_b W3_w W3_b)
def v42 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  addf (F := Ideal) (φ := .f32) (v41 x batch edge_index full_graph emb ggnn_W gru_Wih gru_Whh gru_bih gru_bhh W1_w W1_b W2_w W2_b q_w q_b W3_w W3_b) (v40 x batch edge_index full_graph emb ggnn_W gru_Wih gru_Whh gru_bih gru_bhh W1_w W1_b W2_w W2_b q_w q_b W3_w W3_b)
def cst_4 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .f32⟩ : BufTy).Contents (Elt Ideal) :=
  constant (F := Ideal) S_ .f32 0x3F800000#32
def v43 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  broadcastInDim S50000x256 ![] bcast_S_S50000x256 (cst_4 x batch edge_index full_graph emb ggnn_W gru_Wih gru_Whh gru_bih gru_bhh W1_w W1_b W2_w W2_b q_w q_b W3_w W3_b)
def v44 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  Host.divf (F := Ideal) (φ := .f32) (v43 x batch edge_index full_graph emb ggnn_W gru_Wih gru_Whh gru_bih gru_bhh W1_w W1_b W2_w W2_b q_w q_b W3_w W3_b) (v42 x batch edge_index full_graph emb ggnn_W gru_Wih gru_Whh gru_bih gru_bhh W1_w W1_b W2_w W2_b q_w q_b W3_w W3_b)
def v45 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  mulf (F := Ideal) (φ := .f32) (v37 x batch edge_index full_graph emb ggnn_W gru_Wih gru_Whh gru_bih gru_bhh W1_w W1_b W2_w W2_b q_w q_b W3_w W3_b) (v30 x batch edge_index full_graph emb ggnn_W gru_Wih gru_Whh gru_bih gru_bhh W1_w W1_b W2_w W2_b q_w q_b W3_w W3_b)
def v46 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  addf (F := Ideal) (φ := .f32) (v27 x batch edge_index full_graph emb ggnn_W gru_Wih gru_Whh gru_bih gru_bhh W1_w W1_b W2_w W2_b q_w q_b W3_w W3_b) (v45 x batch edge_index full_graph emb ggnn_W gru_Wih gru_Whh gru_bih gru_bhh W1_w W1_b W2_w W2_b q_w q_b W3_w W3_b)
def v47 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  Host.tanh (F := Ideal) (φ := .f32) (v46 x batch edge_index full_graph emb ggnn_W gru_Wih gru_Whh gru_bih gru_bhh W1_w W1_b W2_w W2_b q_w q_b W3_w W3_b)
def cst_5 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .f32⟩ : BufTy).Contents (Elt Ideal) :=
  constant (F := Ideal) S_ .f32 0x3F800000#32
def v48 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  broadcastInDim S50000x256 ![] bcast_S_S50000x256 (cst_5 x batch edge_index full_graph emb ggnn_W gru_Wih gru_Whh gru_bih gru_bhh W1_w W1_b W2_w W2_b q_w q_b W3_w W3_b)
def v49 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  subf (F := Ideal) (φ := .f32) (v48 x batch edge_index full_graph emb ggnn_W gru_Wih gru_Whh gru_bih gru_bhh W1_w W1_b W2_w W2_b q_w q_b W3_w W3_b) (v44 x batch edge_index full_graph emb ggnn_W gru_Wih gru_Whh gru_bih gru_bhh W1_w W1_b W2_w W2_b q_w q_b W3_w W3_b)
def v50 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  mulf (F := Ideal) (φ := .f32) (v49 x batch edge_index full_graph emb ggnn_W gru_Wih gru_Whh gru_bih gru_bhh W1_w W1_b W2_w W2_b q_w q_b W3_w W3_b) (v47 x batch edge_index full_graph emb ggnn_W gru_Wih gru_Whh gru_bih gru_bhh W1_w W1_b W2_w W2_b q_w q_b W3_w W3_b)
def v51 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  mulf (F := Ideal) (φ := .f32) (v44 x batch edge_index full_graph emb ggnn_W gru_Wih gru_Whh gru_bih gru_bhh W1_w W1_b W2_w W2_b q_w q_b W3_w W3_b) emb
def v52 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S50000x256, .f32⟩ : BufTy).Contents (Elt Ideal) :=
  addf (F := Ideal) (φ := .f32) (v50 x batch edge_index full_graph emb ggnn_W gru_Wih gru_Whh gru_bih gru_bhh W1_w W1_b W2_w W2_b q_w q_b W3_w W3_b) (v51 x batch edge_index full_graph emb ggnn_W gru_Wih gru_Whh gru_bih gru_bhh W1_w W1_b W2_w W2_b q_w q_b W3_w W3_b)
def v53 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288, .i32⟩ : BufTy).Contents (Elt Ideal) :=
  shapeCast S12288 x shapeCasts_S12288x1_S12288
def c_6 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .i32⟩ : BufTy).Contents (Elt Ideal) :=
  constantI S_ 32 1#32
def v54 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288, .i32⟩ : BufTy).Contents (Elt Ideal) :=
  broadcastInDim S12288 ![] bcast_S_S12288 (c_6 x batch edge_index full_graph emb ggnn_W gru_Wih gru_Whh gru_bih gru_bhh W1_w W1_b W2_w W2_b q_w q_b W3_w W3_b)
def v55 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288, .i32⟩ : BufTy).Contents (Elt Ideal) :=
  subi (v53 x batch edge_index full_graph emb ggnn_W gru_Wih gru_Whh gru_bih gru_bhh W1_w W1_b W2_w W2_b q_w q_b W3_w W3_b) (v54 x batch edge_index full_graph emb ggnn_W gru_Wih gru_Whh gru_bih gru_bhh W1_w W1_b W2_w W2_b q_w q_b W3_w W3_b)
def c_7 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .i32⟩ : BufTy).Contents (Elt Ideal) :=
  constantI S_ 32 0#32
def v56 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288, .i32⟩ : BufTy).Contents (Elt Ideal) :=
  broadcastInDim S12288 ![] bcast_S_S12288 (c_7 x batch edge_index full_graph emb ggnn_W gru_Wih gru_Whh gru_bih gru_bhh W1_w W1_b W2_w W2_b q_w q_b W3_w W3_b)
def v57 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288, .i1⟩ : BufTy).Contents (Elt Ideal) :=
  cmpi .slt (v55 x batch edge_index full_graph emb ggnn_W gru_Wih gru_Whh gru_bih gru_bhh W1_w W1_b W2_w W2_b q_w q_b W3_w W3_b) (v56 x batch edge_index full_graph emb ggnn_W gru_Wih gru_Whh gru_bih gru_bhh W1_w W1_b W2_w W2_b q_w q_b W3_w W3_b)
def c_8 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .i32⟩ : BufTy).Contents (Elt Ideal) :=
  constantI S_ 32 50000#32
def v58 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288, .i32⟩ : BufTy).Contents (Elt Ideal) :=
  broadcastInDim S12288 ![] bcast_S_S12288 (c_8 x batch edge_index full_graph emb ggnn_W gru_Wih gru_Whh gru_bih gru_bhh W1_w W1_b W2_w W2_b q_w q_b W3_w W3_b)
def v59 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288, .i32⟩ : BufTy).Contents (Elt Ideal) :=
  addi (v55 x batch edge_index full_graph emb ggnn_W gru_Wih gru_Whh gru_bih gru_bhh W1_w W1_b W2_w W2_b q_w q_b W3_w W3_b) (v58 x batch edge_index full_graph emb ggnn_W gru_Wih gru_Whh gru_bih gru_bhh W1_w W1_b W2_w W2_b q_w q_b W3_w W3_b)
def v60 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288, .i32⟩ : BufTy).Contents (Elt Ideal) :=
  select (v57 x batch edge_index full_graph emb ggnn_W gru_Wih gru_Whh gru_bih gru_bhh W1_w W1_b W2_w W2_b q_w q_b W3_w W3_b) (v59 x batch edge_index full_graph emb ggnn_W gru_Wih gru_Whh gru_bih gru_bhh W1_w W1_b W2_w W2_b q_w q_b W3_w W3_b) (v55 x batch edge_index full_graph emb ggnn_W gru_Wih gru_Whh gru_bih gru_bhh W1_w W1_b W2_w W2_b q_w q_b W3_w W3_b)
def v61 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x1, .i32⟩ : BufTy).Contents (Elt Ideal) :=
  broadcastInDim S12288x1 ![0] bcast_S12288_S12288x1_0 (v60 x batch edge_index full_graph emb ggnn_W gru_Wih gru_Whh gru_bih gru_bhh W1_w W1_b W2_w W2_b q_w q_b W3_w W3_b)
def v62 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  Host.gather gather_S50000x256_S12288x1_S12288x256_1_0_n_n_0_1_1256 (v52 x batch edge_index full_graph emb ggnn_W gru_Wih gru_Whh gru_bih gru_bhh W1_w W1_b W2_w W2_b q_w q_b W3_w W3_b) (v61 x batch edge_index full_graph emb ggnn_W gru_Wih gru_Whh gru_bih gru_bhh W1_w W1_b W2_w W2_b q_w q_b W3_w W3_b)
def call0_cst (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .f32⟩ : BufTy).Contents (Elt Ideal) :=
  constant (F := Ideal) S_ .f32 0x00000000#32
def call0_v0 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  broadcastInDim S12288x256 ![] bcast_S_S12288x256 (call0_cst x batch edge_index full_graph emb ggnn_W gru_Wih gru_Whh gru_bih gru_bhh W1_w W1_b W2_w W2_b q_w q_b W3_w W3_b)
def v63 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  maximumf (F := Ideal) (φ := .f32) (v62 x batch edge_index full_graph emb ggnn_W gru_Wih gru_Whh gru_bih gru_bhh W1_w W1_b W2_w W2_b q_w q_b W3_w W3_b) (call0_v0 x batch edge_index full_graph emb ggnn_W gru_Wih gru_Whh gru_bih gru_bhh W1_w W1_b W2_w W2_b q_w q_b W3_w W3_b)
def c_9 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .i32⟩ : BufTy).Contents (Elt Ideal) :=
  constantI S_ 32 1#32
def v64 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288, .i32⟩ : BufTy).Contents (Elt Ideal) :=
  broadcastInDim S12288 ![] bcast_S_S12288 (c_9 x batch edge_index full_graph emb ggnn_W gru_Wih gru_Whh gru_bih gru_bhh W1_w W1_b W2_w W2_b q_w q_b W3_w W3_b)
def c_10 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .i32⟩ : BufTy).Contents (Elt Ideal) :=
  constantI S_ 32 0#32
def v65 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024, .i32⟩ : BufTy).Contents (Elt Ideal) :=
  broadcastInDim S1024 ![] bcast_S_S1024 (c_10 x batch edge_index full_graph emb ggnn_W gru_Wih gru_Whh gru_bih gru_bhh W1_w W1_b W2_w W2_b q_w q_b W3_w W3_b)
def v66 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x1, .i32⟩ : BufTy).Contents (Elt Ideal) :=
  broadcastInDim S12288x1 ![0] bcast_S12288_S12288x1_0 batch
def v67 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024, .i32⟩ : BufTy).Contents (Elt Ideal) :=
  Host.scatter scatter_S1024_S12288x1_S12288_n_0_0_1 IntOp.addi (v65 x batch edge_index full_graph emb ggnn_W gru_Wih gru_Whh gru_bih gru_bhh W1_w W1_b W2_w W2_b q_w q_b W3_w W3_b) (v66 x batch edge_index full_graph emb ggnn_W gru_Wih gru_Whh gru_bih gru_bhh W1_w W1_b W2_w W2_b q_w q_b W3_w W3_b) (v64 x batch edge_index full_graph emb ggnn_W gru_Wih gru_Whh gru_bih gru_bhh W1_w W1_b W2_w W2_b q_w q_b W3_w W3_b)
def call1_call0_c (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .i32⟩ : BufTy).Contents (Elt Ideal) :=
  constantI S_ 32 0#32
def call1_call0_v0 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .i32⟩ : BufTy).Contents (Elt Ideal) :=
  broadcastInDim S_ ![] bcast_S_S_ (call1_call0_c x batch edge_index full_graph emb ggnn_W gru_Wih gru_Whh gru_bih gru_bhh W1_w W1_b W2_w W2_b q_w q_b W3_w W3_b)
def v68 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024, .i32⟩ : BufTy).Contents (Elt Ideal) :=
  Host.reduceWindow IntOp.addi ![1024] ![1] ![1023] ![0] (v67 x batch edge_index full_graph emb ggnn_W gru_Wih gru_Whh gru_bih gru_bhh W1_w W1_b W2_w W2_b q_w q_b W3_w W3_b) (call1_call0_v0 x batch edge_index full_graph emb ggnn_W gru_Wih gru_Whh gru_bih gru_bhh W1_w W1_b W2_w W2_b q_w q_b W3_w W3_b) reduceWindows_S1024_S1024_w1024s1p1023_0 h_S_
def c_11 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .i32⟩ : BufTy).Contents (Elt Ideal) :=
  constantI S_ 32 1#32
def v69 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024, .i32⟩ : BufTy).Contents (Elt Ideal) :=
  broadcastInDim S1024 ![] bcast_S_S1024 (c_11 x batch edge_index full_graph emb ggnn_W gru_Wih gru_Whh gru_bih gru_bhh W1_w W1_b W2_w W2_b q_w q_b W3_w W3_b)
def v70 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024, .i32⟩ : BufTy).Contents (Elt Ideal) :=
  subi (v68 x batch edge_index full_graph emb ggnn_W gru_Wih gru_Whh gru_bih gru_bhh W1_w W1_b W2_w W2_b q_w q_b W3_w W3_b) (v69 x batch edge_index full_graph emb ggnn_W gru_Wih gru_Whh gru_bih gru_bhh W1_w W1_b W2_w W2_b q_w q_b W3_w W3_b)
def c_12 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .i32⟩ : BufTy).Contents (Elt Ideal) :=
  constantI S_ 32 0#32
def v71 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024, .i32⟩ : BufTy).Contents (Elt Ideal) :=
  broadcastInDim S1024 ![] bcast_S_S1024 (c_12 x batch edge_index full_graph emb ggnn_W gru_Wih gru_Whh gru_bih gru_bhh W1_w W1_b W2_w W2_b q_w q_b W3_w W3_b)
def v72 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024, .i1⟩ : BufTy).Contents (Elt Ideal) :=
  cmpi .slt (v70 x batch edge_index full_graph emb ggnn_W gru_Wih gru_Whh gru_bih gru_bhh W1_w W1_b W2_w W2_b q_w q_b W3_w W3_b) (v71 x batch edge_index full_graph emb ggnn_W gru_Wih gru_Whh gru_bih gru_bhh W1_w W1_b W2_w W2_b q_w q_b W3_w W3_b)
def c_13 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .i32⟩ : BufTy).Contents (Elt Ideal) :=
  constantI S_ 32 12288#32
def v73 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024, .i32⟩ : BufTy).Contents (Elt Ideal) :=
  broadcastInDim S1024 ![] bcast_S_S1024 (c_13 x batch edge_index full_graph emb ggnn_W gru_Wih gru_Whh gru_bih gru_bhh W1_w W1_b W2_w W2_b q_w q_b W3_w W3_b)
def v74 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024, .i32⟩ : BufTy).Contents (Elt Ideal) :=
  addi (v70 x batch edge_index full_graph emb ggnn_W gru_Wih gru_Whh gru_bih gru_bhh W1_w W1_b W2_w W2_b q_w q_b W3_w W3_b) (v73 x batch edge_index full_graph emb ggnn_W gru_Wih gru_Whh gru_bih gru_bhh W1_w W1_b W2_w W2_b q_w q_b W3_w W3_b)
def v75 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024, .i32⟩ : BufTy).Contents (Elt Ideal) :=
  select (v72 x batch edge_index full_graph emb ggnn_W gru_Wih gru_Whh gru_bih gru_bhh W1_w W1_b W2_w W2_b q_w q_b W3_w W3_b) (v74 x batch edge_index full_graph emb ggnn_W gru_Wih gru_Whh gru_bih gru_bhh W1_w W1_b W2_w W2_b q_w q_b W3_w W3_b) (v70 x batch edge_index full_graph emb ggnn_W gru_Wih gru_Whh gru_bih gru_bhh W1_w W1_b W2_w W2_b q_w q_b W3_w W3_b)
def v76 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024x1, .i32⟩ : BufTy).Contents (Elt Ideal) :=
  broadcastInDim S1024x1 ![0] bcast_S1024_S1024x1_0 (v75 x batch edge_index full_graph emb ggnn_W gru_Wih gru_Whh gru_bih gru_bhh W1_w W1_b W2_w W2_b q_w q_b W3_w W3_b)
def v77 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024x256, .f32⟩ : BufTy).Contents (Elt Ideal) :=
  Host.gather gather_S12288x256_S1024x1_S1024x256_1_0_n_n_0_1_1256 (v63 x batch edge_index full_graph emb ggnn_W gru_Wih gru_Whh gru_bih gru_bhh W1_w W1_b W2_w W2_b q_w q_b W3_w W3_b) (v76 x batch edge_index full_graph emb ggnn_W gru_Wih gru_Whh gru_bih gru_bhh W1_w W1_b W2_w W2_b q_w q_b W3_w W3_b)
def c_14 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .i32⟩ : BufTy).Contents (Elt Ideal) :=
  constantI S_ 32 0#32
def v78 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288, .i32⟩ : BufTy).Contents (Elt Ideal) :=
  broadcastInDim S12288 ![] bcast_S_S12288 (c_14 x batch edge_index full_graph emb ggnn_W gru_Wih gru_Whh gru_bih gru_bhh W1_w W1_b W2_w W2_b q_w q_b W3_w W3_b)
def v79 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288, .i1⟩ : BufTy).Contents (Elt Ideal) :=
  cmpi .slt batch (v78 x batch edge_index full_graph emb ggnn_W gru_Wih gru_Whh gru_bih gru_bhh W1_w W1_b W2_w W2_b q_w q_b W3_w W3_b)
def c_15 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .i32⟩ : BufTy).Contents (Elt Ideal) :=
  constantI S_ 32 1024#32
def v80 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288, .i32⟩ : BufTy).Contents (Elt Ideal) :=
  broadcastInDim S12288 ![] bcast_S_S12288 (c_15 x batch edge_index full_graph emb ggnn_W gru_Wih gru_Whh gru_bih gru_bhh W1_w W1_b W2_w W2_b q_w q_b W3_w W3_b)
def v81 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288, .i32⟩ : BufTy).Contents (Elt Ideal) :=
  addi batch (v80 x batch edge_index full_graph emb ggnn_W gru_Wih gru_Whh gru_bih gru_bhh W1_w W1_b W2_w W2_b q_w q_b W3_w W3_b)
def v82 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288, .i32⟩ : BufTy).Contents (Elt Ideal) :=
  select (v79 x batch edge_index full_graph emb ggnn_W gru_Wih gru_Whh gru_bih gru_bhh W1_w W1_b W2_w W2_b q_w q_b W3_w W3_b) (v81 x batch edge_index full_graph emb ggnn_W gru_Wih gru_Whh gru_bih gru_bhh W1_w W1_b W2_w W2_b q_w q_b W3_w W3_b) batch
def v83 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x1, .i32⟩ : BufTy).Contents (Elt Ideal) :=
  broadcastInDim S12288x1 ![0] bcast_S12288_S12288x1_0 (v82 x batch edge_index full_graph emb ggnn_W gru_Wih gru_Whh gru_bih gru_bhh W1_w W1_b W2_w W2_b q_w q_b W3_w W3_b)
def v84 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  Host.gather gather_S1024x256_S12288x1_S12288x256_1_0_n_n_0_1_1256 (v77 x batch edge_index full_graph emb ggnn_W gru_Wih gru_Whh gru_bih gru_bhh W1_w W1_b W2_w W2_b q_w q_b W3_w W3_b) (v83 x batch edge_index full_graph emb ggnn_W gru_Wih gru_Whh gru_bih gru_bhh W1_w W1_b W2_w W2_b q_w q_b W3_w W3_b)
def v85 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S256x256, .f32⟩ : BufTy).Contents (Elt Ideal) :=
  transpose S256x256 [1, 0] W1_w transposes_S256x256_S256x256_1_0
def v86 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  Host.dotGeneral (F := Ideal) (φ₁ := .f32) (φ₂ := .f32) dot_S12288x256_S256x256_S12288x256_1_0_0_1_n_n none (v84 x batch edge_index full_graph emb ggnn_W gru_Wih gru_Whh gru_bih gru_bhh W1_w W1_b W2_w W2_b q_w q_b W3_w W3_b) (v85 x batch edge_index full_graph emb ggnn_W gru_Wih gru_Whh gru_bih gru_bhh W1_w W1_b W2_w W2_b q_w q_b W3_w W3_b)
def v87 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1x256, .f32⟩ : BufTy).Contents (Elt Ideal) :=
  broadcastInDim S1x256 ![1] bcast_S256_S1x256_1 W1_b
def v88 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  broadcastInDim S12288x256 ![0, 1] bcast_S1x256_S12288x256_0_1 (v87 x batch edge_index full_graph emb ggnn_W gru_Wih gru_Whh gru_bih gru_bhh W1_w W1_b W2_w W2_b q_w q_b W3_w W3_b)
def v89 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  addf (F := Ideal) (φ := .f32) (v86 x batch edge_index full_graph emb ggnn_W gru_Wih gru_Whh gru_bih gru_bhh W1_w W1_b W2_w W2_b q_w q_b W3_w W3_b) (v88 x batch edge_index full_graph emb ggnn_W gru_Wih gru_Whh gru_bih gru_bhh W1_w W1_b W2_w W2_b q_w q_b W3_w W3_b)
def v90 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S256x256, .f32⟩ : BufTy).Contents (Elt Ideal) :=
  transpose S256x256 [1, 0] W2_w transposes_S256x256_S256x256_1_0
def v91 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  Host.dotGeneral (F := Ideal) (φ₁ := .f32) (φ₂ := .f32) dot_S12288x256_S256x256_S12288x256_1_0_0_1_n_n none (v63 x batch edge_index full_graph emb ggnn_W gru_Wih gru_Whh gru_bih gru_bhh W1_w W1_b W2_w W2_b q_w q_b W3_w W3_b) (v90 x batch edge_index full_graph emb ggnn_W gru_Wih gru_Whh gru_bih gru_bhh W1_w W1_b W2_w W2_b q_w q_b W3_w W3_b)
def v92 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  addf (F := Ideal) (φ := .f32) (v89 x batch edge_index full_graph emb ggnn_W gru_Wih gru_Whh gru_bih gru_bhh W1_w W1_b W2_w W2_b q_w q_b W3_w W3_b) (v91 x batch edge_index full_graph emb ggnn_W gru_Wih gru_Whh gru_bih gru_bhh W1_w W1_b W2_w W2_b q_w q_b W3_w W3_b)
def v93 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1x256, .f32⟩ : BufTy).Contents (Elt Ideal) :=
  broadcastInDim S1x256 ![1] bcast_S256_S1x256_1 W2_b
def v94 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  broadcastInDim S12288x256 ![0, 1] bcast_S1x256_S12288x256_0_1 (v93 x batch edge_index full_graph emb ggnn_W gru_Wih gru_Whh gru_bih gru_bhh W1_w W1_b W2_w W2_b q_w q_b W3_w W3_b)
def v95 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  addf (F := Ideal) (φ := .f32) (v92 x batch edge_index full_graph emb ggnn_W gru_Wih gru_Whh gru_bih gru_bhh W1_w W1_b W2_w W2_b q_w q_b W3_w W3_b) (v94 x batch edge_index full_graph emb ggnn_W gru_Wih gru_Whh gru_bih gru_bhh W1_w W1_b W2_w W2_b q_w q_b W3_w W3_b)
def v96 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  Host.negf (F := Ideal) (φ := .f32) (v95 x batch edge_index full_graph emb ggnn_W gru_Wih gru_Whh gru_bih gru_bhh W1_w W1_b W2_w W2_b q_w q_b W3_w W3_b)
def v97 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  Host.exp (F := Ideal) (φ := .f32) (v96 x batch edge_index full_graph emb ggnn_W gru_Wih gru_Whh gru_bih gru_bhh W1_w W1_b W2_w W2_b q_w q_b W3_w W3_b)
def cst_16 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .f32⟩ : BufTy).Contents (Elt Ideal) :=
  constant (F := Ideal) S_ .f32 0x3F800000#32
def v98 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  broadcastInDim S12288x256 ![] bcast_S_S12288x256 (cst_16 x batch edge_index full_graph emb ggnn_W gru_Wih gru_Whh gru_bih gru_bhh W1_w W1_b W2_w W2_b q_w q_b W3_w W3_b)
def v99 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  addf (F := Ideal) (φ := .f32) (v98 x batch edge_index full_graph emb ggnn_W gru_Wih gru_Whh gru_bih gru_bhh W1_w W1_b W2_w W2_b q_w q_b W3_w W3_b) (v97 x batch edge_index full_graph emb ggnn_W gru_Wih gru_Whh gru_bih gru_bhh W1_w W1_b W2_w W2_b q_w q_b W3_w W3_b)
def cst_17 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .f32⟩ : BufTy).Contents (Elt Ideal) :=
  constant (F := Ideal) S_ .f32 0x3F800000#32
def v100 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  broadcastInDim S12288x256 ![] bcast_S_S12288x256 (cst_17 x batch edge_index full_graph emb ggnn_W gru_Wih gru_Whh gru_bih gru_bhh W1_w W1_b W2_w W2_b q_w q_b W3_w W3_b)
def v101 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  Host.divf (F := Ideal) (φ := .f32) (v100 x batch edge_index full_graph emb ggnn_W gru_Wih gru_Whh gru_bih gru_bhh W1_w W1_b W2_w W2_b q_w q_b W3_w W3_b) (v99 x batch edge_index full_graph emb ggnn_W gru_Wih gru_Whh gru_bih gru_bhh W1_w W1_b W2_w W2_b q_w q_b W3_w W3_b)
def v102 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S256x1, .f32⟩ : BufTy).Contents (Elt Ideal) :=
  transpose S256x1 [1, 0] q_w transposes_S1x256_S256x1_1_0
def v103 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x1, .f32⟩ : BufTy).Contents (Elt Ideal) :=
  Host.dotGeneral (F := Ideal) (φ₁ := .f32) (φ₂ := .f32) dot_S12288x256_S256x1_S12288x1_1_0_0_1_n_n none (v101 x batch edge_index full_graph emb ggnn_W gru_Wih gru_Whh gru_bih gru_bhh W1_w W1_b W2_w W2_b q_w q_b W3_w W3_b) (v102 x batch edge_index full_graph emb ggnn_W gru_Wih gru_Whh gru_bih gru_bhh W1_w W1_b W2_w W2_b q_w q_b W3_w W3_b)
def v104 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1x1, .f32⟩ : BufTy).Contents (Elt Ideal) :=
  broadcastInDim S1x1 ![1] bcast_S1_S1x1_1 q_b
def v105 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x1, .f32⟩ : BufTy).Contents (Elt Ideal) :=
  broadcastInDim S12288x1 ![0, 1] bcast_S1x1_S12288x1_0_1 (v104 x batch edge_index full_graph emb ggnn_W gru_Wih gru_Whh gru_bih gru_bhh W1_w W1_b W2_w W2_b q_w q_b W3_w W3_b)
def v106 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x1, .f32⟩ : BufTy).Contents (Elt Ideal) :=
  addf (F := Ideal) (φ := .f32) (v103 x batch edge_index full_graph emb ggnn_W gru_Wih gru_Whh gru_bih gru_bhh W1_w W1_b W2_w W2_b q_w q_b W3_w W3_b) (v105 x batch edge_index full_graph emb ggnn_W gru_Wih gru_Whh gru_bih gru_bhh W1_w W1_b W2_w W2_b q_w q_b W3_w W3_b)
def v107 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  broadcastInDim S12288x256 ![0, 1] bcast_S12288x1_S12288x256_0_1 (v106 x batch edge_index full_graph emb ggnn_W gru_Wih gru_Whh gru_bih gru_bhh W1_w W1_b W2_w W2_b q_w q_b W3_w W3_b)
def v108 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x256, .f32⟩ : BufTy).Contents (Elt Ideal) :=
  mulf (F := Ideal) (φ := .f32) (v107 x batch edge_index full_graph emb ggnn_W gru_Wih gru_Whh gru_bih gru_bhh W1_w W1_b W2_w W2_b q_w q_b W3_w W3_b) (v63 x batch edge_index full_graph emb ggnn_W gru_Wih gru_Whh gru_bih gru_bhh W1_w W1_b W2_w W2_b q_w q_b W3_w W3_b)
def cst_18 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S_, .f32⟩ : BufTy).Contents (Elt Ideal) :=
  constant (F := Ideal) S_ .f32 0x00000000#32
def v109 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024x256, .f32⟩ : BufTy).Contents (Elt Ideal) :=
  broadcastInDim S1024x256 ![] bcast_S_S1024x256 (cst_18 x batch edge_index full_graph emb ggnn_W gru_Wih gru_Whh gru_bih gru_bhh W1_w W1_b W2_w W2_b q_w q_b W3_w W3_b)
def v110 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S12288x1, .i32⟩ : BufTy).Contents (Elt Ideal) :=
  broadcastInDim S12288x1 ![0] bcast_S12288_S12288x1_0 batch
def v111 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024x256, .f32⟩ : BufTy).Contents (Elt Ideal) :=
  Host.scatterAdd (F := Ideal) (φ := .f32) scatter_S1024x256_S12288x1_S12288x256_1_0_0_1 (v109 x batch edge_index full_graph emb ggnn_W gru_Wih gru_Whh gru_bih gru_bhh W1_w W1_b W2_w W2_b q_w q_b W3_w W3_b) (v110 x batch edge_index full_graph emb ggnn_W gru_Wih gru_Whh gru_bih gru_bhh W1_w W1_b W2_w W2_b q_w q_b W3_w W3_b) (v108 x batch edge_index full_graph emb ggnn_W gru_Wih gru_Whh gru_bih gru_bhh W1_w W1_b W2_w W2_b q_w q_b W3_w W3_b)
def v112 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024x512, .f32⟩ : BufTy).Contents (Elt Ideal) :=
  concatenate S1024x512 1 [⟨S1024x256, (v77 x batch edge_index full_graph emb ggnn_W gru_Wih gru_Whh gru_bih gru_bhh W1_w W1_b W2_w W2_b q_w q_b W3_w W3_b)⟩, ⟨S1024x256, (v111 x batch edge_index full_graph emb ggnn_W gru_Wih gru_Whh gru_bih gru_bhh W1_w W1_b W2_w W2_b q_w q_b W3_w W3_b)⟩] concatenates_S1024x256_S1024x256_S1024x512_d1
def v113 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S512x256, .f32⟩ : BufTy).Contents (Elt Ideal) :=
  transpose S512x256 [1, 0] W3_w transposes_S256x512_S512x256_1_0
def v114 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024x256, .f32⟩ : BufTy).Contents (Elt Ideal) :=
  Host.dotGeneral (F := Ideal) (φ₁ := .f32) (φ₂ := .f32) dot_S1024x512_S512x256_S1024x256_1_0_0_1_n_n none (v112 x batch edge_index full_graph emb ggnn_W gru_Wih gru_Whh gru_bih gru_bhh W1_w W1_b W2_w W2_b q_w q_b W3_w W3_b) (v113 x batch edge_index full_graph emb ggnn_W gru_Wih gru_Whh gru_bih gru_bhh W1_w W1_b W2_w W2_b q_w q_b W3_w W3_b)
def v115 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1x256, .f32⟩ : BufTy).Contents (Elt Ideal) :=
  broadcastInDim S1x256 ![1] bcast_S256_S1x256_1 W3_b
def v116 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024x256, .f32⟩ : BufTy).Contents (Elt Ideal) :=
  broadcastInDim S1024x256 ![0, 1] bcast_S1x256_S1024x256_0_1 (v115 x batch edge_index full_graph emb ggnn_W gru_Wih gru_Whh gru_bih gru_bhh W1_w W1_b W2_w W2_b q_w q_b W3_w W3_b)
def v117 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024x256, .f32⟩ : BufTy).Contents (Elt Ideal) :=
  addf (F := Ideal) (φ := .f32) (v114 x batch edge_index full_graph emb ggnn_W gru_Wih gru_Whh gru_bih gru_bhh W1_w W1_b W2_w W2_b q_w q_b W3_w W3_b) (v116 x batch edge_index full_graph emb ggnn_W gru_Wih gru_Whh gru_bih gru_bhh W1_w W1_b W2_w W2_b q_w q_b W3_w W3_b)
def v118 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S256x50000, .f32⟩ : BufTy).Contents (Elt Ideal) :=
  transpose S256x50000 [1, 0] emb transposes_S50000x256_S256x50000_1_0
def v119 (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal)) : (⟨S1024x50000, .f32⟩ : BufTy).Contents (Elt Ideal) :=
  Host.dotGeneral (F := Ideal) (φ₁ := .f32) (φ₂ := .f32) dot_S1024x256_S256x50000_S1024x50000_1_0_0_1_n_n none (v117 x batch edge_index full_graph emb ggnn_W gru_Wih gru_Whh gru_bih gru_bhh W1_w W1_b W2_w W2_b q_w q_b W3_w W3_b) (v118 x batch edge_index full_graph emb ggnn_W gru_Wih gru_Whh gru_bih gru_bhh W1_w W1_b W2_w W2_b q_w q_b W3_w W3_b)

end Cert.ReferenceIdeal.RefStages

end
-- ==== Proof.RefRead0.lean ====
/-
  The reference's first product read entry by entry, at the ideal values: the plain product of the 50000 × 256 table
  with the 256 × 256 matrix is, at (i, j), the sum over k of emb (i, k) · W (k, j) — the same function of the two arrays
  as the kernel side's whole-array product.
-/
import proofs.«133217_j69260642615845_1_alg».proof.Proof.RefStages
import proofs.«133217_j69260642615845_1_alg».proof.Proof.KVal0
import Idealize.ShloMosaic.Lib.StackMember

set_option synthInstance.maxSize 4096
set_option maxRecDepth 16384

noncomputable section

namespace Cert.ReferenceIdeal.RefRead

open Idealize.ShloMosaic Idealize.SL.Sem Idealize.ShloMosaic.ValueIdx
open Cert.ReferenceIdeal Cert.ReferenceIdeal.Facts₀ Cert.ReferenceIdeal.Facts Cert.ReferenceIdeal.RefStages
open scoped BigOperators

variable [Cert.ReferenceIdeal.Facts]

variable (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal))

/-- The reference's emb · W is the whole-array product, entry by entry. -/
theorem v4_eq : v4 x batch edge_index full_graph emb ggnn_W gru_Wih gru_Whh gru_bih gru_bhh W1_w W1_b W2_w W2_b q_w q_b W3_w W3_b = Cert.KernelIdeal.Hand.Mm emb ggnn_W := by
  funext i
  obtain ⟨a, b, rfl⟩ : ∃ (a : Fin 50000) (b : Fin 256), i = ix2 a b := ⟨i 0, i 1, eq_ix2 i⟩
  unfold v4 Cert.KernelIdeal.Hand.Mm
  exact StackMember.dotGeneral_plain_apply none emb ggnn_W a b

end Cert.ReferenceIdeal.RefRead
-- ==== Proof.Bridge1.lean ====
/-
  The two programs side by side, first part. The reference's stages are read at the kernel program's own argument arrays
  (core c's 18 arrays at launch). Region 0 leaves in its output the reference's first product (both are emb · W entry by
  entry). The first stretch of host operations then computes from it, by the same operations as the reference, the aggregated
  messages; it transposes the two gate weight matrices as the reference does; and it lays the two bias vectors out as one row
  each by a reshape, where the reference uses a broadcast along a new leading axis: the same row.
-/
import proofs.«133217_j69260642615845_1_alg».proof.Proof.KKeep
import proofs.«133217_j69260642615845_1_alg».proof.Proof.KVal0
import proofs.«133217_j69260642615845_1_alg».proof.Proof.RefRead0
import proofs.«133217_j69260642615845_1_alg».proof.Proof.Gen.ReferenceIdeal
import Idealize.ShloMosaic.Lib.StableHlo.Run
import Idealize.ShloMosaic.PureOps.Ideal
import Idealize.ShloMosaic.Lib.Pipeline.Value

set_option maxRecDepth 16384

noncomputable section

namespace Cert.Bridge

open Cert.KernelIdeal Cert.KernelIdeal.Gen Cert.KernelIdeal.Hand
open Idealize.ShloMosaic Idealize.ShloMosaic.TcCoe
open Idealize.SL Idealize.SL.Sem

variable (m : (ℓ : Loc nD τ sig) → Buf (Elt Ideal) ℓ) (c : Dev nD)

/-- The reference's stages at core `c`'s argument arrays. -/
abbrev R4 := Cert.ReferenceIdeal.RefStages.v4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev R14 := Cert.ReferenceIdeal.RefStages.v14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev R15 := Cert.ReferenceIdeal.RefStages.v15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev R20 := Cert.ReferenceIdeal.RefStages.v20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev R17 := Cert.ReferenceIdeal.RefStages.v17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev R22 := Cert.ReferenceIdeal.RefStages.v22 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- A vector of n entries reshaped to one row is the vector broadcast along a new leading axis: both read entry q at (0, q). -/
theorem row_eq {α : Type} {n : Nat} (v : (⟨1, ![n]⟩ : Shape).Idx → α) (h : (⟨1, ![n]⟩ : Shape).ShapeCasts ⟨1 + 1, Matrix.vecCons 1 ![n]⟩)
    (h' : (⟨1, ![n]⟩ : Shape).BroadcastsInDim ⟨1 + 1, Matrix.vecCons 1 ![n]⟩ ![1]) :
    shapeCast ⟨1 + 1, Matrix.vecCons 1 ![n]⟩ v h = broadcastInDim ⟨1 + 1, Matrix.vecCons 1 ![n]⟩ ![1] h' v :=
  funext fun j => (shapeCast_addUnit_apply ![n] v h j).trans
    (broadcastInDim_apply ![1] h' v j (fun a => j a.succ) (fun a => by
      match a with
      | ⟨0, _⟩ =>
        show (j 1).val = if n = 1 then 0 else (j 1).val
        split
        · rename_i hn; have := (j 1).isLt; simp only [Matrix.cons_val_one, Matrix.cons_val_zero] at this; omega
        · rfl)).symm

/-- Region 0's output is the reference's first product. -/
theorem first_product : W1 m c (Proc.devRef .tc main_v0) = R4 m c :=
  (W1_arr m c 2).trans ((final0 (E0 m) c).trans (Cert.ReferenceIdeal.RefRead.v4_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))).symm)

set_option maxHeartbeats 4000000 in
/-- The aggregated messages. -/
theorem aggregated : W2 m c (Proc.devRef .tc main_v14) = R14 m c := by
  show StableHlo.after hostOps1 (W1 m c) (Proc.devRef .tc main_v14) = _
  after_results_simp
  rw [W1_keep m c main_arg3 (by decide), first_product m c]
  rfl

/-- The first gate matrix, transposed. -/
theorem wih_t : W2 m c (Proc.devRef .tc main_v15) = R15 m c := by
  show StableHlo.after hostOps1 (W1 m c) (Proc.devRef .tc main_v15) = _
  after_results
  rw [W1_keep m c main_arg6 (by decide)]
  rfl

/-- The second gate matrix, transposed. -/
theorem whh_t : W2 m c (Proc.devRef .tc main_v16) = R20 m c := by
  show StableHlo.after hostOps1 (W1 m c) (Proc.devRef .tc main_v16) = _
  after_results
  rw [W1_keep m c main_arg7 (by decide)]
  rfl

/-- The first bias vector as one row. -/
theorem bih_row : W2 m c (Proc.devRef .tc main_v17) = R17 m c := by
  show StableHlo.after hostOps1 (W1 m c) (Proc.devRef .tc main_v17) = _
  after_results_simp
  rw [W1_keep m c main_arg8 (by decide)]
  exact row_eq _ _ _

/-- The second bias vector as one row. -/
theorem bhh_row : W2 m c (Proc.devRef .tc main_v18) = R22 m c := by
  show StableHlo.after hostOps1 (W1 m c) (Proc.devRef .tc main_v18) = _
  after_results_simp
  rw [W1_keep m c main_arg9 (by decide)]
  exact row_eq _ _ _

end Cert.Bridge

end
-- ==== Proof.Pay1.lean ====
/-
  The second kernel body read at an index, at the ideal values: a gated update of a 2000 × 256 block. Two linear
  maps into 768 columns (a 2000 × 256 block times a 256 × 768 matrix, plus a bias row) are cut into three 256-column
  bands — reset, update, candidate — and the value at (r, j) is (1 − z) · n + z · emb (r, j), where
  rr = logistic (gi j + gh j), z = logistic (gi (256 + j) + gh (256 + j)), n = tanh (gi (512 + j) + rr · gh (512 + j)).
  The narrowing of the operands is the identity, the zero accumulators add nothing, and the literal one is kept as the
  word 0x3F800000 read as a value.
-/
import proofs.«133217_j69260642615845_1_alg».proof.Proof.Gen.KernelIdeal.Skeleton
import Idealize.ShloMosaic.PureOps.Ideal.Laws
import Idealize.ShloMosaic.Lib.ValueIdx
import Idealize.ShloMosaic.Lib.ValueLayout

noncomputable section

namespace Cert.KernelIdeal.Pay

open Idealize.ShloMosaic Idealize.SL.Sem Idealize.ShloMosaic.ValueIdx
open scoped BigOperators

open Cert.KernelIdeal.Facts₀

/-- The dimension numbers of the 2000 × 256 by 256 × 768 product: axis 1 of the left against axis 0 of the right. -/
abbrev D1 := dot_S2000x256_S256x768_S2000x768_1_0_0_1_n_n

/-- The left operand's index at output (r, q) and contraction coordinate c is (r, c). -/
theorem D1_lhs (r : Fin 2000) (q : Fin 768) (c : Fin 256) :
    D1.lhsIdx (ix2 r q) ((contrEquiv1 D1 256 rfl rfl).symm c) = ix2 r c := by
  have c2 := contrEquiv1_symm_val D1 256 rfl rfl c
  funext ax; apply Fin.ext
  match ax with
  | ⟨0, _⟩ => simp [DotDims.lhsIdx, D1, dot_S2000x256_S256x768_S2000x768_1_0_0_1_n_n]; rfl
  | ⟨1, _⟩ => simp [DotDims.lhsIdx, D1, dot_S2000x256_S256x768_S2000x768_1_0_0_1_n_n]; exact c2

/-- The right operand's index at output (r, q) and contraction coordinate c is (c, q). -/
theorem D1_rhs (r : Fin 2000) (q : Fin 768) (c : Fin 256) :
    D1.rhsIdx (ix2 r q) ((contrEquiv1 D1 256 rfl rfl).symm c) = ix2 c q := by
  have c2 := contrEquiv1_symm_val D1 256 rfl rfl c
  funext ax; apply Fin.ext
  match ax with
  | ⟨0, _⟩ => simp [DotDims.rhsIdx, D1, dot_S2000x256_S256x768_S2000x768_1_0_0_1_n_n]; exact c2
  | ⟨1, _⟩ => simp [DotDims.rhsIdx, D1, dot_S2000x256_S256x768_S2000x768_1_0_0_1_n_n]; rfl

/-- The product into the zero accumulator, read at (r, q). -/
theorem mm1_apply {φ₁ φ₂ : FTy} (A : FVec Ideal S2000x256 φ₁) (B : FVec Ideal S256x768 φ₂) (r : Fin 2000) (q : Fin 768) :
    matmul D1 none A B (constant (F := Ideal) S2000x768 .f32 0x00000000#32) (ix2 r q)
      = ∑ c : Fin 256, A (ix2 r c) * B (ix2 c q) := by
  show FloatOps.matmul D1 none A B _ (ix2 r q) = _
  rw [Ideal.matmul_constant_zero_apply, ← Equiv.sum_comp (contrEquiv1 D1 256 rfl rfl).symm]
  refine Finset.sum_congr rfl fun c _ => ?_
  rw [D1_lhs, D1_rhs]

/-- A linear map's value at (r, q): row r of the block against column q of the matrix, plus the bias row's entry. -/
abbrev lin1 (x : Vec Ideal S2000x256 .f32) (w : Vec Ideal S256x768 .f32) (b : Vec Ideal S1x768 .f32)
    (r : Fin 2000) (q : Fin 768) : Ideal .f32 :=
  (∑ k : Fin 256, x (ix2 r k) * w (ix2 k q)) + b (ix2 (0 : Fin 1) q)

/-- The narrowed product plus the broadcast bias row, read at (r, q), is the linear map's value. -/
theorem lin1_apply (X : FVec Ideal S2000x256 .f32) (W : FVec Ideal S256x768 .f32) (B : FVec Ideal S1x768 .f32)
    (r : Fin 2000) (q : Fin 768) :
    addf (matmul D1 none (truncf .bf16 X bitsLt_bf16_f32) (truncf .bf16 W bitsLt_bf16_f32)
        (constant (F := Ideal) S2000x768 .f32 0x00000000#32))
      (broadcastTo S2000x768 B broadcasts_S1x768_S2000x768) (ix2 r q)
      = (∑ k : Fin 256, X (ix2 r k) * W (ix2 k q)) + B (ix2 (0 : Fin 1) q) := by
  show matmul D1 none (truncf .bf16 X bitsLt_bf16_f32) (truncf .bf16 W bitsLt_bf16_f32)
        (constant (F := Ideal) S2000x768 .f32 0x00000000#32) (ix2 r q)
      + broadcastTo S2000x768 B broadcasts_S1x768_S2000x768 (ix2 r q) = _
  rw [mm1_apply, broadcastTo_1b_ab_apply]
  rfl

/-- Column o + j of the 768, for a band starting at o. -/
abbrev col (o : Nat) (ho : o + 256 ≤ 768) (j : Fin 256) : Fin 768 := ⟨o + j.val, by have := j.isLt; omega⟩

/-- A 256-column band of a 2000 × 768 block starting at column o, read at (r, j), is the block at (r, o + j). -/
theorem band_apply (o : Nat) (ho : o + 256 ≤ 768) (G : FVec Ideal S2000x768 .f32)
    (h : S2000x768.Slices ![0, o] S2000x256) (r : Fin 2000) (j : Fin 256) :
    extractStridedSlice S2000x256 ![0, o] G h (ix2 r j) = G (ix2 r (col o ho j)) := by
  refine extractStridedSlice_apply ![0, o] G h (ix2 r j) (ix2 r (col o ho j)) fun a => ?_
  match a with
  | ⟨0, _⟩ => show r.val = 0 + r.val; omega
  | ⟨1, _⟩ => rfl

/-- The literal one of the update gate: the word 0x3F800000 read as a value. -/
abbrev one1 : Ideal .f32 := Ideal.ofBits .f32 0x3F800000#32

/-- The gated update of two 768-column blocks G, H and the old state, read at (r, j). -/
theorem gate1_apply (G H : FVec Ideal S2000x768 .f32) (emb : FVec Ideal S2000x256 .f32) (r : Fin 2000) (j : Fin 256)
    (gi gh : Fin 768 → Ideal .f32) (hG : ∀ q, G (ix2 r q) = gi q) (hH : ∀ q, H (ix2 r q) = gh q) :
    addf
      (mulf
        (subf (broadcast S2000x256 (Scalar.ofBits (F := Ideal) .f32 0x3F800000#32))
          (logistic (addf (extractStridedSlice S2000x256 ![0, 256] G slices_S2000x768_o0_256_S2000x256)
            (extractStridedSlice S2000x256 ![0, 256] H slices_S2000x768_o0_256_S2000x256))))
        (tanh (addf (extractStridedSlice S2000x256 ![0, 512] G slices_S2000x768_o0_512_S2000x256)
          (mulf
            (logistic (addf (extractStridedSlice S2000x256 ![0, 0] G slices_S2000x768_o0_0_S2000x256)
              (extractStridedSlice S2000x256 ![0, 0] H slices_S2000x768_o0_0_S2000x256)))
            (extractStridedSlice S2000x256 ![0, 512] H slices_S2000x768_o0_512_S2000x256)))))
      (mulf
        (logistic (addf (extractStridedSlice S2000x256 ![0, 256] G slices_S2000x768_o0_256_S2000x256)
          (extractStridedSlice S2000x256 ![0, 256] H slices_S2000x768_o0_256_S2000x256)))
        emb) (ix2 r j)
    = (one1 - Ideal.logistic (gi (col 256 (by decide) j) + gh (col 256 (by decide) j)))
          * Ideal.tanh (gi (col 512 (by decide) j)
              + Ideal.logistic (gi (col 0 (by decide) j) + gh (col 0 (by decide) j)) * gh (col 512 (by decide) j))
        + Ideal.logistic (gi (col 256 (by decide) j) + gh (col 256 (by decide) j)) * emb (ix2 r j) := by
  rw [← hG, ← hG, ← hG, ← hH, ← hH, ← hH]
  rw [← band_apply 0 (by decide) G slices_S2000x768_o0_0_S2000x256, ← band_apply 0 (by decide) H slices_S2000x768_o0_0_S2000x256,
    ← band_apply 256 (by decide) G slices_S2000x768_o0_256_S2000x256, ← band_apply 256 (by decide) H slices_S2000x768_o0_256_S2000x256,
    ← band_apply 512 (by decide) G slices_S2000x768_o0_512_S2000x256, ← band_apply 512 (by decide) H slices_S2000x768_o0_512_S2000x256]
  rfl

/-- The second kernel body at (r, j): (1 − z) · n + z · emb (r, j), with
    rr = logistic (gi j + gh j), z = logistic (gi (256 + j) + gh (256 + j)), n = tanh (gi (512 + j) + rr · gh (512 + j)),
    gi = lin1 agg wih bih r and gh = lin1 emb whh bhh r. -/
theorem pay1_apply (agg emb : Vec Ideal S2000x256 .f32) (wih whh : Vec Ideal S256x768 .f32) (bih bhh : Vec Ideal S1x768 .f32)
    (r : Fin 2000) (j : Fin 256) :
    Gen.k1_pay1 agg emb wih whh bih bhh (ix2 r j)
      = (one1 - Ideal.logistic (lin1 agg wih bih r (col 256 (by decide) j) + lin1 emb whh bhh r (col 256 (by decide) j)))
          * Ideal.tanh (lin1 agg wih bih r (col 512 (by decide) j)
              + Ideal.logistic (lin1 agg wih bih r (col 0 (by decide) j) + lin1 emb whh bhh r (col 0 (by decide) j))
                * lin1 emb whh bhh r (col 512 (by decide) j))
        + Ideal.logistic (lin1 agg wih bih r (col 256 (by decide) j) + lin1 emb whh bhh r (col 256 (by decide) j))
          * emb (ix2 r j) := by
  unfold Gen.k1_pay1
  refine gate1_apply _ _ emb r j (lin1 agg wih bih r) (lin1 emb whh bhh r) (fun q => ?_) (fun q => ?_)
  · refine (lin1_apply _ _ _ r q).trans ?_
    rw [shapeCast_self, shapeCast_self, shapeCast_self]
  · refine (lin1_apply _ _ _ r q).trans ?_
    rw [shapeCast_self, shapeCast_self]

end Cert.KernelIdeal.Pay
-- ==== Proof.KVal1.lean ====
/-
  What the gated update leaves, at the ideal instance: the whole array of updated rows. With, for a row i and a column q of
  the 768, gi q = Σ_k agg (i, k) · Wihᵀ (k, q) + bih (q) and gh q = Σ_k emb (i, k) · Whhᵀ (k, q) + bhh (q), the entry at
  (i, j) is (1 − z) · n + z · emb (i, j), where r = logistic (gi j + gh j), z = logistic (gi (256 + j) + gh (256 + j)) and
  n = tanh (gi (512 + j) + r · gh (512 + j)). Grid point t writes back rows [2000 t, 2000 t + 2000); row r of its block
  is row 2000 t + r of the array, the weight matrices and bias rows are staged whole. The 25 blocks cover the 50000 rows.
-/
import proofs.«133217_j69260642615845_1_alg».proof.Proof.KRun
import proofs.«133217_j69260642615845_1_alg».proof.Proof.Pay1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.KernelIdeal.Pay (col one1 lin1)

variable (V : (c : Dev nD) → (b : Ref sig .tc) → Buf (Elt Ideal) ((c : Thread nD τ).loc b))

theorem zero2' : (![0, 0] : Fin 2 → Nat) = fun _ => 0 := funext fun a => by fin_cases a <;> rfl

/-- A linear layer's entry: row i of the table against column q of the matrix, plus the bias row's entry q. -/
abbrev lin (x : S50000x256.Idx → EReal) (w : S256x768.Idx → EReal) (b : S1x768.Idx → EReal) (i : Fin 50000) (q : Fin 768) : EReal :=
  (∑ k : Fin 256, x (ix2 i k) * w (ix2 k q)) + b (ix2 (0 : Fin 1) q)

/-- The gated update's entry at row i, column j. -/
def gruAt (agg emb : S50000x256.Idx → EReal) (wih whh : S256x768.Idx → EReal) (bih bhh : S1x768.Idx → EReal)
    (i : Fin 50000) (j : Fin 256) : EReal :=
  (one1 - Ideal.logistic (lin agg wih bih i (col 256 (by decide) j) + lin emb whh bhh i (col 256 (by decide) j)))
      * Ideal.tanh (lin agg wih bih i (col 512 (by decide) j)
          + Ideal.logistic (lin agg wih bih i (col 0 (by decide) j) + lin emb whh bhh i (col 0 (by decide) j))
            * lin emb whh bhh i (col 512 (by decide) j))
    + Ideal.logistic (lin agg wih bih i (col 256 (by decide) j) + lin emb whh bhh i (col 256 (by decide) j))
      * emb (ix2 i j)

/-- The gated update of a 50000 × 256 table, entry by entry. -/
def Gru (agg emb : S50000x256.Idx → EReal) (wih whh : S256x768.Idx → EReal) (bih bhh : S1x768.Idx → EReal) :
    S50000x256.Idx → EReal := fun i => gruAt agg emb wih whh bih bhh (i 0) (i 1)

/-- The printed index maps over the grid: the two row windows move with the output's, the four whole windows stay. -/
theorem maps1 : ∀ t : Fin cfg1.N, win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0 ∧ win1_3.index t (0 : Fin 2) = 0 ∧ win1_3.index t (1 : Fin 2) = 0
    ∧ win1_4.index t (0 : Fin 2) = 0 ∧ win1_4.index t (1 : Fin 2) = 0 ∧ win1_5.index t (0 : Fin 2) = 0 ∧ win1_5.index t (1 : Fin 2) = 0
    ∧ win1_6.index t (1 : Fin 2) = 0 ∧ win1_6.index t (0 : Fin 2) ≤ 24 :=
  (by decide +kernel : ∀ t : Fin grid1.N, _)

/-- Every block of rows is some point's. -/
theorem onto1 : ∀ q : Fin 25, ∃ t : Fin cfg1.N, win1_6.index t = ![q.val, 0] :=
  (by decide +kernel : ∀ q : Fin 25, ∃ t : Fin grid1.N, win1_6.index t = ![q.val, 0])

set_option maxHeartbeats 1600000 in
/-- What point `t` writes back is block `t` of the updated rows. -/
theorem flushed1 (c : Dev nD) (t : Fin cfg1.N) :
    (dat1 V c).flushed 6 t = ((cfg1.win 6).blk t).view.read (Elt Ideal)
      (Gru (V c main_v14) (V c main_arg4) (V c main_v15) (V c main_v16) (V c main_v17) (V c main_v18)) := by
  show (cfg1.win 6).cut (grid1.coords t) ((dat1 V c).after 6 t) = _
  rw [dat1_after_out]
  unfold upd1
  rw [View.canon_unit_zero zero2']
  simp only [View.ld_unit_zero (S := S2000x256) zero2', View.ld_unit_zero (S := S256x768) zero2', View.ld_unit_zero (S := S1x768) zero2']
  obtain ⟨a0, a1, b0, b1, c0, c1, d0, d1, f0, f1, g0, g1, o1, o0⟩ := maps1 t
  funext j
  obtain ⟨rr, q, rfl⟩ : ∃ (rr : Fin 2000) (q : Fin 256), j = ix2 rr q := ⟨j 0, j 1, eq_ix2 j⟩
  -- the array row this block row is
  have hlt : win1_6.index t (0 : Fin 2) * 2000 + rr.val < 50000 := by have := rr.isLt; omega
  let row : Fin 50000 := ⟨win1_6.index t (0 : Fin 2) * 2000 + rr.val, hlt⟩
  have hemb : ((cfg1.win 6).blk t).view.emb (ix2 rr q) = ix2 row q := by
    funext a; apply Fin.ext
    match a with
    | ⟨0, _⟩ => show win1_6.index t (0 : Fin 2) * 2000 + 1 * rr.val = win1_6.index t (0 : Fin 2) * 2000 + rr.val; omega
    | ⟨1, _⟩ => show win1_6.index t (1 : Fin 2) * 256 + 1 * q.val = q.val; omega
  show k1_pay1 (blk1 V c 0 t) (blk1 V c 1 t) (blk1 V c 2 t) (blk1 V c 3 t) (blk1 V c 4 t) (blk1 V c 5 t) (ix2 rr q)
    = Gru (V c main_v14) (V c main_arg4) (V c main_v15) (V c main_v16) (V c main_v17) (V c main_v18) (((cfg1.win 6).blk t).view.emb (ix2 rr q))
  rw [hemb]
  show _ = gruAt (V c main_v14) (V c main_arg4) (V c main_v15) (V c main_v16) (V c main_v17) (V c main_v18) row q
  unfold gruAt
  refine (Cert.KernelIdeal.Pay.pay1_apply _ _ _ _ _ _ rr q).trans ?_
  -- block entries are array entries
  have x0 : ∀ k : Fin 256, blk1 V c 0 t (ix2 rr k) = V c main_v14 (ix2 row k) := fun k => congrArg (V c main_v14) (by
    funext a; apply Fin.ext
    match a with
    | ⟨0, _⟩ => show win1_0.index t (0 : Fin 2) * 2000 + 1 * rr.val = win1_6.index t (0 : Fin 2) * 2000 + rr.val; omega
    | ⟨1, _⟩ => show win1_0.index t (1 : Fin 2) * 256 + 1 * k.val = k.val; omega)
  have x1 : ∀ k : Fin 256, blk1 V c 1 t (ix2 rr k) = V c main_arg4 (ix2 row k) := fun k => congrArg (V c main_arg4) (by
    funext a; apply Fin.ext
    match a with
    | ⟨0, _⟩ => show win1_1.index t (0 : Fin 2) * 2000 + 1 * rr.val = win1_6.index t (0 : Fin 2) * 2000 + rr.val; omega
    | ⟨1, _⟩ => show win1_1.index t (1 : Fin 2) * 256 + 1 * k.val = k.val; omega)
  have w2 : ∀ (k : Fin 256) (p : Fin 768), blk1 V c 2 t (ix2 k p) = V c main_v15 (ix2 k p) := fun k p => congrArg (V c main_v15) (by
    funext a; apply Fin.ext
    match a with
    | ⟨0, _⟩ => show win1_2.index t (0 : Fin 2) * 256 + 1 * k.val = k.val; omega
    | ⟨1, _⟩ => show win1_2.index t (1 : Fin 2) * 768 + 1 * p.val = p.val; omega)
  have w3 : ∀ (k : Fin 256) (p : Fin 768), blk1 V c 3 t (ix2 k p) = V c main_v16 (ix2 k p) := fun k p => congrArg (V c main_v16) (by
    funext a; apply Fin.ext
    match a with
    | ⟨0, _⟩ => show win1_3.index t (0 : Fin 2) * 256 + 1 * k.val = k.val; omega
    | ⟨1, _⟩ => show win1_3.index t (1 : Fin 2) * 768 + 1 * p.val = p.val; omega)
  have b4 : ∀ p : Fin 768, blk1 V c 4 t (ix2 (0 : Fin 1) p) = V c main_v17 (ix2 (0 : Fin 1) p) := fun p => congrArg (V c main_v17) (by
    funext a; apply Fin.ext
    match a with
    | ⟨0, _⟩ => show win1_4.index t (0 : Fin 2) * 1 + 1 * (0 : Fin 1).val = (0 : Fin 1).val; omega
    | ⟨1, _⟩ => show win1_4.index t (1 : Fin 2) * 768 + 1 * p.val = p.val; omega)
  have b5 : ∀ p : Fin 768, blk1 V c 5 t (ix2 (0 : Fin 1) p) = V c main_v18 (ix2 (0 : Fin 1) p) := fun p => congrArg (V c main_v18) (by
    funext a; apply Fin.ext
    match a with
    | ⟨0, _⟩ => show win1_5.index t (0 : Fin 2) * 1 + 1 * (0 : Fin 1).val = (0 : Fin 1).val; omega
    | ⟨1, _⟩ => show win1_5.index t (1 : Fin 2) * 768 + 1 * p.val = p.val; omega)
  -- so the two linear layers of the block row are those of the array row
  have hI : ∀ p : Fin 768, lin1 (blk1 V c 0 t) (blk1 V c 2 t) (blk1 V c 4 t) rr p = lin (V c main_v14) (V c main_v15) (V c main_v17) row p := fun p =>
    congrArg₂ (fun (a b : EReal) => a + b)
      (Finset.sum_congr rfl fun k _ => congrArg₂ (fun (a b : EReal) => a * b) (x0 k) (w2 k p)) (b4 p)
  have hH : ∀ p : Fin 768, lin1 (blk1 V c 1 t) (blk1 V c 3 t) (blk1 V c 5 t) rr p = lin (V c main_arg4) (V c main_v16) (V c main_v18) row p := fun p =>
    congrArg₂ (fun (a b : EReal) => a + b)
      (Finset.sum_congr rfl fun k _ => congrArg₂ (fun (a b : EReal) => a * b) (x1 k) (w3 k p)) (b5 p)
  rw [hI, hI, hI, hH, hH, hH, x1 q]

/-- An index of the array is in point `t`'s block iff each coordinate is in the block's range on its axis. -/
theorem mem_blk1 (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v19).slice (win1_6.rect t)).set ↔ _
  rw [View.set_slice_whole, Rect.mem_set_unit]
  exact Iff.rfl

/-- Every row of the array lies in some point's block. -/
theorem cover1 (i : S50000x256.Idx) : ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht⟩ := onto1 ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- THE ARRAY after region 1: the updated rows, whole. -/
theorem final1 (c : Dev nD) : (dat1 V c).arrAt 6 cfg1.N
    = Gru (V c main_v14) (V c main_arg4) (V c main_v15) (V c main_v16) (V c main_v17) (V c main_v18) :=
  (dat1 V c).arrAt_eq_of_cover 6 _ (fun t _ => flushed1 V c t) cover1

end Cert.KernelIdeal.Hand

end
-- ==== Proof.RefRead1.lean ====
/-
  The reference's gated update read entry by entry, at the ideal values. Its stages from the two linear layers to the
  updated table are the whole-array gated update of the reference's own earlier stages: each linear layer is a plain
  product plus a broadcast bias row, the three gates read the 256-column bands starting at columns 0, 256 and 512, the
  logistic function is spelt as one over one plus the exponential of the negation (the word 0x3F800000 is one), and the
  literal one of (1 − z) is that word read as a value.
-/
import proofs.«133217_j69260642615845_1_alg».proof.Proof.RefStages
import proofs.«133217_j69260642615845_1_alg».proof.Proof.KVal1
import Idealize.ShloMosaic.Lib.StackMember
import Idealize.ShloMosaic.Lib.ValueLayout
import Idealize.ShloMosaic.Lib.IdealHost
import Idealize.ShloMosaic.Lib.KernelVsHost

set_option synthInstance.maxSize 4096
set_option maxRecDepth 16384

noncomputable section

namespace Cert.ReferenceIdeal.RefRead

open Idealize.ShloMosaic Idealize.SL.Sem Idealize.ShloMosaic.ValueIdx
open Cert.ReferenceIdeal Cert.ReferenceIdeal.Facts₀ Cert.ReferenceIdeal.Facts Cert.ReferenceIdeal.RefStages
open scoped BigOperators

variable [Cert.ReferenceIdeal.Facts]

variable (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal))

namespace R1

/-! ## The host's pointwise operations read at an index -/

/-- The host's quotient at an index. -/
theorem hostDivf_apply {s : Shape} (a b : FVec Ideal s .f32) (i : s.Idx) : Host.divf a b i = Ideal.div (a i) (b i) := rfl
/-- The host's exponential at an index. -/
theorem hostExp_apply {s : Shape} (a : FVec Ideal s .f32) (i : s.Idx) : Host.exp a i = Ideal.exp (a i) := rfl
/-- The host's negation at an index. -/
theorem hostNegf_apply {s : Shape} (a : FVec Ideal s .f32) (i : s.Idx) : Host.negf a i = -(a i) := rfl
/-- The host's hyperbolic tangent at an index. -/
theorem hostTanh_apply {s : Shape} (a : FVec Ideal s .f32) (i : s.Idx) : Host.tanh a i = Ideal.tanh (a i) := rfl

/-- The scalar constant with the word 0x3F800000, broadcast to any shape, reads that word's value everywhere. -/
theorem oneWord_apply {T : Shape} (h : (⟨0, ![]⟩ : Shape).BroadcastsInDim T ![]) (j : T.Idx) :
    broadcastInDim T ![] h (constant (F := Ideal) ⟨0, ![]⟩ .f32 0x3F800000#32) j = Ideal.ofBits .f32 0x3F800000#32 := by
  rw [broadcastInDim_scalar_apply, constant_apply]

/-- … which is one. -/
theorem one_apply {T : Shape} (h : (⟨0, ![]⟩ : Shape).BroadcastsInDim T ![]) (j : T.Idx) :
    broadcastInDim T ![] h (constant (F := Ideal) ⟨0, ![]⟩ .f32 0x3F800000#32) j = 1 := by
  rw [oneWord_apply, Ideal.ofBits_one_f32]

/-- The logistic function spelt as one over one plus the exponential of the negation, with both ones given as values that
    are one. -/
theorem sigmoid_eq (o₁ o₂ z : EReal) (h₁ : o₁ = 1) (h₂ : o₂ = 1) :
    Ideal.div o₂ (o₁ + Ideal.exp (-z)) = Ideal.logistic z := by
  subst h₁ h₂; rfl

/-! ## The layout operations of the gated update read at an index -/

/-- The plain product of a 50000 × 256 array with a 256 × 768 matrix, read at (i, q). -/
theorem dotR_apply (A : FVec Ideal S50000x256 .f32) (M : FVec Ideal S256x768 .f32) (i : Fin 50000) (q : Fin 768) :
    Host.dotGeneral (F := Ideal) (φ₁ := .f32) (φ₂ := .f32) dot_S50000x256_S256x768_S50000x768_1_0_0_1_n_n none A M (ix2 i q)
      = ∑ k : Fin 256, A (ix2 i k) * M (ix2 k q) :=
  StackMember.dotGeneral_plain_apply none A M i q

/-- A bias row broadcast down the 50000 rows, read at (i, q), is the row at (0, q). -/
theorem rowR_apply (B : FVec Ideal S1x768 .f32) (i : Fin 50000) (q : Fin 768) :
    broadcastInDim S50000x768 ![0, 1] bcast_S1x768_S50000x768_0_1 B (ix2 i q) = B (ix2 (0 : Fin 1) q) :=
  broadcastInDim_oneRow_apply bcast_S1x768_S50000x768_0_1 B i q

/-- A 256-column band of a 50000 × 768 array starting at column o, read at (i, j), is the array at (i, o + j). -/
theorem band_apply (o : Nat) (ho : o + 256 ≤ 768) (G : FVec Ideal S50000x768 .f32)
    (h : S50000x768.Slices ![0, o] S50000x256) (i : Fin 50000) (j : Fin 256) :
    extractStridedSlice S50000x256 ![0, o] G h (ix2 i j) = G (ix2 i (Cert.KernelIdeal.Pay.col o ho j)) := by
  refine extractStridedSlice_apply ![0, o] G h (ix2 i j) (ix2 i (Cert.KernelIdeal.Pay.col o ho j)) fun a => ?_
  match a with
  | ⟨0, _⟩ => show i.val = 0 + i.val; omega
  | ⟨1, _⟩ => rfl

/-- The whole-array gated update at (i, j) is its entry function there. -/
theorem gru_at (agg emb' : FVec Ideal S50000x256 .f32) (wih whh : FVec Ideal S256x768 .f32) (bih bhh : FVec Ideal S1x768 .f32)
    (i : Fin 50000) (j : Fin 256) :
    Cert.KernelIdeal.Hand.Gru agg emb' wih whh bih bhh (ix2 i j) = Cert.KernelIdeal.Hand.gruAt agg emb' wih whh bih bhh i j := rfl

/-! ## The stages -/

/-- The reference's input-side linear layer, read at (i, q). -/
theorem v19_apply (i : Fin 50000) (q : Fin 768) :
    v19 x batch edge_index full_graph emb ggnn_W gru_Wih gru_Whh gru_bih gru_bhh W1_w W1_b W2_w W2_b q_w q_b W3_w W3_b (ix2 i q) = Cert.KernelIdeal.Hand.lin (v14 x batch edge_index full_graph emb ggnn_W gru_Wih gru_Whh gru_bih gru_bhh W1_w W1_b W2_w W2_b q_w q_b W3_w W3_b) (v15 x batch edge_index full_graph emb ggnn_W gru_Wih gru_Whh gru_bih gru_bhh W1_w W1_b W2_w W2_b q_w q_b W3_w W3_b) (v17 x batch edge_index full_graph emb ggnn_W gru_Wih gru_Whh gru_bih gru_bhh W1_w W1_b W2_w W2_b q_w q_b W3_w W3_b) i q := by
  unfold v19
  rw [addf_apply]
  unfold v18
  rw [rowR_apply]
  unfold v16
  rw [dotR_apply]

/-- The reference's state-side linear layer, read at (i, q). -/
theorem v24_apply (i : Fin 50000) (q : Fin 768) :
    v24 x batch edge_index full_graph emb ggnn_W gru_Wih gru_Whh gru_bih gru_bhh W1_w W1_b W2_w W2_b q_w q_b W3_w W3_b (ix2 i q) = Cert.KernelIdeal.Hand.lin emb (v20 x batch edge_index full_graph emb ggnn_W gru_Wih gru_Whh gru_bih gru_bhh W1_w W1_b W2_w W2_b q_w q_b W3_w W3_b) (v22 x batch edge_index full_graph emb ggnn_W gru_Wih gru_Whh gru_bih gru_bhh W1_w W1_b W2_w W2_b q_w q_b W3_w W3_b) i q := by
  unfold v24
  rw [addf_apply]
  unfold v23
  rw [rowR_apply]
  unfold v21
  rw [dotR_apply]

/-- The reference's logistic gate over the band starting at column 0, read at (i, j). -/
theorem v37_apply (i : Fin 50000) (j : Fin 256) :
    v37 x batch edge_index full_graph emb ggnn_W gru_Wih gru_Whh gru_bih gru_bhh W1_w W1_b W2_w W2_b q_w q_b W3_w W3_b (ix2 i j)
      = Ideal.logistic (v19 x batch edge_index full_graph emb ggnn_W gru_Wih gru_Whh gru_bih gru_bhh W1_w W1_b W2_w W2_b q_w q_b W3_w W3_b (ix2 i (Cert.KernelIdeal.Pay.col 0 (by decide) j)) + v24 x batch edge_index full_graph emb ggnn_W gru_Wih gru_Whh gru_bih gru_bhh W1_w W1_b W2_w W2_b q_w q_b W3_w W3_b (ix2 i (Cert.KernelIdeal.Pay.col 0 (by decide) j))) := by
  unfold v37
  rw [hostDivf_apply]
  unfold v36
  unfold cst_2
  unfold v35
  rw [addf_apply]
  unfold v34
  unfold cst_1
  unfold v33
  rw [hostExp_apply]
  unfold v32
  rw [hostNegf_apply]
  unfold v31
  rw [addf_apply]
  unfold v25
  unfold v28
  rw [band_apply 0 (by decide), band_apply 0 (by decide)]
  exact sigmoid_eq _ _ _ (one_apply _ _) (one_apply _ _)

/-- The reference's logistic gate over the band starting at column 256, read at (i, j). -/
theorem v44_apply (i : Fin 50000) (j : Fin 256) :
    v44 x batch edge_index full_graph emb ggnn_W gru_Wih gru_Whh gru_bih gru_bhh W1_w W1_b W2_w W2_b q_w q_b W3_w W3_b (ix2 i j)
      = Ideal.logistic (v19 x batch edge_index full_graph emb ggnn_W gru_Wih gru_Whh gru_bih gru_bhh W1_w W1_b W2_w W2_b q_w q_b W3_w W3_b (ix2 i (Cert.KernelIdeal.Pay.col 256 (by decide) j)) + v24 x batch edge_index full_graph emb ggnn_W gru_Wih gru_Whh gru_bih gru_bhh W1_w W1_b W2_w W2_b q_w q_b W3_w W3_b (ix2 i (Cert.KernelIdeal.Pay.col 256 (by decide) j))) := by
  unfold v44
  rw [hostDivf_apply]
  unfold v43
  unfold cst_4
  unfold v42
  rw [addf_apply]
  unfold v41
  unfold cst_3
  unfold v40
  rw [hostExp_apply]
  unfold v39
  rw [hostNegf_apply]
  unfold v38
  rw [addf_apply]
  unfold v26
  unfold v29
  rw [band_apply 256 (by decide), band_apply 256 (by decide)]
  exact sigmoid_eq _ _ _ (one_apply _ _) (one_apply _ _)

/-- The reference's candidate state, read at (i, j). -/
theorem v47_apply (i : Fin 50000) (j : Fin 256) :
    v47 x batch edge_index full_graph emb ggnn_W gru_Wih gru_Whh gru_bih gru_bhh W1_w W1_b W2_w W2_b q_w q_b W3_w W3_b (ix2 i j)
      = Ideal.tanh (v19 x batch edge_index full_graph emb ggnn_W gru_Wih gru_Whh gru_bih gru_bhh W1_w W1_b W2_w W2_b q_w q_b W3_w W3_b (ix2 i (Cert.KernelIdeal.Pay.col 512 (by decide) j)) + v37 x batch edge_index full_graph emb ggnn_W gru_Wih gru_Whh gru_bih gru_bhh W1_w W1_b W2_w W2_b q_w q_b W3_w W3_b (ix2 i j) * v24 x batch edge_index full_graph emb ggnn_W gru_Wih gru_Whh gru_bih gru_bhh W1_w W1_b W2_w W2_b q_w q_b W3_w W3_b (ix2 i (Cert.KernelIdeal.Pay.col 512 (by decide) j))) := by
  unfold v47
  rw [hostTanh_apply]
  unfold v46
  rw [addf_apply]
  unfold v45
  rw [mulf_apply]
  unfold v27
  unfold v30
  rw [band_apply 512 (by decide), band_apply 512 (by decide)]

end R1

open R1

/-- The reference's gated update is the whole-array gated update of its own stages. -/
theorem v52_eq : v52 x batch edge_index full_graph emb ggnn_W gru_Wih gru_Whh gru_bih gru_bhh W1_w W1_b W2_w W2_b q_w q_b W3_w W3_b
    = Cert.KernelIdeal.Hand.Gru (v14 x batch edge_index full_graph emb ggnn_W gru_Wih gru_Whh gru_bih gru_bhh W1_w W1_b W2_w W2_b q_w q_b W3_w W3_b) emb (v15 x batch edge_index full_graph emb ggnn_W gru_Wih gru_Whh gru_bih gru_bhh W1_w W1_b W2_w W2_b q_w q_b W3_w W3_b) (v20 x batch edge_index full_graph emb ggnn_W gru_Wih gru_Whh gru_bih gru_bhh W1_w W1_b W2_w W2_b q_w q_b W3_w W3_b) (v17 x batch edge_index full_graph emb ggnn_W gru_Wih gru_Whh gru_bih gru_bhh W1_w W1_b W2_w W2_b q_w q_b W3_w W3_b) (v22 x batch edge_index full_graph emb ggnn_W gru_Wih gru_Whh gru_bih gru_bhh W1_w W1_b W2_w W2_b q_w q_b W3_w W3_b) := by
  funext idx
  obtain ⟨i, j, rfl⟩ : ∃ (i : Fin 50000) (j : Fin 256), idx = ix2 i j := ⟨idx 0, idx 1, eq_ix2 idx⟩
  refine Eq.trans ?_ (gru_at _ _ _ _ _ _ i j).symm
  unfold v52
  rw [addf_apply]
  unfold v51
  rw [mulf_apply]
  unfold v50
  rw [mulf_apply]
  unfold v49
  rw [subf_apply]
  unfold v48
  unfold cst_5
  rw [oneWord_apply, v47_apply, v37_apply, v44_apply]
  unfold Cert.KernelIdeal.Hand.gruAt
  simp only [v19_apply, v24_apply]

end Cert.ReferenceIdeal.RefRead
-- ==== Proof.Bridge2.lean ====
/-
  The two programs side by side, second part: the gated update. Region 1 leaves in its output the update of (aggregated
  messages, emb) under the transposed gate matrices and the bias rows, entry by entry; the reference's stage %52 is the same
  function of its own stages (the reading of its thirty-odd operations at an index); and the region's inputs are the
  reference's stages by the first part.
-/
import proofs.«133217_j69260642615845_1_alg».proof.Proof.Bridge1
import proofs.«133217_j69260642615845_1_alg».proof.Proof.KVal1
import proofs.«133217_j69260642615845_1_alg».proof.Proof.RefRead1
import proofs.«133217_j69260642615845_1_alg».proof.Proof.Gen.ReferenceIdeal
import Idealize.ShloMosaic.Lib.StableHlo.Run
import Idealize.ShloMosaic.PureOps.Ideal

set_option maxRecDepth 16384

noncomputable section

namespace Cert.Bridge

open Cert.KernelIdeal Cert.KernelIdeal.Gen Cert.KernelIdeal.Hand
open Idealize.ShloMosaic Idealize.ShloMosaic.TcCoe
open Idealize.SL Idealize.SL.Sem

variable (m : (ℓ : Loc nD τ sig) → Buf (Elt Ideal) ℓ) (c : Dev nD)

abbrev R52 := Cert.ReferenceIdeal.RefStages.v52 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- emb reaches region 1 as launched. -/
theorem emb_at_update : W2 m c (Proc.devRef .tc main_arg4) = m ((c : Thread nD τ).loc main_arg4) :=
  (StableHlo.after_of_writes_sub hostOps1 _ hostOps1_writes (by decide)).trans (W1_keep m c main_arg4 (by decide))

/-- Region 1's output is the reference's updated table. -/
theorem updated : W3 m c (Proc.devRef .tc main_v19) = R52 m c := by
  refine (W3_arr m c 6).trans ((final1 (E1 m) c).trans ?_)
  show Gru (W2 m c (Proc.devRef .tc main_v14)) (W2 m c (Proc.devRef .tc main_arg4)) (W2 m c (Proc.devRef .tc main_v15))
    (W2 m c (Proc.devRef .tc main_v16)) (W2 m c (Proc.devRef .tc main_v17)) (W2 m c (Proc.devRef .tc main_v18)) = _
  rw [aggregated, emb_at_update, wih_t, whh_t, bih_row, bhh_row]
  exact (Cert.ReferenceIdeal.RefRead.v52_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))).symm

end Cert.Bridge

end
-- ==== Proof.Bridge3.lean ====
/-
  The two programs side by side, third part: the stretches of host operations between the gated update and the attention gate.
  From the updated node table — region 1's output, taken here to be the reference's (`h19`) — the kernel program looks up the
  session nodes, rectifies them, counts the nodes of each session, sums the counts, reads the last node of each session and
  repeats it along the nodes, by the same operations as the reference in the same order (the two functions it calls are
  written out in both); it transposes the two attention matrices as the reference does; and it lays two bias vectors out as
  one row each and the gate's scalar bias as one cell by a reshape, where the reference uses a broadcast along a new leading
  axis: the same row. Every stage is the reference's stage read at core c's 18 argument arrays.
-/
import proofs.«133217_j69260642615845_1_alg».proof.Proof.Bridge1
import proofs.«133217_j69260642615845_1_alg».proof.Proof.Gen.ReferenceIdeal
import Idealize.ShloMosaic.Lib.StableHlo.Run
import Idealize.ShloMosaic.PureOps.Ideal
import Idealize.ShloMosaic.Lib.Pipeline.Value

set_option maxRecDepth 16384

noncomputable section

namespace Cert.Bridge

open Cert.KernelIdeal Cert.KernelIdeal.Gen Cert.KernelIdeal.Hand
open Idealize.ShloMosaic Idealize.ShloMosaic.TcCoe
open Idealize.SL Idealize.SL.Sem

variable (m : (ℓ : Loc nD τ sig) → Buf (Elt Ideal) ℓ) (c : Dev nD)

/-- The reference's stages at core `c`'s argument arrays. -/
abbrev R62 := Cert.ReferenceIdeal.RefStages.v62 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev R63 := Cert.ReferenceIdeal.RefStages.v63 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev R67 := Cert.ReferenceIdeal.RefStages.v67 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev R68 := Cert.ReferenceIdeal.RefStages.v68 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev R77 := Cert.ReferenceIdeal.RefStages.v77 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev R84 := Cert.ReferenceIdeal.RefStages.v84 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev R85 := Cert.ReferenceIdeal.RefStages.v85 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev R87 := Cert.ReferenceIdeal.RefStages.v87 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev R90 := Cert.ReferenceIdeal.RefStages.v90 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev R93 := Cert.ReferenceIdeal.RefStages.v93 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev R104 := Cert.ReferenceIdeal.RefStages.v104 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-! ## What is not written stays -/

/-- A buffer that region 0, the first stretch and region 1 do not write holds, after them, its launch contents. -/
private theorem at_W3 (b : Ref sig .tc) (r0 : b ≠ main_v0) (s1 : b ∉ hostOps1_W) (r1 : b ≠ main_v19) :
    W3 m c (Proc.devRef .tc b) = m ((c : Thread nD τ).loc b) :=
  (W3_keep m c b r1).trans ((StableHlo.after_of_writes_sub hostOps1 _ hostOps1_writes s1).trans (W1_keep m c b r0))
/-- … and after the next stretch, which does not write it either. -/
private theorem at_W4 (b : Ref sig .tc) (r0 : b ≠ main_v0) (s1 : b ∉ hostOps1_W) (r1 : b ≠ main_v19) (s2 : b ∉ hostOps2_W) :
    W4 m c (Proc.devRef .tc b) = m ((c : Thread nD τ).loc b) :=
  (StableHlo.after_of_writes_sub hostOps2 _ hostOps2_writes s2).trans (at_W3 m c b r0 s1 r1)
/-- … and after the next stretch, which does not write it either. -/
private theorem at_W5 (b : Ref sig .tc) (r0 : b ≠ main_v0) (s1 : b ∉ hostOps1_W) (r1 : b ≠ main_v19) (s2 : b ∉ hostOps2_W) (s3 : b ∉ hostOps2_1_W) :
    W5 m c (Proc.devRef .tc b) = m ((c : Thread nD τ).loc b) :=
  (StableHlo.after_of_writes_sub hostOps2_1 _ hostOps2_1_writes s3).trans (at_W4 m c b r0 s1 r1 s2)
/-- … and after the next stretch, which does not write it either. -/
private theorem at_W6 (b : Ref sig .tc) (r0 : b ≠ main_v0) (s1 : b ∉ hostOps1_W) (r1 : b ≠ main_v19) (s2 : b ∉ hostOps2_W) (s3 : b ∉ hostOps2_1_W) (s4 : b ∉ hostOps2_2_W) :
    W6 m c (Proc.devRef .tc b) = m ((c : Thread nD τ).loc b) :=
  (StableHlo.after_of_writes_sub hostOps2_2 _ hostOps2_2_writes s4).trans (at_W5 m c b r0 s1 r1 s2 s3)
/-- … and after the next stretch, which does not write it either. -/
private theorem at_W7 (b : Ref sig .tc) (r0 : b ≠ main_v0) (s1 : b ∉ hostOps1_W) (r1 : b ≠ main_v19) (s2 : b ∉ hostOps2_W) (s3 : b ∉ hostOps2_1_W) (s4 : b ∉ hostOps2_2_W) (s5 : b ∉ hostOps2_3_W) :
    W7 m c (Proc.devRef .tc b) = m ((c : Thread nD τ).loc b) :=
  (StableHlo.after_of_writes_sub hostOps2_3 _ hostOps2_3_writes s5).trans (at_W6 m c b r0 s1 r1 s2 s3 s4)
/-- … and after the next stretch, which does not write it either. -/
private theorem at_W8 (b : Ref sig .tc) (r0 : b ≠ main_v0) (s1 : b ∉ hostOps1_W) (r1 : b ≠ main_v19) (s2 : b ∉ hostOps2_W) (s3 : b ∉ hostOps2_1_W) (s4 : b ∉ hostOps2_2_W) (s5 : b ∉ hostOps2_3_W) (s6 : b ∉ hostOps2_4_W) :
    W8 m c (Proc.devRef .tc b) = m ((c : Thread nD τ).loc b) :=
  (StableHlo.after_of_writes_sub hostOps2_4 _ hostOps2_4_writes s6).trans (at_W7 m c b r0 s1 r1 s2 s3 s4 s5)

/-! ## Stretch by stretch

The two functions the program calls (the rectifier, the running sum) are written out in the stretch that calls them; their
operations are stated at the type of the tensor value and moved to the buffer's own type along an equality of the two
types, which is the identity here: removing that transport leaves the reference's operation. -/

set_option maxHeartbeats 4000000 in
/-- The session nodes looked up in the updated table. -/
theorem looked_up (h19 : W3 m c (Proc.devRef .tc main_v19) = (Cert.ReferenceIdeal.RefStages.v52 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))) : W4 m c (Proc.devRef .tc main_v29) = R62 m c := by
  show StableHlo.after hostOps2 (W3 m c) (Proc.devRef .tc main_v29) = _
  after_results_simp
  rw [at_W3 m c main_arg0 (by decide) (by decide) (by decide), h19]
  rfl

set_option maxHeartbeats 4000000 in
/-- The rectified session nodes, right after the rectifier. -/
theorem rectified (h19 : W3 m c (Proc.devRef .tc main_v19) = (Cert.ReferenceIdeal.RefStages.v52 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))) : W5 m c (Proc.devRef .tc main_v30) = R63 m c := by
  show StableHlo.after hostOps2_1 (W4 m c) (Proc.devRef .tc main_v30) = _
  generalize hV : W4 m c = V
  after_results
  rw [← hV, looked_up m c h19]
  simp only [StableHlo.TRef.toBuf, StableHlo.TRef.ofBuf, cast_eq]
  rfl

set_option maxHeartbeats 4000000 in
/-- The number of nodes of each session. -/
theorem counts : W6 m c (Proc.devRef .tc main_v34) = R67 m c := by
  show StableHlo.after hostOps2_2 (W5 m c) (Proc.devRef .tc main_v34) = _
  generalize hV : W5 m c = V
  after_results_simp
  rw [← hV, at_W5 m c main_arg1 (by decide) (by decide) (by decide) (by decide) (by decide)]
  rfl

set_option maxHeartbeats 4000000 in
/-- The running sums of the counts. -/
theorem offsets : W7 m c (Proc.devRef .tc main_v35) = R68 m c := by
  show StableHlo.after hostOps2_3 (W6 m c) (Proc.devRef .tc main_v35) = _
  generalize hV : W6 m c = V
  after_results
  rw [← hV, counts m c]
  simp only [StableHlo.TRef.toBuf, StableHlo.TRef.ofBuf, cast_eq]
  rfl

/-- The rectified session nodes as the last stretch finds them: the two stretches in between do not write them. -/
theorem rectified_W7 (h19 : W3 m c (Proc.devRef .tc main_v19) = (Cert.ReferenceIdeal.RefStages.v52 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))) : W7 m c (Proc.devRef .tc main_v30) = R63 m c :=
  (StableHlo.after_of_writes_sub hostOps2_3 _ hostOps2_3_writes (by decide)).trans
    ((StableHlo.after_of_writes_sub hostOps2_2 _ hostOps2_2_writes (by decide)).trans (rectified m c h19))

/-! ## What the attention gate is entered with -/

/-- The rectified session nodes: the last stretch does not write them. -/
theorem nodes (h19 : W3 m c (Proc.devRef .tc main_v19) = (Cert.ReferenceIdeal.RefStages.v52 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))) : W8 m c (Proc.devRef .tc main_v30) = R63 m c :=
  (StableHlo.after_of_writes_sub hostOps2_4 _ hostOps2_4_writes (by decide)).trans (rectified_W7 m c h19)

set_option maxHeartbeats 4000000 in
/-- The last node of each session. -/
theorem last_node (h19 : W3 m c (Proc.devRef .tc main_v19) = (Cert.ReferenceIdeal.RefStages.v52 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))) : W8 m c (Proc.devRef .tc main_v44) = R77 m c := by
  show StableHlo.after hostOps2_4 (W7 m c) (Proc.devRef .tc main_v44) = _
  generalize hV : W7 m c = V
  after_results_simp
  rw [← hV, rectified_W7 m c h19, offsets m c]
  rfl

set_option maxHeartbeats 4000000 in
/-- The last node of each session, repeated along the session's nodes. -/
theorem repeated_last (h19 : W3 m c (Proc.devRef .tc main_v19) = (Cert.ReferenceIdeal.RefStages.v52 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))) : W8 m c (Proc.devRef .tc main_v51) = R84 m c := by
  show StableHlo.after hostOps2_4 (W7 m c) (Proc.devRef .tc main_v51) = _
  generalize hV : W7 m c = V
  after_results_simp
  rw [← hV, rectified_W7 m c h19, offsets m c, at_W7 m c main_arg1 (by decide) (by decide) (by decide) (by decide) (by decide) (by decide) (by decide)]
  rfl

set_option maxHeartbeats 4000000 in
/-- The first attention matrix, transposed. -/
theorem w1_t : W8 m c (Proc.devRef .tc main_v52) = R85 m c := by
  show StableHlo.after hostOps2_4 (W7 m c) (Proc.devRef .tc main_v52) = _
  generalize hV : W7 m c = V
  after_results_simp
  rw [← hV, at_W7 m c main_arg10 (by decide) (by decide) (by decide) (by decide) (by decide) (by decide) (by decide)]
  rfl

set_option maxHeartbeats 4000000 in
/-- The second attention matrix, transposed. -/
theorem w2_t : W8 m c (Proc.devRef .tc main_v53) = R90 m c := by
  show StableHlo.after hostOps2_4 (W7 m c) (Proc.devRef .tc main_v53) = _
  generalize hV : W7 m c = V
  after_results_simp
  rw [← hV, at_W7 m c main_arg12 (by decide) (by decide) (by decide) (by decide) (by decide) (by decide) (by decide)]
  rfl

set_option maxHeartbeats 4000000 in
/-- The first attention bias as one row. -/
theorem b1_row : W8 m c (Proc.devRef .tc main_v54) = R87 m c := by
  show StableHlo.after hostOps2_4 (W7 m c) (Proc.devRef .tc main_v54) = _
  generalize hV : W7 m c = V
  after_results_simp
  rw [← hV, at_W7 m c main_arg11 (by decide) (by decide) (by decide) (by decide) (by decide) (by decide) (by decide)]
  exact row_eq _ _ _

set_option maxHeartbeats 4000000 in
/-- The second attention bias as one row. -/
theorem b2_row : W8 m c (Proc.devRef .tc main_v55) = R93 m c := by
  show StableHlo.after hostOps2_4 (W7 m c) (Proc.devRef .tc main_v55) = _
  generalize hV : W7 m c = V
  after_results_simp
  rw [← hV, at_W7 m c main_arg13 (by decide) (by decide) (by decide) (by decide) (by decide) (by decide) (by decide)]
  exact row_eq _ _ _

set_option maxHeartbeats 4000000 in
/-- The gate's scalar bias as one cell. -/
theorem qb_cell : W8 m c (Proc.devRef .tc main_v56) = R104 m c := by
  show StableHlo.after hostOps2_4 (W7 m c) (Proc.devRef .tc main_v56) = _
  generalize hV : W7 m c = V
  after_results_simp
  rw [← hV, at_W7 m c main_arg15 (by decide) (by decide) (by decide) (by decide) (by decide) (by decide) (by decide)]
  exact row_eq _ _ _

/-- The gate's weight row: an argument, written by nothing before the gate. -/
theorem qw_at_gate : W8 m c (Proc.devRef .tc main_arg14) = m ((c : Thread nD τ).loc main_arg14) :=
  at_W8 m c main_arg14 (by decide) (by decide) (by decide) (by decide) (by decide) (by decide) (by decide) (by decide)

end Cert.Bridge

end
-- ==== Proof.Pay2.lean ====
/-
  The third kernel body read at an index, at the ideal values: an attention-style gate over a 2048 × 256 block. Two linear
  maps into 256 columns (a 2048 × 256 block times a 256 × 256 matrix, plus a bias row) are added and passed through the
  logistic function; the result is weighted by a scoring row and summed along each row, a scoring offset is added, and
  the row's score multiplies the node row: at (r, j) the value is
  ((∑ q, logistic (g q + h q) · qw (0, q)) + qb (0, 0)) · h (r, j). The narrowing of the operands is the identity, the
  zero accumulators add nothing, and the row sum starts from zero.
-/
import proofs.«133217_j69260642615845_1_alg».proof.Proof.Gen.KernelIdeal.Skeleton
import Idealize.ShloMosaic.PureOps.Ideal.Laws
import Idealize.ShloMosaic.Lib.ValueIdx
import Idealize.ShloMosaic.Lib.ValueLayout

noncomputable section

namespace Cert.KernelIdeal.Pay

open Idealize.ShloMosaic Idealize.SL.Sem Idealize.ShloMosaic.ValueIdx
open scoped BigOperators

open Cert.KernelIdeal.Facts₀

/-- The dimension numbers of the 2048 × 256 by 256 × 256 product: axis 1 of the left against axis 0 of the right. -/
abbrev D2 := dot_S2048x256_S256x256_S2048x256_1_0_0_1_n_n

/-- The left operand's index at output (r, q) and contraction coordinate c is (r, c). -/
theorem D2_lhs (r : Fin 2048) (q : Fin 256) (c : Fin 256) :
    D2.lhsIdx (ix2 r q) ((contrEquiv1 D2 256 rfl rfl).symm c) = ix2 r c := by
  have c2 := contrEquiv1_symm_val D2 256 rfl rfl c
  funext ax; apply Fin.ext
  match ax with
  | ⟨0, _⟩ => simp [DotDims.lhsIdx, D2, dot_S2048x256_S256x256_S2048x256_1_0_0_1_n_n]; rfl
  | ⟨1, _⟩ => simp [DotDims.lhsIdx, D2, dot_S2048x256_S256x256_S2048x256_1_0_0_1_n_n]; exact c2

/-- The right operand's index at output (r, q) and contraction coordinate c is (c, q). -/
theorem D2_rhs (r : Fin 2048) (q : Fin 256) (c : Fin 256) :
    D2.rhsIdx (ix2 r q) ((contrEquiv1 D2 256 rfl rfl).symm c) = ix2 c q := by
  have c2 := contrEquiv1_symm_val D2 256 rfl rfl c
  funext ax; apply Fin.ext
  match ax with
  | ⟨0, _⟩ => simp [DotDims.rhsIdx, D2, dot_S2048x256_S256x256_S2048x256_1_0_0_1_n_n]; exact c2
  | ⟨1, _⟩ => simp [DotDims.rhsIdx, D2, dot_S2048x256_S256x256_S2048x256_1_0_0_1_n_n]; rfl

/-- The product into the zero accumulator, read at (r, q). -/
theorem mm2_apply {φ₁ φ₂ : FTy} (A : FVec Ideal S2048x256 φ₁) (B : FVec Ideal S256x256 φ₂) (r : Fin 2048) (q : Fin 256) :
    matmul D2 none A B (constant (F := Ideal) S2048x256 .f32 0x00000000#32) (ix2 r q)
      = ∑ c : Fin 256, A (ix2 r c) * B (ix2 c q) := by
  show FloatOps.matmul D2 none A B _ (ix2 r q) = _
  rw [Ideal.matmul_constant_zero_apply, ← Equiv.sum_comp (contrEquiv1 D2 256 rfl rfl).symm]
  refine Finset.sum_congr rfl fun c _ => ?_
  rw [D2_lhs, D2_rhs]

/-- A linear map's value at (r, q): row r of the block against column q of the matrix, plus the bias row's entry. -/
abbrev lin2 (x : Vec Ideal S2048x256 .f32) (w : Vec Ideal S256x256 .f32) (b : Vec Ideal S1x256 .f32)
    (r : Fin 2048) (q : Fin 256) : Ideal .f32 :=
  (∑ k : Fin 256, x (ix2 r k) * w (ix2 k q)) + b (ix2 (0 : Fin 1) q)

/-- The narrowed product plus the broadcast bias row, read at (r, q), is the linear map's value. -/
theorem lin2_apply (X : FVec Ideal S2048x256 .f32) (W : FVec Ideal S256x256 .f32) (B : FVec Ideal S1x256 .f32)
    (r : Fin 2048) (q : Fin 256) :
    addf (matmul D2 none (truncf .bf16 X bitsLt_bf16_f32) (truncf .bf16 W bitsLt_bf16_f32)
        (constant (F := Ideal) S2048x256 .f32 0x00000000#32))
      (broadcastTo S2048x256 B broadcasts_S1x256_S2048x256) (ix2 r q)
      = (∑ k : Fin 256, X (ix2 r k) * W (ix2 k q)) + B (ix2 (0 : Fin 1) q) := by
  show matmul D2 none (truncf .bf16 X bitsLt_bf16_f32) (truncf .bf16 W bitsLt_bf16_f32)
        (constant (F := Ideal) S2048x256 .f32 0x00000000#32) (ix2 r q)
      + broadcastTo S2048x256 B broadcasts_S1x256_S2048x256 (ix2 r q) = _
  rw [mm2_apply, broadcastTo_1b_ab_apply]
  rfl

/-- The sum along a row of a 2048 × 256 block, from zero, read at r. -/
theorem rowsum2_apply (V : FVec Ideal S2048x256 .f32) (hacc : (0x00000000#32 : BitVec 32) = 0x00000000#32) (r : Fin 2048) :
    multiReduction (F := Ideal) .add [1] S2048 V 0x00000000#32 reduces_S2048x256_S2048 (.inl rfl) hacc (ix1 r)
      = ∑ k : Fin 256, V (ix2 r k) := by
  refine (Ideal.multiReduction_add_single V 0x00000000#32 reduces_S2048x256_S2048 (.inl rfl) hacc (ix1 r)).trans ?_
  refine Finset.sum_congr rfl fun k _ => congrArg V ?_
  funext a; apply Fin.ext
  match a with
  | ⟨0, _⟩ => rfl
  | ⟨1, _⟩ => rfl

/-- A length-2048 vector recast as a 2048 × 1 column, read at (r, 0), is the vector at r. -/
theorem colcast_apply (V : FVec Ideal S2048 .f32) (r : Fin 2048) :
    shapeCast S2048x1 V shapeCasts_S2048_S2048x1 (ix2 r (0 : Fin 1)) = V (ix1 r) := by
  refine shapeCast_apply V shapeCasts_S2048_S2048x1 (ix2 r (0 : Fin 1)) (ix1 r) ?_
  rw [Shape.rowMajor_val_two, Shape.rowMajor_val_one]
  show r.val = r.val * 1 + 0
  omega

/-- A 2048 × 1 column broadcast along the rows to 2048 × 256, read at (r, j), is the column at (r, 0). -/
theorem bcol_apply (V : FVec Ideal S2048x1 .f32) (r : Fin 2048) (j : Fin 256) :
    broadcastTo S2048x256 V broadcasts_S2048x1_S2048x256 (ix2 r j) = V (ix2 r (0 : Fin 1)) := by
  refine broadcastTo_apply V broadcasts_S2048x1_S2048x256 (ix2 r j) (ix2 r (0 : Fin 1)) fun a => ?_
  match a with
  | ⟨0, _⟩ => rfl
  | ⟨1, _⟩ => rfl

/-- The one entry of a 1 × 1 block. -/
theorem at00_apply (qb : FVec Ideal S1x1 .f32) :
    extractAt ![0, 0] qb inpos_S1x1_p0_0 = qb (ix2 (0 : Fin 1) (0 : Fin 1)) := by
  unfold extractAt
  refine congrArg qb ?_
  funext a; apply Fin.ext
  match a with
  | ⟨0, _⟩ => rfl
  | ⟨1, _⟩ => rfl

/-- The scored gate of two 256-column blocks G, H, a scoring row and offset, and the node rows, read at (r, j). -/
theorem score2_apply (G H hh : FVec Ideal S2048x256 .f32) (qw : FVec Ideal S1x256 .f32) (qb : FVec Ideal S1x1 .f32)
    (r : Fin 2048) (j : Fin 256) (g h : Fin 256 → Ideal .f32) (hG : ∀ q, G (ix2 r q) = g q) (hH : ∀ q, H (ix2 r q) = h q) :
    mulf
      (broadcastTo S2048x256
        (addf
          (shapeCast S2048x1
            (multiReduction (F := Ideal) .add [1] S2048
              (mulf (logistic (addf G H)) (broadcastTo S2048x256 qw broadcasts_S1x256_S2048x256))
              0x00000000#32 reduces_S2048x256_S2048 (.inl rfl) rfl)
            shapeCasts_S2048_S2048x1)
          (broadcast S2048x1 (extractAt ![0, 0] qb inpos_S1x1_p0_0)))
        broadcasts_S2048x1_S2048x256)
      hh (ix2 r j)
    = ((∑ q : Fin 256, Ideal.logistic (g q + h q) * qw (ix2 (0 : Fin 1) q)) + qb (ix2 (0 : Fin 1) (0 : Fin 1)))
        * hh (ix2 r j) := by
  refine congrArg (· * hh (ix2 r j)) ?_
  refine (bcol_apply _ r j).trans ?_
  refine congrArg₂ (· + ·) ?_ (at00_apply qb)
  refine (colcast_apply _ r).trans ?_
  refine (rowsum2_apply _ rfl r).trans ?_
  refine Finset.sum_congr rfl fun q _ => ?_
  refine congrArg₂ (· * ·) ?_ (broadcastTo_1b_ab_apply qw broadcasts_S1x256_S2048x256 r q)
  show Ideal.logistic (G (ix2 r q) + H (ix2 r q)) = _
  rw [hG, hH]

/-- The third kernel body at (r, j): ((∑ q, logistic (g q + h q) · qw (0, q)) + qb (0, 0)) · h (r, j), with
    g = lin2 v w1 b1 r over the repeated last-node rows and h = lin2 h w2 b2 r over the node rows. -/
theorem pay2_apply (v h : Vec Ideal S2048x256 .f32) (w1 w2 : Vec Ideal S256x256 .f32) (b1 b2 qw : Vec Ideal S1x256 .f32)
    (qb : Vec Ideal S1x1 .f32) (r : Fin 2048) (j : Fin 256) :
    Gen.k2_pay1 v h w1 w2 b1 b2 qw qb (ix2 r j)
      = ((∑ q : Fin 256, Ideal.logistic (lin2 v w1 b1 r q + lin2 h w2 b2 r q) * qw (ix2 (0 : Fin 1) q))
          + qb (ix2 (0 : Fin 1) (0 : Fin 1))) * h (ix2 r j) := by
  unfold Gen.k2_pay1
  refine (score2_apply _ _ _ qw qb r j (lin2 v w1 b1 r) (lin2 h w2 b2 r) (fun q => ?_) (fun q => ?_)).trans ?_
  · refine (lin2_apply _ _ _ r q).trans ?_
    rw [shapeCast_self, shapeCast_self, shapeCast_self]
  · refine (lin2_apply _ _ _ r q).trans ?_
    rw [shapeCast_self, shapeCast_self, shapeCast_self]
  · rw [shapeCast_self]

end Cert.KernelIdeal.Pay
-- ==== Proof.KVal2.lean ====
/-
  What the attention gate leaves, at the ideal instance: the whole array of weighted node rows. For a node i, with
  g1 q = Σ_k v (i, k) · W1ᵀ (k, q) + b1 (q) over the repeated last-node rows v and g2 q = Σ_k h (i, k) · W2ᵀ (k, q) + b2 (q) over
  the node rows h, the score is alpha = Σ_q logistic (g1 q + g2 q) · qw (q) + qb and the entry at (i, j) is alpha · h (i, j).
  Grid point t writes back rows [2048 t, 2048 t + 2048); row r of its block is row 2048 t + r of the array; the matrices,
  bias rows, scoring row and offset are staged whole. The 6 blocks cover the 12288 rows.
-/
import proofs.«133217_j69260642615845_1_alg».proof.Proof.KRun
import proofs.«133217_j69260642615845_1_alg».proof.Proof.Pay2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.KernelIdeal.Pay (lin2)

variable (V : (c : Dev nD) → (b : Ref sig .tc) → Buf (Elt Ideal) ((c : Thread nD τ).loc b))

theorem zero2'' : (![0, 0] : Fin 2 → Nat) = fun _ => 0 := funext fun a => by fin_cases a <;> rfl

/-- A linear layer's entry over the 12288 nodes: row i against column q of the matrix, plus the bias row's entry q. -/
abbrev linG (x : S12288x256.Idx → EReal) (w : S256x256.Idx → EReal) (b : S1x256.Idx → EReal) (i : Fin 12288) (q : Fin 256) : EReal :=
  (∑ k : Fin 256, x (ix2 i k) * w (ix2 k q)) + b (ix2 (0 : Fin 1) q)

/-- The attention-weighted node rows' entry at node i, column j. -/
def gateAt (v h : S12288x256.Idx → EReal) (w1 w2 : S256x256.Idx → EReal) (b1 b2 qw : S1x256.Idx → EReal) (qb : S1x1.Idx → EReal)
    (i : Fin 12288) (j : Fin 256) : EReal :=
  ((∑ q : Fin 256, Ideal.logistic (linG v w1 b1 i q + linG h w2 b2 i q) * qw (ix2 (0 : Fin 1) q))
      + qb (ix2 (0 : Fin 1) (0 : Fin 1))) * h (ix2 i j)

/-- The attention-weighted node rows, entry by entry. -/
def Gate (v h : S12288x256.Idx → EReal) (w1 w2 : S256x256.Idx → EReal) (b1 b2 qw : S1x256.Idx → EReal) (qb : S1x1.Idx → EReal) :
    S12288x256.Idx → EReal := fun i => gateAt v h w1 w2 b1 b2 qw qb (i 0) (i 1)

/-- The printed index maps over the grid: the two row windows move with the output's, the six whole windows stay. -/
theorem maps2 : ∀ t : Fin cfg2.N, win2_0.index t (0 : Fin 2) = win2_8.index t (0 : Fin 2) ∧ win2_0.index t (1 : Fin 2) = 0
    ∧ win2_1.index t (0 : Fin 2) = win2_8.index t (0 : Fin 2) ∧ win2_1.index t (1 : Fin 2) = 0
    ∧ win2_2.index t (0 : Fin 2) = 0 ∧ win2_2.index t (1 : Fin 2) = 0 ∧ win2_3.index t (0 : Fin 2) = 0 ∧ win2_3.index t (1 : Fin 2) = 0
    ∧ win2_4.index t (0 : Fin 2) = 0 ∧ win2_4.index t (1 : Fin 2) = 0 ∧ win2_5.index t (0 : Fin 2) = 0 ∧ win2_5.index t (1 : Fin 2) = 0
    ∧ win2_6.index t (0 : Fin 2) = 0 ∧ win2_6.index t (1 : Fin 2) = 0 ∧ win2_7.index t (0 : Fin 2) = 0 ∧ win2_7.index t (1 : Fin 2) = 0
    ∧ win2_8.index t (1 : Fin 2) = 0 ∧ win2_8.index t (0 : Fin 2) ≤ 5 :=
  (by decide +kernel : ∀ t : Fin grid2.N, _)

/-- Every block of rows is some point's. -/
theorem onto2 : ∀ q : Fin 6, ∃ t : Fin cfg2.N, win2_8.index t = ![q.val, 0] :=
  (by decide +kernel : ∀ q : Fin 6, ∃ t : Fin grid2.N, win2_8.index t = ![q.val, 0])

set_option maxHeartbeats 1600000 in
/-- What point `t` writes back is block `t` of the weighted node rows. -/
theorem flushed2 (c : Dev nD) (t : Fin cfg2.N) :
    (dat2 V c).flushed 8 t = ((cfg2.win 8).blk t).view.read (Elt Ideal)
      (Gate (V c main_v51) (V c main_v30) (V c main_v52) (V c main_v53) (V c main_v54) (V c main_v55) (V c main_arg14) (V c main_v56)) := by
  show (cfg2.win 8).cut (grid2.coords t) ((dat2 V c).after 8 t) = _
  rw [dat2_after_out]
  unfold wgt2
  rw [View.canon_unit_zero zero2'']
  simp only [View.ld_unit_zero (S := S2048x256) zero2'', View.ld_unit_zero (S := S256x256) zero2'', View.ld_unit_zero (S := S1x256) zero2'',
    View.ld_unit_zero (S := S1x1) zero2'']
  obtain ⟨a0, a1, b0, b1, c0, c1, d0, d1, f0, f1, g0, g1, h0, h1, i0, i1, o1, o0⟩ := maps2 t
  funext j
  obtain ⟨rr, q, rfl⟩ : ∃ (rr : Fin 2048) (q : Fin 256), j = ix2 rr q := ⟨j 0, j 1, eq_ix2 j⟩
  have hlt : win2_8.index t (0 : Fin 2) * 2048 + rr.val < 12288 := by have := rr.isLt; omega
  let row : Fin 12288 := ⟨win2_8.index t (0 : Fin 2) * 2048 + rr.val, hlt⟩
  have hemb : ((cfg2.win 8).blk t).view.emb (ix2 rr q) = ix2 row q := by
    funext a; apply Fin.ext
    match a with
    | ⟨0, _⟩ => show win2_8.index t (0 : Fin 2) * 2048 + 1 * rr.val = win2_8.index t (0 : Fin 2) * 2048 + rr.val; omega
    | ⟨1, _⟩ => show win2_8.index t (1 : Fin 2) * 256 + 1 * q.val = q.val; omega
  show k2_pay1 (blk2 V c 0 t) (blk2 V c 1 t) (blk2 V c 2 t) (blk2 V c 4 t) (blk2 V c 3 t) (blk2 V c 5 t) (blk2 V c 6 t) (blk2 V c 7 t) (ix2 rr q)
    = Gate (V c main_v51) (V c main_v30) (V c main_v52) (V c main_v53) (V c main_v54) (V c main_v55) (V c main_arg14) (V c main_v56)
        (((cfg2.win 8).blk t).view.emb (ix2 rr q))
  rw [hemb]
  show _ = gateAt (V c main_v51) (V c main_v30) (V c main_v52) (V c main_v53) (V c main_v54) (V c main_v55) (V c main_arg14) (V c main_v56) row q
  unfold gateAt
  refine (Cert.KernelIdeal.Pay.pay2_apply _ _ _ _ _ _ _ _ rr q).trans ?_
  -- block entries are array entries
  have x0 : ∀ k : Fin 256, blk2 V c 0 t (ix2 rr k) = V c main_v51 (ix2 row k) := fun k => congrArg (V c main_v51) (by
    funext a; apply Fin.ext
    match a with
    | ⟨0, _⟩ => show win2_0.index t (0 : Fin 2) * 2048 + 1 * rr.val = win2_8.index t (0 : Fin 2) * 2048 + rr.val; omega
    | ⟨1, _⟩ => show win2_0.index t (1 : Fin 2) * 256 + 1 * k.val = k.val; omega)
  have x1 : ∀ k : Fin 256, blk2 V c 1 t (ix2 rr k) = V c main_v30 (ix2 row k) := fun k => congrArg (V c main_v30) (by
    funext a; apply Fin.ext
    match a with
    | ⟨0, _⟩ => show win2_1.index t (0 : Fin 2) * 2048 + 1 * rr.val = win2_8.index t (0 : Fin 2) * 2048 + rr.val; omega
    | ⟨1, _⟩ => show win2_1.index t (1 : Fin 2) * 256 + 1 * k.val = k.val; omega)
  have w2 : ∀ (k p : Fin 256), blk2 V c 2 t (ix2 k p) = V c main_v52 (ix2 k p) := fun k p => congrArg (V c main_v52) (by
    funext a; apply Fin.ext
    match a with
    | ⟨0, _⟩ => show win2_2.index t (0 : Fin 2) * 256 + 1 * k.val = k.val; omega
    | ⟨1, _⟩ => show win2_2.index t (1 : Fin 2) * 256 + 1 * p.val = p.val; omega)
  have w4 : ∀ (k p : Fin 256), blk2 V c 4 t (ix2 k p) = V c main_v53 (ix2 k p) := fun k p => congrArg (V c main_v53) (by
    funext a; apply Fin.ext
    match a with
    | ⟨0, _⟩ => show win2_4.index t (0 : Fin 2) * 256 + 1 * k.val = k.val; omega
    | ⟨1, _⟩ => show win2_4.index t (1 : Fin 2) * 256 + 1 * p.val = p.val; omega)
  have b3 : ∀ (z : Fin 1) (p : Fin 256), blk2 V c 3 t (ix2 z p) = V c main_v54 (ix2 z p) := fun z p => congrArg (V c main_v54) (by
    funext a; apply Fin.ext
    match a with
    | ⟨0, _⟩ => show win2_3.index t (0 : Fin 2) * 1 + 1 * z.val = z.val; omega
    | ⟨1, _⟩ => show win2_3.index t (1 : Fin 2) * 256 + 1 * p.val = p.val; omega)
  have b5 : ∀ (z : Fin 1) (p : Fin 256), blk2 V c 5 t (ix2 z p) = V c main_v55 (ix2 z p) := fun z p => congrArg (V c main_v55) (by
    funext a; apply Fin.ext
    match a with
    | ⟨0, _⟩ => show win2_5.index t (0 : Fin 2) * 1 + 1 * z.val = z.val; omega
    | ⟨1, _⟩ => show win2_5.index t (1 : Fin 2) * 256 + 1 * p.val = p.val; omega)
  have s6 : ∀ (z : Fin 1) (p : Fin 256), blk2 V c 6 t (ix2 z p) = V c main_arg14 (ix2 z p) := fun z p => congrArg (V c main_arg14) (by
    funext a; apply Fin.ext
    match a with
    | ⟨0, _⟩ => show win2_6.index t (0 : Fin 2) * 1 + 1 * z.val = z.val; omega
    | ⟨1, _⟩ => show win2_6.index t (1 : Fin 2) * 256 + 1 * p.val = p.val; omega)
  have s7 : ∀ (z y : Fin 1), blk2 V c 7 t (ix2 z y) = V c main_v56 (ix2 z y) := fun z y => congrArg (V c main_v56) (by
    funext a; apply Fin.ext
    match a with
    | ⟨0, _⟩ => show win2_7.index t (0 : Fin 2) * 1 + 1 * z.val = z.val; omega
    | ⟨1, _⟩ => show win2_7.index t (1 : Fin 2) * 1 + 1 * y.val = y.val; omega)
  -- so the two linear layers of the block row are those of the array row
  have hV : ∀ p : Fin 256, lin2 (blk2 V c 0 t) (blk2 V c 2 t) (blk2 V c 3 t) rr p = linG (V c main_v51) (V c main_v52) (V c main_v54) row p := fun p =>
    congrArg₂ (fun (a b : EReal) => a + b)
      (Finset.sum_congr rfl fun k _ => congrArg₂ (fun (a b : EReal) => a * b) (x0 k) (w2 k p)) (b3 0 p)
  have hH : ∀ p : Fin 256, lin2 (blk2 V c 1 t) (blk2 V c 4 t) (blk2 V c 5 t) rr p = linG (V c main_v30) (V c main_v53) (V c main_v55) row p := fun p =>
    congrArg₂ (fun (a b : EReal) => a + b)
      (Finset.sum_congr rfl fun k _ => congrArg₂ (fun (a b : EReal) => a * b) (x1 k) (w4 k p)) (b5 0 p)
  have hsum : (∑ p : Fin 256, Ideal.logistic (lin2 (blk2 V c 0 t) (blk2 V c 2 t) (blk2 V c 3 t) rr p + lin2 (blk2 V c 1 t) (blk2 V c 4 t) (blk2 V c 5 t) rr p)
        * blk2 V c 6 t (ix2 (0 : Fin 1) p))
      = ∑ p : Fin 256, Ideal.logistic (linG (V c main_v51) (V c main_v52) (V c main_v54) row p + linG (V c main_v30) (V c main_v53) (V c main_v55) row p)
        * V c main_arg14 (ix2 (0 : Fin 1) p) :=
    Finset.sum_congr rfl fun p _ => by rw [hV p, hH p, s6 0 p]
  rw [hsum, s7 0 0, x1 q]

/-- An index of the array is in point `t`'s block iff each coordinate is in the block's range on its axis. -/
theorem mem_blk2 (t : Fin cfg2.N) (i : S12288x256.Idx) :
    i ∈ ((cfg2.win 8).blk t).view.set ↔ ∀ a : Fin 2, win2_8.index t a * S2048x256.size a ≤ (i a).val ∧ (i a).val < win2_8.index t a * S2048x256.size a + S2048x256.size a := by
  show i ∈ ((View.whole main_v57).slice (win2_8.rect t)).set ↔ _
  rw [View.set_slice_whole, Rect.mem_set_unit]
  exact Iff.rfl

/-- Every row of the array lies in some point's block. -/
theorem cover2 (i : S12288x256.Idx) : ∃ t : Fin cfg2.N, (cfg2.win 8).flush t = true ∧ i ∈ ((cfg2.win 8).blk t).view.set := by
  have hi0 : (i 0).val < 12288 := (i 0).isLt
  have hi1 : (i 1).val < 256 := (i 1).isLt
  obtain ⟨t, ht⟩ := onto2 ⟨(i 0).val / 2048, by omega⟩
  have q0 : win2_8.index t (0 : Fin 2) = (i 0).val / 2048 := congrFun ht 0
  have q1 : win2_8.index t (1 : Fin 2) = 0 := congrFun ht 1
  refine ⟨t, flush2_8 t, ?_⟩
  rw [mem_blk2]
  intro a
  match a with
  | ⟨0, _⟩ => show win2_8.index t (0 : Fin 2) * 2048 ≤ (i 0).val ∧ (i 0).val < win2_8.index t (0 : Fin 2) * 2048 + 2048; omega
  | ⟨1, _⟩ => show win2_8.index t (1 : Fin 2) * 256 ≤ (i 1).val ∧ (i 1).val < win2_8.index t (1 : Fin 2) * 256 + 256; omega

/-- THE ARRAY after region 2: the weighted node rows, whole. -/
theorem final2 (c : Dev nD) : (dat2 V c).arrAt 8 cfg2.N
    = Gate (V c main_v51) (V c main_v30) (V c main_v52) (V c main_v53) (V c main_v54) (V c main_v55) (V c main_arg14) (V c main_v56) :=
  (dat2 V c).arrAt_eq_of_cover 8 _ (fun t _ => flushed2 V c t) cover2

end Cert.KernelIdeal.Hand

end
-- ==== Proof.RefRead2.lean ====
/-
  The reference's attention gate read entry by entry, at the ideal values. Its stages from the two linear layers to the
  weighted node rows are the whole-array gate function of the reference's own earlier stages: the logistic function is
  spelt as one over one plus the exponential of the negation (the word 0x3F800000 is one), the reference adds the second
  bias row after the second product where the gate function adds each bias to its own product (addition is associative),
  and its score is the product with the transposed scoring row plus the broadcast offset.
-/
import proofs.«133217_j69260642615845_1_alg».proof.Proof.RefStages
import proofs.«133217_j69260642615845_1_alg».proof.Proof.KVal2
import Idealize.ShloMosaic.Lib.StackMember
import Idealize.ShloMosaic.Lib.ValueLayout
import Idealize.ShloMosaic.Lib.IdealHost
import Idealize.ShloMosaic.Lib.KernelVsHost

set_option synthInstance.maxSize 4096
set_option maxRecDepth 16384

noncomputable section

namespace Cert.ReferenceIdeal.RefRead

open Idealize.ShloMosaic Idealize.SL.Sem Idealize.ShloMosaic.ValueIdx
open Cert.ReferenceIdeal Cert.ReferenceIdeal.Facts₀ Cert.ReferenceIdeal.Facts Cert.ReferenceIdeal.RefStages
open scoped BigOperators

variable [Cert.ReferenceIdeal.Facts]

variable (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal))

/-! ## The host's pointwise operations read at an index -/

/-- The host's quotient at an index. -/
theorem hostDivf_apply {s : Shape} (a b : FVec Ideal s .f32) (i : s.Idx) : Host.divf a b i = Ideal.div (a i) (b i) := rfl
/-- The host's exponential at an index. -/
theorem hostExp_apply {s : Shape} (a : FVec Ideal s .f32) (i : s.Idx) : Host.exp a i = Ideal.exp (a i) := rfl
/-- The host's negation at an index. -/
theorem hostNegf_apply {s : Shape} (a : FVec Ideal s .f32) (i : s.Idx) : Host.negf a i = -(a i) := rfl
/-- The host's hyperbolic tangent at an index. -/
theorem hostTanh_apply {s : Shape} (a : FVec Ideal s .f32) (i : s.Idx) : Host.tanh a i = Ideal.tanh (a i) := rfl

/-- The scalar constant with the word 0x3F800000, broadcast to any shape, reads that word's value everywhere. -/
theorem oneWord_apply {T : Shape} (h : (⟨0, ![]⟩ : Shape).BroadcastsInDim T ![]) (j : T.Idx) :
    broadcastInDim T ![] h (constant (F := Ideal) ⟨0, ![]⟩ .f32 0x3F800000#32) j = Ideal.ofBits .f32 0x3F800000#32 := by
  rw [broadcastInDim_scalar_apply, constant_apply]

/-- … which is one. -/
theorem one_apply {T : Shape} (h : (⟨0, ![]⟩ : Shape).BroadcastsInDim T ![]) (j : T.Idx) :
    broadcastInDim T ![] h (constant (F := Ideal) ⟨0, ![]⟩ .f32 0x3F800000#32) j = 1 := by
  rw [oneWord_apply, Ideal.ofBits_one_f32]

/-- The logistic function spelt as one over one plus the exponential of the negation, with both ones given as values that
    are one. -/
theorem sigmoid_eq (o₁ o₂ z : EReal) (h₁ : o₁ = 1) (h₂ : o₂ = 1) :
    Ideal.div o₂ (o₁ + Ideal.exp (-z)) = Ideal.logistic z := by
  subst h₁ h₂; rfl

/-! ## The layout operations of the gate read at an index -/

/-- The plain product of a 12288 × 256 array with a 256 × 256 matrix, read at (i, q). -/
theorem dotG_apply (A : FVec Ideal S12288x256 .f32) (M : FVec Ideal S256x256 .f32) (i : Fin 12288) (q : Fin 256) :
    Host.dotGeneral (F := Ideal) (φ₁ := .f32) (φ₂ := .f32) dot_S12288x256_S256x256_S12288x256_1_0_0_1_n_n none A M (ix2 i q)
      = ∑ k : Fin 256, A (ix2 i k) * M (ix2 k q) :=
  StackMember.dotGeneral_plain_apply none A M i q

/-- The plain product of a 12288 × 256 array with a 256 × 1 column, read at (i, 0). -/
theorem dotQ_apply (A : FVec Ideal S12288x256 .f32) (M : FVec Ideal S256x1 .f32) (i : Fin 12288) :
    Host.dotGeneral (F := Ideal) (φ₁ := .f32) (φ₂ := .f32) dot_S12288x256_S256x1_S12288x1_1_0_0_1_n_n none A M (ix2 i (0 : Fin 1))
      = ∑ q : Fin 256, A (ix2 i q) * M (ix2 q (0 : Fin 1)) :=
  StackMember.dotGeneral_plain_apply none A M i 0

/-- A bias row broadcast down the 12288 rows, read at (i, q), is the row at (0, q). -/
theorem rowG_apply (B : FVec Ideal S1x256 .f32) (i : Fin 12288) (q : Fin 256) :
    broadcastInDim S12288x256 ![0, 1] bcast_S1x256_S12288x256_0_1 B (ix2 i q) = B (ix2 (0 : Fin 1) q) :=
  broadcastInDim_oneRow_apply bcast_S1x256_S12288x256_0_1 B i q

/-- The 1 × 1 offset broadcast down the 12288 rows, read at (i, 0), is its one entry. -/
theorem rowQ_apply (B : FVec Ideal S1x1 .f32) (i : Fin 12288) :
    broadcastInDim S12288x1 ![0, 1] bcast_S1x1_S12288x1_0_1 B (ix2 i (0 : Fin 1)) = B (ix2 (0 : Fin 1) (0 : Fin 1)) :=
  broadcastInDim_oneRow_apply bcast_S1x1_S12288x1_0_1 B i 0

/-- A 12288 × 1 column broadcast along the rows to 12288 × 256, read at (i, j), is the column at (i, 0). -/
theorem bcol_apply (V : FVec Ideal S12288x1 .f32) (i : Fin 12288) (j : Fin 256) :
    broadcastInDim S12288x256 ![0, 1] bcast_S12288x1_S12288x256_0_1 V (ix2 i j) = V (ix2 i (0 : Fin 1)) := by
  refine broadcastInDim_apply ![0, 1] bcast_S12288x1_S12288x256_0_1 V (ix2 i j) (ix2 i (0 : Fin 1)) fun a => ?_
  match a with
  | ⟨0, _⟩ => rfl
  | ⟨1, _⟩ => rfl

/-- The scoring row transposed to a column, read at (q, 0), is the row at (0, q). -/
theorem qT_apply (Q : FVec Ideal S1x256 .f32) (q : Fin 256) :
    transpose S256x1 [1, 0] Q transposes_S1x256_S256x1_1_0 (ix2 q (0 : Fin 1)) = Q (ix2 (0 : Fin 1) q) :=
  transpose_ix2_apply Q transposes_S1x256_S256x1_1_0 q 0

/-- The whole-array gate function at (i, j) is its entry function there. -/
theorem gate_at (v h : FVec Ideal S12288x256 .f32) (w1 w2 : FVec Ideal S256x256 .f32) (b1 b2 qw : FVec Ideal S1x256 .f32)
    (qb : FVec Ideal S1x1 .f32) (i : Fin 12288) (j : Fin 256) :
    Cert.KernelIdeal.Hand.Gate v h w1 w2 b1 b2 qw qb (ix2 i j) = Cert.KernelIdeal.Hand.gateAt v h w1 w2 b1 b2 qw qb i j := rfl

/-! ## The stages -/

/-- The reference's pre-activation, read at (i, q): the two linear layers' entries added (the reference adds the second
    bias last; addition is associative). -/
theorem v95_apply (i : Fin 12288) (q : Fin 256) :
    v95 x batch edge_index full_graph emb ggnn_W gru_Wih gru_Whh gru_bih gru_bhh W1_w W1_b W2_w W2_b q_w q_b W3_w W3_b (ix2 i q)
      = Cert.KernelIdeal.Hand.linG (v84 x batch edge_index full_graph emb ggnn_W gru_Wih gru_Whh gru_bih gru_bhh W1_w W1_b W2_w W2_b q_w q_b W3_w W3_b) (v85 x batch edge_index full_graph emb ggnn_W gru_Wih gru_Whh gru_bih gru_bhh W1_w W1_b W2_w W2_b q_w q_b W3_w W3_b) (v87 x batch edge_index full_graph emb ggnn_W gru_Wih gru_Whh gru_bih gru_bhh W1_w W1_b W2_w W2_b q_w q_b W3_w W3_b) i q
        + Cert.KernelIdeal.Hand.linG (v63 x batch edge_index full_graph emb ggnn_W gru_Wih gru_Whh gru_bih gru_bhh W1_w W1_b W2_w W2_b q_w q_b W3_w W3_b) (v90 x batch edge_index full_graph emb ggnn_W gru_Wih gru_Whh gru_bih gru_bhh W1_w W1_b W2_w W2_b q_w q_b W3_w W3_b) (v93 x batch edge_index full_graph emb ggnn_W gru_Wih gru_Whh gru_bih gru_bhh W1_w W1_b W2_w W2_b q_w q_b W3_w W3_b) i q := by
  unfold v95
  rw [addf_apply]
  unfold v94
  rw [rowG_apply]
  unfold v92
  rw [addf_apply]
  unfold v91
  rw [dotG_apply]
  unfold v89
  rw [addf_apply]
  unfold v88
  rw [rowG_apply]
  unfold v86
  rw [dotG_apply]
  exact add_assoc _ _ _

/-- The reference's gate, read at (i, q): the logistic function of the pre-activation. -/
theorem v101_apply (i : Fin 12288) (q : Fin 256) :
    v101 x batch edge_index full_graph emb ggnn_W gru_Wih gru_Whh gru_bih gru_bhh W1_w W1_b W2_w W2_b q_w q_b W3_w W3_b (ix2 i q) = Ideal.logistic (v95 x batch edge_index full_graph emb ggnn_W gru_Wih gru_Whh gru_bih gru_bhh W1_w W1_b W2_w W2_b q_w q_b W3_w W3_b (ix2 i q)) := by
  unfold v101
  rw [hostDivf_apply]
  unfold v100
  unfold cst_17
  unfold v99
  rw [addf_apply]
  unfold v98
  unfold cst_16
  unfold v97
  rw [hostExp_apply]
  unfold v96
  rw [hostNegf_apply]
  exact sigmoid_eq _ _ _ (one_apply _ _) (one_apply _ _)

/-- The reference's score of node i: the gate's row against the scoring row, plus the offset. -/
theorem v106_apply (i : Fin 12288) :
    v106 x batch edge_index full_graph emb ggnn_W gru_Wih gru_Whh gru_bih gru_bhh W1_w W1_b W2_w W2_b q_w q_b W3_w W3_b (ix2 i (0 : Fin 1))
      = (∑ q : Fin 256, v101 x batch edge_index full_graph emb ggnn_W gru_Wih gru_Whh gru_bih gru_bhh W1_w W1_b W2_w W2_b q_w q_b W3_w W3_b (ix2 i q) * q_w (ix2 (0 : Fin 1) q))
        + v104 x batch edge_index full_graph emb ggnn_W gru_Wih gru_Whh gru_bih gru_bhh W1_w W1_b W2_w W2_b q_w q_b W3_w W3_b (ix2 (0 : Fin 1) (0 : Fin 1)) := by
  unfold v106
  rw [addf_apply]
  unfold v105
  rw [rowQ_apply]
  unfold v103
  rw [dotQ_apply]
  have e : ∀ q : Fin 256, v102 x batch edge_index full_graph emb ggnn_W gru_Wih gru_Whh gru_bih gru_bhh W1_w W1_b W2_w W2_b q_w q_b W3_w W3_b (ix2 q (0 : Fin 1)) = q_w (ix2 (0 : Fin 1) q) := fun q => by
    unfold v102
    exact qT_apply q_w q
  simp only [e]

/-- The reference's attention-weighted node rows are the whole-array gate function of its own stages. -/
theorem v108_eq : v108 x batch edge_index full_graph emb ggnn_W gru_Wih gru_Whh gru_bih gru_bhh W1_w W1_b W2_w W2_b q_w q_b W3_w W3_b
    = Cert.KernelIdeal.Hand.Gate (v84 x batch edge_index full_graph emb ggnn_W gru_Wih gru_Whh gru_bih gru_bhh W1_w W1_b W2_w W2_b q_w q_b W3_w W3_b) (v63 x batch edge_index full_graph emb ggnn_W gru_Wih gru_Whh gru_bih gru_bhh W1_w W1_b W2_w W2_b q_w q_b W3_w W3_b) (v85 x batch edge_index full_graph emb ggnn_W gru_Wih gru_Whh gru_bih gru_bhh W1_w W1_b W2_w W2_b q_w q_b W3_w W3_b) (v90 x batch edge_index full_graph emb ggnn_W gru_Wih gru_Whh gru_bih gru_bhh W1_w W1_b W2_w W2_b q_w q_b W3_w W3_b) (v87 x batch edge_index full_graph emb ggnn_W gru_Wih gru_Whh gru_bih gru_bhh W1_w W1_b W2_w W2_b q_w q_b W3_w W3_b) (v93 x batch edge_index full_graph emb ggnn_W gru_Wih gru_Whh gru_bih gru_bhh W1_w W1_b W2_w W2_b q_w q_b W3_w W3_b) q_w (v104 x batch edge_index full_graph emb ggnn_W gru_Wih gru_Whh gru_bih gru_bhh W1_w W1_b W2_w W2_b q_w q_b W3_w W3_b) := by
  funext idx
  obtain ⟨i, j, rfl⟩ : ∃ (i : Fin 12288) (j : Fin 256), idx = ix2 i j := ⟨idx 0, idx 1, eq_ix2 idx⟩
  refine Eq.trans ?_ (gate_at _ _ _ _ _ _ _ _ i j).symm
  unfold v108
  rw [mulf_apply]
  unfold v107
  rw [bcol_apply, v106_apply]
  unfold Cert.KernelIdeal.Hand.gateAt
  have e : ∀ q : Fin 256, v101 x batch edge_index full_graph emb ggnn_W gru_Wih gru_Whh gru_bih gru_bhh W1_w W1_b W2_w W2_b q_w q_b W3_w W3_b (ix2 i q)
      = Ideal.logistic (Cert.KernelIdeal.Hand.linG (v84 x batch edge_index full_graph emb ggnn_W gru_Wih gru_Whh gru_bih gru_bhh W1_w W1_b W2_w W2_b q_w q_b W3_w W3_b) (v85 x batch edge_index full_graph emb ggnn_W gru_Wih gru_Whh gru_bih gru_bhh W1_w W1_b W2_w W2_b q_w q_b W3_w W3_b) (v87 x batch edge_index full_graph emb ggnn_W gru_Wih gru_Whh gru_bih gru_bhh W1_w W1_b W2_w W2_b q_w q_b W3_w W3_b) i q
        + Cert.KernelIdeal.Hand.linG (v63 x batch edge_index full_graph emb ggnn_W gru_Wih gru_Whh gru_bih gru_bhh W1_w W1_b W2_w W2_b q_w q_b W3_w W3_b) (v90 x batch edge_index full_graph emb ggnn_W gru_Wih gru_Whh gru_bih gru_bhh W1_w W1_b W2_w W2_b q_w q_b W3_w W3_b) (v93 x batch edge_index full_graph emb ggnn_W gru_Wih gru_Whh gru_bih gru_bhh W1_w W1_b W2_w W2_b q_w q_b W3_w W3_b) i q) := fun q => by
    rw [v101_apply, v95_apply]
  simp only [e]

end Cert.ReferenceIdeal.RefRead
-- ==== Proof.Bridge4.lean ====
/-
  The two programs side by side, fourth part: the attention gate. Region 2 leaves in its output the weighted node rows of
  (repeated last-node rows, node rows) under the two transposed matrices, the two bias rows, the scoring row and the scoring
  offset, entry by entry; the reference's stage %108 is the same function of its own stages — after regrouping one sum of four
  terms, which the extended reals allow without any finiteness —; and the region's inputs are the reference's stages by the third
  part.
-/
import proofs.«133217_j69260642615845_1_alg».proof.Proof.Bridge2
import proofs.«133217_j69260642615845_1_alg».proof.Proof.Bridge3
import proofs.«133217_j69260642615845_1_alg».proof.Proof.KVal2
import proofs.«133217_j69260642615845_1_alg».proof.Proof.RefRead2
import proofs.«133217_j69260642615845_1_alg».proof.Proof.Gen.ReferenceIdeal
import Idealize.ShloMosaic.Lib.StableHlo.Run
import Idealize.ShloMosaic.PureOps.Ideal

set_option maxRecDepth 16384

noncomputable section

namespace Cert.Bridge

open Cert.KernelIdeal Cert.KernelIdeal.Gen Cert.KernelIdeal.Hand
open Idealize.ShloMosaic Idealize.ShloMosaic.TcCoe
open Idealize.SL Idealize.SL.Sem

variable (m : (ℓ : Loc nD τ sig) → Buf (Elt Ideal) ℓ) (c : Dev nD)

abbrev R108 := Cert.ReferenceIdeal.RefStages.v108 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- Region 2's output is the reference's weighted node rows. -/
theorem weighted : W9 m c (Proc.devRef .tc main_v57) = R108 m c := by
  refine (W9_arr m c 8).trans ((final2 (E2 m) c).trans ?_)
  show Gate (W8 m c (Proc.devRef .tc main_v51)) (W8 m c (Proc.devRef .tc main_v30)) (W8 m c (Proc.devRef .tc main_v52))
    (W8 m c (Proc.devRef .tc main_v53)) (W8 m c (Proc.devRef .tc main_v54)) (W8 m c (Proc.devRef .tc main_v55))
    (W8 m c (Proc.devRef .tc main_arg14)) (W8 m c (Proc.devRef .tc main_v56)) = _
  rw [repeated_last m c (updated m c), nodes m c (updated m c), w1_t m c, w2_t m c, b1_row m c, b2_row m c, qw_at_gate m c, qb_cell m c]
  exact (Cert.ReferenceIdeal.RefRead.v108_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))).symm

end Cert.Bridge

end
-- ==== Proof.Bridge5.lean ====
/-
  The two programs side by side, fifth part: the stretch of host operations between the attention gate and the scores. From
  the gated node rows — region 2's output, taken here to be the reference's (`h57`) — and the last node of each session
  (`h44`), the kernel program sums the gated rows of each session, joins the sum to the session's last node and applies the
  final dense layer, by the same operations as the reference in the same order: its result is the reference's stage read at
  core c's 18 argument arrays. The item table, which the scores read next, is an argument nothing has written.
-/
import proofs.«133217_j69260642615845_1_alg».proof.Proof.Bridge1
import proofs.«133217_j69260642615845_1_alg».proof.Proof.Gen.ReferenceIdeal
import Idealize.ShloMosaic.Lib.StableHlo.Run
import Idealize.ShloMosaic.PureOps.Ideal
import Idealize.ShloMosaic.Lib.Pipeline.Value

set_option maxRecDepth 16384

noncomputable section

namespace Cert.Bridge

open Cert.KernelIdeal Cert.KernelIdeal.Gen Cert.KernelIdeal.Hand
open Idealize.ShloMosaic Idealize.ShloMosaic.TcCoe
open Idealize.SL Idealize.SL.Sem

variable (m : (ℓ : Loc nD τ sig) → Buf (Elt Ideal) ℓ) (c : Dev nD)

/-- The reference's stage at core `c`'s argument arrays. -/
abbrev R117 := Cert.ReferenceIdeal.RefStages.v117 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-! ## What is not written stays -/

/-- A buffer that region 0, the first stretch and region 1 do not write holds, after them, its launch contents. -/
private theorem at_W3 (b : Ref sig .tc) (r0 : b ≠ main_v0) (s1 : b ∉ hostOps1_W) (r1 : b ≠ main_v19) :
    W3 m c (Proc.devRef .tc b) = m ((c : Thread nD τ).loc b) :=
  (W3_keep m c b r1).trans ((StableHlo.after_of_writes_sub hostOps1 _ hostOps1_writes s1).trans (W1_keep m c b r0))
/-- … and after the next stretch, which does not write it either. -/
private theorem at_W4 (b : Ref sig .tc) (r0 : b ≠ main_v0) (s1 : b ∉ hostOps1_W) (r1 : b ≠ main_v19) (s2 : b ∉ hostOps2_W) :
    W4 m c (Proc.devRef .tc b) = m ((c : Thread nD τ).loc b) :=
  (StableHlo.after_of_writes_sub hostOps2 _ hostOps2_writes s2).trans (at_W3 m c b r0 s1 r1)
/-- … and after the next stretch, which does not write it either. -/
private theorem at_W5 (b : Ref sig .tc) (r0 : b ≠ main_v0) (s1 : b ∉ hostOps1_W) (r1 : b ≠ main_v19) (s2 : b ∉ hostOps2_W) (s3 : b ∉ hostOps2_1_W) :
    W5 m c (Proc.devRef .tc b) = m ((c : Thread nD τ).loc b) :=
  (StableHlo.after_of_writes_sub hostOps2_1 _ hostOps2_1_writes s3).trans (at_W4 m c b r0 s1 r1 s2)
/-- … and after the next stretch, which does not write it either. -/
private theorem at_W6 (b : Ref sig .tc) (r0 : b ≠ main_v0) (s1 : b ∉ hostOps1_W) (r1 : b ≠ main_v19) (s2 : b ∉ hostOps2_W) (s3 : b ∉ hostOps2_1_W) (s4 : b ∉ hostOps2_2_W) :
    W6 m c (Proc.devRef .tc b) = m ((c : Thread nD τ).loc b) :=
  (StableHlo.after_of_writes_sub hostOps2_2 _ hostOps2_2_writes s4).trans (at_W5 m c b r0 s1 r1 s2 s3)
/-- … and after the next stretch, which does not write it either. -/
private theorem at_W7 (b : Ref sig .tc) (r0 : b ≠ main_v0) (s1 : b ∉ hostOps1_W) (r1 : b ≠ main_v19) (s2 : b ∉ hostOps2_W) (s3 : b ∉ hostOps2_1_W) (s4 : b ∉ hostOps2_2_W) (s5 : b ∉ hostOps2_3_W) :
    W7 m c (Proc.devRef .tc b) = m ((c : Thread nD τ).loc b) :=
  (StableHlo.after_of_writes_sub hostOps2_3 _ hostOps2_3_writes s5).trans (at_W6 m c b r0 s1 r1 s2 s3 s4)
/-- … and after the next stretch, which does not write it either. -/
private theorem at_W8 (b : Ref sig .tc) (r0 : b ≠ main_v0) (s1 : b ∉ hostOps1_W) (r1 : b ≠ main_v19) (s2 : b ∉ hostOps2_W) (s3 : b ∉ hostOps2_1_W) (s4 : b ∉ hostOps2_2_W) (s5 : b ∉ hostOps2_3_W) (s6 : b ∉ hostOps2_4_W) :
    W8 m c (Proc.devRef .tc b) = m ((c : Thread nD τ).loc b) :=
  (StableHlo.after_of_writes_sub hostOps2_4 _ hostOps2_4_writes s6).trans (at_W7 m c b r0 s1 r1 s2 s3 s4 s5)
/-- … and after region 2, whose output it is not. -/
private theorem at_W9 (b : Ref sig .tc) (r0 : b ≠ main_v0) (s1 : b ∉ hostOps1_W) (r1 : b ≠ main_v19) (s2 : b ∉ hostOps2_W) (s3 : b ∉ hostOps2_1_W) (s4 : b ∉ hostOps2_2_W) (s5 : b ∉ hostOps2_3_W) (s6 : b ∉ hostOps2_4_W) (r2 : b ≠ main_v57) :
    W9 m c (Proc.devRef .tc b) = m ((c : Thread nD τ).loc b) :=
  (W9_keep m c b r2).trans (at_W8 m c b r0 s1 r1 s2 s3 s4 s5 s6)

/-! ## The stretch -/

set_option maxHeartbeats 4000000 in
/-- The session representations after the final dense layer. -/
theorem dense (h57 : W9 m c (Proc.devRef .tc main_v57) = (Cert.ReferenceIdeal.RefStages.v108 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))))
    (h44 : W8 m c (Proc.devRef .tc main_v44) = (Cert.ReferenceIdeal.RefStages.v77 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))) :
    W10 m c (Proc.devRef .tc main_v66) = R117 m c := by
  show StableHlo.after hostOps3 (W9 m c) (Proc.devRef .tc main_v66) = _
  after_results
  rw [h57, (W9_keep m c main_v44 (by decide)).trans h44, at_W9 m c main_arg1 (by decide) (by decide) (by decide) (by decide) (by decide) (by decide) (by decide) (by decide) (by decide),
    at_W9 m c main_arg16 (by decide) (by decide) (by decide) (by decide) (by decide) (by decide) (by decide) (by decide) (by decide), at_W9 m c main_arg17 (by decide) (by decide) (by decide) (by decide) (by decide) (by decide) (by decide) (by decide) (by decide)]
  rfl

/-- The item table as the scores find it: an argument, written by nothing. -/
theorem emb_at_scores (h57 : W9 m c (Proc.devRef .tc main_v57) = (Cert.ReferenceIdeal.RefStages.v108 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))))
    (h44 : W8 m c (Proc.devRef .tc main_v44) = (Cert.ReferenceIdeal.RefStages.v77 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))) :
    W10 m c (Proc.devRef .tc main_arg4) = m ((c : Thread nD τ).loc main_arg4) :=
  (StableHlo.after_of_writes_sub hostOps3 _ hostOps3_writes (by decide)).trans (at_W9 m c main_arg4 (by decide) (by decide) (by decide) (by decide) (by decide) (by decide) (by decide) (by decide) (by decide))

end Cert.Bridge

end
-- ==== Proof.KVal3.lean ====
/-
  What the last region leaves, at the ideal instance: the whole array of scores, scores (b, i) = Σ_k s_h (b, k) · emb (i, k).
  Grid point t writes back columns [2048 t, 2048 t + 2048) cut at the array's 50000 columns (848 columns at point 24).
  Column j of its block is column 2048 t + j of the array, and, being written back, j is a fetched row of the item block:
  the entry is the product of row b of s_h with row 2048 t + j of emb, whatever fills the item buffer past the array's end.
  The cut blocks cover the 50000 columns: column i lies in block i / 2048, and 24 · 2048 + 848 = 50000.
-/
import proofs.«133217_j69260642615845_1_alg».proof.Proof.KRun
import proofs.«133217_j69260642615845_1_alg».proof.Proof.Local3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Window)

variable (V : (c : Dev nD) → (b : Ref sig .tc) → Buf (Elt Ideal) ((c : Thread nD τ).loc b))

/-- The product of a 1024 × 256 table with the transpose of a 50000 × 256 table, entry by entry. -/
def Sc (s : S1024x256.Idx → EReal) (e : S50000x256.Idx → EReal) : S1024x50000.Idx → EReal :=
  fun i => ∑ k : Fin 256, s (ix2 (i 0 : Fin 1024) k) * e (ix2 (i 1 : Fin 50000) k)

/-- The printed index maps and cuts over the grid: the session window stays, the items' window moves with the output's
    columns, and the output's blocks are cut at the array's end — 2048 columns at the first 24 points, 848 at the last. -/
theorem maps3 : ∀ t : Fin cfg3.N, win3_0.index t (0 : Fin 2) = 0 ∧ win3_0.index t (1 : Fin 2) = 0
    ∧ win3_1.index t (0 : Fin 2) = win3_2.index t (1 : Fin 2) ∧ win3_1.index t (1 : Fin 2) = 0
    ∧ win3_2.index t (0 : Fin 2) = 0 ∧ win3_2.index t (1 : Fin 2) ≤ 24
    ∧ win3_2.xsize (grid3.coords t) (0 : Fin 2) = 1024
    ∧ (win3_2.index t (1 : Fin 2) < 24 → win3_2.xsize (grid3.coords t) (1 : Fin 2) = 2048)
    ∧ (win3_2.index t (1 : Fin 2) = 24 → win3_2.xsize (grid3.coords t) (1 : Fin 2) = 848) :=
  (by decide +kernel : ∀ t : Fin grid3.N, _)

/-- Every block of columns is some point's. -/
theorem onto3 : ∀ q : Fin 25, ∃ t : Fin cfg3.N, win3_2.index t = ![0, q.val] :=
  (by decide +kernel : ∀ q : Fin 25, ∃ t : Fin grid3.N, win3_2.index t = ![0, q.val])

/-- What point `t` writes back is (the cut) block `t` of the scores. -/
theorem flushed3 (c : Dev nD) (t : Fin cfg3.N) :
    (dat3 V c).flushed 2 t = ((cfg3.win 2).blk t).view.read (Elt Ideal) (Sc (V c main_v66) (V c main_arg4)) := by
  show (cfg3.win 2).cut (grid3.coords t) ((dat3 V c).after 2 t) = _
  rw [dat3_after_out, Cert.KernelIdeal.Pay.prod3_eq]
  obtain ⟨e0, e1, e2, e3, e4, e5, e6, e7, e8⟩ := maps3 t
  funext j
  obtain ⟨b, cc, hbc, hb, hcc, hc⟩ : ∃ (b : Fin 1024) (cc : Fin 2048), win3_2.xinj (grid3.coords t) j = ix2 b cc
      ∧ b.val = (j 0).val ∧ cc.val = (j 1).val ∧ cc.val < win3_1.xsize (grid3.coords t) (0 : Fin 2) :=
    ⟨win3_2.xinj (grid3.coords t) j 0, win3_2.xinj (grid3.coords t) j 1, eq_ix2 _, rfl, rfl, (j 1).isLt⟩
  show k3_pay1 (blk3 V c 0 t) (items3 V c t zeroFill) (win3_2.xinj (grid3.coords t) j)
    = Sc (V c main_v66) (V c main_arg4) (((cfg3.win 2).blk t).view.emb j)
  rw [hbc]
  refine (Cert.KernelIdeal.Pay.pay3_apply _ _ b cc).trans ?_
  unfold Sc
  refine Finset.sum_congr rfl fun k _ => ?_
  have hm : win3_1.moved (grid3.coords t) (ix2 cc k) = true :=
    (win3_1.moved_iff (grid3.coords t) (ix2 cc k)).mpr fun a => by
      match a with
      | ⟨0, _⟩ => exact hc
      | ⟨1, _⟩ => exact k.isLt
  have h1 : blk3 V c 0 t (ix2 b k) = V c main_v66 (ix2 ((((cfg3.win 2).blk t).view.emb j) 0 : Fin 1024) k) := by
    refine congrArg (V c main_v66) ?_
    funext a; apply Fin.ext
    match a with
    | ⟨0, _⟩ => show win3_0.index t (0 : Fin 2) * 1024 + 1 * b.val = win3_2.index t (0 : Fin 2) * 1024 + 1 * (j 0).val; omega
    | ⟨1, _⟩ => show win3_0.index t (1 : Fin 2) * 256 + 1 * k.val = k.val; omega
  have h2 : items3 V c t zeroFill (ix2 cc k) = V c main_arg4 (ix2 ((((cfg3.win 2).blk t).view.emb j) 1 : Fin 50000) k) := by
    unfold items3 Window.fill
    rw [dif_pos hm]
    refine congrArg (V c main_arg4) ?_
    funext a; apply Fin.ext
    match a with
    | ⟨0, _⟩ => show win3_1.index t (0 : Fin 2) * 2048 + 1 * cc.val = win3_2.index t (1 : Fin 2) * 2048 + 1 * (j 1).val; omega
    | ⟨1, _⟩ => show win3_1.index t (1 : Fin 2) * 256 + 1 * k.val = k.val; omega
  exact congrArg₂ (fun (a b : EReal) => a * b) h1 h2

/-- An index of the array is in point `t`'s cut block iff each coordinate is in the block's cut range on its axis. -/
theorem mem_blk3 (t : Fin cfg3.N) (i : S1024x50000.Idx) :
    i ∈ ((cfg3.win 2).blk t).view.set ↔ ∀ a : Fin 2, win3_2.index t a * S1024x2048.size a ≤ (i a).val
      ∧ (i a).val < win3_2.index t a * S1024x2048.size a + win3_2.xsize (grid3.coords t) a := by
  show i ∈ ((View.whole main_v67).slice (win3_2.rect t)).set ↔ _
  rw [View.set_slice_whole, Rect.mem_set_unit]
  exact Iff.rfl

/-- Every column of the array lies in some point's cut block. -/
theorem cover3 (i : S1024x50000.Idx) : ∃ t : Fin cfg3.N, (cfg3.win 2).flush t = true ∧ i ∈ ((cfg3.win 2).blk t).view.set := by
  have hi0 : (i 0).val < 1024 := (i 0).isLt
  have hi1 : (i 1).val < 50000 := (i 1).isLt
  obtain ⟨t, ht⟩ := onto3 ⟨(i 1).val / 2048, by omega⟩
  have q0 : win3_2.index t (0 : Fin 2) = 0 := congrFun ht 0
  have q1 : win3_2.index t (1 : Fin 2) = (i 1).val / 2048 := congrFun ht 1
  obtain ⟨e0, e1, e2, e3, e4, e5, e6, e7, e8⟩ := maps3 t
  refine ⟨t, flush3_2 t, ?_⟩
  rw [mem_blk3]
  intro a
  match a with
  | ⟨0, _⟩ =>
    show win3_2.index t (0 : Fin 2) * 1024 ≤ (i 0).val ∧ (i 0).val < win3_2.index t (0 : Fin 2) * 1024 + win3_2.xsize (grid3.coords t) (0 : Fin 2)
    omega
  | ⟨1, _⟩ =>
    show win3_2.index t (1 : Fin 2) * 2048 ≤ (i 1).val ∧ (i 1).val < win3_2.index t (1 : Fin 2) * 2048 + win3_2.xsize (grid3.coords t) (1 : Fin 2)
    by_cases hq : win3_2.index t (1 : Fin 2) < 24
    · have := e7 hq; omega
    · have := e8 (by omega); omega

/-- THE ARRAY after region 3: the scores, whole. -/
theorem final3 (c : Dev nD) : (dat3 V c).arrAt 2 cfg3.N = Sc (V c main_v66) (V c main_arg4) :=
  (dat3 V c).arrAt_eq_of_cover 2 (Sc (V c main_v66) (V c main_arg4)) (fun t _ => flushed3 V c t) cover3

end Cert.KernelIdeal.Hand

end
-- ==== Proof.RefRead3.lean ====
/-
  The reference's scores read entry by entry, at the ideal values: the plain product of the 1024 × 256 session matrix
  with the transposed 50000 × 256 table is, at (b, i), the sum over k of s (b, k) · emb (i, k) — the transpose read at
  (k, i) is the table at (i, k).
-/
import proofs.«133217_j69260642615845_1_alg».proof.Proof.RefStages
import proofs.«133217_j69260642615845_1_alg».proof.Proof.KVal3
import Idealize.ShloMosaic.Lib.StackMember
import Idealize.ShloMosaic.Lib.ValueLayout

set_option synthInstance.maxSize 4096
set_option maxRecDepth 16384

noncomputable section

namespace Cert.ReferenceIdeal.RefRead

open Idealize.ShloMosaic Idealize.SL.Sem Idealize.ShloMosaic.ValueIdx
open Cert.ReferenceIdeal Cert.ReferenceIdeal.Facts₀ Cert.ReferenceIdeal.Facts Cert.ReferenceIdeal.RefStages
open scoped BigOperators

variable [Cert.ReferenceIdeal.Facts]

variable (x : (⟨S12288x1, .i32⟩ : BufTy).Contents (Elt Ideal)) (batch : (⟨S12288, .i32⟩ : BufTy).Contents (Elt Ideal)) (edge_index : (⟨S2x12288, .i32⟩ : BufTy).Contents (Elt Ideal)) (full_graph : (⟨S2x500000, .i32⟩ : BufTy).Contents (Elt Ideal)) (emb : (⟨S50000x256, .f32⟩ : BufTy).Contents (Elt Ideal)) (ggnn_W : (⟨S256x256, .f32⟩ : BufTy).Contents (Elt Ideal)) (gru_Wih : (⟨S768x256, .f32⟩ : BufTy).Contents (Elt Ideal)) (gru_Whh : (⟨S768x256, .f32⟩ : BufTy).Contents (Elt Ideal)) (gru_bih : (⟨S768, .f32⟩ : BufTy).Contents (Elt Ideal)) (gru_bhh : (⟨S768, .f32⟩ : BufTy).Contents (Elt Ideal)) (W1_w : (⟨S256x256, .f32⟩ : BufTy).Contents (Elt Ideal)) (W1_b : (⟨S256, .f32⟩ : BufTy).Contents (Elt Ideal)) (W2_w : (⟨S256x256, .f32⟩ : BufTy).Contents (Elt Ideal)) (W2_b : (⟨S256, .f32⟩ : BufTy).Contents (Elt Ideal)) (q_w : (⟨S1x256, .f32⟩ : BufTy).Contents (Elt Ideal)) (q_b : (⟨S1, .f32⟩ : BufTy).Contents (Elt Ideal)) (W3_w : (⟨S256x512, .f32⟩ : BufTy).Contents (Elt Ideal)) (W3_b : (⟨S256, .f32⟩ : BufTy).Contents (Elt Ideal))

/-- The reference's s · embᵀ is the whole-array score function, entry by entry. -/
theorem v119_eq : v119 x batch edge_index full_graph emb ggnn_W gru_Wih gru_Whh gru_bih gru_bhh W1_w W1_b W2_w W2_b q_w q_b W3_w W3_b = Cert.KernelIdeal.Hand.Sc (v117 x batch edge_index full_graph emb ggnn_W gru_Wih gru_Whh gru_bih gru_bhh W1_w W1_b W2_w W2_b q_w q_b W3_w W3_b) emb := by
  funext i
  obtain ⟨b, c, rfl⟩ : ∃ (b : Fin 1024) (c : Fin 50000), i = ix2 b c := ⟨i 0, i 1, eq_ix2 i⟩
  unfold v119 Cert.KernelIdeal.Hand.Sc
  refine (StackMember.dotGeneral_plain_apply none _ _ b c).trans ?_
  refine Finset.sum_congr rfl fun k _ => ?_
  unfold v118
  rw [transpose_ix2_apply]

end Cert.ReferenceIdeal.RefRead
-- ==== Proof.Bridge6.lean ====
/-
  The two programs side by side, last part: the scores. Region 3 leaves in its output s_h · embᵀ entry by entry (its cut last
  block included); the reference's last stage is the same function of its stage %117 and emb; and the region's inputs are the
  reference's dense-layer output and emb by the fifth part. With it the two results the claim compares: the scores, and the
  rectified node rows, which nothing writes after the third part.
-/
import proofs.«133217_j69260642615845_1_alg».proof.Proof.Bridge4
import proofs.«133217_j69260642615845_1_alg».proof.Proof.Bridge5
import proofs.«133217_j69260642615845_1_alg».proof.Proof.KVal3
import proofs.«133217_j69260642615845_1_alg».proof.Proof.RefRead3
import proofs.«133217_j69260642615845_1_alg».proof.Proof.Gen.ReferenceIdeal
import Idealize.ShloMosaic.Lib.StableHlo.Run
import Idealize.ShloMosaic.PureOps.Ideal

set_option maxRecDepth 16384

noncomputable section

namespace Cert.Bridge

open Cert.KernelIdeal Cert.KernelIdeal.Gen Cert.KernelIdeal.Hand
open Idealize.ShloMosaic Idealize.ShloMosaic.TcCoe
open Idealize.SL Idealize.SL.Sem

variable (m : (ℓ : Loc nD τ sig) → Buf (Elt Ideal) ℓ) (c : Dev nD)

abbrev R119 := Cert.ReferenceIdeal.RefStages.v119 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- Region 3's output is the reference's scores. -/
theorem scores : W11 m c (Proc.devRef .tc main_v67) = R119 m c := by
  refine (W11_scores m c).trans ((final3 (E3 m) c).trans ?_)
  show Sc (W10 m c (Proc.devRef .tc main_v66)) (W10 m c (Proc.devRef .tc main_arg4)) = _
  rw [dense m c (weighted m c) (last_node m c (updated m c)), emb_at_scores m c (weighted m c) (last_node m c (updated m c))]
  exact (Cert.ReferenceIdeal.RefRead.v119_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))).symm

/-- The rectified node rows at the end are the reference's. -/
theorem node_rows : W11 m c (Proc.devRef .tc main_v30) = R63 m c :=
  (W11_nodes m c).trans (nodes m c (updated m c))

end Cert.Bridge

end
-- ==== Proof.RefRun.lean ====
/- The reference program's @main read as a straight line of host operations, and its run.
   The two functions @main calls are written out at their call sites over the calls' buffer records: @relu is a zero
   constant, its broadcast and a maximum; @cumsum is @cumsum_0, a zero constant, its rank-0 broadcast and a windowed
   sum. The run states that @main terminates, that its two computed results end at the stages `RefStages.v119` and
   `RefStages.v63` of the memory's argument arrays, and that every argument array ends as it began. -/
import proofs.«133217_j69260642615845_1_alg».proof.Proof.Gen.ReferenceIdeal
import proofs.«133217_j69260642615845_1_alg».proof.Proof.RefStages
import Idealize.ShloMosaic.Lib.StableHlo.Run
import Idealize.ShloMosaic.Lib.Pipeline.Frame
import Idealize.ShloMosaic.PureOps.Ideal

set_option Elab.async false
set_option synthInstance.maxSize 4096

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

/-- The concatenation that writes `main_v112`, as a function of its two operands (in the operation's own spelling the
    operands stand inside a list of dependent pairs whose shapes the evidence's type mentions; named, they are plain
    arguments). -/
def cat_v112 (a b : (⟨S1024x256, .f32⟩ : BufTy).Contents (Elt Ideal)) : (⟨S1024x512, .f32⟩ : BufTy).Contents (Elt Ideal) :=
  concatenate S1024x512 1 [⟨S1024x256, a⟩, ⟨S1024x256, b⟩] concatenates_S1024x256_S1024x256_S1024x512_d1

/-- @main's statements 1 … 60 (window `main_part0`): 60 operations. -/
abbrev ops0 : List (HloOp τ sig (Elt Ideal)) :=
  [ unary main_arg3 main_v0 ((extractStridedSlice S1x500000 ![0, 0] · slices_S2x500000_S1x500000_0_0) : (⟨S2x500000, .i32⟩ : BufTy).Contents (Elt Ideal) → (⟨S1x500000, .i32⟩ : BufTy).Contents (Elt Ideal)),
    reshape main_v0 main_v1 rfl shapeCasts_S1x500000_S500000,
    unary main_arg3 main_v2 ((extractStridedSlice S1x500000 ![1, 0] · slices_S2x500000_S1x500000_1_0) : (⟨S2x500000, .i32⟩ : BufTy).Contents (Elt Ideal) → (⟨S1x500000, .i32⟩ : BufTy).Contents (Elt Ideal)),
    reshape main_v2 main_v3 rfl shapeCasts_S1x500000_S500000,
    binary main_arg4 main_arg5 main_v4 ((fun l r => Host.dotGeneral (F := Ideal) (φ₁ := .f32) (φ₂ := .f32) dot_S50000x256_S256x256_S50000x256_1_0_0_1_n_n none l r) : (⟨S50000x256, .f32⟩ : BufTy).Contents (Elt Ideal) → (⟨S256x256, .f32⟩ : BufTy).Contents (Elt Ideal) → (⟨S50000x256, .f32⟩ : BufTy).Contents (Elt Ideal)),
    nullary main_c (constantI S_ 32 0#32),
    unary main_c main_v5 (broadcastInDim S500000 ![] bcast_S_S500000 : (⟨S_, .i32⟩ : BufTy).Contents (Elt Ideal) → (⟨S500000, .i32⟩ : BufTy).Contents (Elt Ideal)),
    binary main_v1 main_v5 main_v6 (cmpi .slt : (⟨S500000, .i32⟩ : BufTy).Contents (Elt Ideal) → (⟨S500000, .i32⟩ : BufTy).Contents (Elt Ideal) → (⟨S500000, .i1⟩ : BufTy).Contents (Elt Ideal)),
    nullary main_c_0 (constantI S_ 32 50000#32),
    unary main_c_0 main_v7 (broadcastInDim S500000 ![] bcast_S_S500000 : (⟨S_, .i32⟩ : BufTy).Contents (Elt Ideal) → (⟨S500000, .i32⟩ : BufTy).Contents (Elt Ideal)),
    binary main_v1 main_v7 main_v8 (addi : (⟨S500000, .i32⟩ : BufTy).Contents (Elt Ideal) → (⟨S500000, .i32⟩ : BufTy).Contents (Elt Ideal) → (⟨S500000, .i32⟩ : BufTy).Contents (Elt Ideal)),
    ternary main_v6 main_v8 main_v1 main_v9 (select : (⟨S500000, .i1⟩ : BufTy).Contents (Elt Ideal) → (⟨S500000, .i32⟩ : BufTy).Contents (Elt Ideal) → (⟨S500000, .i32⟩ : BufTy).Contents (Elt Ideal) → (⟨S500000, .i32⟩ : BufTy).Contents (Elt Ideal)),
    unary main_v9 main_v10 (broadcastInDim S500000x1 ![0] bcast_S500000_S500000x1_0 : (⟨S500000, .i32⟩ : BufTy).Contents (Elt Ideal) → (⟨S500000x1, .i32⟩ : BufTy).Contents (Elt Ideal)),
    binary main_v4 main_v10 main_v11 ((fun x i => Host.gather gather_S50000x256_S500000x1_S500000x256_1_0_n_n_0_1_1256 x i) : (⟨S50000x256, .f32⟩ : BufTy).Contents (Elt Ideal) → (⟨S500000x1, .i32⟩ : BufTy).Contents (Elt Ideal) → (⟨S500000x256, .f32⟩ : BufTy).Contents (Elt Ideal)),
    nullary main_cst (constant (F := Ideal) S_ .f32 0x00000000#32),
    unary main_cst main_v12 (broadcastInDim S50000x256 ![] bcast_S_S50000x256 : (⟨S_, .f32⟩ : BufTy).Contents (Elt Ideal) → (⟨S50000x256, .f32⟩ : BufTy).Contents (Elt Ideal)),
    unary main_v3 main_v13 (broadcastInDim S500000x1 ![0] bcast_S500000_S500000x1_0 : (⟨S500000, .i32⟩ : BufTy).Contents (Elt Ideal) → (⟨S500000x1, .i32⟩ : BufTy).Contents (Elt Ideal)),
    ternary main_v12 main_v13 main_v11 main_v14 ((fun x i u => Host.scatterAdd (F := Ideal) (φ := .f32) scatter_S50000x256_S500000x1_S500000x256_1_0_0_1 x i u) : (⟨S50000x256, .f32⟩ : BufTy).Contents (Elt Ideal) → (⟨S500000x1, .i32⟩ : BufTy).Contents (Elt Ideal) → (⟨S500000x256, .f32⟩ : BufTy).Contents (Elt Ideal) → (⟨S50000x256, .f32⟩ : BufTy).Contents (Elt Ideal)),
    unary main_arg6 main_v15 ((transpose S256x768 [1, 0] · transposes_S768x256_S256x768_1_0) : (⟨S768x256, .f32⟩ : BufTy).Contents (Elt Ideal) → (⟨S256x768, .f32⟩ : BufTy).Contents (Elt Ideal)),
    binary main_v14 main_v15 main_v16 ((fun l r => Host.dotGeneral (F := Ideal) (φ₁ := .f32) (φ₂ := .f32) dot_S50000x256_S256x768_S50000x768_1_0_0_1_n_n none l r) : (⟨S50000x256, .f32⟩ : BufTy).Contents (Elt Ideal) → (⟨S256x768, .f32⟩ : BufTy).Contents (Elt Ideal) → (⟨S50000x768, .f32⟩ : BufTy).Contents (Elt Ideal)),
    unary main_arg8 main_v17 (broadcastInDim S1x768 ![1] bcast_S768_S1x768_1 : (⟨S768, .f32⟩ : BufTy).Contents (Elt Ideal) → (⟨S1x768, .f32⟩ : BufTy).Contents (Elt Ideal)),
    unary main_v17 main_v18 (broadcastInDim S50000x768 ![0, 1] bcast_S1x768_S50000x768_0_1 : (⟨S1x768, .f32⟩ : BufTy).Contents (Elt Ideal) → (⟨S50000x768, .f32⟩ : BufTy).Contents (Elt Ideal)),
    binary main_v16 main_v18 main_v19 (addf (F := Ideal) (φ := .f32) : (⟨S50000x768, .f32⟩ : BufTy).Contents (Elt Ideal) → (⟨S50000x768, .f32⟩ : BufTy).Contents (Elt Ideal) → (⟨S50000x768, .f32⟩ : BufTy).Contents (Elt Ideal)),
    unary main_arg7 main_v20 ((transpose S256x768 [1, 0] · transposes_S768x256_S256x768_1_0) : (⟨S768x256, .f32⟩ : BufTy).Contents (Elt Ideal) → (⟨S256x768, .f32⟩ : BufTy).Contents (Elt Ideal)),
    binary main_arg4 main_v20 main_v21 ((fun l r => Host.dotGeneral (F := Ideal) (φ₁ := .f32) (φ₂ := .f32) dot_S50000x256_S256x768_S50000x768_1_0_0_1_n_n none l r) : (⟨S50000x256, .f32⟩ : BufTy).Contents (Elt Ideal) → (⟨S256x768, .f32⟩ : BufTy).Contents (Elt Ideal) → (⟨S50000x768, .f32⟩ : BufTy).Contents (Elt Ideal)),
    unary main_arg9 main_v22 (broadcastInDim S1x768 ![1] bcast_S768_S1x768_1 : (⟨S768, .f32⟩ : BufTy).Contents (Elt Ideal) → (⟨S1x768, .f32⟩ : BufTy).Contents (Elt Ideal)),
    unary main_v22 main_v23 (broadcastInDim S50000x768 ![0, 1] bcast_S1x768_S50000x768_0_1 : (⟨S1x768, .f32⟩ : BufTy).Contents (Elt Ideal) → (⟨S50000x768, .f32⟩ : BufTy).Contents (Elt Ideal)),
    binary main_v21 main_v23 main_v24 (addf (F := Ideal) (φ := .f32) : (⟨S50000x768, .f32⟩ : BufTy).Contents (Elt Ideal) → (⟨S50000x768, .f32⟩ : BufTy).Contents (Elt Ideal) → (⟨S50000x768, .f32⟩ : BufTy).Contents (Elt Ideal)),
    unary main_v19 main_v25 ((extractStridedSlice S50000x256 ![0, 0] · slices_S50000x768_S50000x256_0_0) : (⟨S50000x768, .f32⟩ : BufTy).Contents (Elt Ideal) → (⟨S50000x256, .f32⟩ : BufTy).Contents (Elt Ideal)),
    unary main_v19 main_v26 ((extractStridedSlice S50000x256 ![0, 256] · slices_S50000x768_S50000x256_0_256) : (⟨S50000x768, .f32⟩ : BufTy).Contents (Elt Ideal) → (⟨S50000x256, .f32⟩ : BufTy).Contents (Elt Ideal)),
    unary main_v19 main_v27 ((extractStridedSlice S50000x256 ![0, 512] · slices_S50000x768_S50000x256_0_512) : (⟨S50000x768, .f32⟩ : BufTy).Contents (Elt Ideal) → (⟨S50000x256, .f32⟩ : BufTy).Contents (Elt Ideal)),
    unary main_v24 main_v28 ((extractStridedSlice S50000x256 ![0, 0] · slices_S50000x768_S50000x256_0_0) : (⟨S50000x768, .f32⟩ : BufTy).Contents (Elt Ideal) → (⟨S50000x256, .f32⟩ : BufTy).Contents (Elt Ideal)),
    unary main_v24 main_v29 ((extractStridedSlice S50000x256 ![0, 256] · slices_S50000x768_S50000x256_0_256) : (⟨S50000x768, .f32⟩ : BufTy).Contents (Elt Ideal) → (⟨S50000x256, .f32⟩ : BufTy).Contents (Elt Ideal)),
    unary main_v24 main_v30 ((extractStridedSlice S50000x256 ![0, 512] · slices_S50000x768_S50000x256_0_512) : (⟨S50000x768, .f32⟩ : BufTy).Contents (Elt Ideal) → (⟨S50000x256, .f32⟩ : BufTy).Contents (Elt Ideal)),
    binary main_v25 main_v28 main_v31 (addf (F := Ideal) (φ := .f32) : (⟨S50000x256, .f32⟩ : BufTy).Contents (Elt Ideal) → (⟨S50000x256, .f32⟩ : BufTy).Contents (Elt Ideal) → (⟨S50000x256, .f32⟩ : BufTy).Contents (Elt Ideal)),
    unary main_v31 main_v32 (Host.negf (F := Ideal) (φ := .f32) : (⟨S50000x256, .f32⟩ : BufTy).Contents (Elt Ideal) → (⟨S50000x256, .f32⟩ : BufTy).Contents (Elt Ideal)),
    unary main_v32 main_v33 (Host.exp (F := Ideal) (φ := .f32) : (⟨S50000x256, .f32⟩ : BufTy).Contents (Elt Ideal) → (⟨S50000x256, .f32⟩ : BufTy).Contents (Elt Ideal)),
    nullary main_cst_1 (constant (F := Ideal) S_ .f32 0x3F800000#32),
    unary main_cst_1 main_v34 (broadcastInDim S50000x256 ![] bcast_S_S50000x256 : (⟨S_, .f32⟩ : BufTy).Contents (Elt Ideal) → (⟨S50000x256, .f32⟩ : BufTy).Contents (Elt Ideal)),
    binary main_v34 main_v33 main_v35 (addf (F := Ideal) (φ := .f32) : (⟨S50000x256, .f32⟩ : BufTy).Contents (Elt Ideal) → (⟨S50000x256, .f32⟩ : BufTy).Contents (Elt Ideal) → (⟨S50000x256, .f32⟩ : BufTy).Contents (Elt Ideal)),
    nullary main_cst_2 (constant (F := Ideal) S_ .f32 0x3F800000#32),
    unary main_cst_2 main_v36 (broadcastInDim S50000x256 ![] bcast_S_S50000x256 : (⟨S_, .f32⟩ : BufTy).Contents (Elt Ideal) → (⟨S50000x256, .f32⟩ : BufTy).Contents (Elt Ideal)),
    binary main_v36 main_v35 main_v37 (Host.divf (F := Ideal) (φ := .f32) : (⟨S50000x256, .f32⟩ : BufTy).Contents (Elt Ideal) → (⟨S50000x256, .f32⟩ : BufTy).Contents (Elt Ideal) → (⟨S50000x256, .f32⟩ : BufTy).Contents (Elt Ideal)),
    binary main_v26 main_v29 main_v38 (addf (F := Ideal) (φ := .f32) : (⟨S50000x256, .f32⟩ : BufTy).Contents (Elt Ideal) → (⟨S50000x256, .f32⟩ : BufTy).Contents (Elt Ideal) → (⟨S50000x256, .f32⟩ : BufTy).Contents (Elt Ideal)),
    unary main_v38 main_v39 (Host.negf (F := Ideal) (φ := .f32) : (⟨S50000x256, .f32⟩ : BufTy).Contents (Elt Ideal) → (⟨S50000x256, .f32⟩ : BufTy).Contents (Elt Ideal)),
    unary main_v39 main_v40 (Host.exp (F := Ideal) (φ := .f32) : (⟨S50000x256, .f32⟩ : BufTy).Contents (Elt Ideal) → (⟨S50000x256, .f32⟩ : BufTy).Contents (Elt Ideal)),
    nullary main_cst_3 (constant (F := Ideal) S_ .f32 0x3F800000#32),
    unary main_cst_3 main_v41 (broadcastInDim S50000x256 ![] bcast_S_S50000x256 : (⟨S_, .f32⟩ : BufTy).Contents (Elt Ideal) → (⟨S50000x256, .f32⟩ : BufTy).Contents (Elt Ideal)),
    binary main_v41 main_v40 main_v42 (addf (F := Ideal) (φ := .f32) : (⟨S50000x256, .f32⟩ : BufTy).Contents (Elt Ideal) → (⟨S50000x256, .f32⟩ : BufTy).Contents (Elt Ideal) → (⟨S50000x256, .f32⟩ : BufTy).Contents (Elt Ideal)),
    nullary main_cst_4 (constant (F := Ideal) S_ .f32 0x3F800000#32),
    unary main_cst_4 main_v43 (broadcastInDim S50000x256 ![] bcast_S_S50000x256 : (⟨S_, .f32⟩ : BufTy).Contents (Elt Ideal) → (⟨S50000x256, .f32⟩ : BufTy).Contents (Elt Ideal)),
    binary main_v43 main_v42 main_v44 (Host.divf (F := Ideal) (φ := .f32) : (⟨S50000x256, .f32⟩ : BufTy).Contents (Elt Ideal) → (⟨S50000x256, .f32⟩ : BufTy).Contents (Elt Ideal) → (⟨S50000x256, .f32⟩ : BufTy).Contents (Elt Ideal)),
    binary main_v37 main_v30 main_v45 (mulf (F := Ideal) (φ := .f32) : (⟨S50000x256, .f32⟩ : BufTy).Contents (Elt Ideal) → (⟨S50000x256, .f32⟩ : BufTy).Contents (Elt Ideal) → (⟨S50000x256, .f32⟩ : BufTy).Contents (Elt Ideal)),
    binary main_v27 main_v45 main_v46 (addf (F := Ideal) (φ := .f32) : (⟨S50000x256, .f32⟩ : BufTy).Contents (Elt Ideal) → (⟨S50000x256, .f32⟩ : BufTy).Contents (Elt Ideal) → (⟨S50000x256, .f32⟩ : BufTy).Contents (Elt Ideal)),
    unary main_v46 main_v47 (Host.tanh (F := Ideal) (φ := .f32) : (⟨S50000x256, .f32⟩ : BufTy).Contents (Elt Ideal) → (⟨S50000x256, .f32⟩ : BufTy).Contents (Elt Ideal)),
    nullary main_cst_5 (constant (F := Ideal) S_ .f32 0x3F800000#32),
    unary main_cst_5 main_v48 (broadcastInDim S50000x256 ![] bcast_S_S50000x256 : (⟨S_, .f32⟩ : BufTy).Contents (Elt Ideal) → (⟨S50000x256, .f32⟩ : BufTy).Contents (Elt Ideal)),
    binary main_v48 main_v44 main_v49 (subf (F := Ideal) (φ := .f32) : (⟨S50000x256, .f32⟩ : BufTy).Contents (Elt Ideal) → (⟨S50000x256, .f32⟩ : BufTy).Contents (Elt Ideal) → (⟨S50000x256, .f32⟩ : BufTy).Contents (Elt Ideal)),
    binary main_v49 main_v47 main_v50 (mulf (F := Ideal) (φ := .f32) : (⟨S50000x256, .f32⟩ : BufTy).Contents (Elt Ideal) → (⟨S50000x256, .f32⟩ : BufTy).Contents (Elt Ideal) → (⟨S50000x256, .f32⟩ : BufTy).Contents (Elt Ideal)),
    binary main_v44 main_arg4 main_v51 (mulf (F := Ideal) (φ := .f32) : (⟨S50000x256, .f32⟩ : BufTy).Contents (Elt Ideal) → (⟨S50000x256, .f32⟩ : BufTy).Contents (Elt Ideal) → (⟨S50000x256, .f32⟩ : BufTy).Contents (Elt Ideal)) ]

/-- @main's statements 61 … 120 (window `main_part1`), the bodies of @relu and of @cumsum's @cumsum_0 in place of the two calls, each operation of a body the plain one at the call's buffers: 64 operations. -/
abbrev ops1 : List (HloOp τ sig (Elt Ideal)) :=
  [ binary main_v50 main_v51 main_v52 (addf (F := Ideal) (φ := .f32) : (⟨S50000x256, .f32⟩ : BufTy).Contents (Elt Ideal) → (⟨S50000x256, .f32⟩ : BufTy).Contents (Elt Ideal) → (⟨S50000x256, .f32⟩ : BufTy).Contents (Elt Ideal)),
    reshape main_arg0 main_v53 rfl shapeCasts_S12288x1_S12288,
    nullary main_c_6 (constantI S_ 32 1#32),
    unary main_c_6 main_v54 (broadcastInDim S12288 ![] bcast_S_S12288 : (⟨S_, .i32⟩ : BufTy).Contents (Elt Ideal) → (⟨S12288, .i32⟩ : BufTy).Contents (Elt Ideal)),
    binary main_v53 main_v54 main_v55 (subi : (⟨S12288, .i32⟩ : BufTy).Contents (Elt Ideal) → (⟨S12288, .i32⟩ : BufTy).Contents (Elt Ideal) → (⟨S12288, .i32⟩ : BufTy).Contents (Elt Ideal)),
    nullary main_c_7 (constantI S_ 32 0#32),
    unary main_c_7 main_v56 (broadcastInDim S12288 ![] bcast_S_S12288 : (⟨S_, .i32⟩ : BufTy).Contents (Elt Ideal) → (⟨S12288, .i32⟩ : BufTy).Contents (Elt Ideal)),
    binary main_v55 main_v56 main_v57 (cmpi .slt : (⟨S12288, .i32⟩ : BufTy).Contents (Elt Ideal) → (⟨S12288, .i32⟩ : BufTy).Contents (Elt Ideal) → (⟨S12288, .i1⟩ : BufTy).Contents (Elt Ideal)),
    nullary main_c_8 (constantI S_ 32 50000#32),
    unary main_c_8 main_v58 (broadcastInDim S12288 ![] bcast_S_S12288 : (⟨S_, .i32⟩ : BufTy).Contents (Elt Ideal) → (⟨S12288, .i32⟩ : BufTy).Contents (Elt Ideal)),
    binary main_v55 main_v58 main_v59 (addi : (⟨S12288, .i32⟩ : BufTy).Contents (Elt Ideal) → (⟨S12288, .i32⟩ : BufTy).Contents (Elt Ideal) → (⟨S12288, .i32⟩ : BufTy).Contents (Elt Ideal)),
    ternary main_v57 main_v59 main_v55 main_v60 (select : (⟨S12288, .i1⟩ : BufTy).Contents (Elt Ideal) → (⟨S12288, .i32⟩ : BufTy).Contents (Elt Ideal) → (⟨S12288, .i32⟩ : BufTy).Contents (Elt Ideal) → (⟨S12288, .i32⟩ : BufTy).Contents (Elt Ideal)),
    unary main_v60 main_v61 (broadcastInDim S12288x1 ![0] bcast_S12288_S12288x1_0 : (⟨S12288, .i32⟩ : BufTy).Contents (Elt Ideal) → (⟨S12288x1, .i32⟩ : BufTy).Contents (Elt Ideal)),
    binary main_v52 main_v61 main_v62 ((fun x i => Host.gather gather_S50000x256_S12288x1_S12288x256_1_0_n_n_0_1_1256 x i) : (⟨S50000x256, .f32⟩ : BufTy).Contents (Elt Ideal) → (⟨S12288x1, .i32⟩ : BufTy).Contents (Elt Ideal) → (⟨S12288x256, .f32⟩ : BufTy).Contents (Elt Ideal)),
    nullary main_call0_cst (constant (F := Ideal) S_ .f32 0x00000000#32),
    unary main_call0_cst main_call0_v0 (broadcastInDim S12288x256 ![] bcast_S_S12288x256 : (⟨S_, .f32⟩ : BufTy).Contents (Elt Ideal) → (⟨S12288x256, .f32⟩ : BufTy).Contents (Elt Ideal)),
    binary main_v62 main_call0_v0 main_v63 (maximumf (F := Ideal) (φ := .f32) : (⟨S12288x256, .f32⟩ : BufTy).Contents (Elt Ideal) → (⟨S12288x256, .f32⟩ : BufTy).Contents (Elt Ideal) → (⟨S12288x256, .f32⟩ : BufTy).Contents (Elt Ideal)),
    nullary main_c_9 (constantI S_ 32 1#32),
    unary main_c_9 main_v64 (broadcastInDim S12288 ![] bcast_S_S12288 : (⟨S_, .i32⟩ : BufTy).Contents (Elt Ideal) → (⟨S12288, .i32⟩ : BufTy).Contents (Elt Ideal)),
    nullary main_c_10 (constantI S_ 32 0#32),
    unary main_c_10 main_v65 (broadcastInDim S1024 ![] bcast_S_S1024 : (⟨S_, .i32⟩ : BufTy).Contents (Elt Ideal) → (⟨S1024, .i32⟩ : BufTy).Contents (Elt Ideal)),
    unary main_arg1 main_v66 (broadcastInDim S12288x1 ![0] bcast_S12288_S12288x1_0 : (⟨S12288, .i32⟩ : BufTy).Contents (Elt Ideal) → (⟨S12288x1, .i32⟩ : BufTy).Contents (Elt Ideal)),
    ternary main_v65 main_v66 main_v64 main_v67 ((fun x i u => Host.scatter scatter_S1024_S12288x1_S12288_n_0_0_1 IntOp.addi x i u) : (⟨S1024, .i32⟩ : BufTy).Contents (Elt Ideal) → (⟨S12288x1, .i32⟩ : BufTy).Contents (Elt Ideal) → (⟨S12288, .i32⟩ : BufTy).Contents (Elt Ideal) → (⟨S1024, .i32⟩ : BufTy).Contents (Elt Ideal)),
    nullary main_call1_call0_c (constantI S_ 32 0#32),
    unary main_call1_call0_c main_call1_call0_v0 (broadcastInDim S_ ![] bcast_S_S_ : (⟨S_, .i32⟩ : BufTy).Contents (Elt Ideal) → (⟨S_, .i32⟩ : BufTy).Contents (Elt Ideal)),
    binary main_v67 main_call1_call0_v0 main_v68 ((fun x v => Host.reduceWindow IntOp.addi ![1024] ![1] ![1023] ![0] x v reduceWindows_S1024_S1024_w1024s1p1023_0 h_S_) : (⟨S1024, .i32⟩ : BufTy).Contents (Elt Ideal) → (⟨S_, .i32⟩ : BufTy).Contents (Elt Ideal) → (⟨S1024, .i32⟩ : BufTy).Contents (Elt Ideal)),
    nullary main_c_11 (constantI S_ 32 1#32),
    unary main_c_11 main_v69 (broadcastInDim S1024 ![] bcast_S_S1024 : (⟨S_, .i32⟩ : BufTy).Contents (Elt Ideal) → (⟨S1024, .i32⟩ : BufTy).Contents (Elt Ideal)),
    binary main_v68 main_v69 main_v70 (subi : (⟨S1024, .i32⟩ : BufTy).Contents (Elt Ideal) → (⟨S1024, .i32⟩ : BufTy).Contents (Elt Ideal) → (⟨S1024, .i32⟩ : BufTy).Contents (Elt Ideal)),
    nullary main_c_12 (constantI S_ 32 0#32),
    unary main_c_12 main_v71 (broadcastInDim S1024 ![] bcast_S_S1024 : (⟨S_, .i32⟩ : BufTy).Contents (Elt Ideal) → (⟨S1024, .i32⟩ : BufTy).Contents (Elt Ideal)),
    binary main_v70 main_v71 main_v72 (cmpi .slt : (⟨S1024, .i32⟩ : BufTy).Contents (Elt Ideal) → (⟨S1024, .i32⟩ : BufTy).Contents (Elt Ideal) → (⟨S1024, .i1⟩ : BufTy).Contents (Elt Ideal)),
    nullary main_c_13 (constantI S_ 32 12288#32),
    unary main_c_13 main_v73 (broadcastInDim S1024 ![] bcast_S_S1024 : (⟨S_, .i32⟩ : BufTy).Contents (Elt Ideal) → (⟨S1024, .i32⟩ : BufTy).Contents (Elt Ideal)),
    binary main_v70 main_v73 main_v74 (addi : (⟨S1024, .i32⟩ : BufTy).Contents (Elt Ideal) → (⟨S1024, .i32⟩ : BufTy).Contents (Elt Ideal) → (⟨S1024, .i32⟩ : BufTy).Contents (Elt Ideal)),
    ternary main_v72 main_v74 main_v70 main_v75 (select : (⟨S1024, .i1⟩ : BufTy).Contents (Elt Ideal) → (⟨S1024, .i32⟩ : BufTy).Contents (Elt Ideal) → (⟨S1024, .i32⟩ : BufTy).Contents (Elt Ideal) → (⟨S1024, .i32⟩ : BufTy).Contents (Elt Ideal)),
    unary main_v75 main_v76 (broadcastInDim S1024x1 ![0] bcast_S1024_S1024x1_0 : (⟨S1024, .i32⟩ : BufTy).Contents (Elt Ideal) → (⟨S1024x1, .i32⟩ : BufTy).Contents (Elt Ideal)),
    binary main_v63 main_v76 main_v77 ((fun x i => Host.gather gather_S12288x256_S1024x1_S1024x256_1_0_n_n_0_1_1256 x i) : (⟨S12288x256, .f32⟩ : BufTy).Contents (Elt Ideal) → (⟨S1024x1, .i32⟩ : BufTy).Contents (Elt Ideal) → (⟨S1024x256, .f32⟩ : BufTy).Contents (Elt Ideal)),
    nullary main_c_14 (constantI S_ 32 0#32),
    unary main_c_14 main_v78 (broadcastInDim S12288 ![] bcast_S_S12288 : (⟨S_, .i32⟩ : BufTy).Contents (Elt Ideal) → (⟨S12288, .i32⟩ : BufTy).Contents (Elt Ideal)),
    binary main_arg1 main_v78 main_v79 (cmpi .slt : (⟨S12288, .i32⟩ : BufTy).Contents (Elt Ideal) → (⟨S12288, .i32⟩ : BufTy).Contents (Elt Ideal) → (⟨S12288, .i1⟩ : BufTy).Contents (Elt Ideal)),
    nullary main_c_15 (constantI S_ 32 1024#32),
    unary main_c_15 main_v80 (broadcastInDim S12288 ![] bcast_S_S12288 : (⟨S_, .i32⟩ : BufTy).Contents (Elt Ideal) → (⟨S12288, .i32⟩ : BufTy).Contents (Elt Ideal)),
    binary main_arg1 main_v80 main_v81 (addi : (⟨S12288, .i32⟩ : BufTy).Contents (Elt Ideal) → (⟨S12288, .i32⟩ : BufTy).Contents (Elt Ideal) → (⟨S12288, .i32⟩ : BufTy).Contents (Elt Ideal)),
    ternary main_v79 main_v81 main_arg1 main_v82 (select : (⟨S12288, .i1⟩ : BufTy).Contents (Elt Ideal) → (⟨S12288, .i32⟩ : BufTy).Contents (Elt Ideal) → (⟨S12288, .i32⟩ : BufTy).Contents (Elt Ideal) → (⟨S12288, .i32⟩ : BufTy).Contents (Elt Ideal)),
    unary main_v82 main_v83 (broadcastInDim S12288x1 ![0] bcast_S12288_S12288x1_0 : (⟨S12288, .i32⟩ : BufTy).Contents (Elt Ideal) → (⟨S12288x1, .i32⟩ : BufTy).Contents (Elt Ideal)),
    binary main_v77 main_v83 main_v84 ((fun x i => Host.gather gather_S1024x256_S12288x1_S12288x256_1_0_n_n_0_1_1256 x i) : (⟨S1024x256, .f32⟩ : BufTy).Contents (Elt Ideal) → (⟨S12288x1, .i32⟩ : BufTy).Contents (Elt Ideal) → (⟨S12288x256, .f32⟩ : BufTy).Contents (Elt Ideal)),
    unary main_arg10 main_v85 ((transpose S256x256 [1, 0] · transposes_S256x256_S256x256_1_0) : (⟨S256x256, .f32⟩ : BufTy).Contents (Elt Ideal) → (⟨S256x256, .f32⟩ : BufTy).Contents (Elt Ideal)),
    binary main_v84 main_v85 main_v86 ((fun l r => Host.dotGeneral (F := Ideal) (φ₁ := .f32) (φ₂ := .f32) dot_S12288x256_S256x256_S12288x256_1_0_0_1_n_n none l r) : (⟨S12288x256, .f32⟩ : BufTy).Contents (Elt Ideal) → (⟨S256x256, .f32⟩ : BufTy).Contents (Elt Ideal) → (⟨S12288x256, .f32⟩ : BufTy).Contents (Elt Ideal)),
    unary main_arg11 main_v87 (broadcastInDim S1x256 ![1] bcast_S256_S1x256_1 : (⟨S256, .f32⟩ : BufTy).Contents (Elt Ideal) → (⟨S1x256, .f32⟩ : BufTy).Contents (Elt Ideal)),
    unary main_v87 main_v88 (broadcastInDim S12288x256 ![0, 1] bcast_S1x256_S12288x256_0_1 : (⟨S1x256, .f32⟩ : BufTy).Contents (Elt Ideal) → (⟨S12288x256, .f32⟩ : BufTy).Contents (Elt Ideal)),
    binary main_v86 main_v88 main_v89 (addf (F := Ideal) (φ := .f32) : (⟨S12288x256, .f32⟩ : BufTy).Contents (Elt Ideal) → (⟨S12288x256, .f32⟩ : BufTy).Contents (Elt Ideal) → (⟨S12288x256, .f32⟩ : BufTy).Contents (Elt Ideal)),
    unary main_arg12 main_v90 ((transpose S256x256 [1, 0] · transposes_S256x256_S256x256_1_0) : (⟨S256x256, .f32⟩ : BufTy).Contents (Elt Ideal) → (⟨S256x256, .f32⟩ : BufTy).Contents (Elt Ideal)),
    binary main_v63 main_v90 main_v91 ((fun l r => Host.dotGeneral (F := Ideal) (φ₁ := .f32) (φ₂ := .f32) dot_S12288x256_S256x256_S12288x256_1_0_0_1_n_n none l r) : (⟨S12288x256, .f32⟩ : BufTy).Contents (Elt Ideal) → (⟨S256x256, .f32⟩ : BufTy).Contents (Elt Ideal) → (⟨S12288x256, .f32⟩ : BufTy).Contents (Elt Ideal)),
    binary main_v89 main_v91 main_v92 (addf (F := Ideal) (φ := .f32) : (⟨S12288x256, .f32⟩ : BufTy).Contents (Elt Ideal) → (⟨S12288x256, .f32⟩ : BufTy).Contents (Elt Ideal) → (⟨S12288x256, .f32⟩ : BufTy).Contents (Elt Ideal)),
    unary main_arg13 main_v93 (broadcastInDim S1x256 ![1] bcast_S256_S1x256_1 : (⟨S256, .f32⟩ : BufTy).Contents (Elt Ideal) → (⟨S1x256, .f32⟩ : BufTy).Contents (Elt Ideal)),
    unary main_v93 main_v94 (broadcastInDim S12288x256 ![0, 1] bcast_S1x256_S12288x256_0_1 : (⟨S1x256, .f32⟩ : BufTy).Contents (Elt Ideal) → (⟨S12288x256, .f32⟩ : BufTy).Contents (Elt Ideal)),
    binary main_v92 main_v94 main_v95 (addf (F := Ideal) (φ := .f32) : (⟨S12288x256, .f32⟩ : BufTy).Contents (Elt Ideal) → (⟨S12288x256, .f32⟩ : BufTy).Contents (Elt Ideal) → (⟨S12288x256, .f32⟩ : BufTy).Contents (Elt Ideal)),
    unary main_v95 main_v96 (Host.negf (F := Ideal) (φ := .f32) : (⟨S12288x256, .f32⟩ : BufTy).Contents (Elt Ideal) → (⟨S12288x256, .f32⟩ : BufTy).Contents (Elt Ideal)),
    unary main_v96 main_v97 (Host.exp (F := Ideal) (φ := .f32) : (⟨S12288x256, .f32⟩ : BufTy).Contents (Elt Ideal) → (⟨S12288x256, .f32⟩ : BufTy).Contents (Elt Ideal)),
    nullary main_cst_16 (constant (F := Ideal) S_ .f32 0x3F800000#32),
    unary main_cst_16 main_v98 (broadcastInDim S12288x256 ![] bcast_S_S12288x256 : (⟨S_, .f32⟩ : BufTy).Contents (Elt Ideal) → (⟨S12288x256, .f32⟩ : BufTy).Contents (Elt Ideal)),
    binary main_v98 main_v97 main_v99 (addf (F := Ideal) (φ := .f32) : (⟨S12288x256, .f32⟩ : BufTy).Contents (Elt Ideal) → (⟨S12288x256, .f32⟩ : BufTy).Contents (Elt Ideal) → (⟨S12288x256, .f32⟩ : BufTy).Contents (Elt Ideal)),
    nullary main_cst_17 (constant (F := Ideal) S_ .f32 0x3F800000#32) ]

/-- The same window with the two bodies' operations as the functions state them: over typed references, at the records of
    the two calls. -/
abbrev ops1T : List (HloOp τ sig (Elt Ideal)) :=
  [ binary main_v50 main_v51 main_v52 (addf (F := Ideal) (φ := .f32) : (⟨S50000x256, .f32⟩ : BufTy).Contents (Elt Ideal) → (⟨S50000x256, .f32⟩ : BufTy).Contents (Elt Ideal) → (⟨S50000x256, .f32⟩ : BufTy).Contents (Elt Ideal)),
    reshape main_arg0 main_v53 rfl shapeCasts_S12288x1_S12288,
    nullary main_c_6 (constantI S_ 32 1#32),
    unary main_c_6 main_v54 (broadcastInDim S12288 ![] bcast_S_S12288 : (⟨S_, .i32⟩ : BufTy).Contents (Elt Ideal) → (⟨S12288, .i32⟩ : BufTy).Contents (Elt Ideal)),
    binary main_v53 main_v54 main_v55 (subi : (⟨S12288, .i32⟩ : BufTy).Contents (Elt Ideal) → (⟨S12288, .i32⟩ : BufTy).Contents (Elt Ideal) → (⟨S12288, .i32⟩ : BufTy).Contents (Elt Ideal)),
    nullary main_c_7 (constantI S_ 32 0#32),
    unary main_c_7 main_v56 (broadcastInDim S12288 ![] bcast_S_S12288 : (⟨S_, .i32⟩ : BufTy).Contents (Elt Ideal) → (⟨S12288, .i32⟩ : BufTy).Contents (Elt Ideal)),
    binary main_v55 main_v56 main_v57 (cmpi .slt : (⟨S12288, .i32⟩ : BufTy).Contents (Elt Ideal) → (⟨S12288, .i32⟩ : BufTy).Contents (Elt Ideal) → (⟨S12288, .i1⟩ : BufTy).Contents (Elt Ideal)),
    nullary main_c_8 (constantI S_ 32 50000#32),
    unary main_c_8 main_v58 (broadcastInDim S12288 ![] bcast_S_S12288 : (⟨S_, .i32⟩ : BufTy).Contents (Elt Ideal) → (⟨S12288, .i32⟩ : BufTy).Contents (Elt Ideal)),
    binary main_v55 main_v58 main_v59 (addi : (⟨S12288, .i32⟩ : BufTy).Contents (Elt Ideal) → (⟨S12288, .i32⟩ : BufTy).Contents (Elt Ideal) → (⟨S12288, .i32⟩ : BufTy).Contents (Elt Ideal)),
    ternary main_v57 main_v59 main_v55 main_v60 (select : (⟨S12288, .i1⟩ : BufTy).Contents (Elt Ideal) → (⟨S12288, .i32⟩ : BufTy).Contents (Elt Ideal) → (⟨S12288, .i32⟩ : BufTy).Contents (Elt Ideal) → (⟨S12288, .i32⟩ : BufTy).Contents (Elt Ideal)),
    unary main_v60 main_v61 (broadcastInDim S12288x1 ![0] bcast_S12288_S12288x1_0 : (⟨S12288, .i32⟩ : BufTy).Contents (Elt Ideal) → (⟨S12288x1, .i32⟩ : BufTy).Contents (Elt Ideal)),
    binary main_v52 main_v61 main_v62 ((fun x i => Host.gather gather_S50000x256_S12288x1_S12288x256_1_0_n_n_0_1_1256 x i) : (⟨S50000x256, .f32⟩ : BufTy).Contents (Elt Ideal) → (⟨S12288x1, .i32⟩ : BufTy).Contents (Elt Ideal) → (⟨S12288x256, .f32⟩ : BufTy).Contents (Elt Ideal)),
    TRef.nullary main_call0.cst (constant (F := Ideal) S_ .f32 0x00000000#32),
    TRef.unary main_call0.cst main_call0.v0 (broadcastInDim S12288x256 ![] bcast_S_S12288x256),
    TRef.binary (.of main_v62) main_call0.v0 main_call0.v1 (maximumf (F := Ideal) (φ := .f32)),
    nullary main_c_9 (constantI S_ 32 1#32),
    unary main_c_9 main_v64 (broadcastInDim S12288 ![] bcast_S_S12288 : (⟨S_, .i32⟩ : BufTy).Contents (Elt Ideal) → (⟨S12288, .i32⟩ : BufTy).Contents (Elt Ideal)),
    nullary main_c_10 (constantI S_ 32 0#32),
    unary main_c_10 main_v65 (broadcastInDim S1024 ![] bcast_S_S1024 : (⟨S_, .i32⟩ : BufTy).Contents (Elt Ideal) → (⟨S1024, .i32⟩ : BufTy).Contents (Elt Ideal)),
    unary main_arg1 main_v66 (broadcastInDim S12288x1 ![0] bcast_S12288_S12288x1_0 : (⟨S12288, .i32⟩ : BufTy).Contents (Elt Ideal) → (⟨S12288x1, .i32⟩ : BufTy).Contents (Elt Ideal)),
    ternary main_v65 main_v66 main_v64 main_v67 ((fun x i u => Host.scatter scatter_S1024_S12288x1_S12288_n_0_0_1 IntOp.addi x i u) : (⟨S1024, .i32⟩ : BufTy).Contents (Elt Ideal) → (⟨S12288x1, .i32⟩ : BufTy).Contents (Elt Ideal) → (⟨S12288, .i32⟩ : BufTy).Contents (Elt Ideal) → (⟨S1024, .i32⟩ : BufTy).Contents (Elt Ideal)),
    TRef.nullary main_call1.call0.c (constantI S_ 32 0#32),
    TRef.unary main_call1.call0.c main_call1.call0.v0 (broadcastInDim S_ ![] bcast_S_S_),
    TRef.binary (.of main_v67) main_call1.call0.v0 main_call1.call0.v1 (fun x v => Host.reduceWindow IntOp.addi ![1024] ![1] ![1023] ![0] x v reduceWindows_S1024_S1024_w1024s1p1023_0 h_S_),
    nullary main_c_11 (constantI S_ 32 1#32),
    unary main_c_11 main_v69 (broadcastInDim S1024 ![] bcast_S_S1024 : (⟨S_, .i32⟩ : BufTy).Contents (Elt Ideal) → (⟨S1024, .i32⟩ : BufTy).Contents (Elt Ideal)),
    binary main_v68 main_v69 main_v70 (subi : (⟨S1024, .i32⟩ : BufTy).Contents (Elt Ideal) → (⟨S1024, .i32⟩ : BufTy).Contents (Elt Ideal) → (⟨S1024, .i32⟩ : BufTy).Contents (Elt Ideal)),
    nullary main_c_12 (constantI S_ 32 0#32),
    unary main_c_12 main_v71 (broadcastInDim S1024 ![] bcast_S_S1024 : (⟨S_, .i32⟩ : BufTy).Contents (Elt Ideal) → (⟨S1024, .i32⟩ : BufTy).Contents (Elt Ideal)),
    binary main_v70 main_v71 main_v72 (cmpi .slt : (⟨S1024, .i32⟩ : BufTy).Contents (Elt Ideal) → (⟨S1024, .i32⟩ : BufTy).Contents (Elt Ideal) → (⟨S1024, .i1⟩ : BufTy).Contents (Elt Ideal)),
    nullary main_c_13 (constantI S_ 32 12288#32),
    unary main_c_13 main_v73 (broadcastInDim S1024 ![] bcast_S_S1024 : (⟨S_, .i32⟩ : BufTy).Contents (Elt Ideal) → (⟨S1024, .i32⟩ : BufTy).Contents (Elt Ideal)),
    binary main_v70 main_v73 main_v74 (addi : (⟨S1024, .i32⟩ : BufTy).Contents (Elt Ideal) → (⟨S1024, .i32⟩ : BufTy).Contents (Elt Ideal) → (⟨S1024, .i32⟩ : BufTy).Contents (Elt Ideal)),
    ternary main_v72 main_v74 main_v70 main_v75 (select : (⟨S1024, .i1⟩ : BufTy).Contents (Elt Ideal) → (⟨S1024, .i32⟩ : BufTy).Contents (Elt Ideal) → (⟨S1024, .i32⟩ : BufTy).Contents (Elt Ideal) → (⟨S1024, .i32⟩ : BufTy).Contents (Elt Ideal)),
    unary main_v75 main_v76 (broadcastInDim S1024x1 ![0] bcast_S1024_S1024x1_0 : (⟨S1024, .i32⟩ : BufTy).Contents (Elt Ideal) → (⟨S1024x1, .i32⟩ : BufTy).Contents (Elt Ideal)),
    binary main_v63 main_v76 main_v77 ((fun x i => Host.gather gather_S12288x256_S1024x1_S1024x256_1_0_n_n_0_1_1256 x i) : (⟨S12288x256, .f32⟩ : BufTy).Contents (Elt Ideal) → (⟨S1024x1, .i32⟩ : BufTy).Contents (Elt Ideal) → (⟨S1024x256, .f32⟩ : BufTy).Contents (Elt Ideal)),
    nullary main_c_14 (constantI S_ 32 0#32),
    unary main_c_14 main_v78 (broadcastInDim S12288 ![] bcast_S_S12288 : (⟨S_, .i32⟩ : BufTy).Contents (Elt Ideal) → (⟨S12288, .i32⟩ : BufTy).Contents (Elt Ideal)),
    binary main_arg1 main_v78 main_v79 (cmpi .slt : (⟨S12288, .i32⟩ : BufTy).Contents (Elt Ideal) → (⟨S12288, .i32⟩ : BufTy).Contents (Elt Ideal) → (⟨S12288, .i1⟩ : BufTy).Contents (Elt Ideal)),
    nullary main_c_15 (constantI S_ 32 1024#32),
    unary main_c_15 main_v80 (broadcastInDim S12288 ![] bcast_S_S12288 : (⟨S_, .i32⟩ : BufTy).Contents (Elt Ideal) → (⟨S12288, .i32⟩ : BufTy).Contents (Elt Ideal)),
    binary main_arg1 main_v80 main_v81 (addi : (⟨S12288, .i32⟩ : BufTy).Contents (Elt Ideal) → (⟨S12288, .i32⟩ : BufTy).Contents (Elt Ideal) → (⟨S12288, .i32⟩ : BufTy).Contents (Elt Ideal)),
    ternary main_v79 main_v81 main_arg1 main_v82 (select : (⟨S12288, .i1⟩ : BufTy).Contents (Elt Ideal) → (⟨S12288, .i32⟩ : BufTy).Contents (Elt Ideal) → (⟨S12288, .i32⟩ : BufTy).Contents (Elt Ideal) → (⟨S12288, .i32⟩ : BufTy).Contents (Elt Ideal)),
    unary main_v82 main_v83 (broadcastInDim S12288x1 ![0] bcast_S12288_S12288x1_0 : (⟨S12288, .i32⟩ : BufTy).Contents (Elt Ideal) → (⟨S12288x1, .i32⟩ : BufTy).Contents (Elt Ideal)),
    binary main_v77 main_v83 main_v84 ((fun x i => Host.gather gather_S1024x256_S12288x1_S12288x256_1_0_n_n_0_1_1256 x i) : (⟨S1024x256, .f32⟩ : BufTy).Contents (Elt Ideal) → (⟨S12288x1, .i32⟩ : BufTy).Contents (Elt Ideal) → (⟨S12288x256, .f32⟩ : BufTy).Contents (Elt Ideal)),
    unary main_arg10 main_v85 ((transpose S256x256 [1, 0] · transposes_S256x256_S256x256_1_0) : (⟨S256x256, .f32⟩ : BufTy).Contents (Elt Ideal) → (⟨S256x256, .f32⟩ : BufTy).Contents (Elt Ideal)),
    binary main_v84 main_v85 main_v86 ((fun l r => Host.dotGeneral (F := Ideal) (φ₁ := .f32) (φ₂ := .f32) dot_S12288x256_S256x256_S12288x256_1_0_0_1_n_n none l r) : (⟨S12288x256, .f32⟩ : BufTy).Contents (Elt Ideal) → (⟨S256x256, .f32⟩ : BufTy).Contents (Elt Ideal) → (⟨S12288x256, .f32⟩ : BufTy).Contents (Elt Ideal)),
    unary main_arg11 main_v87 (broadcastInDim S1x256 ![1] bcast_S256_S1x256_1 : (⟨S256, .f32⟩ : BufTy).Contents (Elt Ideal) → (⟨S1x256, .f32⟩ : BufTy).Contents (Elt Ideal)),
    unary main_v87 main_v88 (broadcastInDim S12288x256 ![0, 1] bcast_S1x256_S12288x256_0_1 : (⟨S1x256, .f32⟩ : BufTy).Contents (Elt Ideal) → (⟨S12288x256, .f32⟩ : BufTy).Contents (Elt Ideal)),
    binary main_v86 main_v88 main_v89 (addf (F := Ideal) (φ := .f32) : (⟨S12288x256, .f32⟩ : BufTy).Contents (Elt Ideal) → (⟨S12288x256, .f32⟩ : BufTy).Contents (Elt Ideal) → (⟨S12288x256, .f32⟩ : BufTy).Contents (Elt Ideal)),
    unary main_arg12 main_v90 ((transpose S256x256 [1, 0] · transposes_S256x256_S256x256_1_0) : (⟨S256x256, .f32⟩ : BufTy).Contents (Elt Ideal) → (⟨S256x256, .f32⟩ : BufTy).Contents (Elt Ideal)),
    binary main_v63 main_v90 main_v91 ((fun l r => Host.dotGeneral (F := Ideal) (φ₁ := .f32) (φ₂ := .f32) dot_S12288x256_S256x256_S12288x256_1_0_0_1_n_n none l r) : (⟨S12288x256, .f32⟩ : BufTy).Contents (Elt Ideal) → (⟨S256x256, .f32⟩ : BufTy).Contents (Elt Ideal) → (⟨S12288x256, .f32⟩ : BufTy).Contents (Elt Ideal)),
    binary main_v89 main_v91 main_v92 (addf (F := Ideal) (φ := .f32) : (⟨S12288x256, .f32⟩ : BufTy).Contents (Elt Ideal) → (⟨S12288x256, .f32⟩ : BufTy).Contents (Elt Ideal) → (⟨S12288x256, .f32⟩ : BufTy).Contents (Elt Ideal)),
    unary main_arg13 main_v93 (broadcastInDim S1x256 ![1] bcast_S256_S1x256_1 : (⟨S256, .f32⟩ : BufTy).Contents (Elt Ideal) → (⟨S1x256, .f32⟩ : BufTy).Contents (Elt Ideal)),
    unary main_v93 main_v94 (broadcastInDim S12288x256 ![0, 1] bcast_S1x256_S12288x256_0_1 : (⟨S1x256, .f32⟩ : BufTy).Contents (Elt Ideal) → (⟨S12288x256, .f32⟩ : BufTy).Contents (Elt Ideal)),
    binary main_v92 main_v94 main_v95 (addf (F := Ideal) (φ := .f32) : (⟨S12288x256, .f32⟩ : BufTy).Contents (Elt Ideal) → (⟨S12288x256, .f32⟩ : BufTy).Contents (Elt Ideal) → (⟨S12288x256, .f32⟩ : BufTy).Contents (Elt Ideal)),
    unary main_v95 main_v96 (Host.negf (F := Ideal) (φ := .f32) : (⟨S12288x256, .f32⟩ : BufTy).Contents (Elt Ideal) → (⟨S12288x256, .f32⟩ : BufTy).Contents (Elt Ideal)),
    unary main_v96 main_v97 (Host.exp (F := Ideal) (φ := .f32) : (⟨S12288x256, .f32⟩ : BufTy).Contents (Elt Ideal) → (⟨S12288x256, .f32⟩ : BufTy).Contents (Elt Ideal)),
    nullary main_cst_16 (constant (F := Ideal) S_ .f32 0x3F800000#32),
    unary main_cst_16 main_v98 (broadcastInDim S12288x256 ![] bcast_S_S12288x256 : (⟨S_, .f32⟩ : BufTy).Contents (Elt Ideal) → (⟨S12288x256, .f32⟩ : BufTy).Contents (Elt Ideal)),
    binary main_v98 main_v97 main_v99 (addf (F := Ideal) (φ := .f32) : (⟨S12288x256, .f32⟩ : BufTy).Contents (Elt Ideal) → (⟨S12288x256, .f32⟩ : BufTy).Contents (Elt Ideal) → (⟨S12288x256, .f32⟩ : BufTy).Contents (Elt Ideal)),
    nullary main_cst_17 (constant (F := Ideal) S_ .f32 0x3F800000#32) ]

/-- @main's statements 121 … 141 (window `main_part2`): 21 operations. -/
abbrev ops2 : List (HloOp τ sig (Elt Ideal)) :=
  [ unary main_cst_17 main_v100 (broadcastInDim S12288x256 ![] bcast_S_S12288x256 : (⟨S_, .f32⟩ : BufTy).Contents (Elt Ideal) → (⟨S12288x256, .f32⟩ : BufTy).Contents (Elt Ideal)),
    binary main_v100 main_v99 main_v101 (Host.divf (F := Ideal) (φ := .f32) : (⟨S12288x256, .f32⟩ : BufTy).Contents (Elt Ideal) → (⟨S12288x256, .f32⟩ : BufTy).Contents (Elt Ideal) → (⟨S12288x256, .f32⟩ : BufTy).Contents (Elt Ideal)),
    unary main_arg14 main_v102 ((transpose S256x1 [1, 0] · transposes_S1x256_S256x1_1_0) : (⟨S1x256, .f32⟩ : BufTy).Contents (Elt Ideal) → (⟨S256x1, .f32⟩ : BufTy).Contents (Elt Ideal)),
    binary main_v101 main_v102 main_v103 ((fun l r => Host.dotGeneral (F := Ideal) (φ₁ := .f32) (φ₂ := .f32) dot_S12288x256_S256x1_S12288x1_1_0_0_1_n_n none l r) : (⟨S12288x256, .f32⟩ : BufTy).Contents (Elt Ideal) → (⟨S256x1, .f32⟩ : BufTy).Contents (Elt Ideal) → (⟨S12288x1, .f32⟩ : BufTy).Contents (Elt Ideal)),
    unary main_arg15 main_v104 (broadcastInDim S1x1 ![1] bcast_S1_S1x1_1 : (⟨S1, .f32⟩ : BufTy).Contents (Elt Ideal) → (⟨S1x1, .f32⟩ : BufTy).Contents (Elt Ideal)),
    unary main_v104 main_v105 (broadcastInDim S12288x1 ![0, 1] bcast_S1x1_S12288x1_0_1 : (⟨S1x1, .f32⟩ : BufTy).Contents (Elt Ideal) → (⟨S12288x1, .f32⟩ : BufTy).Contents (Elt Ideal)),
    binary main_v103 main_v105 main_v106 (addf (F := Ideal) (φ := .f32) : (⟨S12288x1, .f32⟩ : BufTy).Contents (Elt Ideal) → (⟨S12288x1, .f32⟩ : BufTy).Contents (Elt Ideal) → (⟨S12288x1, .f32⟩ : BufTy).Contents (Elt Ideal)),
    unary main_v106 main_v107 (broadcastInDim S12288x256 ![0, 1] bcast_S12288x1_S12288x256_0_1 : (⟨S12288x1, .f32⟩ : BufTy).Contents (Elt Ideal) → (⟨S12288x256, .f32⟩ : BufTy).Contents (Elt Ideal)),
    binary main_v107 main_v63 main_v108 (mulf (F := Ideal) (φ := .f32) : (⟨S12288x256, .f32⟩ : BufTy).Contents (Elt Ideal) → (⟨S12288x256, .f32⟩ : BufTy).Contents (Elt Ideal) → (⟨S12288x256, .f32⟩ : BufTy).Contents (Elt Ideal)),
    nullary main_cst_18 (constant (F := Ideal) S_ .f32 0x00000000#32),
    unary main_cst_18 main_v109 (broadcastInDim S1024x256 ![] bcast_S_S1024x256 : (⟨S_, .f32⟩ : BufTy).Contents (Elt Ideal) → (⟨S1024x256, .f32⟩ : BufTy).Contents (Elt Ideal)),
    unary main_arg1 main_v110 (broadcastInDim S12288x1 ![0] bcast_S12288_S12288x1_0 : (⟨S12288, .i32⟩ : BufTy).Contents (Elt Ideal) → (⟨S12288x1, .i32⟩ : BufTy).Contents (Elt Ideal)),
    ternary main_v109 main_v110 main_v108 main_v111 ((fun x i u => Host.scatterAdd (F := Ideal) (φ := .f32) scatter_S1024x256_S12288x1_S12288x256_1_0_0_1 x i u) : (⟨S1024x256, .f32⟩ : BufTy).Contents (Elt Ideal) → (⟨S12288x1, .i32⟩ : BufTy).Contents (Elt Ideal) → (⟨S12288x256, .f32⟩ : BufTy).Contents (Elt Ideal) → (⟨S1024x256, .f32⟩ : BufTy).Contents (Elt Ideal)),
    binary main_v77 main_v111 main_v112 cat_v112,
    unary main_arg16 main_v113 ((transpose S512x256 [1, 0] · transposes_S256x512_S512x256_1_0) : (⟨S256x512, .f32⟩ : BufTy).Contents (Elt Ideal) → (⟨S512x256, .f32⟩ : BufTy).Contents (Elt Ideal)),
    binary main_v112 main_v113 main_v114 ((fun l r => Host.dotGeneral (F := Ideal) (φ₁ := .f32) (φ₂ := .f32) dot_S1024x512_S512x256_S1024x256_1_0_0_1_n_n none l r) : (⟨S1024x512, .f32⟩ : BufTy).Contents (Elt Ideal) → (⟨S512x256, .f32⟩ : BufTy).Contents (Elt Ideal) → (⟨S1024x256, .f32⟩ : BufTy).Contents (Elt Ideal)),
    unary main_arg17 main_v115 (broadcastInDim S1x256 ![1] bcast_S256_S1x256_1 : (⟨S256, .f32⟩ : BufTy).Contents (Elt Ideal) → (⟨S1x256, .f32⟩ : BufTy).Contents (Elt Ideal)),
    unary main_v115 main_v116 (broadcastInDim S1024x256 ![0, 1] bcast_S1x256_S1024x256_0_1 : (⟨S1x256, .f32⟩ : BufTy).Contents (Elt Ideal) → (⟨S1024x256, .f32⟩ : BufTy).Contents (Elt Ideal)),
    binary main_v114 main_v116 main_v117 (addf (F := Ideal) (φ := .f32) : (⟨S1024x256, .f32⟩ : BufTy).Contents (Elt Ideal) → (⟨S1024x256, .f32⟩ : BufTy).Contents (Elt Ideal) → (⟨S1024x256, .f32⟩ : BufTy).Contents (Elt Ideal)),
    unary main_arg4 main_v118 ((transpose S256x50000 [1, 0] · transposes_S50000x256_S256x50000_1_0) : (⟨S50000x256, .f32⟩ : BufTy).Contents (Elt Ideal) → (⟨S256x50000, .f32⟩ : BufTy).Contents (Elt Ideal)),
    binary main_v117 main_v118 main_v119 ((fun l r => Host.dotGeneral (F := Ideal) (φ₁ := .f32) (φ₂ := .f32) dot_S1024x256_S256x50000_S1024x50000_1_0_0_1_n_n none l r) : (⟨S1024x256, .f32⟩ : BufTy).Contents (Elt Ideal) → (⟨S256x50000, .f32⟩ : BufTy).Contents (Elt Ideal) → (⟨S1024x50000, .f32⟩ : BufTy).Contents (Elt Ideal)) ]

/-- @main's 145 operations, in order. -/
abbrev ops : List (HloOp τ sig (Elt Ideal)) := ops0 ++ (ops1 ++ ops2)

/-! ## @main is that line -/

set_option maxRecDepth 8192 in
theorem main_part0_eq (c : Dev nD) : main_part0 (F := Ideal) c = seq ops0 := rfl
attribute [local irreducible] Host.reduceWindow in
set_option maxRecDepth 8192 in
/-- At a call's literal buffers the type equation a typed reference carries is `rfl`, the transport along it the
    identity, and each operation of a called body the plain one (the windowed sum kept folded: nothing looks inside). -/
theorem ops1T_eq : ops1T = ops1 := rfl
set_option maxRecDepth 8192 in
/-- The two calls unfold to their bodies over the calls' buffer records; both sides are then one chain of `hlo` steps
    once sequencing is reassociated. -/
theorem main_part1_eq (c : Dev nD) : main_part1 (F := Ideal) c = seq ops1 := by
  rw [← ops1T_eq]
  simp only [main_part1, fn_relu.body, fn_cumsum.body, fn_cumsum_0.body, seq, bind_assoc, pure_bind]
  rfl
set_option maxRecDepth 8192 in
theorem main_part2_eq (c : Dev nD) : main_part2 (F := Ideal) c = seq ops2 := rfl
set_option maxRecDepth 8192 in
theorem main_eq (c : Dev nD) : main (F := Ideal) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt Ideal))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub ..⟩
set_option maxRecDepth 8192 in
theorem ops1_sub : (ops1 : List (HloOp τ sig (Elt Ideal))).Forall fun op => op.bufs ⊆ tcRefs τ sig :=
  ⟨binary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub ..⟩
set_option maxRecDepth 8192 in
theorem ops2_sub : (ops2 : List (HloOp τ sig (Elt Ideal))).Forall fun op => op.bufs ⊆ tcRefs τ sig :=
  ⟨unary_bufs_sub .., binary_bufs_sub .., unary_bufs_sub .., binary_bufs_sub .., unary_bufs_sub .., unary_bufs_sub .., binary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., unary_bufs_sub .., binary_bufs_sub ..⟩
theorem ops_sub : (ops : List (HloOp τ sig (Elt Ideal))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

/-! ## What a window leaves alone -/

/-- An operation whose one written buffer is among a list of references writes inside that list. -/
theorem writes_sub {W : List (Ref sig .tc)} (op : HloOp τ sig (Elt Ideal)) (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The buffers window 0's operations write. -/
abbrev W0 : List (Ref sig .tc) := [main_v0, main_v1, main_v2, main_v3, main_v4, main_c, main_v5, main_v6, main_c_0, main_v7, main_v8, main_v9, main_v10, main_v11, main_cst, main_v12, main_v13, main_v14, main_v15, main_v16, main_v17, main_v18, main_v19, main_v20, main_v21, main_v22, main_v23, main_v24, main_v25, main_v26, main_v27, main_v28, main_v29, main_v30, main_v31, main_v32, main_v33, main_cst_1, main_v34, main_v35, main_cst_2, main_v36, main_v37, main_v38, main_v39, main_v40, main_cst_3, main_v41, main_v42, main_cst_4, main_v43, main_v44, main_v45, main_v46, main_v47, main_cst_5, main_v48, main_v49, main_v50, main_v51]
set_option maxRecDepth 8192 in
theorem ops0_writes : (ops0 : List (HloOp τ sig (Elt Ideal))).Forall fun op => op.writes ⊆ (W0.map (Proc.devRef (τ := τ) .tc)).toFinset :=
  ⟨writes_sub _ main_v0 rfl (by decide),
   writes_sub _ main_v1 rfl (by decide),
   writes_sub _ main_v2 rfl (by decide),
   writes_sub _ main_v3 rfl (by decide),
   writes_sub _ main_v4 rfl (by decide),
   writes_sub _ main_c rfl (by decide),
   writes_sub _ main_v5 rfl (by decide),
   writes_sub _ main_v6 rfl (by decide),
   writes_sub _ main_c_0 rfl (by decide),
   writes_sub _ main_v7 rfl (by decide),
   writes_sub _ main_v8 rfl (by decide),
   writes_sub _ main_v9 rfl (by decide),
   writes_sub _ main_v10 rfl (by decide),
   writes_sub _ main_v11 rfl (by decide),
   writes_sub _ main_cst rfl (by decide),
   writes_sub _ main_v12 rfl (by decide),
   writes_sub _ main_v13 rfl (by decide),
   writes_sub _ main_v14 rfl (by decide),
   writes_sub _ main_v15 rfl (by decide),
   writes_sub _ main_v16 rfl (by decide),
   writes_sub _ main_v17 rfl (by decide),
   writes_sub _ main_v18 rfl (by decide),
   writes_sub _ main_v19 rfl (by decide),
   writes_sub _ main_v20 rfl (by decide),
   writes_sub _ main_v21 rfl (by decide),
   writes_sub _ main_v22 rfl (by decide),
   writes_sub _ main_v23 rfl (by decide),
   writes_sub _ main_v24 rfl (by decide),
   writes_sub _ main_v25 rfl (by decide),
   writes_sub _ main_v26 rfl (by decide),
   writes_sub _ main_v27 rfl (by decide),
   writes_sub _ main_v28 rfl (by decide),
   writes_sub _ main_v29 rfl (by decide),
   writes_sub _ main_v30 rfl (by decide),
   writes_sub _ main_v31 rfl (by decide),
   writes_sub _ main_v32 rfl (by decide),
   writes_sub _ main_v33 rfl (by decide),
   writes_sub _ main_cst_1 rfl (by decide),
   writes_sub _ main_v34 rfl (by decide),
   writes_sub _ main_v35 rfl (by decide),
   writes_sub _ main_cst_2 rfl (by decide),
   writes_sub _ main_v36 rfl (by decide),
   writes_sub _ main_v37 rfl (by decide),
   writes_sub _ main_v38 rfl (by decide),
   writes_sub _ main_v39 rfl (by decide),
   writes_sub _ main_v40 rfl (by decide),
   writes_sub _ main_cst_3 rfl (by decide),
   writes_sub _ main_v41 rfl (by decide),
   writes_sub _ main_v42 rfl (by decide),
   writes_sub _ main_cst_4 rfl (by decide),
   writes_sub _ main_v43 rfl (by decide),
   writes_sub _ main_v44 rfl (by decide),
   writes_sub _ main_v45 rfl (by decide),
   writes_sub _ main_v46 rfl (by decide),
   writes_sub _ main_v47 rfl (by decide),
   writes_sub _ main_cst_5 rfl (by decide),
   writes_sub _ main_v48 rfl (by decide),
   writes_sub _ main_v49 rfl (by decide),
   writes_sub _ main_v50 rfl (by decide),
   writes_sub _ main_v51 rfl (by decide)⟩
/-- A buffer window 0 does not write keeps its contents through it. -/
theorem keep0 (V : Valuation τ sig (Elt Ideal)) (r : Ref sig .tc) (h : r ∉ W0) :
    after ops0 V (Proc.devRef .tc r) = V (Proc.devRef .tc r) :=
  after_of_writes_sub ops0 V ops0_writes h

/-- The buffers window 1's operations write. -/
abbrev W1 : List (Ref sig .tc) := [main_v52, main_v53, main_c_6, main_v54, main_v55, main_c_7, main_v56, main_v57, main_c_8, main_v58, main_v59, main_v60, main_v61, main_v62, main_call0_cst, main_call0_v0, main_v63, main_c_9, main_v64, main_c_10, main_v65, main_v66, main_v67, main_call1_call0_c, main_call1_call0_v0, main_v68, main_c_11, main_v69, main_v70, main_c_12, main_v71, main_v72, main_c_13, main_v73, main_v74, main_v75, main_v76, main_v77, main_c_14, main_v78, main_v79, main_c_15, main_v80, main_v81, main_v82, main_v83, main_v84, main_v85, main_v86, main_v87, main_v88, main_v89, main_v90, main_v91, main_v92, main_v93, main_v94, main_v95, main_v96, main_v97, main_cst_16, main_v98, main_v99, main_cst_17]
set_option maxRecDepth 8192 in
theorem ops1_writes : (ops1 : List (HloOp τ sig (Elt Ideal))).Forall fun op => op.writes ⊆ (W1.map (Proc.devRef (τ := τ) .tc)).toFinset :=
  ⟨writes_sub _ main_v52 rfl (by decide),
   writes_sub _ main_v53 rfl (by decide),
   writes_sub _ main_c_6 rfl (by decide),
   writes_sub _ main_v54 rfl (by decide),
   writes_sub _ main_v55 rfl (by decide),
   writes_sub _ main_c_7 rfl (by decide),
   writes_sub _ main_v56 rfl (by decide),
   writes_sub _ main_v57 rfl (by decide),
   writes_sub _ main_c_8 rfl (by decide),
   writes_sub _ main_v58 rfl (by decide),
   writes_sub _ main_v59 rfl (by decide),
   writes_sub _ main_v60 rfl (by decide),
   writes_sub _ main_v61 rfl (by decide),
   writes_sub _ main_v62 rfl (by decide),
   writes_sub _ main_call0_cst rfl (by decide),
   writes_sub _ main_call0_v0 rfl (by decide),
   writes_sub _ main_v63 rfl (by decide),
   writes_sub _ main_c_9 rfl (by decide),
   writes_sub _ main_v64 rfl (by decide),
   writes_sub _ main_c_10 rfl (by decide),
   writes_sub _ main_v65 rfl (by decide),
   writes_sub _ main_v66 rfl (by decide),
   writes_sub _ main_v67 rfl (by decide),
   writes_sub _ main_call1_call0_c rfl (by decide),
   writes_sub _ main_call1_call0_v0 rfl (by decide),
   writes_sub _ main_v68 rfl (by decide),
   writes_sub _ main_c_11 rfl (by decide),
   writes_sub _ main_v69 rfl (by decide),
   writes_sub _ main_v70 rfl (by decide),
   writes_sub _ main_c_12 rfl (by decide),
   writes_sub _ main_v71 rfl (by decide),
   writes_sub _ main_v72 rfl (by decide),
   writes_sub _ main_c_13 rfl (by decide),
   writes_sub _ main_v73 rfl (by decide),
   writes_sub _ main_v74 rfl (by decide),
   writes_sub _ main_v75 rfl (by decide),
   writes_sub _ main_v76 rfl (by decide),
   writes_sub _ main_v77 rfl (by decide),
   writes_sub _ main_c_14 rfl (by decide),
   writes_sub _ main_v78 rfl (by decide),
   writes_sub _ main_v79 rfl (by decide),
   writes_sub _ main_c_15 rfl (by decide),
   writes_sub _ main_v80 rfl (by decide),
   writes_sub _ main_v81 rfl (by decide),
   writes_sub _ main_v82 rfl (by decide),
   writes_sub _ main_v83 rfl (by decide),
   writes_sub _ main_v84 rfl (by decide),
   writes_sub _ main_v85 rfl (by decide),
   writes_sub _ main_v86 rfl (by decide),
   writes_sub _ main_v87 rfl (by decide),
   writes_sub _ main_v88 rfl (by decide),
   writes_sub _ main_v89 rfl (by decide),
   writes_sub _ main_v90 rfl (by decide),
   writes_sub _ main_v91 rfl (by decide),
   writes_sub _ main_v92 rfl (by decide),
   writes_sub _ main_v93 rfl (by decide),
   writes_sub _ main_v94 rfl (by decide),
   writes_sub _ main_v95 rfl (by decide),
   writes_sub _ main_v96 rfl (by decide),
   writes_sub _ main_v97 rfl (by decide),
   writes_sub _ main_cst_16 rfl (by decide),
   writes_sub _ main_v98 rfl (by decide),
   writes_sub _ main_v99 rfl (by decide),
   writes_sub _ main_cst_17 rfl (by decide)⟩
/-- A buffer window 1 does not write keeps its contents through it. -/
theorem keep1 (V : Valuation τ sig (Elt Ideal)) (r : Ref sig .tc) (h : r ∉ W1) :
    after ops1 V (Proc.devRef .tc r) = V (Proc.devRef .tc r) :=
  after_of_writes_sub ops1 V ops1_writes h

/-- The buffers window 2's operations write. -/
abbrev W2 : List (Ref sig .tc) := [main_v100, main_v101, main_v102, main_v103, main_v104, main_v105, main_v106, main_v107, main_v108, main_cst_18, main_v109, main_v110, main_v111, main_v112, main_v113, main_v114, main_v115, main_v116, main_v117, main_v118, main_v119]
set_option maxRecDepth 8192 in
theorem ops2_writes : (ops2 : List (HloOp τ sig (Elt Ideal))).Forall fun op => op.writes ⊆ (W2.map (Proc.devRef (τ := τ) .tc)).toFinset :=
  ⟨writes_sub _ main_v100 rfl (by decide),
   writes_sub _ main_v101 rfl (by decide),
   writes_sub _ main_v102 rfl (by decide),
   writes_sub _ main_v103 rfl (by decide),
   writes_sub _ main_v104 rfl (by decide),
   writes_sub _ main_v105 rfl (by decide),
   writes_sub _ main_v106 rfl (by decide),
   writes_sub _ main_v107 rfl (by decide),
   writes_sub _ main_v108 rfl (by decide),
   writes_sub _ main_cst_18 rfl (by decide),
   writes_sub _ main_v109 rfl (by decide),
   writes_sub _ main_v110 rfl (by decide),
   writes_sub _ main_v111 rfl (by decide),
   writes_sub _ main_v112 rfl (by decide),
   writes_sub _ main_v113 rfl (by decide),
   writes_sub _ main_v114 rfl (by decide),
   writes_sub _ main_v115 rfl (by decide),
   writes_sub _ main_v116 rfl (by decide),
   writes_sub _ main_v117 rfl (by decide),
   writes_sub _ main_v118 rfl (by decide),
   writes_sub _ main_v119 rfl (by decide)⟩
/-- A buffer window 2 does not write keeps its contents through it. -/
theorem keep2 (V : Valuation τ sig (Elt Ideal)) (r : Ref sig .tc) (h : r ∉ W2) :
    after ops2 V (Proc.devRef .tc r) = V (Proc.devRef .tc r) :=
  after_of_writes_sub ops2 V ops2_writes h

/-! ## The windows' results -/

/-! Each window's live results, read off the fold: every operation's result at its own buffer is its function of its
operands' contents, and at any other buffer what was there. What is left is an equation between the operations' composed
term and the stage, which holds by unfolding the stages. -/

/-- The device's buffer contents after window 0, after windows 0 and 1, after all three. -/
def val1 (V : Valuation τ sig (Elt Ideal)) : Valuation τ sig (Elt Ideal) := after ops0 V
def val2 (V : Valuation τ sig (Elt Ideal)) : Valuation τ sig (Elt Ideal) := after ops1 (val1 V)
def val3 (V : Valuation τ sig (Elt Ideal)) : Valuation τ sig (Elt Ideal) := after ops2 (val2 V)

theorem val1_arg0 (V : Valuation τ sig (Elt Ideal)) : val1 V (no_index (Proc.devRef .tc main_arg0)) = V (Proc.devRef .tc main_arg0) :=
  keep0 V main_arg0 (by decide)
theorem val1_arg1 (V : Valuation τ sig (Elt Ideal)) : val1 V (no_index (Proc.devRef .tc main_arg1)) = V (Proc.devRef .tc main_arg1) :=
  keep0 V main_arg1 (by decide)
theorem val1_arg2 (V : Valuation τ sig (Elt Ideal)) : val1 V (no_index (Proc.devRef .tc main_arg2)) = V (Proc.devRef .tc main_arg2) :=
  keep0 V main_arg2 (by decide)
theorem val1_arg3 (V : Valuation τ sig (Elt Ideal)) : val1 V (no_index (Proc.devRef .tc main_arg3)) = V (Proc.devRef .tc main_arg3) :=
  keep0 V main_arg3 (by decide)
theorem val1_arg4 (V : Valuation τ sig (Elt Ideal)) : val1 V (no_index (Proc.devRef .tc main_arg4)) = V (Proc.devRef .tc main_arg4) :=
  keep0 V main_arg4 (by decide)
theorem val1_arg5 (V : Valuation τ sig (Elt Ideal)) : val1 V (no_index (Proc.devRef .tc main_arg5)) = V (Proc.devRef .tc main_arg5) :=
  keep0 V main_arg5 (by decide)
theorem val1_arg6 (V : Valuation τ sig (Elt Ideal)) : val1 V (no_index (Proc.devRef .tc main_arg6)) = V (Proc.devRef .tc main_arg6) :=
  keep0 V main_arg6 (by decide)
theorem val1_arg7 (V : Valuation τ sig (Elt Ideal)) : val1 V (no_index (Proc.devRef .tc main_arg7)) = V (Proc.devRef .tc main_arg7) :=
  keep0 V main_arg7 (by decide)
theorem val1_arg8 (V : Valuation τ sig (Elt Ideal)) : val1 V (no_index (Proc.devRef .tc main_arg8)) = V (Proc.devRef .tc main_arg8) :=
  keep0 V main_arg8 (by decide)
theorem val1_arg9 (V : Valuation τ sig (Elt Ideal)) : val1 V (no_index (Proc.devRef .tc main_arg9)) = V (Proc.devRef .tc main_arg9) :=
  keep0 V main_arg9 (by decide)
theorem val1_arg10 (V : Valuation τ sig (Elt Ideal)) : val1 V (no_index (Proc.devRef .tc main_arg10)) = V (Proc.devRef .tc main_arg10) :=
  keep0 V main_arg10 (by decide)
theorem val1_arg11 (V : Valuation τ sig (Elt Ideal)) : val1 V (no_index (Proc.devRef .tc main_arg11)) = V (Proc.devRef .tc main_arg11) :=
  keep0 V main_arg11 (by decide)
theorem val1_arg12 (V : Valuation τ sig (Elt Ideal)) : val1 V (no_index (Proc.devRef .tc main_arg12)) = V (Proc.devRef .tc main_arg12) :=
  keep0 V main_arg12 (by decide)
theorem val1_arg13 (V : Valuation τ sig (Elt Ideal)) : val1 V (no_index (Proc.devRef .tc main_arg13)) = V (Proc.devRef .tc main_arg13) :=
  keep0 V main_arg13 (by decide)
theorem val1_arg14 (V : Valuation τ sig (Elt Ideal)) : val1 V (no_index (Proc.devRef .tc main_arg14)) = V (Proc.devRef .tc main_arg14) :=
  keep0 V main_arg14 (by decide)
theorem val1_arg15 (V : Valuation τ sig (Elt Ideal)) : val1 V (no_index (Proc.devRef .tc main_arg15)) = V (Proc.devRef .tc main_arg15) :=
  keep0 V main_arg15 (by decide)
theorem val1_arg16 (V : Valuation τ sig (Elt Ideal)) : val1 V (no_index (Proc.devRef .tc main_arg16)) = V (Proc.devRef .tc main_arg16) :=
  keep0 V main_arg16 (by decide)
theorem val1_arg17 (V : Valuation τ sig (Elt Ideal)) : val1 V (no_index (Proc.devRef .tc main_arg17)) = V (Proc.devRef .tc main_arg17) :=
  keep0 V main_arg17 (by decide)

set_option maxRecDepth 8192 in
set_option maxHeartbeats 4000000 in
theorem val1_v50 (V : Valuation τ sig (Elt Ideal)) : val1 V (no_index (Proc.devRef .tc main_v50)) =
    RefStages.v50 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  unfold val1
  simp only [ops0]
  after_results_simp
  rfl
set_option maxRecDepth 8192 in
set_option maxHeartbeats 4000000 in
theorem val1_v51 (V : Valuation τ sig (Elt Ideal)) : val1 V (no_index (Proc.devRef .tc main_v51)) =
    RefStages.v51 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  unfold val1
  simp only [ops0]
  after_results_simp
  rfl

theorem val2_arg0 (V : Valuation τ sig (Elt Ideal)) : val2 V (no_index (Proc.devRef .tc main_arg0)) = V (Proc.devRef .tc main_arg0) :=
  (keep1 (val1 V) main_arg0 (by decide)).trans (val1_arg0 V)
theorem val2_arg1 (V : Valuation τ sig (Elt Ideal)) : val2 V (no_index (Proc.devRef .tc main_arg1)) = V (Proc.devRef .tc main_arg1) :=
  (keep1 (val1 V) main_arg1 (by decide)).trans (val1_arg1 V)
theorem val2_arg2 (V : Valuation τ sig (Elt Ideal)) : val2 V (no_index (Proc.devRef .tc main_arg2)) = V (Proc.devRef .tc main_arg2) :=
  (keep1 (val1 V) main_arg2 (by decide)).trans (val1_arg2 V)
theorem val2_arg3 (V : Valuation τ sig (Elt Ideal)) : val2 V (no_index (Proc.devRef .tc main_arg3)) = V (Proc.devRef .tc main_arg3) :=
  (keep1 (val1 V) main_arg3 (by decide)).trans (val1_arg3 V)
theorem val2_arg4 (V : Valuation τ sig (Elt Ideal)) : val2 V (no_index (Proc.devRef .tc main_arg4)) = V (Proc.devRef .tc main_arg4) :=
  (keep1 (val1 V) main_arg4 (by decide)).trans (val1_arg4 V)
theorem val2_arg5 (V : Valuation τ sig (Elt Ideal)) : val2 V (no_index (Proc.devRef .tc main_arg5)) = V (Proc.devRef .tc main_arg5) :=
  (keep1 (val1 V) main_arg5 (by decide)).trans (val1_arg5 V)
theorem val2_arg6 (V : Valuation τ sig (Elt Ideal)) : val2 V (no_index (Proc.devRef .tc main_arg6)) = V (Proc.devRef .tc main_arg6) :=
  (keep1 (val1 V) main_arg6 (by decide)).trans (val1_arg6 V)
theorem val2_arg7 (V : Valuation τ sig (Elt Ideal)) : val2 V (no_index (Proc.devRef .tc main_arg7)) = V (Proc.devRef .tc main_arg7) :=
  (keep1 (val1 V) main_arg7 (by decide)).trans (val1_arg7 V)
theorem val2_arg8 (V : Valuation τ sig (Elt Ideal)) : val2 V (no_index (Proc.devRef .tc main_arg8)) = V (Proc.devRef .tc main_arg8) :=
  (keep1 (val1 V) main_arg8 (by decide)).trans (val1_arg8 V)
theorem val2_arg9 (V : Valuation τ sig (Elt Ideal)) : val2 V (no_index (Proc.devRef .tc main_arg9)) = V (Proc.devRef .tc main_arg9) :=
  (keep1 (val1 V) main_arg9 (by decide)).trans (val1_arg9 V)
theorem val2_arg10 (V : Valuation τ sig (Elt Ideal)) : val2 V (no_index (Proc.devRef .tc main_arg10)) = V (Proc.devRef .tc main_arg10) :=
  (keep1 (val1 V) main_arg10 (by decide)).trans (val1_arg10 V)
theorem val2_arg11 (V : Valuation τ sig (Elt Ideal)) : val2 V (no_index (Proc.devRef .tc main_arg11)) = V (Proc.devRef .tc main_arg11) :=
  (keep1 (val1 V) main_arg11 (by decide)).trans (val1_arg11 V)
theorem val2_arg12 (V : Valuation τ sig (Elt Ideal)) : val2 V (no_index (Proc.devRef .tc main_arg12)) = V (Proc.devRef .tc main_arg12) :=
  (keep1 (val1 V) main_arg12 (by decide)).trans (val1_arg12 V)
theorem val2_arg13 (V : Valuation τ sig (Elt Ideal)) : val2 V (no_index (Proc.devRef .tc main_arg13)) = V (Proc.devRef .tc main_arg13) :=
  (keep1 (val1 V) main_arg13 (by decide)).trans (val1_arg13 V)
theorem val2_arg14 (V : Valuation τ sig (Elt Ideal)) : val2 V (no_index (Proc.devRef .tc main_arg14)) = V (Proc.devRef .tc main_arg14) :=
  (keep1 (val1 V) main_arg14 (by decide)).trans (val1_arg14 V)
theorem val2_arg15 (V : Valuation τ sig (Elt Ideal)) : val2 V (no_index (Proc.devRef .tc main_arg15)) = V (Proc.devRef .tc main_arg15) :=
  (keep1 (val1 V) main_arg15 (by decide)).trans (val1_arg15 V)
theorem val2_arg16 (V : Valuation τ sig (Elt Ideal)) : val2 V (no_index (Proc.devRef .tc main_arg16)) = V (Proc.devRef .tc main_arg16) :=
  (keep1 (val1 V) main_arg16 (by decide)).trans (val1_arg16 V)
theorem val2_arg17 (V : Valuation τ sig (Elt Ideal)) : val2 V (no_index (Proc.devRef .tc main_arg17)) = V (Proc.devRef .tc main_arg17) :=
  (keep1 (val1 V) main_arg17 (by decide)).trans (val1_arg17 V)

set_option maxRecDepth 8192 in
set_option maxHeartbeats 4000000 in
theorem val2_cst_17 (V : Valuation τ sig (Elt Ideal)) : val2 V (no_index (Proc.devRef .tc main_cst_17)) =
    RefStages.cst_17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  unfold val2
  simp only [ops1]
  after_results_simp
  try simp only [val1_v50, val1_v51, val1_arg0, val1_arg1, val1_arg10, val1_arg11, val1_arg12, val1_arg13]
  rfl
set_option maxRecDepth 8192 in
set_option maxHeartbeats 4000000 in
theorem val2_v99 (V : Valuation τ sig (Elt Ideal)) : val2 V (no_index (Proc.devRef .tc main_v99)) =
    RefStages.v99 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  unfold val2
  simp only [ops1]
  after_results_simp
  try simp only [val1_v50, val1_v51, val1_arg0, val1_arg1, val1_arg10, val1_arg11, val1_arg12, val1_arg13]
  rfl
set_option maxRecDepth 8192 in
set_option maxHeartbeats 4000000 in
theorem val2_v63 (V : Valuation τ sig (Elt Ideal)) : val2 V (no_index (Proc.devRef .tc main_v63)) =
    RefStages.v63 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  unfold val2
  simp only [ops1]
  after_results_simp
  try simp only [val1_v50, val1_v51, val1_arg0, val1_arg1, val1_arg10, val1_arg11, val1_arg12, val1_arg13]
  rfl
set_option maxRecDepth 8192 in
set_option maxHeartbeats 4000000 in
theorem val2_v77 (V : Valuation τ sig (Elt Ideal)) : val2 V (no_index (Proc.devRef .tc main_v77)) =
    RefStages.v77 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  unfold val2
  simp only [ops1]
  after_results_simp
  try simp only [val1_v50, val1_v51, val1_arg0, val1_arg1, val1_arg10, val1_arg11, val1_arg12, val1_arg13]
  rfl

theorem val3_arg0 (V : Valuation τ sig (Elt Ideal)) : val3 V (no_index (Proc.devRef .tc main_arg0)) = V (Proc.devRef .tc main_arg0) :=
  (keep2 (val2 V) main_arg0 (by decide)).trans (val2_arg0 V)
theorem val3_arg1 (V : Valuation τ sig (Elt Ideal)) : val3 V (no_index (Proc.devRef .tc main_arg1)) = V (Proc.devRef .tc main_arg1) :=
  (keep2 (val2 V) main_arg1 (by decide)).trans (val2_arg1 V)
theorem val3_arg2 (V : Valuation τ sig (Elt Ideal)) : val3 V (no_index (Proc.devRef .tc main_arg2)) = V (Proc.devRef .tc main_arg2) :=
  (keep2 (val2 V) main_arg2 (by decide)).trans (val2_arg2 V)
theorem val3_arg3 (V : Valuation τ sig (Elt Ideal)) : val3 V (no_index (Proc.devRef .tc main_arg3)) = V (Proc.devRef .tc main_arg3) :=
  (keep2 (val2 V) main_arg3 (by decide)).trans (val2_arg3 V)
theorem val3_arg4 (V : Valuation τ sig (Elt Ideal)) : val3 V (no_index (Proc.devRef .tc main_arg4)) = V (Proc.devRef .tc main_arg4) :=
  (keep2 (val2 V) main_arg4 (by decide)).trans (val2_arg4 V)
theorem val3_arg5 (V : Valuation τ sig (Elt Ideal)) : val3 V (no_index (Proc.devRef .tc main_arg5)) = V (Proc.devRef .tc main_arg5) :=
  (keep2 (val2 V) main_arg5 (by decide)).trans (val2_arg5 V)
theorem val3_arg6 (V : Valuation τ sig (Elt Ideal)) : val3 V (no_index (Proc.devRef .tc main_arg6)) = V (Proc.devRef .tc main_arg6) :=
  (keep2 (val2 V) main_arg6 (by decide)).trans (val2_arg6 V)
theorem val3_arg7 (V : Valuation τ sig (Elt Ideal)) : val3 V (no_index (Proc.devRef .tc main_arg7)) = V (Proc.devRef .tc main_arg7) :=
  (keep2 (val2 V) main_arg7 (by decide)).trans (val2_arg7 V)
theorem val3_arg8 (V : Valuation τ sig (Elt Ideal)) : val3 V (no_index (Proc.devRef .tc main_arg8)) = V (Proc.devRef .tc main_arg8) :=
  (keep2 (val2 V) main_arg8 (by decide)).trans (val2_arg8 V)
theorem val3_arg9 (V : Valuation τ sig (Elt Ideal)) : val3 V (no_index (Proc.devRef .tc main_arg9)) = V (Proc.devRef .tc main_arg9) :=
  (keep2 (val2 V) main_arg9 (by decide)).trans (val2_arg9 V)
theorem val3_arg10 (V : Valuation τ sig (Elt Ideal)) : val3 V (no_index (Proc.devRef .tc main_arg10)) = V (Proc.devRef .tc main_arg10) :=
  (keep2 (val2 V) main_arg10 (by decide)).trans (val2_arg10 V)
theorem val3_arg11 (V : Valuation τ sig (Elt Ideal)) : val3 V (no_index (Proc.devRef .tc main_arg11)) = V (Proc.devRef .tc main_arg11) :=
  (keep2 (val2 V) main_arg11 (by decide)).trans (val2_arg11 V)
theorem val3_arg12 (V : Valuation τ sig (Elt Ideal)) : val3 V (no_index (Proc.devRef .tc main_arg12)) = V (Proc.devRef .tc main_arg12) :=
  (keep2 (val2 V) main_arg12 (by decide)).trans (val2_arg12 V)
theorem val3_arg13 (V : Valuation τ sig (Elt Ideal)) : val3 V (no_index (Proc.devRef .tc main_arg13)) = V (Proc.devRef .tc main_arg13) :=
  (keep2 (val2 V) main_arg13 (by decide)).trans (val2_arg13 V)
theorem val3_arg14 (V : Valuation τ sig (Elt Ideal)) : val3 V (no_index (Proc.devRef .tc main_arg14)) = V (Proc.devRef .tc main_arg14) :=
  (keep2 (val2 V) main_arg14 (by decide)).trans (val2_arg14 V)
theorem val3_arg15 (V : Valuation τ sig (Elt Ideal)) : val3 V (no_index (Proc.devRef .tc main_arg15)) = V (Proc.devRef .tc main_arg15) :=
  (keep2 (val2 V) main_arg15 (by decide)).trans (val2_arg15 V)
theorem val3_arg16 (V : Valuation τ sig (Elt Ideal)) : val3 V (no_index (Proc.devRef .tc main_arg16)) = V (Proc.devRef .tc main_arg16) :=
  (keep2 (val2 V) main_arg16 (by decide)).trans (val2_arg16 V)
theorem val3_arg17 (V : Valuation τ sig (Elt Ideal)) : val3 V (no_index (Proc.devRef .tc main_arg17)) = V (Proc.devRef .tc main_arg17) :=
  (keep2 (val2 V) main_arg17 (by decide)).trans (val2_arg17 V)

set_option maxRecDepth 8192 in
set_option maxHeartbeats 4000000 in
theorem val3_v119 (V : Valuation τ sig (Elt Ideal)) : val3 V (no_index (Proc.devRef .tc main_v119)) =
    RefStages.v119 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  unfold val3
  simp only [ops2]
  after_results_simp
  try simp only [val2_cst_17, val2_v99, val2_arg14, val2_arg15, val2_v63, val2_arg1, val2_v77, val2_arg16, val2_arg17, val2_arg4]
  rfl
theorem val3_v63 (V : Valuation τ sig (Elt Ideal)) : val3 V (no_index (Proc.devRef .tc main_v63)) =
    RefStages.v63 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) :=
  (keep2 (val2 V) main_v63 (by decide)).trans (val2_v63 V)

theorem after_ops (V : Valuation τ sig (Elt Ideal)) : after ops V = val3 V := by
  simp only [ops, after_append]
  rfl

/-! ## The run -/

/-- The first result (the scores, `main_v119`) as a function of a memory's argument arrays at core `c`. -/
def res_scores (m : (ℓ : Loc nD τ sig) → Buf (Elt Ideal) ℓ) (c : Dev nD) : (⟨S1024x50000, .f32⟩ : BufTy).Contents (Elt Ideal) :=
  RefStages.v119 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
/-- The second result (`main_v63`) as a function of a memory's argument arrays at core `c`. -/
def res_h2 (m : (ℓ : Loc nD τ sig) → Buf (Elt Ideal) ℓ) (c : Dev nD) : (⟨S12288x256, .f32⟩ : BufTy).Contents (Elt Ideal) :=
  RefStages.v63 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
theorem res_scores_eq (m : (ℓ : Loc nD τ sig) → Buf (Elt Ideal) ℓ) (c : Dev nD) : res_scores m c = RefStages.v119 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := rfl
theorem res_h2_eq (m : (ℓ : Loc nD τ sig) → Buf (Elt Ideal) ℓ) (c : Dev nD) : res_h2 m c = RefStages.v63 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := rfl

set_option maxRecDepth 8192 in
/-- From any memory with zero counters every weakly fair execution of @main terminates; the two computed results end at
    their stages of the memory's argument arrays, the third result is the argument `main_arg2` itself, and every
    argument array ends as it began. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v119) = res_scores m c
      ∧ r.2.mem ((c.tc : Thread nD τ).loc main_v63) = res_h2 m c
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run (defs (F := Ideal)) _ _).mono (fun _ h c => ⟨(h c main_v119).trans (by rw [after_ops]; exact val3_v119 (launchContents m c)),
      (h c main_v63).trans (by rw [after_ops]; exact val3_v63 (launchContents m c)),
      (h c main_arg2).trans (by rw [after_ops]; exact val3_arg2 (launchContents m c)),
      (h c main_arg0).trans (by rw [after_ops]; exact val3_arg0 (launchContents m c)),
      (h c main_arg1).trans (by rw [after_ops]; exact val3_arg1 (launchContents m c)),
      (h c main_arg2).trans (by rw [after_ops]; exact val3_arg2 (launchContents m c)),
      (h c main_arg3).trans (by rw [after_ops]; exact val3_arg3 (launchContents m c)),
      (h c main_arg4).trans (by rw [after_ops]; exact val3_arg4 (launchContents m c)),
      (h c main_arg5).trans (by rw [after_ops]; exact val3_arg5 (launchContents m c)),
      (h c main_arg6).trans (by rw [after_ops]; exact val3_arg6 (launchContents m c)),
      (h c main_arg7).trans (by rw [after_ops]; exact val3_arg7 (launchContents m c)),
      (h c main_arg8).trans (by rw [after_ops]; exact val3_arg8 (launchContents m c)),
      (h c main_arg9).trans (by rw [after_ops]; exact val3_arg9 (launchContents m c)),
      (h c main_arg10).trans (by rw [after_ops]; exact val3_arg10 (launchContents m c)),
      (h c main_arg11).trans (by rw [after_ops]; exact val3_arg11 (launchContents m c)),
      (h c main_arg12).trans (by rw [after_ops]; exact val3_arg12 (launchContents m c)),
      (h c main_arg13).trans (by rw [after_ops]; exact val3_arg13 (launchContents m c)),
      (h c main_arg14).trans (by rw [after_ops]; exact val3_arg14 (launchContents m c)),
      (h c main_arg15).trans (by rw [after_ops]; exact val3_arg15 (launchContents m c)),
      (h c main_arg16).trans (by rw [after_ops]; exact val3_arg16 (launchContents m c)),
      (h c main_arg17).trans (by rw [after_ops]; exact val3_arg17 (launchContents m c))⟩)
    (run_seq scopedRefs_eq scopedSems_eq (defs (F := Ideal)) (main (F := Ideal)) (fun _ => ops) main_eq (fun _ => ops_sub) m ρ)

end Cert.ReferenceIdeal.RefRun

end
-- ==== Proof.Final.lean ====
/-
  The two claims that involve the reference. Its frame is its run with the results dropped. The algebraic claim puts the two
  runs side by side from memories that agree on the arguments: the idealized kernel program ends with its scores and its
  rectified node rows at the last contents of its fold, the reference with its stages %119 and %63 of ITS memory's arguments;
  the agreement carries those stages to the kernel memory's arguments, and there the fold's last contents are the stages (the
  bridge's last part). The third result is the edge-index argument itself on both sides.
-/
import proofs.«133217_j69260642615845_1_alg».proof.Defs
import proofs.«133217_j69260642615845_1_alg».proof.Proof.Gen.Pre_finite_inputs
import proofs.«133217_j69260642615845_1_alg».proof.Proof.Bridge6
import proofs.«133217_j69260642615845_1_alg».proof.Proof.RefRun
import proofs.«133217_j69260642615845_1_alg».proof.Proof.KFrame

set_option maxRecDepth 16384

noncomputable section

namespace Cert.Proof.Final

open Idealize.ShloMosaic Idealize.ShloMosaic.TcCoe Idealize.SL.Sem

/-- The reference runs to the end, faults nowhere and leaves its arguments unchanged. -/
theorem frame_ref : Cert.frame_ReferenceIdeal := fun m ρ _ =>
  (θ_run Cert.ReferenceIdeal.defs _ _).mono (fun _ h c => (h c).2.2.2) (Cert.ReferenceIdeal.RefRun.run m ρ)

set_option maxHeartbeats 1000000 in
/-- From memories agreeing on the arguments both programs run, and end with equal results. -/
theorem algebraic : Cert.algebraic_KernelIdeal_ReferenceIdeal := by
  intro m g m' g' _ hagree
  refine ⟨fun c => Cert.KernelIdeal.Hand.W11 m c (Proc.devRef .tc Cert.KernelIdeal.main_v67),
    fun c => Cert.KernelIdeal.Hand.W11 m c (Proc.devRef .tc Cert.KernelIdeal.main_v30),
    fun c => m ((c.tc : Thread Cert.KernelIdeal.nD Cert.KernelIdeal.τ).loc Cert.KernelIdeal.main_arg2),
    Cert.KernelIdeal.Hand.run_results m g, ?_⟩
  refine (θ_run Cert.ReferenceIdeal.defs _ _).mono (fun r h c => ?_) (Cert.ReferenceIdeal.RefRun.run m' g')
  obtain ⟨a0, a1, a2, a3, a4, a5, a6, a7, a8, a9, a10, a11, a12, a13, a14, a15, a16, a17⟩ := hagree c
  obtain ⟨h0, h1, h2, hargs⟩ := h c
  refine ⟨h0.trans ?_, h1.trans ?_, h2.trans a2, hargs⟩
  · rw [Cert.ReferenceIdeal.RefRun.res_scores_eq, a0, a1, a2, a3, a4, a5, a6, a7, a8, a9, a10, a11, a12, a13, a14, a15, a16, a17]
    exact (Cert.Bridge.scores m c).symm
  · rw [Cert.ReferenceIdeal.RefRun.res_h2_eq, a0, a1, a2, a3, a4, a5, a6, a7, a8, a9, a10, a11, a12, a13, a14, a15, a16, a17]
    exact (Cert.Bridge.node_rows m c).symm

end Cert.Proof.Final

end
-- ==== Proof.lean ====
/- The proof of `Cert.Claim`: a session-graph recommender — one gated graph convolution over the item graph, a lookup of
   the session nodes, a soft-attention readout per session, a dense layer and the scores against every item — computed by four
   TensorCore kernels among host operations, against the same model written in plain host operations.

   frame_Kernel: the word-level program runs to the end and leaves its arguments unchanged (Proof/BRun.lean; the last
   kernel's output window, whose last block overhangs the score array, is forgotten: a frame does not read it).
   frame_KernelIdeal and the kernel half of the algebraic claim: the idealized program's run with every buffer named
   (Proof/KRun.lean over Proof/Region0–3.lean), each kernel's output array as one function of its input arrays
   (Proof/KVal0–3.lean over the bodies read at an index, Proof/Pay0–3.lean; the last kernel's cut blocks by the locality
   of a product's columns, Proof/Local3.lean). frame_ReferenceIdeal and the reference half: the reference's run over its
   stages (Proof/RefRun.lean, Proof/RefStages.lean), the four stages the kernels compute read at an index
   (Proof/RefRead0–3.lean). preserves: the ideal pass rewrote nothing. algebraic: the bridge (Proof/Bridge1–6.lean) — the
   host operations between the kernels are the reference's own operations, and each kernel's output is the reference's
   stage entry by entry: a product; the gated update (1 − z)·n + z·emb with z, r sigmoids and n a tanh of two linear layers'
   bands; the node rows weighted by Σ_q sigmoid(…)·q_w + q_b, where the kernel groups a sum of four terms otherwise than the
   reference (associativity of + on the extended reals, no finiteness of the inputs is used anywhere); and the scores
   s_h · embᵀ. -/
import proofs.«133217_j69260642615845_1_alg».proof.Defs
import proofs.«133217_j69260642615845_1_alg».proof.Proof.Gen.Kernel
import proofs.«133217_j69260642615845_1_alg».proof.Proof.Gen.Kernel.Skeleton
import proofs.«133217_j69260642615845_1_alg».proof.Proof.Gen.Kernel.Launch
import proofs.«133217_j69260642615845_1_alg».proof.Proof.Gen.Kernel.Regions
import proofs.«133217_j69260642615845_1_alg».proof.Proof.Gen.Kernel.Points
import proofs.«133217_j69260642615845_1_alg».proof.Proof.Gen.KernelIdeal
import proofs.«133217_j69260642615845_1_alg».proof.Proof.Gen.KernelIdeal.Skeleton
import proofs.«133217_j69260642615845_1_alg».proof.Proof.Gen.KernelIdeal.Launch
import proofs.«133217_j69260642615845_1_alg».proof.Proof.Gen.KernelIdeal.Regions
import proofs.«133217_j69260642615845_1_alg».proof.Proof.Gen.KernelIdeal.Points
import proofs.«133217_j69260642615845_1_alg».proof.Proof.Gen.ReferenceIdeal
import proofs.«133217_j69260642615845_1_alg».proof.Proof.Gen.Pre_finite_inputs
import proofs.«133217_j69260642615845_1_alg».proof.Proof.BRun
import proofs.«133217_j69260642615845_1_alg».proof.Proof.KFrame
import proofs.«133217_j69260642615845_1_alg».proof.Proof.Final
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame_ideal m ρ,
  Cert.Proof.Final.frame_ref,
  trivial,
  Cert.Proof.Final.algebraic⟩

end Cert.Proof

end
